-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S600000x16 : Shape := ⟨2, ![600000, 16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S128x128 : Shape := ⟨2, ![128, 128]⟩
abbrev S128 : Shape := ⟨1, ![128]⟩
abbrev S256x64 : Shape := ⟨2, ![256, 64]⟩
abbrev S64x64 : Shape := ⟨2, ![64, 64]⟩
abbrev S128x32 : Shape := ⟨2, ![128, 32]⟩
abbrev S32x32 : Shape := ⟨2, ![32, 32]⟩
abbrev S32x5 : Shape := ⟨2, ![32, 5]⟩
abbrev S5 : Shape := ⟨1, ![5]⟩
abbrev S2x600000 : Shape := ⟨2, ![2, 600000]⟩
abbrev S50000 : Shape := ⟨1, ![50000]⟩
abbrev S_ : Shape := ⟨0, ![]⟩
abbrev S1x600000 : Shape := ⟨2, ![1, 600000]⟩
abbrev S600000 : Shape := ⟨1, ![600000]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64x64 : S_.BroadcastsInDim S64x64 (![] : Fin 0 → Fin S64x64.rank)
  reducesTo_S64x64_S_d0_1 : S64x64.ReducesTo [0, 1] S_
  bcast_S_S128x32 : S_.BroadcastsInDim S128x32 (![] : Fin 0 → Fin S128x32.rank)
  reducesTo_S128x32_S_d0_1 : S128x32.ReducesTo [0, 1] S_
  bcast_S_S32x32 : S_.BroadcastsInDim S32x32 (![] : Fin 0 → Fin S32x32.rank)
  reducesTo_S32x32_S_d0_1 : S32x32.ReducesTo [0, 1] S_
  bcast_S_S32x5 : S_.BroadcastsInDim S32x5 (![] : Fin 0 → Fin S32x5.rank)
  reducesTo_S32x5_S_d0_1 : S32x5.ReducesTo [0, 1] S_
  bcast_S_S5 : S_.BroadcastsInDim S5 (![] : Fin 0 → Fin S5.rank)
  reducesTo_S5_S_d0 : S5.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part8 {F : FTy → Type} [FloatOps F] (main_v128 : IVec S_ 1) (main_v137 : IVec S600000 1) : IVec S_ 1 :=
  let main_c_52 : IVec S_ 1 := constantI S_ 1 1#1
  let main_v138 : IVec S_ 1 := (fun x v => Host.reduce IntOp.andi x v reducesTo_S600000_S_d0 h_S_) main_v137 main_c_52
  let main_v139 : IVec S_ 1 := andi main_v128 main_v138
  main_v139

def fn_part7 {F : FTy → Type} [FloatOps F] (main_arg25 : FVec F S5 .f32) (main_arg26 : IVec S2x600000 32) (main_v118 : IVec S_ 1) (main_v119 : FVec F S32x5 .f32) : IVec S_ 1 :=
  let main_cst_46 : FVec F S_ .f32 := constant S_ .f32 0x7F800000#32
  let main_v120 : FVec F S32x5 .f32 := broadcastInDim S32x5 ![] bcast_S_S32x5 main_cst_46
  let main_v121 : IVec S32x5 1 := cmpf .olt main_v119 main_v120
  let main_c_47 : IVec S_ 1 := constantI S_ 1 1#1
  let main_v122 : IVec S_ 1 := (fun x v => Host.reduce IntOp.andi x v reducesTo_S32x5_S_d0_1 h_S_) main_v121 main_c_47
  let main_v123 : IVec S_ 1 := andi main_v118 main_v122
  let main_v124 : FVec F S5 .f32 := Host.absf main_arg25
  let main_cst_48 : FVec F S_ .f32 := constant S_ .f32 0x7F800000#32
  let main_v125 : FVec F S5 .f32 := broadcastInDim S5 ![] bcast_S_S5 main_cst_48
  let main_v126 : IVec S5 1 := cmpf .olt main_v124 main_v125
  let main_c_49 : IVec S_ 1 := constantI S_ 1 1#1
  let main_v127 : IVec S_ 1 := (fun x v => Host.reduce IntOp.andi x v reducesTo_S5_S_d0 h_S_) main_v126 main_c_49
  let main_v128 : IVec S_ 1 := andi main_v123 main_v127
  let main_v129 : IVec S1x600000 32 := (extractStridedSlice S1x600000 ![0, 0] · slices_S2x600000_S1x600000_0_0) main_arg26
  let main_v130 : IVec S600000 32 := shapeCast S600000 main_v129 shapeCasts_S1x600000_S600000
  let main_c_50 : IVec S_ 32 := constantI S_ 32 4294917296#32
  let main_v131 : IVec S600000 32 := broadcastInDim S600000 ![] bcast_S_S600000 main_c_50
  let main_v132 : IVec S600000 1 := cmpi .sge main_v130 main_v131
  let main_v133 : IVec S1x600000 32 := (extractStridedSlice S1x600000 ![0, 0] · slices_S2x600000_S1x600000_0_0) main_arg26
  let main_v134 : IVec S600000 32 := shapeCast S600000 main_v133 shapeCasts_S1x600000_S600000
  let main_c_51 : IVec S_ 32 := constantI S_ 32 50000#32
  let main_v135 : IVec S600000 32 := broadcastInDim S600000 ![] bcast_S_S600000 main_c_51
  let main_v136 : IVec S600000 1 := cmpi .slt main_v134 main_v135
  let main_v137 : IVec S600000 1 := andi main_v132 main_v136
  fn_part8 (F := F) main_v128 main_v137

def fn_part6 {F : FTy → Type} [FloatOps F] (main_arg21 : FVec F S64 .f32) (main_arg22 : FVec F S32 .f32) (main_arg23 : FVec F S32 .f32) (main_arg24 : FVec F S32x5 .f32) (main_arg25 : FVec F S5 .f32) (main_arg26 : IVec S2x600000 32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S32 .f32 := Host.absf main_arg22
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32 .f32 := Host.absf main_arg23
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32x5 .f32 := Host.absf main_arg24
  fn_part7 (F := F) main_arg25 main_arg26 main_v118 main_v119

def fn_part5 {F : FTy → Type} [FloatOps F] (main_arg18 : FVec F S128 .f32) (main_arg19 : FVec F S128 .f32) (main_arg20 : FVec F S64 .f32) (main_arg21 : FVec F S64 .f32) (main_arg22 : FVec F S32 .f32) (main_arg23 : FVec F S32 .f32) (main_arg24 : FVec F S32x5 .f32) (main_arg25 : FVec F S5 .f32) (main_arg26 : IVec S2x600000 32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S128x32 .f32) (main_arg15 : FVec F S32 .f32) (main_arg16 : FVec F S32x32 .f32) (main_arg17 : FVec F S32 .f32) (main_arg18 : FVec F S128 .f32) (main_arg19 : FVec F S128 .f32) (main_arg20 : FVec F S64 .f32) (main_arg21 : FVec F S64 .f32) (main_arg22 : FVec F S32 .f32) (main_arg23 : FVec F S32 .f32) (main_arg24 : FVec F S32x5 .f32) (main_arg25 : FVec F S5 .f32) (main_arg26 : IVec S2x600000 32) (main_v63 : IVec S_ 1) (main_v67 : IVec S_ 1) : IVec S_ 1 :=
  let main_v68 : IVec S_ 1 := andi main_v63 main_v67
  let main_v69 : FVec F S128x32 .f32 := Host.absf main_arg14
  let main_cst_26 : FVec F S_ .f32 := constant S_ .f32 0x7F800000#32
  let main_v70 : FVec F S128x32 .f32 := broadcastInDim S128x32 ![] bcast_S_S128x32 main_cst_26
  let main_v71 : IVec S128x32 1 := cmpf .olt main_v69 main_v70
  let main_c_27 : IVec S_ 1 := constantI S_ 1 1#1
  let main_v72 : IVec S_ 1 := (fun x v => Host.reduce IntOp.andi x v reducesTo_S128x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg16
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S64 .f32) (main_arg12 : FVec F S64x64 .f32) (main_arg13 : FVec F S64 .f32) (main_arg14 : FVec F S128x32 .f32) (main_arg15 : FVec F S32 .f32) (main_arg16 : FVec F S32x32 .f32) (main_arg17 : FVec F S32 .f32) (main_arg18 : FVec F S128 .f32) (main_arg19 : FVec F S128 .f32) (main_arg20 : FVec F S64 .f32) (main_arg21 : FVec F S64 .f32) (main_arg22 : FVec F S32 .f32) (main_arg23 : FVec F S32 .f32) (main_arg24 : FVec F S32x5 .f32) (main_arg25 : FVec F S5 .f32) (main_arg26 : IVec S2x600000 32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S128 .f32) (main_arg8 : FVec F S128x128 .f32) (main_arg9 : FVec F S128 .f32) (main_arg10 : FVec F S256x64 .f32) (main_arg11 : FVec F S64 .f32) (main_arg12 : FVec F S64x64 .f32) (main_arg13 : FVec F S64 .f32) (main_arg14 : FVec F S128x32 .f32) (main_arg15 : FVec F S32 .f32) (main_arg16 : FVec F S32x32 .f32) (main_arg17 : FVec F S32 .f32) (main_arg18 : FVec F S128 .f32) (main_arg19 : FVec F S128 .f32) (main_arg20 : FVec F S64 .f32) (main_arg21 : FVec F S64 .f32) (main_arg22 : FVec F S32 .f32) (main_arg23 : FVec F S32 .f32) (main_arg24 : FVec F S32x5 .f32) (main_arg25 : FVec F S5 .f32) (main_arg26 : IVec S2x600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x64 .f32 := Host.absf main_arg10
  let main_cst_18 : FVec F S_ .f32 := constant S_ .f32 0x7F800000#32
  let main_v50 : FVec F S256x64 .f32 := broadcastInDim S256x64 ![] bcast_S_S256x64 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S32x64 .f32) (main_arg5 : FVec F S64 .f32) (main_arg6 : FVec F S128x128 .f32) (main_arg7 : FVec F S128 .f32) (main_arg8 : FVec F S128x128 .f32) (main_arg9 : FVec F S128 .f32) (main_arg10 : FVec F S256x64 .f32) (main_arg11 : FVec F S64 .f32) (main_arg12 : FVec F S64x64 .f32) (main_arg13 : FVec F S64 .f32) (main_arg14 : FVec F S128x32 .f32) (main_arg15 : FVec F S32 .f32) (main_arg16 : FVec F S32x32 .f32) (main_arg17 : FVec F S32 .f32) (main_arg18 : FVec F S128 .f32) (main_arg19 : FVec F S128 .f32) (main_arg20 : FVec F S64 .f32) (main_arg21 : FVec F S64 .f32) (main_arg22 : FVec F S32 .f32) (main_arg23 : FVec F S32 .f32) (main_arg24 : FVec F S32x5 .f32) (main_arg25 : FVec F S5 .f32) (main_arg26 : IVec S2x600000 32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S50000x32 .f32) (main_arg1 : FVec F S600000x16 .f32) (main_arg2 : FVec F S16x32 .f32) (main_arg3 : FVec F S32 .f32) (main_arg4 : FVec F S32x64 .f32) (main_arg5 : FVec F S64 .f32) (main_arg6 : FVec F S128x128 .f32) (main_arg7 : FVec F S128 .f32) (main_arg8 : FVec F S128x128 .f32) (main_arg9 : FVec F S128 .f32) (main_arg10 : FVec F S256x64 .f32) (main_arg11 : FVec F S64 .f32) (main_arg12 : FVec F S64x64 .f32) (main_arg13 : FVec F S64 .f32) (main_arg14 : FVec F S128x32 .f32) (main_arg15 : FVec F S32 .f32) (main_arg16 : FVec F S32x32 .f32) (main_arg17 : FVec F S32 .f32) (main_arg18 : FVec F S128 .f32) (main_arg19 : FVec F S128 .f32) (main_arg20 : FVec F S64 .f32) (main_arg21 : FVec F S64 .f32) (main_arg22 : FVec F S32 .f32) (main_arg23 : FVec F S32 .f32) (main_arg24 : FVec F S32x5 .f32) (main_arg25 : FVec F S5 .f32) (main_arg26 : IVec S2x600000 32) (main_arg27 : IVec S50000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S600000x16 .f32 := Host.absf main_arg1
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S16x32 .f32 := Host.absf main_arg2
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S50000x32 : Shape := ⟨2, ![50000, 32]⟩
abbrev S600000x16 : Shape := ⟨2, ![600000, 16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S128x128 : Shape := ⟨2, ![128, 128]⟩
abbrev S128 : Shape := ⟨1, ![128]⟩
abbrev S256x64 : Shape := ⟨2, ![256, 64]⟩
abbrev S64x64 : Shape := ⟨2, ![64, 64]⟩
abbrev S128x32 : Shape := ⟨2, ![128, 32]⟩
abbrev S32x32 : Shape := ⟨2, ![32, 32]⟩
abbrev S32x5 : Shape := ⟨2, ![32, 5]⟩
abbrev S5 : Shape := ⟨1, ![5]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S50000x64 : Shape := ⟨2, ![50000, 64]⟩
abbrev S10000x32 : Shape := ⟨2, ![10000, 32]⟩
abbrev S10000x64 : Shape := ⟨2, ![10000, 64]⟩
abbrev S1x64 : Shape := ⟨2, ![1, 64]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x64 : Shape := ⟨2, ![600000, 64]⟩
abbrev S64x128 : Shape := ⟨2, ![64, 128]⟩
abbrev S600000x128 : Shape := ⟨2, ![600000, 128]⟩
abbrev S6000x64 : Shape := ⟨2, ![6000, 64]⟩
abbrev S6000x128 : Shape := ⟨2, ![6000, 128]⟩
abbrev S1x128 : Shape := ⟨2, ![1, 128]⟩
abbrev S50000x128 : Shape := ⟨2, ![50000, 128]⟩
abbrev S50000x1 : Shape := ⟨2, ![50000, 1]⟩
abbrev S5000x128 : Shape := ⟨2, ![5000, 128]⟩
abbrev S128x64 : Shape := ⟨2, ![128, 64]⟩
abbrev S5000x64 : Shape := ⟨2, ![5000, 64]⟩
abbrev S64x32 : Shape := ⟨2, ![64, 32]⟩
abbrev S600000x32 : Shape := ⟨2, ![600000, 32]⟩
abbrev S6000x32 : Shape := ⟨2, ![6000, 32]⟩
abbrev S1x32 : Shape := ⟨2, ![1, 32]⟩
abbrev S5000x32 : Shape := ⟨2, ![5000, 32]⟩
abbrev S2048x32 : Shape := ⟨2, ![2048, 32]⟩
abbrev S2048 : Shape := ⟨1, ![2048]⟩
abbrev S2048x1 : Shape := ⟨2, ![2048, 1]⟩
abbrev S2048x5 : Shape := ⟨2, ![2048, 5]⟩
abbrev S1x5 : Shape := ⟨2, ![1, 5]⟩

abbrev nBuf : Space → Nat
  | .hbm => 263
  | .vmem => 61
  | .smem => 0
  | _ => 0

abbrev hbmTy0_0 (i : Nat) : BufTy := match i % 128 with
  | 0 => ⟨S50000x32, .f32⟩
  | 1 => ⟨S600000x16, .f32⟩
  | 2 => ⟨S16x32, .f32⟩
  | 3 => ⟨S32, .f32⟩
  | 4 => ⟨S32x64, .f32⟩
  | 5 => ⟨S64, .f32⟩
  | 6 => ⟨S128x128, .f32⟩
  | 7 => ⟨S128, .f32⟩
  | 8 => ⟨S128x128, .f32⟩
  | 9 => ⟨S128, .f32⟩
  | 10 => ⟨S256x64, .f32⟩
  | 11 => ⟨S64, .f32⟩
  | 12 => ⟨S64x64, .f32⟩
  | 13 => ⟨S64, .f32⟩
  | 14 => ⟨S128x32, .f32⟩
  | 15 => ⟨S32, .f32⟩
  | 16 => ⟨S32x32, .f32⟩
  | 17 => ⟨S32, .f32⟩
  | 18 => ⟨S128, .f32⟩
  | 19 => ⟨S128, .f32⟩
  | 20 => ⟨S64, .f32⟩
  | 21 => ⟨S64, .f32⟩
  | 22 => ⟨S32, .f32⟩
  | 23 => ⟨S32, .f32⟩
  | 24 => ⟨S32x5, .f32⟩
  | 25 => ⟨S5, .f32⟩
  | 26 => ⟨S2x600000, .i32⟩
  | 27 => ⟨S50000, .i32⟩
  | 28 => ⟨S1x600000, .i32⟩
  | 29 => ⟨S600000, .i32⟩
  | 30 => ⟨S1x600000, .i32⟩
  | 31 => ⟨S600000, .i32⟩
  | 32 => ⟨S50000x64, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S1, .i32⟩
  | 42 => ⟨S_, .i32⟩
  | 43 => ⟨S600000x1, .i32⟩
  | 44 => ⟨S600000x1, .i1⟩
  | 45 => ⟨S1x1, .i32⟩
  | 46 => ⟨S600000x1, .i32⟩
  | 47 => ⟨S600000x1, .i1⟩
  | 48 => ⟨S600000x1, .i1⟩
  | 49 => ⟨S_, .i1⟩
  | 50 => ⟨S600000, .i1⟩
  | 51 => ⟨S600000x64, .f32⟩
  | 52 => ⟨S600000x64, .i1⟩
  | 53 => ⟨S_, .f32⟩
  | 54 => ⟨S600000x64, .f32⟩
  | 55 => ⟨S600000x64, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S1, .i32⟩
  | 65 => ⟨S_, .i32⟩
  | 66 => ⟨S600000x1, .i32⟩
  | 67 => ⟨S600000x1, .i1⟩
  | 68 => ⟨S1x1, .i32⟩
  | 69 => ⟨S600000x1, .i32⟩
  | 70 => ⟨S600000x1, .i1⟩
  | 71 => ⟨S600000x1, .i1⟩
  | 72 => ⟨S_, .i1⟩
  | 73 => ⟨S600000, .i1⟩
  | 74 => ⟨S600000x64, .f32⟩
  | 75 => ⟨S600000x64, .i1⟩
  | 76 => ⟨S_, .f32⟩
  | 77 => ⟨S600000x64, .f32⟩
  | 78 => ⟨S600000x64, .f32⟩
  | 79 => ⟨S64x128, .f32⟩
  | 80 => ⟨S64x128, .f32⟩
  | 81 => ⟨S600000x128, .f32⟩
  | 82 => ⟨S_, .f32⟩
  | 83 => ⟨S50000x128, .f32⟩
  | 84 => ⟨S600000x1, .i32⟩
  | 85 => ⟨S50000x128, .f32⟩
  | 86 => ⟨S_, .f32⟩
  | 87 => ⟨S600000, .f32⟩
  | 88 => ⟨S_, .f32⟩
  | 89 => ⟨S50000, .f32⟩
  | 90 => ⟨S600000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x128, .f32⟩
  | 97 => ⟨S50000x128, .f32⟩
  | 98 => ⟨S_, .f32⟩
  | 99 => ⟨S_, .f32⟩
  | 100 => ⟨S_, .f32⟩
  | 101 => ⟨S128, .f32⟩
  | 102 => ⟨S128, .f32⟩
  | 103 => ⟨S50000x128, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S1, .i32⟩
  | 113 => ⟨S_, .i32⟩
  | 114 => ⟨S600000x1, .i32⟩
  | 115 => ⟨S600000x1, .i1⟩
  | 116 => ⟨S1x1, .i32⟩
  | 117 => ⟨S600000x1, .i32⟩
  | 118 => ⟨S600000x1, .i1⟩
  | 119 => ⟨S600000x1, .i1⟩
  | 120 => ⟨S_, .i1⟩
  | 121 => ⟨S600000, .i1⟩
  | 122 => ⟨S600000x128, .f32⟩
  | 123 => ⟨S600000x128, .i1⟩
  | 124 => ⟨S_, .f32⟩
  | 125 => ⟨S600000x128, .f32⟩
  | 126 => ⟨S600000x128, .f32⟩
  | 127 => ⟨S_, .i32⟩
  | _ => ⟨S50000x32, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S1, .i32⟩
  | 8 => ⟨S_, .i32⟩
  | 9 => ⟨S600000x1, .i32⟩
  | 10 => ⟨S600000x1, .i1⟩
  | 11 => ⟨S1x1, .i32⟩
  | 12 => ⟨S600000x1, .i32⟩
  | 13 => ⟨S600000x1, .i1⟩
  | 14 => ⟨S600000x1, .i1⟩
  | 15 => ⟨S_, .i1⟩
  | 16 => ⟨S600000, .i1⟩
  | 17 => ⟨S600000x128, .f32⟩
  | 18 => ⟨S600000x128, .i1⟩
  | 19 => ⟨S_, .f32⟩
  | 20 => ⟨S600000x128, .f32⟩
  | 21 => ⟨S600000x128, .f32⟩
  | 22 => ⟨S128x64, .f32⟩
  | 23 => ⟨S128x64, .f32⟩
  | 24 => ⟨S600000x64, .f32⟩
  | 25 => ⟨S_, .f32⟩
  | 26 => ⟨S50000x64, .f32⟩
  | 27 => ⟨S600000x1, .i32⟩
  | 28 => ⟨S50000x64, .f32⟩
  | 29 => ⟨S_, .f32⟩
  | 30 => ⟨S600000, .f32⟩
  | 31 => ⟨S_, .f32⟩
  | 32 => ⟨S50000, .f32⟩
  | 33 => ⟨S600000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x64, .f32⟩
  | 40 => ⟨S50000x64, .f32⟩
  | 41 => ⟨S_, .f32⟩
  | 42 => ⟨S_, .f32⟩
  | 43 => ⟨S_, .f32⟩
  | 44 => ⟨S64, .f32⟩
  | 45 => ⟨S64, .f32⟩
  | 46 => ⟨S50000x64, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S1, .i32⟩
  | 56 => ⟨S_, .i32⟩
  | 57 => ⟨S600000x1, .i32⟩
  | 58 => ⟨S600000x1, .i1⟩
  | 59 => ⟨S1x1, .i32⟩
  | 60 => ⟨S600000x1, .i32⟩
  | 61 => ⟨S600000x1, .i1⟩
  | 62 => ⟨S600000x1, .i1⟩
  | 63 => ⟨S_, .i1⟩
  | 64 => ⟨S600000, .i1⟩
  | 65 => ⟨S600000x64, .f32⟩
  | 66 => ⟨S600000x64, .i1⟩
  | 67 => ⟨S_, .f32⟩
  | 68 => ⟨S600000x64, .f32⟩
  | 69 => ⟨S600000x64, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S1, .i32⟩
  | 79 => ⟨S_, .i32⟩
  | 80 => ⟨S600000x1, .i32⟩
  | 81 => ⟨S600000x1, .i1⟩
  | 82 => ⟨S1x1, .i32⟩
  | 83 => ⟨S600000x1, .i32⟩
  | 84 => ⟨S600000x1, .i1⟩
  | 85 => ⟨S600000x1, .i1⟩
  | 86 => ⟨S_, .i1⟩
  | 87 => ⟨S600000, .i1⟩
  | 88 => ⟨S600000x64, .f32⟩
  | 89 => ⟨S600000x64, .i1⟩
  | 90 => ⟨S_, .f32⟩
  | 91 => ⟨S600000x64, .f32⟩
  | 92 => ⟨S600000x64, .f32⟩
  | 93 => ⟨S64x32, .f32⟩
  | 94 => ⟨S64x32, .f32⟩
  | 95 => ⟨S600000x32, .f32⟩
  | 96 => ⟨S_, .f32⟩
  | 97 => ⟨S50000x32, .f32⟩
  | 98 => ⟨S600000x1, .i32⟩
  | 99 => ⟨S50000x32, .f32⟩
  | 100 => ⟨S_, .f32⟩
  | 101 => ⟨S600000, .f32⟩
  | 102 => ⟨S_, .f32⟩
  | 103 => ⟨S50000, .f32⟩
  | 104 => ⟨S600000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x32, .f32⟩
  | 111 => ⟨S50000x32, .f32⟩
  | 112 => ⟨S_, .f32⟩
  | 113 => ⟨S_, .f32⟩
  | 114 => ⟨S_, .f32⟩
  | 115 => ⟨S32, .f32⟩
  | 116 => ⟨S32, .f32⟩
  | 117 => ⟨S50000x32, .f32⟩
  | 118 => ⟨S_, .f32⟩
  | 119 => ⟨S2048x32, .f32⟩
  | 120 => ⟨S50000x1, .i32⟩
  | 121 => ⟨S2048x32, .f32⟩
  | 122 => ⟨S_, .f32⟩
  | 123 => ⟨S50000, .f32⟩
  | 124 => ⟨S_, .f32⟩
  | 125 => ⟨S2048, .f32⟩
  | 126 => ⟨S50000x1, .i32⟩
  | 127 => ⟨S2048, .f32⟩
  | _ => ⟨S50000x32, .f32⟩

abbrev hbmTy0_2 (i : Nat) : BufTy := match i % 128 with
  | 0 => ⟨S_, .f32⟩
  | 1 => ⟨S2048, .f32⟩
  | 2 => ⟨S2048, .f32⟩
  | 3 => ⟨S2048x1, .f32⟩
  | 4 => ⟨S2048x32, .f32⟩
  | 5 => ⟨S2048x32, .f32⟩
  | 6 => ⟨S2048x5, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x64, .f32⟩
  | .local _ .vmem, ⟨10, _⟩ => ⟨S64x128, .f32⟩
  | .local _ .vmem, ⟨11, _⟩ => ⟨S64x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S6000x128, .f32⟩
  | .local _ .vmem, ⟨16, _⟩ => ⟨S6000x128, .f32⟩
  | .local _ .vmem, ⟨17, _⟩ => ⟨S5000x128, .f32⟩
  | .local _ .vmem, ⟨18, _⟩ => ⟨S5000x128, .f32⟩
  | .local _ .vmem, ⟨19, _⟩ => ⟨S128, .f32⟩
  | .local _ .vmem, ⟨20, _⟩ => ⟨S128, .f32⟩
  | .local _ .vmem, ⟨21, _⟩ => ⟨S5000x128, .f32⟩
  | .local _ .vmem, ⟨22, _⟩ => ⟨S5000x128, .f32⟩
  | .local _ .vmem, ⟨23, _⟩ => ⟨S6000x128, .f32⟩
  | .local _ .vmem, ⟨24, _⟩ => ⟨S6000x128, .f32⟩
  | .local _ .vmem, ⟨25, _⟩ => ⟨S6000x128, .f32⟩
  | .local _ .vmem, ⟨26, _⟩ => ⟨S6000x128, .f32⟩
  | .local _ .vmem, ⟨27, _⟩ => ⟨S128x64, .f32⟩
  | .local _ .vmem, ⟨28, _⟩ => ⟨S128x64, .f32⟩
  | .local _ .vmem, ⟨29, _⟩ => ⟨S64, .f32⟩
  | .local _ .vmem, ⟨30, _⟩ => ⟨S64x64, .f32⟩
  | .local _ .vmem, ⟨31, _⟩ => ⟨S64, .f32⟩
  | .local _ .vmem, ⟨32, _⟩ => ⟨S6000x64, .f32⟩
  | .local _ .vmem, ⟨33, _⟩ => ⟨S6000x64, .f32⟩
  | .local _ .vmem, ⟨34, _⟩ => ⟨S5000x64, .f32⟩
  | .local _ .vmem, ⟨35, _⟩ => ⟨S5000x64, .f32⟩
  | .local _ .vmem, ⟨36, _⟩ => ⟨S64, .f32⟩
  | .local _ .vmem, ⟨37, _⟩ => ⟨S64, .f32⟩
  | .local _ .vmem, ⟨38, _⟩ => ⟨S5000x64, .f32⟩
  | .local _ .vmem, ⟨39, _⟩ => ⟨S5000x64, .f32⟩
  | .local _ .vmem, ⟨40, _⟩ => ⟨S6000x64, .f32⟩
  | .local _ .vmem, ⟨41, _⟩ => ⟨S6000x64, .f32⟩
  | .local _ .vmem, ⟨42, _⟩ => ⟨S6000x64, .f32⟩
  | .local _ .vmem, ⟨43, _⟩ => ⟨S6000x64, .f32⟩
  | .local _ .vmem, ⟨44, _⟩ => ⟨S64x32, .f32⟩
  | .local _ .vmem, ⟨45, _⟩ => ⟨S64x32, .f32⟩
  | .local _ .vmem, ⟨46, _⟩ => ⟨S32, .f32⟩
  | .local _ .vmem, ⟨47, _⟩ => ⟨S32x32, .f32⟩
  | .local _ .vmem, ⟨48, _⟩ => ⟨S32, .f32⟩
  | .local _ .vmem, ⟨49, _⟩ => ⟨S6000x32, .f32⟩
  | .local _ .vmem, ⟨50, _⟩ => ⟨S6000x32, .f32⟩
  | .local _ .vmem, ⟨51, _⟩ => ⟨S5000x32, .f32⟩
  | .local _ .vmem, ⟨52, _⟩ => ⟨S5000x32, .f32⟩
  | .local _ .vmem, ⟨53, _⟩ => ⟨S32, .f32⟩
  | .local _ .vmem, ⟨54, _⟩ => ⟨S32, .f32⟩
  | .local _ .vmem, ⟨55, _⟩ => ⟨S5000x32, .f32⟩
  | .local _ .vmem, ⟨56, _⟩ => ⟨S5000x32, .f32⟩
  | .local _ .vmem, ⟨57, _⟩ => ⟨S2048x32, .f32⟩
  | .local _ .vmem, ⟨58, _⟩ => ⟨S32x5, .f32⟩
  | .local _ .vmem, ⟨59, _⟩ => ⟨S5, .f32⟩
  | .local _ .vmem, ⟨60, _⟩ => ⟨S2048x5, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v5 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_cst : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_cst_0 : Ref sig .tc := ⟨.hbm, 86, rfl⟩
abbrev main_v13 : Ref sig .tc := ⟨.hbm, 87, rfl⟩
abbrev main_cst_1 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_cst_2 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_cst_3 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v27 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_cst : Ref sig .tc := ⟨.hbm, 147, rfl⟩
abbrev main_call3_v15 : Ref sig .tc := ⟨.hbm, 148, rfl⟩
abbrev main_v28 : Ref sig .tc := ⟨.hbm, 149, rfl⟩
abbrev main_v29 : Ref sig .tc := ⟨.hbm, 150, rfl⟩
abbrev main_v30 : Ref sig .tc := ⟨.hbm, 151, rfl⟩
abbrev main_v31 : Ref sig .tc := ⟨.hbm, 152, rfl⟩
abbrev main_cst_4 : Ref sig .tc := ⟨.hbm, 153, rfl⟩
abbrev main_v32 : Ref sig .tc := ⟨.hbm, 154, rfl⟩
abbrev main_v33 : Ref sig .tc := ⟨.hbm, 155, rfl⟩
abbrev main_v34 : Ref sig .tc := ⟨.hbm, 156, rfl⟩
abbrev main_cst_5 : Ref sig .tc := ⟨.hbm, 157, rfl⟩
abbrev main_v35 : Ref sig .tc := ⟨.hbm, 158, rfl⟩
abbrev main_cst_6 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_cst_7 : Ref sig .tc := ⟨.hbm, 163, rfl⟩
abbrev main_v39 : Ref sig .tc := ⟨.hbm, 164, rfl⟩
abbrev main_v40 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_cst_8 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_call4_c : Ref sig .tc := ⟨.hbm, 175, rfl⟩
abbrev main_call4_v0 : Ref sig .tc := ⟨.hbm, 176, rfl⟩
abbrev main_call4_v1 : Ref sig .tc := ⟨.hbm, 177, rfl⟩
abbrev main_call4_c_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_c_1 : Ref sig .tc := ⟨.hbm, 183, rfl⟩
abbrev main_call4_c_2 : Ref sig .tc := ⟨.hbm, 184, rfl⟩
abbrev main_call4_v6 : Ref sig .tc := ⟨.hbm, 185, rfl⟩
abbrev main_call4_v7 : Ref sig .tc := ⟨.hbm, 186, rfl⟩
abbrev main_call4_v8 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_c_3 : Ref sig .tc := ⟨.hbm, 191, rfl⟩
abbrev main_call4_v12 : Ref sig .tc := ⟨.hbm, 192, rfl⟩
abbrev main_call4_v13 : Ref sig .tc := ⟨.hbm, 193, rfl⟩
abbrev main_call4_v14 : Ref sig .tc := ⟨.hbm, 194, rfl⟩
abbrev main_call4_cst : Ref sig .tc := ⟨.hbm, 195, rfl⟩
abbrev main_call4_v15 : Ref sig .tc := ⟨.hbm, 196, rfl⟩
abbrev main_v49 : Ref sig .tc := ⟨.hbm, 197, rfl⟩
abbrev main_call5_c : Ref sig .tc := ⟨.hbm, 198, rfl⟩
abbrev main_call5_v0 : Ref sig .tc := ⟨.hbm, 199, rfl⟩
abbrev main_call5_v1 : Ref sig .tc := ⟨.hbm, 200, rfl⟩
abbrev main_call5_c_0 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_v5 : Ref sig .tc := ⟨.hbm, 205, rfl⟩
abbrev main_call5_c_1 : Ref sig .tc := ⟨.hbm, 206, rfl⟩
abbrev main_call5_c_2 : Ref sig .tc := ⟨.hbm, 207, rfl⟩
abbrev main_call5_v6 : Ref sig .tc := ⟨.hbm, 208, rfl⟩
abbrev main_call5_v7 : Ref sig .tc := ⟨.hbm, 209, rfl⟩
abbrev main_call5_v8 : Ref sig .tc := ⟨.hbm, 210, rfl⟩
abbrev main_call5_v9 : Ref sig .tc := ⟨.hbm, 211, rfl⟩
abbrev main_call5_v10 : Ref sig .tc := ⟨.hbm, 212, rfl⟩
abbrev main_call5_v11 : Ref sig .tc := ⟨.hbm, 213, rfl⟩
abbrev main_call5_c_3 : Ref sig .tc := ⟨.hbm, 214, rfl⟩
abbrev main_call5_v12 : Ref sig .tc := ⟨.hbm, 215, rfl⟩
abbrev main_call5_v13 : Ref sig .tc := ⟨.hbm, 216, rfl⟩
abbrev main_call5_v14 : Ref sig .tc := ⟨.hbm, 217, rfl⟩
abbrev main_call5_cst : Ref sig .tc := ⟨.hbm, 218, rfl⟩
abbrev main_call5_v15 : Ref sig .tc := ⟨.hbm, 219, rfl⟩
abbrev main_v50 : Ref sig .tc := ⟨.hbm, 220, rfl⟩
abbrev main_v51 : Ref sig .tc := ⟨.hbm, 221, rfl⟩
abbrev main_v52 : Ref sig .tc := ⟨.hbm, 222, rfl⟩
abbrev main_v53 : Ref sig .tc := ⟨.hbm, 223, rfl⟩
abbrev main_cst_9 : Ref sig .tc := ⟨.hbm, 224, rfl⟩
abbrev main_v54 : Ref sig .tc := ⟨.hbm, 225, rfl⟩
abbrev main_v55 : Ref sig .tc := ⟨.hbm, 226, rfl⟩
abbrev main_v56 : Ref sig .tc := ⟨.hbm, 227, rfl⟩
abbrev main_cst_10 : Ref sig .tc := ⟨.hbm, 228, rfl⟩
abbrev main_v57 : Ref sig .tc := ⟨.hbm, 229, rfl⟩
abbrev main_cst_11 : Ref sig .tc := ⟨.hbm, 230, rfl⟩
abbrev main_v58 : Ref sig .tc := ⟨.hbm, 231, rfl⟩
abbrev main_v59 : Ref sig .tc := ⟨.hbm, 232, rfl⟩
abbrev main_v60 : Ref sig .tc := ⟨.hbm, 233, rfl⟩
abbrev main_cst_12 : Ref sig .tc := ⟨.hbm, 234, rfl⟩
abbrev main_v61 : Ref sig .tc := ⟨.hbm, 235, rfl⟩
abbrev main_v62 : Ref sig .tc := ⟨.hbm, 236, rfl⟩
abbrev main_v63 : Ref sig .tc := ⟨.hbm, 237, rfl⟩
abbrev main_v64 : Ref sig .tc := ⟨.hbm, 238, rfl⟩
abbrev main_v65 : Ref sig .tc := ⟨.hbm, 239, rfl⟩
abbrev main_cst_13 : Ref sig .tc := ⟨.hbm, 240, rfl⟩
abbrev main_v66 : Ref sig .tc := ⟨.hbm, 241, rfl⟩
abbrev main_v67 : Ref sig .tc := ⟨.hbm, 242, rfl⟩
abbrev main_v68 : Ref sig .tc := ⟨.hbm, 243, rfl⟩
abbrev main_v69 : Ref sig .tc := ⟨.hbm, 244, rfl⟩
abbrev main_v70 : Ref sig .tc := ⟨.hbm, 245, rfl⟩
abbrev main_cst_14 : Ref sig .tc := ⟨.hbm, 246, rfl⟩
abbrev main_v71 : Ref sig .tc := ⟨.hbm, 247, rfl⟩
abbrev main_v72 : Ref sig .tc := ⟨.hbm, 248, rfl⟩
abbrev main_v73 : Ref sig .tc := ⟨.hbm, 249, rfl⟩
abbrev main_cst_15 : Ref sig .tc := ⟨.hbm, 250, rfl⟩
abbrev main_v74 : Ref sig .tc := ⟨.hbm, 251, rfl⟩
abbrev main_cst_16 : Ref sig .tc := ⟨.hbm, 252, rfl⟩
abbrev main_v75 : Ref sig .tc := ⟨.hbm, 253, rfl⟩
abbrev main_v76 : Ref sig .tc := ⟨.hbm, 254, rfl⟩
abbrev main_v77 : Ref sig .tc := ⟨.hbm, 255, rfl⟩
abbrev main_cst_17 : Ref sig .tc := ⟨.hbm, 256, rfl⟩
abbrev main_v78 : Ref sig .tc := ⟨.hbm, 257, rfl⟩
abbrev main_v79 : Ref sig .tc := ⟨.hbm, 258, rfl⟩
abbrev main_v80 : Ref sig .tc := ⟨.hbm, 259, rfl⟩
abbrev main_v81 : Ref sig .tc := ⟨.hbm, 260, rfl⟩
abbrev main_v82 : Ref sig .tc := ⟨.hbm, 261, rfl⟩
abbrev main_v83 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg6_0 : Ref sig .tc := ⟨.vmem, 48, rfl⟩
abbrev cc5_stg7_0 : Ref sig .tc := ⟨.vmem, 49, rfl⟩
abbrev cc5_stg7_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg3_1 : Ref sig .tc := ⟨.vmem, 56, rfl⟩
abbrev cc7_stg0_0 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48
abbrev cc5_sem7_0 : DmaSem sig := 49
abbrev cc5_sem7_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem3_0 : DmaSem sig := 55
abbrev cc6_sem3_1 : DmaSem sig := 56
abbrev cc7_sem0_0 : DmaSem sig := 57
abbrev cc7_sem1_0 : DmaSem sig := 58
abbrev cc7_sem2_0 : DmaSem sig := 59
abbrev cc7_sem3_0 : DmaSem sig := 60

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S6000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S6000x32 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S2048x32 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S32x5 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S5 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2048x5 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x64_0 : S600000.BroadcastsInDim S600000x64 (![0] : Fin 1 → Fin S600000x64.rank)
  bcast_S_S600000x64 : S_.BroadcastsInDim S600000x64 (![] : Fin 0 → Fin S600000x64.rank)
  slices_S128x128_S64x128_0_0 : S128x128.Slices ![0, 0] S64x128
  slices_S128x128_S64x128_64_0 : S128x128.Slices ![64, 0] S64x128
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S6000x128 : S1x128.Broadcasts S6000x128
  inb_S128x128_S128x128_0_0 : ∀ a, (![0, 0] : Fin 2 → Nat) a + S128x128.size a ≤ S128x128.size a
  h_S128x128 : 0 < S128x128.numel
  inb_S6000x128_S6000x128_0_0 : ∀ a, (![0, 0] : Fin 2 → Nat) a + S6000x128.size a ≤ S6000x128.size a
  h_S6000x128 : 0 < S6000x128.numel
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128_S128 : S128.ShapeCasts S128
  broadcasts_S1x128_S5000x128 : S1x128.Broadcasts S5000x128
  bcast_S600000_S600000x128_0 : S600000.BroadcastsInDim S600000x128 (![0] : Fin 1 → Fin S600000x128.rank)
  bcast_S_S600000x128 : S_.BroadcastsInDim S600000x128 (![] : Fin 0 → Fin S600000x128.rank)
  slices_S256x64_S128x64_0_0 : S256x64.Slices ![0, 0] S128x64
  slices_S256x64_S128x64_128_0 : S256x64.Slices ![128, 0] S128x64
  shapeCasts_S6000x128_S6000x128 : S6000x128.ShapeCasts S6000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S6000x64 : S1x64.Broadcasts S6000x64
  inb_S64x64_S64x64_0_0 : ∀ a, (![0, 0] : Fin 2 → Nat) a + S64x64.size a ≤ S64x64.size a
  h_S64x64 : 0 < S64x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S64 : S_.BroadcastsInDim S64 (![] : Fin 0 → Fin S64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64_S64 : S64.ShapeCasts S64
  broadcasts_S1x64_S5000x64 : S1x64.Broadcasts S5000x64
  slices_S128x32_S64x32_0_0 : S128x32.Slices ![0, 0] S64x32
  slices_S128x32_S64x32_64_0 : S128x32.Slices ![64, 0] S64x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S6000x32 : S1x32.Broadcasts S6000x32
  inb_S32x32_S32x32_0_0 : ∀ a, (![0, 0] : Fin 2 → Nat) a + S32x32.size a ≤ S32x32.size a
  h_S32x32 : 0 < S32x32.numel
  inb_S6000x32_S6000x32_0_0 : ∀ a, (![0, 0] : Fin 2 → Nat) a + S6000x32.size a ≤ S6000x32.size a
  h_S6000x32 : 0 < S6000x32.numel
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S_S32 : S_.BroadcastsInDim S32 (![] : Fin 0 → Fin S32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  shapeCasts_S32_S32 : S32.ShapeCasts S32
  broadcasts_S1x32_S5000x32 : S1x32.Broadcasts S5000x32
  bcast_S_S2048x32 : S_.BroadcastsInDim S2048x32 (![] : Fin 0 → Fin S2048x32.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x5_S32x5_0_0 : ∀ a, (![0, 0] : Fin 2 → Nat) a + S32x5.size a ≤ S32x5.size a
  h_S32x5 : 0 < S32x5.numel
  inb_S5_S5_0 : ∀ a, (![0] : Fin 1 → Nat) a + S5.size a ≤ S5.size a
  h_S5 : 0 < S5.numel
  shapeCasts_S5_S1x5 : S5.ShapeCasts S1x5
  broadcasts_S1x5_S2048x5 : S1x5.Broadcasts S2048x5
  inb_S2048x5_S2048x5_0_0 : ∀ a, (![0, 0] : Fin 2 → Nat) a + S2048x5.size a ≤ S2048x5.size a
  h_S2048x5 : 0 < S2048x5.numel
  dot_S10000x32_S32x64_S10000x64_1_0_0_1_n_n_wf : DotDims.WF S10000x32 S32x64 S10000x64 [1] [0] [0] [1] [] []
  gather_S50000x64_S600000x1_S600000x64_1_0_n_n_0_1_164_wf : GatherDims.WF S50000x64 S600000x1 S600000x64 [1] [0] [] [0] [] 1 ![1, 64]
  dot_S6000x64_S64x128_S6000x128_1_0_0_1_n_n_wf : DotDims.WF S6000x64 S64x128 S6000x128 [1] [0] [0] [1] [] []
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  dot_S6000x128_S128x64_S6000x64_1_0_0_1_n_n_wf : DotDims.WF S6000x128 S128x64 S6000x64 [1] [0] [0] [1] [] []
  dot_S6000x64_S64x64_S6000x64_1_0_0_1_n_n_wf : DotDims.WF S6000x64 S64x64 S6000x64 [1] [0] [0] [1] [] []
  scatter_S50000x64_S600000x1_S600000x64_1_0_0_1_wf : ScatterDims.WF S50000x64 S600000x1 S600000x64 [1] [0] [0] 1
  dot_S6000x64_S64x32_S6000x32_1_0_0_1_n_n_wf : DotDims.WF S6000x64 S64x32 S6000x32 [1] [0] [0] [1] [] []
  dot_S6000x32_S32x32_S6000x32_1_0_0_1_n_n_wf : DotDims.WF S6000x32 S32x32 S6000x32 [1] [0] [0] [1] [] []
  scatter_S50000x32_S600000x1_S600000x32_1_0_0_1_wf : ScatterDims.WF S50000x32 S600000x1 S600000x32 [1] [0] [0] 1
  scatter_S2048x32_S50000x1_S50000x32_1_0_0_1_wf : ScatterDims.WF S2048x32 S50000x1 S50000x32 [1] [0] [0] 1
  scatter_S2048_S50000x1_S50000_n_0_0_1_wf : ScatterDims.WF S2048 S50000x1 S50000 [] [0] [0] 1
  dot_S2048x32_S32x5_S2048x5_1_0_0_1_n_n_wf : DotDims.WF S2048x32 S32x5 S2048x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S50000x32.size a
  hwx0_0 : ∀ i : grid0.Coords, EltTy.bits .f32 = 32 ∨ (Rect.block (s := S50000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S600000x64.size a
  hwx1_0 : ∀ i : grid1.Coords, EltTy.bits .f32 = 32 ∨ (Rect.block (s := S600000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S600000x64.size a
  hwx1_1 : ∀ i : grid1.Coords, EltTy.bits .f32 = 32 ∨ (Rect.block (s := S600000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6000x128.size a ≤ S600000x128.size a
  hwx1_7 : ∀ i : grid1.Coords, EltTy.bits .f32 = 32 ∨ (Rect.block (s := S600000x128) S6000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x128.size a ≤ S600000x128.size a
  hwx3_0 : ∀ i : grid3.Coords, EltTy.bits .f32 = 32 ∨ (Rect.block (s := S600000x128) S6000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x128.size a ≤ S600000x128.size a
  hwx3_1 : ∀ i : grid3.Coords, EltTy.bits .f32 = 32 ∨ (Rect.block (s := S600000x128) S6000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S6000x64.size a ≤ S600000x64.size a
  hwx3_7 : ∀ i : grid3.Coords, EltTy.bits .f32 = 32 ∨ (Rect.block (s := S600000x64) S6000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x64.size a ≤ S600000x64.size a
  hwx5_0 : ∀ i : grid5.Coords, EltTy.bits .f32 = 32 ∨ (Rect.block (s := S600000x64) S6000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x64.size a ≤ S600000x64.size a
  hwx5_1 : ∀ i : grid5.Coords, EltTy.bits .f32 = 32 ∨ (Rect.block (s := S600000x64) S6000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x32.size a ≤ S64x32.size a
  hwx5_2 : ∀ i : grid5.Coords, EltTy.bits .f32 = 32 ∨ (Rect.block (s := S64x32) S64x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x32.size a ≤ S64x32.size a
  hwx5_3 : ∀ i : grid5.Coords, EltTy.bits .f32 = 32 ∨ (Rect.block (s := S64x32) S64x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32.size a ≤ S32.size a
  hwx5_4 : ∀ i : grid5.Coords, EltTy.bits .f32 = 32 ∨ (Rect.block (s := S32) S32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x32.size a ≤ S32x32.size a
  hwx5_5 : ∀ i : grid5.Coords, EltTy.bits .f32 = 32 ∨ (Rect.block (s := S32x32) S32x32.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S32.size a ≤ S32.size a
  hwx5_6 : ∀ i : grid5.Coords, EltTy.bits .f32 = 32 ∨ (Rect.block (s := S32) S32.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S6000x32.size a ≤ S600000x32.size a
  hwx5_7 : ∀ i : grid5.Coords, EltTy.bits .f32 = 32 ∨ (Rect.block (s := S600000x32) S6000x32.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32.size a ≤ S32.size a
  hwx6_1 : ∀ i : grid6.Coords, EltTy.bits .f32 = 32 ∨ (Rect.block (s := S32) S32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32.size a ≤ S32.size a
  hwx6_2 : ∀ i : grid6.Coords, EltTy.bits .f32 = 32 ∨ (Rect.block (s := S32) S32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x32.size a ≤ S50000x32.size a
  hwx6_3 : ∀ i : grid6.Coords, EltTy.bits .f32 = 32 ∨ (Rect.block (s := S50000x32) S5000x32.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S2048x32.size a ≤ S2048x32.size a
  hwx7_0 : ∀ i : grid7.Coords, EltTy.bits .f32 = 32 ∨ (Rect.block (s := S2048x32) S2048x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x5.size a ≤ S32x5.size a
  hwx7_1 : ∀ i : grid7.Coords, EltTy.bits .f32 = 32 ∨ (Rect.block (s := S32x5) S32x5.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S5.size a ≤ S5.size a
  hwx7_2 : ∀ i : grid7.Coords, EltTy.bits .f32 = 32 ∨ (Rect.block (s := S5) S5.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2048x5.size a ≤ S2048x5.size a
  hwx7_3 : ∀ i : grid7.Coords, EltTy.bits .f32 = 32 ∨ (Rect.block (s := S2048x5) S2048x5.size (cc7_transform_3 i) (hinb7_3 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def dot_S6000x64_S64x128_S6000x128_1_0_0_1_n_n : DotDims S6000x64 S64x128 S6000x128 where
  lhsContracting := [1]
  rhsContracting := [0]
  lhsNonContracting := [0]
  rhsNonContracting := [1]
  lhsBatch := []
  rhsBatch := []
  wf := dot_S6000x64_S64x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x64_S6000x64_1_0_0_1_n_n : DotDims S6000x128 S128x64 S6000x64 where
  lhsContracting := [1]
  rhsContracting := [0]
  lhsNonContracting := [0]
  rhsNonContracting := [1]
  lhsBatch := []
  rhsBatch := []
  wf := dot_S6000x128_S128x64_S6000x64_1_0_0_1_n_n_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S6000x64_S64x32_S6000x32_1_0_0_1_n_n : DotDims S6000x64 S64x32 S6000x32 where
  lhsContracting := [1]
  rhsContracting := [0]
  lhsNonContracting := [0]
  rhsNonContracting := [1]
  lhsBatch := []
  rhsBatch := []
  wf := dot_S6000x64_S64x32_S6000x32_1_0_0_1_n_n_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def scatter_S2048x32_S50000x1_S50000x32_1_0_0_1 : ScatterDims S2048x32 S50000x1 S50000x32 where
  updateWindowDims := [1]
  insertedWindowDims := [0]
  scatterDimsToOperandDims := [0]
  indexVectorDim := 1
  wf := scatter_S2048x32_S50000x1_S50000x32_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x32_S32x5_S2048x5_1_0_0_1_n_n : DotDims S2048x32 S32x5 S2048x5 where
  lhsContracting := [1]
  rhsContracting := [0]
  lhsNonContracting := [0]
  rhsNonContracting := [1]
  lhsBatch := []
  rhsBatch := []
  wf := dot_S2048x32_S32x5_S2048x5_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S6000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v27) S6000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S6000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v31) S6000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v43) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg21) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v49) S6000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S6000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v51) S64x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v52) S64x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg15) S32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg16) S32x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg17) S32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v53) S6000x32.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v65) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69) S32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg23) S32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v70) S5000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v82) S2048x32.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg24) S32x5.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg25) S5.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S2048x5.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x32 : Shape := ⟨2, ![50000, 32]⟩
abbrev S600000x16 : Shape := ⟨2, ![600000, 16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S128x128 : Shape := ⟨2, ![128, 128]⟩
abbrev S128 : Shape := ⟨1, ![128]⟩
abbrev S256x64 : Shape := ⟨2, ![256, 64]⟩
abbrev S64x64 : Shape := ⟨2, ![64, 64]⟩
abbrev S128x32 : Shape := ⟨2, ![128, 32]⟩
abbrev S32x32 : Shape := ⟨2, ![32, 32]⟩
abbrev S32x5 : Shape := ⟨2, ![32, 5]⟩
abbrev S5 : Shape := ⟨1, ![5]⟩
abbrev S2x600000 : Shape := ⟨2, ![2, 600000]⟩
abbrev S50000 : Shape := ⟨1, ![50000]⟩
abbrev S600000x32 : Shape := ⟨2, ![600000, 32]⟩
abbrev S1x32 : Shape := ⟨2, ![1, 32]⟩
abbrev S1x600000 : Shape := ⟨2, ![1, 600000]⟩
abbrev S600000 : Shape := ⟨1, ![600000]⟩
abbrev S50000x64 : Shape := ⟨2, ![50000, 64]⟩
abbrev S1x64 : Shape := ⟨2, ![1, 64]⟩
abbrev S_ : Shape := ⟨0, ![]⟩
abbrev S600000x1 : Shape := ⟨2, ![600000, 1]⟩
abbrev S600000x64 : Shape := ⟨2, ![600000, 64]⟩
abbrev S600000x128 : Shape := ⟨2, ![600000, 128]⟩
abbrev S1x128 : Shape := ⟨2, ![1, 128]⟩
abbrev S50000x128 : Shape := ⟨2, ![50000, 128]⟩
abbrev S50000x1 : Shape := ⟨2, ![50000, 1]⟩
abbrev S600000x256 : Shape := ⟨2, ![600000, 256]⟩
abbrev S2048x32 : Shape := ⟨2, ![2048, 32]⟩
abbrev S2048 : Shape := ⟨1, ![2048]⟩
abbrev S2048x1 : Shape := ⟨2, ![2048, 1]⟩
abbrev S2048x5 : Shape := ⟨2, ![2048, 5]⟩
abbrev S1x5 : Shape := ⟨2, ![1, 5]⟩

abbrev nBuf : Space → Nat
  | .hbm => 251
  | .vmem => 0
  | .smem => 0
  | _ => 0

abbrev hbmTy0_0 (i : Nat) : BufTy := match i % 128 with
  | 0 => ⟨S50000x32, .f32⟩
  | 1 => ⟨S600000x16, .f32⟩
  | 2 => ⟨S16x32, .f32⟩
  | 3 => ⟨S32, .f32⟩
  | 4 => ⟨S32x64, .f32⟩
  | 5 => ⟨S64, .f32⟩
  | 6 => ⟨S128x128, .f32⟩
  | 7 => ⟨S128, .f32⟩
  | 8 => ⟨S128x128, .f32⟩
  | 9 => ⟨S128, .f32⟩
  | 10 => ⟨S256x64, .f32⟩
  | 11 => ⟨S64, .f32⟩
  | 12 => ⟨S64x64, .f32⟩
  | 13 => ⟨S64, .f32⟩
  | 14 => ⟨S128x32, .f32⟩
  | 15 => ⟨S32, .f32⟩
  | 16 => ⟨S32x32, .f32⟩
  | 17 => ⟨S32, .f32⟩
  | 18 => ⟨S128, .f32⟩
  | 19 => ⟨S128, .f32⟩
  | 20 => ⟨S64, .f32⟩
  | 21 => ⟨S64, .f32⟩
  | 22 => ⟨S32, .f32⟩
  | 23 => ⟨S32, .f32⟩
  | 24 => ⟨S32x5, .f32⟩
  | 25 => ⟨S5, .f32⟩
  | 26 => ⟨S2x600000, .i32⟩
  | 27 => ⟨S50000, .i32⟩
  | 28 => ⟨S600000x32, .f32⟩
  | 29 => ⟨S1x32, .f32⟩
  | 30 => ⟨S600000x32, .f32⟩
  | 31 => ⟨S600000x32, .f32⟩
  | 32 => ⟨S1x600000, .i32⟩
  | 33 => ⟨S600000, .i32⟩
  | 34 => ⟨S1x600000, .i32⟩
  | 35 => ⟨S600000, .i32⟩
  | 36 => ⟨S50000x64, .f32⟩
  | 37 => ⟨S1x64, .f32⟩
  | 38 => ⟨S50000x64, .f32⟩
  | 39 => ⟨S50000x64, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x64, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x64, .f32⟩
  | 58 => ⟨S600000x64, .f32⟩
  | 59 => ⟨S600000x128, .f32⟩
  | 60 => ⟨S600000x128, .f32⟩
  | 61 => ⟨S1x128, .f32⟩
  | 62 => ⟨S600000x128, .f32⟩
  | 63 => ⟨S600000x128, .f32⟩
  | 64 => ⟨S_, .f32⟩
  | 65 => ⟨S600000x128, .f32⟩
  | 66 => ⟨S600000x128, .f32⟩
  | 67 => ⟨S600000x128, .f32⟩
  | 68 => ⟨S1x128, .f32⟩
  | 69 => ⟨S600000x128, .f32⟩
  | 70 => ⟨S600000x128, .f32⟩
  | 71 => ⟨S_, .f32⟩
  | 72 => ⟨S50000x128, .f32⟩
  | 73 => ⟨S600000x1, .i32⟩
  | 74 => ⟨S50000x128, .f32⟩
  | 75 => ⟨S_, .f32⟩
  | 76 => ⟨S600000, .f32⟩
  | 77 => ⟨S_, .f32⟩
  | 78 => ⟨S50000, .f32⟩
  | 79 => ⟨S600000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x128, .f32⟩
  | 120 => ⟨S600000x256, .f32⟩
  | 121 => ⟨S600000x64, .f32⟩
  | 122 => ⟨S1x64, .f32⟩
  | 123 => ⟨S600000x64, .f32⟩
  | 124 => ⟨S600000x64, .f32⟩
  | 125 => ⟨S_, .f32⟩
  | 126 => ⟨S600000x64, .f32⟩
  | 127 => ⟨S600000x64, .f32⟩
  | _ => ⟨S50000x32, .f32⟩

abbrev hbmTy0_1 (i : Nat) : BufTy := match i % 128 with
  | 0 => ⟨S600000x64, .f32⟩
  | 1 => ⟨S1x64, .f32⟩
  | 2 => ⟨S600000x64, .f32⟩
  | 3 => ⟨S600000x64, .f32⟩
  | 4 => ⟨S_, .f32⟩
  | 5 => ⟨S50000x64, .f32⟩
  | 6 => ⟨S600000x1, .i32⟩
  | 7 => ⟨S50000x64, .f32⟩
  | 8 => ⟨S_, .f32⟩
  | 9 => ⟨S600000, .f32⟩
  | 10 => ⟨S_, .f32⟩
  | 11 => ⟨S50000, .f32⟩
  | 12 => ⟨S600000x1, .i32⟩
  | 13 => ⟨S50000, .f32⟩
  | 14 => ⟨S_, .f32⟩
  | 15 => ⟨S50000, .f32⟩
  | 16 => ⟨S50000, .f32⟩
  | 17 => ⟨S50000x1, .f32⟩
  | 18 => ⟨S50000x64, .f32⟩
  | 19 => ⟨S50000x64, .f32⟩
  | 20 => ⟨S_, .f32⟩
  | 21 => ⟨S_, .f32⟩
  | 22 => ⟨S_, .f32⟩
  | 23 => ⟨S64, .f32⟩
  | 24 => ⟨S64, .f32⟩
  | 25 => ⟨S1x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x64, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x64, .f32⟩
  | 52 => ⟨S600000x64, .f32⟩
  | 53 => ⟨S600000x128, .f32⟩
  | 54 => ⟨S600000x32, .f32⟩
  | 55 => ⟨S1x32, .f32⟩
  | 56 => ⟨S600000x32, .f32⟩
  | 57 => ⟨S600000x32, .f32⟩
  | 58 => ⟨S_, .f32⟩
  | 59 => ⟨S600000x32, .f32⟩
  | 60 => ⟨S600000x32, .f32⟩
  | 61 => ⟨S600000x32, .f32⟩
  | 62 => ⟨S1x32, .f32⟩
  | 63 => ⟨S600000x32, .f32⟩
  | 64 => ⟨S600000x32, .f32⟩
  | 65 => ⟨S_, .f32⟩
  | 66 => ⟨S50000x32, .f32⟩
  | 67 => ⟨S600000x1, .i32⟩
  | 68 => ⟨S50000x32, .f32⟩
  | 69 => ⟨S_, .f32⟩
  | 70 => ⟨S600000, .f32⟩
  | 71 => ⟨S_, .f32⟩
  | 72 => ⟨S50000, .f32⟩
  | 73 => ⟨S600000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x32, .f32⟩
  | 80 => ⟨S50000x32, .f32⟩
  | 81 => ⟨S_, .f32⟩
  | 82 => ⟨S_, .f32⟩
  | 83 => ⟨S_, .f32⟩
  | 84 => ⟨S32, .f32⟩
  | 85 => ⟨S32, .f32⟩
  | 86 => ⟨S1x32, .f32⟩
  | 87 => ⟨S50000x32, .f32⟩
  | 88 => ⟨S50000x32, .f32⟩
  | 89 => ⟨S1x32, .f32⟩
  | 90 => ⟨S50000x32, .f32⟩
  | 91 => ⟨S50000x32, .f32⟩
  | 92 => ⟨S_, .f32⟩
  | 93 => ⟨S50000x32, .f32⟩
  | 94 => ⟨S50000x32, .f32⟩
  | 95 => ⟨S_, .f32⟩
  | 96 => ⟨S2048x32, .f32⟩
  | 97 => ⟨S50000x1, .i32⟩
  | 98 => ⟨S2048x32, .f32⟩
  | 99 => ⟨S_, .f32⟩
  | 100 => ⟨S50000, .f32⟩
  | 101 => ⟨S_, .f32⟩
  | 102 => ⟨S2048, .f32⟩
  | 103 => ⟨S50000x1, .i32⟩
  | 104 => ⟨S2048, .f32⟩
  | 105 => ⟨S_, .f32⟩
  | 106 => ⟨S2048, .f32⟩
  | 107 => ⟨S2048, .f32⟩
  | 108 => ⟨S2048x1, .f32⟩
  | 109 => ⟨S2048x32, .f32⟩
  | 110 => ⟨S2048x32, .f32⟩
  | 111 => ⟨S2048x5, .f32⟩
  | 112 => ⟨S1x5, .f32⟩
  | 113 => ⟨S2048x5, .f32⟩
  | 114 => ⟨S2048x5, .f32⟩
  | 115 => ⟨S2048x5, .f32⟩
  | 116 => ⟨S2048x5, .f32⟩
  | 117 => ⟨S_, .f32⟩
  | 118 => ⟨S2048x5, .f32⟩
  | 119 => ⟨S2048x5, .f32⟩
  | 120 => ⟨S_, .f32⟩
  | 121 => ⟨S2048x5, .f32⟩
  | 122 => ⟨S2048x5, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_1 : Ref sig .tc := ⟨.hbm, 49, rfl⟩
abbrev main_v19 : Ref sig .tc := ⟨.hbm, 50, rfl⟩
abbrev main_v20 : Ref sig .tc := ⟨.hbm, 51, rfl⟩
abbrev main_c_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call0_cst : Ref sig .tc := ⟨.hbm, 64, rfl⟩
abbrev main_call0_v0 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_3 : Ref sig .tc := ⟨.hbm, 75, rfl⟩
abbrev main_v40 : Ref sig .tc := ⟨.hbm, 76, rfl⟩
abbrev main_cst_4 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_5 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_6 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call1_cst : Ref sig .tc := ⟨.hbm, 98, rfl⟩
abbrev main_call1_v0 : Ref sig .tc := ⟨.hbm, 99, rfl⟩
abbrev main_v59 : Ref sig .tc := ⟨.hbm, 100, rfl⟩
abbrev main_c_7 : Ref sig .tc := ⟨.hbm, 101, rfl⟩
abbrev main_v60 : Ref sig .tc := ⟨.hbm, 102, rfl⟩
abbrev main_v61 : Ref sig .tc := ⟨.hbm, 103, rfl⟩
abbrev main_c_8 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_9 : Ref sig .tc := ⟨.hbm, 110, rfl⟩
abbrev main_v67 : Ref sig .tc := ⟨.hbm, 111, rfl⟩
abbrev main_v68 : Ref sig .tc := ⟨.hbm, 112, rfl⟩
abbrev main_c_10 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_call2_cst : Ref sig .tc := ⟨.hbm, 125, rfl⟩
abbrev main_call2_v0 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_11 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_12 : Ref sig .tc := ⟨.hbm, 136, rfl⟩
abbrev main_v88 : Ref sig .tc := ⟨.hbm, 137, rfl⟩
abbrev main_cst_13 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_14 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_15 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_call3_cst : Ref sig .tc := ⟨.hbm, 159, rfl⟩
abbrev main_call3_v0 : Ref sig .tc := ⟨.hbm, 160, rfl⟩
abbrev main_v107 : Ref sig .tc := ⟨.hbm, 161, rfl⟩
abbrev main_c_16 : Ref sig .tc := ⟨.hbm, 162, rfl⟩
abbrev main_v108 : Ref sig .tc := ⟨.hbm, 163, rfl⟩
abbrev main_v109 : Ref sig .tc := ⟨.hbm, 164, rfl⟩
abbrev main_c_17 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_c_18 : Ref sig .tc := ⟨.hbm, 171, rfl⟩
abbrev main_v115 : Ref sig .tc := ⟨.hbm, 172, rfl⟩
abbrev main_v116 : Ref sig .tc := ⟨.hbm, 173, rfl⟩
abbrev main_c_19 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_call4_cst : Ref sig .tc := ⟨.hbm, 186, rfl⟩
abbrev main_call4_v0 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_20 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_cst_21 : Ref sig .tc := ⟨.hbm, 197, rfl⟩
abbrev main_v136 : Ref sig .tc := ⟨.hbm, 198, rfl⟩
abbrev main_cst_22 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_cst_23 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_cst_24 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_call5_cst : Ref sig .tc := ⟨.hbm, 220, rfl⟩
abbrev main_call5_v0 : Ref sig .tc := ⟨.hbm, 221, rfl⟩
abbrev main_v155 : Ref sig .tc := ⟨.hbm, 222, rfl⟩
abbrev main_cst_25 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_cst_26 : Ref sig .tc := ⟨.hbm, 227, rfl⟩
abbrev main_v159 : Ref sig .tc := ⟨.hbm, 228, rfl⟩
abbrev main_cst_27 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_cst_28 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_cst_29 : Ref sig .tc := ⟨.hbm, 245, rfl⟩
abbrev main_v174 : Ref sig .tc := ⟨.hbm, 246, rfl⟩
abbrev main_v175 : Ref sig .tc := ⟨.hbm, 247, rfl⟩
abbrev main_cst_30 : Ref sig .tc := ⟨.hbm, 248, rfl⟩
abbrev main_v176 : Ref sig .tc := ⟨.hbm, 249, rfl⟩
abbrev main_v177 : Ref sig .tc := ⟨.hbm, 250, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S600000x32_0_1 : S1x32.BroadcastsInDim S600000x32 (![0, 1] : Fin 2 → Fin S600000x32.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S600000 : S_.BroadcastsInDim S600000 (![] : Fin 0 → Fin S600000.rank)
  bcast_S600000_S600000x1_0 : S600000.BroadcastsInDim S600000x1 (![0] : Fin 1 → Fin S600000x1.rank)
  concatenates_S600000x64_S600000x64_S600000x128_d1 : Shape.Concatenates [S600000x64, S600000x64] S600000x128 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S128 : S_.BroadcastsInDim S128 (![] : Fin 0 → Fin S128.rank)
  bcast_S1x128_S50000x128_0_1 : S1x128.BroadcastsInDim S50000x128 (![0, 1] : Fin 2 → Fin S50000x128.rank)
  concatenates_S600000x128_S600000x128_S600000x256_d1 : Shape.Concatenates [S600000x128, S600000x128] S600000x256 1
  bcast_S1x64_S600000x64_0_1 : S1x64.BroadcastsInDim S600000x64 (![0, 1] : Fin 2 → Fin S600000x64.rank)
  bcast_S_S600000x64 : S_.BroadcastsInDim S600000x64 (![] : Fin 0 → Fin S600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S64 : S_.BroadcastsInDim S64 (![] : Fin 0 → Fin S64.rank)
  bcast_S_S600000x32 : S_.BroadcastsInDim S600000x32 (![] : Fin 0 → Fin S600000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S_S32 : S_.BroadcastsInDim S32 (![] : Fin 0 → Fin S32.rank)
  bcast_S1x32_S50000x32_0_1 : S1x32.BroadcastsInDim S50000x32 (![0, 1] : Fin 2 → Fin S50000x32.rank)
  bcast_S_S2048x32 : S_.BroadcastsInDim S2048x32 (![] : Fin 0 → Fin S2048x32.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  bcast_S5_S1x5_1 : S5.BroadcastsInDim S1x5 (![1] : Fin 1 → Fin S1x5.rank)
  bcast_S1x5_S2048x5_0_1 : S1x5.BroadcastsInDim S2048x5 (![0, 1] : Fin 2 → Fin S2048x5.rank)
  bcast_S_S2048x5 : S_.BroadcastsInDim S2048x5 (![] : Fin 0 → Fin S2048x5.rank)
  dot_S600000x16_S16x32_S600000x32_1_0_0_1_n_n_wf : DotDims.WF S600000x16 S16x32 S600000x32 [1] [0] [0] [1] [] []
  dot_S50000x32_S32x64_S50000x64_1_0_0_1_n_n_wf : DotDims.WF S50000x32 S32x64 S50000x64 [1] [0] [0] [1] [] []
  gather_S50000x64_S600000x1_S600000x64_1_0_n_n_0_1_164_wf : GatherDims.WF S50000x64 S600000x1 S600000x64 [1] [0] [] [0] [] 1 ![1, 64]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  dot_S600000x256_S256x64_S600000x64_1_0_0_1_n_n_wf : DotDims.WF S600000x256 S256x64 S600000x64 [1] [0] [0] [1] [] []
  dot_S600000x64_S64x64_S600000x64_1_0_0_1_n_n_wf : DotDims.WF S600000x64 S64x64 S600000x64 [1] [0] [0] [1] [] []
  scatter_S50000x64_S600000x1_S600000x64_1_0_0_1_wf : ScatterDims.WF S50000x64 S600000x1 S600000x64 [1] [0] [0] 1
  dot_S600000x128_S128x32_S600000x32_1_0_0_1_n_n_wf : DotDims.WF S600000x128 S128x32 S600000x32 [1] [0] [0] [1] [] []
  dot_S600000x32_S32x32_S600000x32_1_0_0_1_n_n_wf : DotDims.WF S600000x32 S32x32 S600000x32 [1] [0] [0] [1] [] []
  scatter_S50000x32_S600000x1_S600000x32_1_0_0_1_wf : ScatterDims.WF S50000x32 S600000x1 S600000x32 [1] [0] [0] 1
  scatter_S2048x32_S50000x1_S50000x32_1_0_0_1_wf : ScatterDims.WF S2048x32 S50000x1 S50000x32 [1] [0] [0] 1
  scatter_S2048_S50000x1_S50000_n_0_0_1_wf : ScatterDims.WF S2048 S50000x1 S50000 [] [0] [0] 1
  dot_S2048x32_S32x5_S2048x5_1_0_0_1_n_n_wf : DotDims.WF S2048x32 S32x5 S2048x5 [1] [0] [0] [1] [] []

variable [Facts₀]

def dot_S600000x16_S16x32_S600000x32_1_0_0_1_n_n : DotDims S600000x16 S16x32 S600000x32 where
  lhsContracting := [1]
  rhsContracting := [0]
  lhsNonContracting := [0]
  rhsNonContracting := [1]
  lhsBatch := []
  rhsBatch := []
  wf := dot_S600000x16_S16x32_S600000x32_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x64_S600000x64_1_0_0_1_n_n : DotDims S600000x256 S256x64 S600000x64 where
  lhsContracting := [1]
  rhsContracting := [0]
  lhsNonContracting := [0]
  rhsNonContracting := [1]
  lhsBatch := []
  rhsBatch := []
  wf := dot_S600000x256_S256x64_S600000x64_1_0_0_1_n_n_wf
def dot_S600000x64_S64x64_S600000x64_1_0_0_1_n_n : DotDims S600000x64 S64x64 S600000x64 where
  lhsContracting := [1]
  rhsContracting := [0]
  lhsNonContracting := [0]
  rhsNonContracting := [1]
  lhsBatch := []
  rhsBatch := []
  wf := dot_S600000x64_S64x64_S600000x64_1_0_0_1_n_n_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S600000x128_S128x32_S600000x32_1_0_0_1_n_n : DotDims S600000x128 S128x32 S600000x32 where
  lhsContracting := [1]
  rhsContracting := [0]
  lhsNonContracting := [0]
  rhsNonContracting := [1]
  lhsBatch := []
  rhsBatch := []
  wf := dot_S600000x128_S128x32_S600000x32_1_0_0_1_n_n_wf
def dot_S600000x32_S32x32_S600000x32_1_0_0_1_n_n : DotDims S600000x32 S32x32 S600000x32 where
  lhsContracting := [1]
  rhsContracting := [0]
  lhsNonContracting := [0]
  rhsNonContracting := [1]
  lhsBatch := []
  rhsBatch := []
  wf := dot_S600000x32_S32x32_S600000x32_1_0_0_1_n_n_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def scatter_S2048x32_S50000x1_S50000x32_1_0_0_1 : ScatterDims S2048x32 S50000x1 S50000x32 where
  updateWindowDims := [1]
  insertedWindowDims := [0]
  scatterDimsToOperandDims := [0]
  indexVectorDim := 1
  wf := scatter_S2048x32_S50000x1_S50000x32_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x32_S32x5_S2048x5_1_0_0_1_n_n : DotDims S2048x32 S32x5 S2048x5 where
  lhsContracting := [1]
  rhsContracting := [0]
  lhsNonContracting := [0]
  rhsNonContracting := [1]
  lhsBatch := []
  rhsBatch := []
  wf := dot_S2048x32_S32x5_S2048x5_1_0_0_1_n_n_wf

class Facts : Prop extends Facts₀ where

variable [Facts]
-- ==== Proof.RefRunBase.lean ====
/-
  The reference program as a list of operations, cut into eight chunks.

  The reference is a straight line of 223 host operations. Its run is the fold of the operations' results over the
  memory it was started from, so what a buffer holds at the end is a computation on the list. Folding all 223 at once
  composes every layer's nodes several times over (each is gathered twice and joined with a difference of the
  two gathers), so the list is cut at the eight places where one array carries everything the later operations
  need: after the embedded nodes; after each layer's messages; after each layer's new nodes; and the end. The fold of
  the whole list is the fold of the eighth chunk over the fold of the seventh over … over the memory at the start.

  This file has the list (the program's own operations, in order), that it is the program, the chunks, the buffers
  after each chunk, and — for the rows of node numbers and the argument arrays, which are read far from where they
  were written — that no chunk in between writes them. (The last is a table of cases, one line per chunk and buffer
  still to be read later; the lines were laid out by a loop over that table.)
-/
import proofs.«142674_j19808389169323_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's 223 operations, in order (an outlined function's operations stand in its call's place). -/
abbrev ops : List (HloOp τ sig (Elt F)) :=
  [ binary main_arg1 main_arg2 main_v0 ((fun l r => Host.dotGeneral dot_S600000x16_S16x32_S600000x32_1_0_0_1_n_n none l r) : (⟨S600000x16, .f32⟩ : BufTy).Contents (Elt F) → (⟨S16x32, .f32⟩ : BufTy).Contents (Elt F) → (⟨S600000x32, .f32⟩ : BufTy).Contents (Elt F)),
    unary main_arg3 main_v1 (broadcastInDim S1x32 ![1] bcast_S32_S1x32_1 : (⟨S32, .f32⟩ : BufTy).Contents (Elt F) → (⟨S1x32, .f32⟩ : BufTy).Contents (Elt F)),
    unary main_v1 main_v2 (broadcastInDim S600000x32 ![0, 1] bcast_S1x32_S600000x32_0_1 : (⟨S1x32, .f32⟩ : BufTy).Contents (Elt F) → (⟨S600000x32, .f32⟩ : BufTy).Contents (Elt F)),
    binary main_v0 main_v2 main_v3 (addf : (⟨S600000x32, .f32⟩ : BufTy).Contents (Elt F) → (⟨S600000x32, .f32⟩ : BufTy).Contents (Elt F) → (⟨S600000x32, .f32⟩ : BufTy).Contents (Elt F)),
    unary main_arg26 main_v4 ((extractStridedSlice S1x600000 ![0, 0] · slices_S2x600000_S1x600000_0_0) : (⟨S2x600000, .i32⟩ : BufTy).Contents (Elt F) → (⟨S1x600000, .i32⟩ : BufTy).Contents (Elt F)),
    reshape main_v4 main_v5 rfl shapeCasts_S1x600000_S600000,
    unary main_arg26 main_v6 ((extractStridedSlice S1x600000 ![1, 0] · slices_S2x600000_S1x600000_1_0) : (⟨S2x600000, .i32⟩ : BufTy).Contents (Elt F) → (⟨S1x600000, .i32⟩ : BufTy).Contents (Elt F)),
    reshape main_v6 main_v7 rfl shapeCasts_S1x600000_S600000,
    binary main_arg0 main_arg4 main_v8 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg5 main_v9 (broadcastInDim S1x64 ![1] bcast_S64_S1x64_1 : (⟨S64, .f32⟩ : BufTy).Contents (Elt F) → (⟨S1x64, .f32⟩ : BufTy).Contents (Elt F)),
    unary main_v9 main_v10 (broadcastInDim S50000x64 ![0, 1] bcast_S1x64_S50000x64_0_1 : (⟨S1x64, .f32⟩ : BufTy).Contents (Elt F) → (⟨S50000x64, .f32⟩ : BufTy).Contents (Elt F)),
    binary main_v8 main_v10 main_v11 (addf : (⟨S50000x64, .f32⟩ : BufTy).Contents (Elt F) → (⟨S50000x64, .f32⟩ : BufTy).Contents (Elt F) → (⟨S50000x64, .f32⟩ : BufTy).Contents (Elt F)),
    nullary main_c (constantI S_ 32 0#32),
    unary main_c main_v12 (broadcastInDim S600000 ![] bcast_S_S600000 : (⟨S_, .i32⟩ : BufTy).Contents (Elt F) → (⟨S600000, .i32⟩ : BufTy).Contents (Elt F)),
    binary main_v7 main_v12 main_v13 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v14 (broadcastInDim S600000 ![] bcast_S_S600000 : (⟨S_, .i32⟩ : BufTy).Contents (Elt F) → (⟨S600000, .i32⟩ : BufTy).Contents (Elt F)),
    binary main_v7 main_v14 main_v15 (addi : (⟨S600000, .i32⟩ : BufTy).Contents (Elt F) → (⟨S600000, .i32⟩ : BufTy).Contents (Elt F) → (⟨S600000, .i32⟩ : BufTy).Contents (Elt F)),
    ternary main_v13 main_v15 main_v7 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v16 main_v17 (broadcastInDim S600000x1 ![0] bcast_S600000_S600000x1_0 : (⟨S600000, .i32⟩ : BufTy).Contents (Elt F) → (⟨S600000x1, .i32⟩ : BufTy).Contents (Elt F)),
    binary main_v11 main_v17 main_v18 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    nullary main_c_1 (constantI S_ 32 0#32),
    unary main_c_1 main_v19 (broadcastInDim S600000 ![] bcast_S_S600000 : (⟨S_, .i32⟩ : BufTy).Contents (Elt F) → (⟨S600000, .i32⟩ : BufTy).Contents (Elt F)),
    binary main_v5 main_v19 main_v20 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v21 (broadcastInDim S600000 ![] bcast_S_S600000 : (⟨S_, .i32⟩ : BufTy).Contents (Elt F) → (⟨S600000, .i32⟩ : BufTy).Contents (Elt F)),
    binary main_v5 main_v21 main_v22 (addi : (⟨S600000, .i32⟩ : BufTy).Contents (Elt F) → (⟨S600000, .i32⟩ : BufTy).Contents (Elt F) → (⟨S600000, .i32⟩ : BufTy).Contents (Elt F)),
    ternary main_v20 main_v22 main_v5 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v23 main_v24 (broadcastInDim S600000x1 ![0] bcast_S600000_S600000x1_0 : (⟨S600000, .i32⟩ : BufTy).Contents (Elt F) → (⟨S600000x1, .i32⟩ : BufTy).Contents (Elt F)),
    binary main_v11 main_v24 main_v25 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    binary main_v25 main_v18 main_v26 (subf : (⟨S600000x64, .f32⟩ : BufTy).Contents (Elt F) → (⟨S600000x64, .f32⟩ : BufTy).Contents (Elt F) → (⟨S600000x64, .f32⟩ : BufTy).Contents (Elt F)),
    binary main_v18 main_v26 main_v27 ((fun a b => concatenate S600000x128 1 [⟨S600000x64, a⟩, ⟨S600000x64, b⟩] concatenates_S600000x64_S600000x64_S600000x128_d1) : (⟨S600000x64, .f32⟩ : BufTy).Contents (Elt F) → (⟨S600000x64, .f32⟩ : BufTy).Contents (Elt F) → (⟨S600000x128, .f32⟩ : BufTy).Contents (Elt F)),
    binary main_v27 main_arg6 main_v28 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg7 main_v29 (broadcastInDim S1x128 ![1] bcast_S128_S1x128_1 : (⟨S128, .f32⟩ : BufTy).Contents (Elt F) → (⟨S1x128, .f32⟩ : BufTy).Contents (Elt F)),
    unary main_v29 main_v30 (broadcastInDim S600000x128 ![0, 1] bcast_S1x128_S600000x128_0_1 : (⟨S1x128, .f32⟩ : BufTy).Contents (Elt F) → (⟨S600000x128, .f32⟩ : BufTy).Contents (Elt F)),
    binary main_v28 main_v30 main_v31 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S600000x128, .f32⟩) main_call0_v0) (broadcastInDim S600000x128 ![] bcast_S_S600000x128),
    TRef.binary (TRef.of (T := ⟨S600000x128, .f32⟩) main_v31) (TRef.of (T := ⟨S600000x128, .f32⟩) main_call0_v0) (TRef.of (T := ⟨S600000x128, .f32⟩) main_v32) maximumf,
    binary main_v32 main_arg8 main_v33 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg9 main_v34 (broadcastInDim S1x128 ![1] bcast_S128_S1x128_1 : (⟨S128, .f32⟩ : BufTy).Contents (Elt F) → (⟨S1x128, .f32⟩ : BufTy).Contents (Elt F)),
    unary main_v34 main_v35 (broadcastInDim S600000x128 ![0, 1] bcast_S1x128_S600000x128_0_1 : (⟨S1x128, .f32⟩ : BufTy).Contents (Elt F) → (⟨S600000x128, .f32⟩ : BufTy).Contents (Elt F)),
    binary main_v33 main_v35 main_v36 (addf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    unary main_cst main_v37 (broadcastInDim S50000x128 ![] bcast_S_S50000x128 : (⟨S_, .f32⟩ : BufTy).Contents (Elt F) → (⟨S50000x128, .f32⟩ : BufTy).Contents (Elt F)),
    unary main_v7 main_v38 (broadcastInDim S600000x1 ![0] bcast_S600000_S600000x1_0 : (⟨S600000, .i32⟩ : BufTy).Contents (Elt F) → (⟨S600000x1, .i32⟩ : BufTy).Contents (Elt F)),
    ternary main_v37 main_v38 main_v36 main_v39 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_3 (constant S_ .f32 0x3F800000#32),
    unary main_cst_3 main_v40 (broadcastInDim S600000 ![] bcast_S_S600000 : (⟨S_, .f32⟩ : BufTy).Contents (Elt F) → (⟨S600000, .f32⟩ : BufTy).Contents (Elt F)),
    nullary main_cst_4 (constant S_ .f32 0x00000000#32),
    unary main_cst_4 main_v41 (broadcastInDim S50000 ![] bcast_S_S50000 : (⟨S_, .f32⟩ : BufTy).Contents (Elt F) → (⟨S50000, .f32⟩ : BufTy).Contents (Elt F)),
    unary main_v7 main_v42 (broadcastInDim S600000x1 ![0] bcast_S600000_S600000x1_0 : (⟨S600000, .i32⟩ : BufTy).Contents (Elt F) → (⟨S600000x1, .i32⟩ : BufTy).Contents (Elt F)),
    ternary main_v41 main_v42 main_v40 main_v43 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_5 (constant S_ .f32 0x3F800000#32),
    unary main_cst_5 main_v44 (broadcastInDim S50000 ![] bcast_S_S50000 : (⟨S_, .f32⟩ : BufTy).Contents (Elt F) → (⟨S50000, .f32⟩ : BufTy).Contents (Elt F)),
    binary main_v43 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v39 main_v47 main_v48 (Host.divf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3F800054#32),
    unary main_cst_6 main_v49 (Host.sqrt : (⟨S_, .f32⟩ : BufTy).Contents (Elt F) → (⟨S_, .f32⟩ : BufTy).Contents (Elt F)),
    unary main_v49 main_v50 (id : (⟨S_, .f32⟩ : BufTy).Contents (Elt F) → (⟨S_, .f32⟩ : BufTy).Contents (Elt F)),
    unary main_v50 main_v51 (broadcastInDim S128 ![] bcast_S_S128 : (⟨S_, .f32⟩ : BufTy).Contents (Elt F) → (⟨S128, .f32⟩ : BufTy).Contents (Elt F)),
    binary main_arg18 main_v51 main_v52 (Host.divf : (⟨S128, .f32⟩ : BufTy).Contents (Elt F) → (⟨S128, .f32⟩ : BufTy).Contents (Elt F) → (⟨S128, .f32⟩ : BufTy).Contents (Elt F)),
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v48 main_v54 main_v55 (mulf : (⟨S50000x128, .f32⟩ : BufTy).Contents (Elt F) → (⟨S50000x128, .f32⟩ : BufTy).Contents (Elt F) → (⟨S50000x128, .f32⟩ : BufTy).Contents (Elt F)),
    unary main_arg19 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v58) (TRef.of (T := ⟨S50000x128, .f32⟩) main_call1_v0) (TRef.of (T := ⟨S50000x128, .f32⟩) main_v59) maximumf,
    nullary main_c_7 (constantI S_ 32 0#32),
    unary main_c_7 main_v60 (broadcastInDim S600000 ![] bcast_S_S600000 : (⟨S_, .i32⟩ : BufTy).Contents (Elt F) → (⟨S600000, .i32⟩ : BufTy).Contents (Elt F)),
    binary main_v7 main_v60 main_v61 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v62 (broadcastInDim S600000 ![] bcast_S_S600000 : (⟨S_, .i32⟩ : BufTy).Contents (Elt F) → (⟨S600000, .i32⟩ : BufTy).Contents (Elt F)),
    binary main_v7 main_v62 main_v63 (addi : (⟨S600000, .i32⟩ : BufTy).Contents (Elt F) → (⟨S600000, .i32⟩ : BufTy).Contents (Elt F) → (⟨S600000, .i32⟩ : BufTy).Contents (Elt F)),
    ternary main_v61 main_v63 main_v7 main_v64 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v64 main_v65 (broadcastInDim S600000x1 ![0] bcast_S600000_S600000x1_0 : (⟨S600000, .i32⟩ : BufTy).Contents (Elt F) → (⟨S600000x1, .i32⟩ : BufTy).Contents (Elt F)),
    binary main_v59 main_v65 main_v66 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_9 (constantI S_ 32 0#32),
    unary main_c_9 main_v67 (broadcastInDim S600000 ![] bcast_S_S600000 : (⟨S_, .i32⟩ : BufTy).Contents (Elt F) → (⟨S600000, .i32⟩ : BufTy).Contents (Elt F)),
    binary main_v5 main_v67 main_v68 (cmpi .slt : (⟨S600000, .i32⟩ : BufTy).Contents (Elt F) → (⟨S600000, .i32⟩ : BufTy).Contents (Elt F) → (⟨S600000, .i1⟩ : BufTy).Contents (Elt F)),
    nullary main_c_10 (constantI S_ 32 50000#32),
    unary main_c_10 main_v69 (broadcastInDim S600000 ![] bcast_S_S600000 : (⟨S_, .i32⟩ : BufTy).Contents (Elt F) → (⟨S600000, .i32⟩ : BufTy).Contents (Elt F)),
    binary main_v5 main_v69 main_v70 (addi : (⟨S600000, .i32⟩ : BufTy).Contents (Elt F) → (⟨S600000, .i32⟩ : BufTy).Contents (Elt F) → (⟨S600000, .i32⟩ : BufTy).Contents (Elt F)),
    ternary main_v68 main_v70 main_v5 main_v71 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v71 main_v72 (broadcastInDim S600000x1 ![0] bcast_S600000_S600000x1_0 : (⟨S600000, .i32⟩ : BufTy).Contents (Elt F) → (⟨S600000x1, .i32⟩ : BufTy).Contents (Elt F)),
    binary main_v59 main_v72 main_v73 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v73 main_v66 main_v74 (subf : (⟨S600000x128, .f32⟩ : BufTy).Contents (Elt F) → (⟨S600000x128, .f32⟩ : BufTy).Contents (Elt F) → (⟨S600000x128, .f32⟩ : BufTy).Contents (Elt F)),
    binary main_v66 main_v74 main_v75 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    binary main_v75 main_arg10 main_v76 ((fun l r => Host.dotGeneral dot_S600000x256_S256x64_S600000x64_1_0_0_1_n_n none l r) : (⟨S600000x256, .f32⟩ : BufTy).Contents (Elt F) → (⟨S256x64, .f32⟩ : BufTy).Contents (Elt F) → (⟨S600000x64, .f32⟩ : BufTy).Contents (Elt F)),
    unary main_arg11 main_v77 (broadcastInDim S1x64 ![1] bcast_S64_S1x64_1 : (⟨S64, .f32⟩ : BufTy).Contents (Elt F) → (⟨S1x64, .f32⟩ : BufTy).Contents (Elt F)),
    unary main_v77 main_v78 (broadcastInDim S600000x64 ![0, 1] bcast_S1x64_S600000x64_0_1 : (⟨S1x64, .f32⟩ : BufTy).Contents (Elt F) → (⟨S600000x64, .f32⟩ : BufTy).Contents (Elt F)),
    binary main_v76 main_v78 main_v79 (addf : (⟨S600000x64, .f32⟩ : BufTy).Contents (Elt F) → (⟨S600000x64, .f32⟩ : BufTy).Contents (Elt F) → (⟨S600000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S600000x64, .f32⟩) main_call2_v0) (broadcastInDim S600000x64 ![] bcast_S_S600000x64),
    TRef.binary (TRef.of (T := ⟨S600000x64, .f32⟩) main_v79) (TRef.of (T := ⟨S600000x64, .f32⟩) main_call2_v0) (TRef.of (T := ⟨S600000x64, .f32⟩) main_v80) maximumf,
    binary main_v80 main_arg12 main_v81 ((fun l r => Host.dotGeneral dot_S600000x64_S64x64_S600000x64_1_0_0_1_n_n none l r) : (⟨S600000x64, .f32⟩ : BufTy).Contents (Elt F) → (⟨S64x64, .f32⟩ : BufTy).Contents (Elt F) → (⟨S600000x64, .f32⟩ : BufTy).Contents (Elt F)),
    unary main_arg13 main_v82 (broadcastInDim S1x64 ![1] bcast_S64_S1x64_1 : (⟨S64, .f32⟩ : BufTy).Contents (Elt F) → (⟨S1x64, .f32⟩ : BufTy).Contents (Elt F)),
    unary main_v82 main_v83 (broadcastInDim S600000x64 ![0, 1] bcast_S1x64_S600000x64_0_1 : (⟨S1x64, .f32⟩ : BufTy).Contents (Elt F) → (⟨S600000x64, .f32⟩ : BufTy).Contents (Elt F)),
    binary main_v81 main_v83 main_v84 (addf : (⟨S600000x64, .f32⟩ : BufTy).Contents (Elt F) → (⟨S600000x64, .f32⟩ : BufTy).Contents (Elt F) → (⟨S600000x64, .f32⟩ : BufTy).Contents (Elt F)),
    nullary main_cst_11 (constant S_ .f32 0x00000000#32),
    unary main_cst_11 main_v85 (broadcastInDim S50000x64 ![] bcast_S_S50000x64 : (⟨S_, .f32⟩ : BufTy).Contents (Elt F) → (⟨S50000x64, .f32⟩ : BufTy).Contents (Elt F)),
    unary main_v7 main_v86 (broadcastInDim S600000x1 ![0] bcast_S600000_S600000x1_0 : (⟨S600000, .i32⟩ : BufTy).Contents (Elt F) → (⟨S600000x1, .i32⟩ : BufTy).Contents (Elt F)),
    ternary main_v85 main_v86 main_v84 main_v87 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F)),
    nullary main_cst_12 (constant S_ .f32 0x3F800000#32),
    unary main_cst_12 main_v88 (broadcastInDim S600000 ![] bcast_S_S600000 : (⟨S_, .f32⟩ : BufTy).Contents (Elt F) → (⟨S600000, .f32⟩ : BufTy).Contents (Elt F)),
    nullary main_cst_13 (constant S_ .f32 0x00000000#32),
    unary main_cst_13 main_v89 (broadcastInDim S50000 ![] bcast_S_S50000 : (⟨S_, .f32⟩ : BufTy).Contents (Elt F) → (⟨S50000, .f32⟩ : BufTy).Contents (Elt F)),
    unary main_v7 main_v90 (broadcastInDim S600000x1 ![0] bcast_S600000_S600000x1_0 : (⟨S600000, .i32⟩ : BufTy).Contents (Elt F) → (⟨S600000x1, .i32⟩ : BufTy).Contents (Elt F)),
    ternary main_v89 main_v90 main_v88 main_v91 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_14 (constant S_ .f32 0x3F800000#32),
    unary main_cst_14 main_v92 (broadcastInDim S50000 ![] bcast_S_S50000 : (⟨S_, .f32⟩ : BufTy).Contents (Elt F) → (⟨S50000, .f32⟩ : BufTy).Contents (Elt F)),
    binary main_v91 main_v92 main_v93 (maximumf : (⟨S50000, .f32⟩ : BufTy).Contents (Elt F) → (⟨S50000, .f32⟩ : BufTy).Contents (Elt F) → (⟨S50000, .f32⟩ : BufTy).Contents (Elt F)),
    unary main_v93 main_v94 (broadcastInDim S50000x1 ![0] bcast_S50000_S50000x1_0 : (⟨S50000, .f32⟩ : BufTy).Contents (Elt F) → (⟨S50000x1, .f32⟩ : BufTy).Contents (Elt F)),
    unary main_v94 main_v95 (broadcastInDim S50000x64 ![0, 1] bcast_S50000x1_S50000x64_0_1 : (⟨S50000x1, .f32⟩ : BufTy).Contents (Elt F) → (⟨S50000x64, .f32⟩ : BufTy).Contents (Elt F)),
    binary main_v87 main_v95 main_v96 (Host.divf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x3F800054#32),
    unary main_cst_15 main_v97 (Host.sqrt : (⟨S_, .f32⟩ : BufTy).Contents (Elt F) → (⟨S_, .f32⟩ : BufTy).Contents (Elt F)),
    unary main_v97 main_v98 (id : (⟨S_, .f32⟩ : BufTy).Contents (Elt F) → (⟨S_, .f32⟩ : BufTy).Contents (Elt F)),
    unary main_v98 main_v99 (broadcastInDim S64 ![] bcast_S_S64 : (⟨S_, .f32⟩ : BufTy).Contents (Elt F) → (⟨S64, .f32⟩ : BufTy).Contents (Elt F)),
    binary main_arg20 main_v99 main_v100 (Host.divf : (⟨S64, .f32⟩ : BufTy).Contents (Elt F) → (⟨S64, .f32⟩ : BufTy).Contents (Elt F) → (⟨S64, .f32⟩ : BufTy).Contents (Elt F)),
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v96 main_v102 main_v103 (mulf : (⟨S50000x64, .f32⟩ : BufTy).Contents (Elt F) → (⟨S50000x64, .f32⟩ : BufTy).Contents (Elt F) → (⟨S50000x64, .f32⟩ : BufTy).Contents (Elt F)),
    unary main_arg21 main_v104 (broadcastInDim S1x64 ![1] bcast_S64_S1x64_1 : (⟨S64, .f32⟩ : BufTy).Contents (Elt F) → (⟨S1x64, .f32⟩ : BufTy).Contents (Elt F)),
    unary main_v104 main_v105 (broadcastInDim S50000x64 ![0, 1] bcast_S1x64_S50000x64_0_1 : (⟨S1x64, .f32⟩ : BufTy).Contents (Elt F) → (⟨S50000x64, .f32⟩ : BufTy).Contents (Elt F)),
    binary main_v103 main_v105 main_v106 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v106) (TRef.of (T := ⟨S50000x64, .f32⟩) main_call3_v0) (TRef.of (T := ⟨S50000x64, .f32⟩) main_v107) maximumf,
    nullary main_c_16 (constantI S_ 32 0#32),
    unary main_c_16 main_v108 (broadcastInDim S600000 ![] bcast_S_S600000 : (⟨S_, .i32⟩ : BufTy).Contents (Elt F) → (⟨S600000, .i32⟩ : BufTy).Contents (Elt F)),
    binary main_v7 main_v108 main_v109 (cmpi .slt : (⟨S600000, .i32⟩ : BufTy).Contents (Elt F) → (⟨S600000, .i32⟩ : BufTy).Contents (Elt F) → (⟨S600000, .i1⟩ : BufTy).Contents (Elt F)),
    nullary main_c_17 (constantI S_ 32 50000#32),
    unary main_c_17 main_v110 (broadcastInDim S600000 ![] bcast_S_S600000 : (⟨S_, .i32⟩ : BufTy).Contents (Elt F) → (⟨S600000, .i32⟩ : BufTy).Contents (Elt F)),
    binary main_v7 main_v110 main_v111 (addi : (⟨S600000, .i32⟩ : BufTy).Contents (Elt F) → (⟨S600000, .i32⟩ : BufTy).Contents (Elt F) → (⟨S600000, .i32⟩ : BufTy).Contents (Elt F)),
    ternary main_v109 main_v111 main_v7 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v112 main_v113 (broadcastInDim S600000x1 ![0] bcast_S600000_S600000x1_0 : (⟨S600000, .i32⟩ : BufTy).Contents (Elt F) → (⟨S600000x1, .i32⟩ : BufTy).Contents (Elt F)),
    binary main_v107 main_v113 main_v114 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    nullary main_c_18 (constantI S_ 32 0#32),
    unary main_c_18 main_v115 (broadcastInDim S600000 ![] bcast_S_S600000 : (⟨S_, .i32⟩ : BufTy).Contents (Elt F) → (⟨S600000, .i32⟩ : BufTy).Contents (Elt F)),
    binary main_v5 main_v115 main_v116 (cmpi .slt : (⟨S600000, .i32⟩ : BufTy).Contents (Elt F) → (⟨S600000, .i32⟩ : BufTy).Contents (Elt F) → (⟨S600000, .i1⟩ : BufTy).Contents (Elt F)),
    nullary main_c_19 (constantI S_ 32 50000#32),
    unary main_c_19 main_v117 (broadcastInDim S600000 ![] bcast_S_S600000 : (⟨S_, .i32⟩ : BufTy).Contents (Elt F) → (⟨S600000, .i32⟩ : BufTy).Contents (Elt F)),
    binary main_v5 main_v117 main_v118 (addi : (⟨S600000, .i32⟩ : BufTy).Contents (Elt F) → (⟨S600000, .i32⟩ : BufTy).Contents (Elt F) → (⟨S600000, .i32⟩ : BufTy).Contents (Elt F)),
    ternary main_v116 main_v118 main_v5 main_v119 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v119 main_v120 (broadcastInDim S600000x1 ![0] bcast_S600000_S600000x1_0 : (⟨S600000, .i32⟩ : BufTy).Contents (Elt F) → (⟨S600000x1, .i32⟩ : BufTy).Contents (Elt F)),
    binary main_v107 main_v120 main_v121 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    binary main_v121 main_v114 main_v122 (subf : (⟨S600000x64, .f32⟩ : BufTy).Contents (Elt F) → (⟨S600000x64, .f32⟩ : BufTy).Contents (Elt F) → (⟨S600000x64, .f32⟩ : BufTy).Contents (Elt F)),
    binary main_v114 main_v122 main_v123 ((fun a b => concatenate S600000x128 1 [⟨S600000x64, a⟩, ⟨S600000x64, b⟩] concatenates_S600000x64_S600000x64_S600000x128_d1) : (⟨S600000x64, .f32⟩ : BufTy).Contents (Elt F) → (⟨S600000x64, .f32⟩ : BufTy).Contents (Elt F) → (⟨S600000x128, .f32⟩ : BufTy).Contents (Elt F)),
    binary main_v123 main_arg14 main_v124 ((fun l r => Host.dotGeneral dot_S600000x128_S128x32_S600000x32_1_0_0_1_n_n none l r) : (⟨S600000x128, .f32⟩ : BufTy).Contents (Elt F) → (⟨S128x32, .f32⟩ : BufTy).Contents (Elt F) → (⟨S600000x32, .f32⟩ : BufTy).Contents (Elt F)),
    unary main_arg15 main_v125 (broadcastInDim S1x32 ![1] bcast_S32_S1x32_1 : (⟨S32, .f32⟩ : BufTy).Contents (Elt F) → (⟨S1x32, .f32⟩ : BufTy).Contents (Elt F)),
    unary main_v125 main_v126 (broadcastInDim S600000x32 ![0, 1] bcast_S1x32_S600000x32_0_1 : (⟨S1x32, .f32⟩ : BufTy).Contents (Elt F) → (⟨S600000x32, .f32⟩ : BufTy).Contents (Elt F)),
    binary main_v124 main_v126 main_v127 (addf : (⟨S600000x32, .f32⟩ : BufTy).Contents (Elt F) → (⟨S600000x32, .f32⟩ : BufTy).Contents (Elt F) → (⟨S600000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S600000x32, .f32⟩) main_call4_v0) (broadcastInDim S600000x32 ![] bcast_S_S600000x32),
    TRef.binary (TRef.of (T := ⟨S600000x32, .f32⟩) main_v127) (TRef.of (T := ⟨S600000x32, .f32⟩) main_call4_v0) (TRef.of (T := ⟨S600000x32, .f32⟩) main_v128) maximumf,
    binary main_v128 main_arg16 main_v129 ((fun l r => Host.dotGeneral dot_S600000x32_S32x32_S600000x32_1_0_0_1_n_n none l r) : (⟨S600000x32, .f32⟩ : BufTy).Contents (Elt F) → (⟨S32x32, .f32⟩ : BufTy).Contents (Elt F) → (⟨S600000x32, .f32⟩ : BufTy).Contents (Elt F)),
    unary main_arg17 main_v130 (broadcastInDim S1x32 ![1] bcast_S32_S1x32_1 : (⟨S32, .f32⟩ : BufTy).Contents (Elt F) → (⟨S1x32, .f32⟩ : BufTy).Contents (Elt F)),
    unary main_v130 main_v131 (broadcastInDim S600000x32 ![0, 1] bcast_S1x32_S600000x32_0_1 : (⟨S1x32, .f32⟩ : BufTy).Contents (Elt F) → (⟨S600000x32, .f32⟩ : BufTy).Contents (Elt F)),
    binary main_v129 main_v131 main_v132 (addf : (⟨S600000x32, .f32⟩ : BufTy).Contents (Elt F) → (⟨S600000x32, .f32⟩ : BufTy).Contents (Elt F) → (⟨S600000x32, .f32⟩ : BufTy).Contents (Elt F)),
    nullary main_cst_20 (constant S_ .f32 0x00000000#32),
    unary main_cst_20 main_v133 (broadcastInDim S50000x32 ![] bcast_S_S50000x32 : (⟨S_, .f32⟩ : BufTy).Contents (Elt F) → (⟨S50000x32, .f32⟩ : BufTy).Contents (Elt F)),
    unary main_v7 main_v134 (broadcastInDim S600000x1 ![0] bcast_S600000_S600000x1_0 : (⟨S600000, .i32⟩ : BufTy).Contents (Elt F) → (⟨S600000x1, .i32⟩ : BufTy).Contents (Elt F)),
    ternary main_v133 main_v134 main_v132 main_v135 ((fun x i u => Host.scatterAdd scatter_S50000x32_S600000x1_S600000x32_1_0_0_1 x i u) : (⟨S50000x32, .f32⟩ : BufTy).Contents (Elt F) → (⟨S600000x1, .i32⟩ : BufTy).Contents (Elt F) → (⟨S600000x32, .f32⟩ : BufTy).Contents (Elt F) → (⟨S50000x32, .f32⟩ : BufTy).Contents (Elt F)),
    nullary main_cst_21 (constant S_ .f32 0x3F800000#32),
    unary main_cst_21 main_v136 (broadcastInDim S600000 ![] bcast_S_S600000 : (⟨S_, .f32⟩ : BufTy).Contents (Elt F) → (⟨S600000, .f32⟩ : BufTy).Contents (Elt F)),
    nullary main_cst_22 (constant S_ .f32 0x00000000#32),
    unary main_cst_22 main_v137 (broadcastInDim S50000 ![] bcast_S_S50000 : (⟨S_, .f32⟩ : BufTy).Contents (Elt F) → (⟨S50000, .f32⟩ : BufTy).Contents (Elt F)),
    unary main_v7 main_v138 (broadcastInDim S600000x1 ![0] bcast_S600000_S600000x1_0 : (⟨S600000, .i32⟩ : BufTy).Contents (Elt F) → (⟨S600000x1, .i32⟩ : BufTy).Contents (Elt F)),
    ternary main_v137 main_v138 main_v136 main_v139 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_23 (constant S_ .f32 0x3F800000#32),
    unary main_cst_23 main_v140 (broadcastInDim S50000 ![] bcast_S_S50000 : (⟨S_, .f32⟩ : BufTy).Contents (Elt F) → (⟨S50000, .f32⟩ : BufTy).Contents (Elt F)),
    binary main_v139 main_v140 main_v141 (maximumf : (⟨S50000, .f32⟩ : BufTy).Contents (Elt F) → (⟨S50000, .f32⟩ : BufTy).Contents (Elt F) → (⟨S50000, .f32⟩ : BufTy).Contents (Elt F)),
    unary main_v141 main_v142 (broadcastInDim S50000x1 ![0] bcast_S50000_S50000x1_0 : (⟨S50000, .f32⟩ : BufTy).Contents (Elt F) → (⟨S50000x1, .f32⟩ : BufTy).Contents (Elt F)),
    unary main_v142 main_v143 (broadcastInDim S50000x32 ![0, 1] bcast_S50000x1_S50000x32_0_1 : (⟨S50000x1, .f32⟩ : BufTy).Contents (Elt F) → (⟨S50000x32, .f32⟩ : BufTy).Contents (Elt F)),
    binary main_v135 main_v143 main_v144 (Host.divf : (⟨S50000x32, .f32⟩ : BufTy).Contents (Elt F) → (⟨S50000x32, .f32⟩ : BufTy).Contents (Elt F) → (⟨S50000x32, .f32⟩ : BufTy).Contents (Elt F)),
    nullary main_cst_24 (constant S_ .f32 0x3F800054#32),
    unary main_cst_24 main_v145 (Host.sqrt : (⟨S_, .f32⟩ : BufTy).Contents (Elt F) → (⟨S_, .f32⟩ : BufTy).Contents (Elt F)),
    unary main_v145 main_v146 (id : (⟨S_, .f32⟩ : BufTy).Contents (Elt F) → (⟨S_, .f32⟩ : BufTy).Contents (Elt F)),
    unary main_v146 main_v147 (broadcastInDim S32 ![] bcast_S_S32 : (⟨S_, .f32⟩ : BufTy).Contents (Elt F) → (⟨S32, .f32⟩ : BufTy).Contents (Elt F)),
    binary main_arg22 main_v147 main_v148 (Host.divf : (⟨S32, .f32⟩ : BufTy).Contents (Elt F) → (⟨S32, .f32⟩ : BufTy).Contents (Elt F) → (⟨S32, .f32⟩ : BufTy).Contents (Elt F)),
    unary main_v148 main_v149 (broadcastInDim S1x32 ![1] bcast_S32_S1x32_1 : (⟨S32, .f32⟩ : BufTy).Contents (Elt F) → (⟨S1x32, .f32⟩ : BufTy).Contents (Elt F)),
    unary main_v149 main_v150 (broadcastInDim S50000x32 ![0, 1] bcast_S1x32_S50000x32_0_1 : (⟨S1x32, .f32⟩ : BufTy).Contents (Elt F) → (⟨S50000x32, .f32⟩ : BufTy).Contents (Elt F)),
    binary main_v144 main_v150 main_v151 (mulf : (⟨S50000x32, .f32⟩ : BufTy).Contents (Elt F) → (⟨S50000x32, .f32⟩ : BufTy).Contents (Elt F) → (⟨S50000x32, .f32⟩ : BufTy).Contents (Elt F)),
    unary main_arg23 main_v152 (broadcastInDim S1x32 ![1] bcast_S32_S1x32_1 : (⟨S32, .f32⟩ : BufTy).Contents (Elt F) → (⟨S1x32, .f32⟩ : BufTy).Contents (Elt F)),
    unary main_v152 main_v153 (broadcastInDim S50000x32 ![0, 1] bcast_S1x32_S50000x32_0_1 : (⟨S1x32, .f32⟩ : BufTy).Contents (Elt F) → (⟨S50000x32, .f32⟩ : BufTy).Contents (Elt F)),
    binary main_v151 main_v153 main_v154 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x32, .f32⟩) main_call5_v0) (broadcastInDim S50000x32 ![] bcast_S_S50000x32),
    TRef.binary (TRef.of (T := ⟨S50000x32, .f32⟩) main_v154) (TRef.of (T := ⟨S50000x32, .f32⟩) main_call5_v0) (TRef.of (T := ⟨S50000x32, .f32⟩) main_v155) maximumf,
    nullary main_cst_25 (constant S_ .f32 0x00000000#32),
    unary main_cst_25 main_v156 (broadcastInDim S2048x32 ![] bcast_S_S2048x32 : (⟨S_, .f32⟩ : BufTy).Contents (Elt F) → (⟨S2048x32, .f32⟩ : BufTy).Contents (Elt F)),
    unary main_arg27 main_v157 (broadcastInDim S50000x1 ![0] bcast_S50000_S50000x1_0 : (⟨S50000, .i32⟩ : BufTy).Contents (Elt F) → (⟨S50000x1, .i32⟩ : BufTy).Contents (Elt F)),
    ternary main_v156 main_v157 main_v155 main_v158 ((fun x i u => Host.scatterAdd scatter_S2048x32_S50000x1_S50000x32_1_0_0_1 x i u) : (⟨S2048x32, .f32⟩ : BufTy).Contents (Elt F) → (⟨S50000x1, .i32⟩ : BufTy).Contents (Elt F) → (⟨S50000x32, .f32⟩ : BufTy).Contents (Elt F) → (⟨S2048x32, .f32⟩ : BufTy).Contents (Elt F)),
    nullary main_cst_26 (constant S_ .f32 0x3F800000#32),
    unary main_cst_26 main_v159 (broadcastInDim S50000 ![] bcast_S_S50000 : (⟨S_, .f32⟩ : BufTy).Contents (Elt F) → (⟨S50000, .f32⟩ : BufTy).Contents (Elt F)),
    nullary main_cst_27 (constant S_ .f32 0x00000000#32),
    unary main_cst_27 main_v160 (broadcastInDim S2048 ![] bcast_S_S2048 : (⟨S_, .f32⟩ : BufTy).Contents (Elt F) → (⟨S2048, .f32⟩ : BufTy).Contents (Elt F)),
    unary main_arg27 main_v161 (broadcastInDim S50000x1 ![0] bcast_S50000_S50000x1_0 : (⟨S50000, .i32⟩ : BufTy).Contents (Elt F) → (⟨S50000x1, .i32⟩ : BufTy).Contents (Elt F)),
    ternary main_v160 main_v161 main_v159 main_v162 ((fun x i u => Host.scatterAdd scatter_S2048_S50000x1_S50000_n_0_0_1 x i u) : (⟨S2048, .f32⟩ : BufTy).Contents (Elt F) → (⟨S50000x1, .i32⟩ : BufTy).Contents (Elt F) → (⟨S50000, .f32⟩ : BufTy).Contents (Elt F) → (⟨S2048, .f32⟩ : BufTy).Contents (Elt F)),
    nullary main_cst_28 (constant S_ .f32 0x3F800000#32),
    unary main_cst_28 main_v163 (broadcastInDim S2048 ![] bcast_S_S2048 : (⟨S_, .f32⟩ : BufTy).Contents (Elt F) → (⟨S2048, .f32⟩ : BufTy).Contents (Elt F)),
    binary main_v162 main_v163 main_v164 (maximumf : (⟨S2048, .f32⟩ : BufTy).Contents (Elt F) → (⟨S2048, .f32⟩ : BufTy).Contents (Elt F) → (⟨S2048, .f32⟩ : BufTy).Contents (Elt F)),
    unary main_v164 main_v165 (broadcastInDim S2048x1 ![0] bcast_S2048_S2048x1_0 : (⟨S2048, .f32⟩ : BufTy).Contents (Elt F) → (⟨S2048x1, .f32⟩ : BufTy).Contents (Elt F)),
    unary main_v165 main_v166 (broadcastInDim S2048x32 ![0, 1] bcast_S2048x1_S2048x32_0_1 : (⟨S2048x1, .f32⟩ : BufTy).Contents (Elt F) → (⟨S2048x32, .f32⟩ : BufTy).Contents (Elt F)),
    binary main_v158 main_v166 main_v167 (Host.divf : (⟨S2048x32, .f32⟩ : BufTy).Contents (Elt F) → (⟨S2048x32, .f32⟩ : BufTy).Contents (Elt F) → (⟨S2048x32, .f32⟩ : BufTy).Contents (Elt F)),
    binary main_v167 main_arg24 main_v168 ((fun l r => Host.dotGeneral dot_S2048x32_S32x5_S2048x5_1_0_0_1_n_n none l r) : (⟨S2048x32, .f32⟩ : BufTy).Contents (Elt F) → (⟨S32x5, .f32⟩ : BufTy).Contents (Elt F) → (⟨S2048x5, .f32⟩ : BufTy).Contents (Elt F)),
    unary main_arg25 main_v169 (broadcastInDim S1x5 ![1] bcast_S5_S1x5_1 : (⟨S5, .f32⟩ : BufTy).Contents (Elt F) → (⟨S1x5, .f32⟩ : BufTy).Contents (Elt F)),
    unary main_v169 main_v170 (broadcastInDim S2048x5 ![0, 1] bcast_S1x5_S2048x5_0_1 : (⟨S1x5, .f32⟩ : BufTy).Contents (Elt F) → (⟨S2048x5, .f32⟩ : BufTy).Contents (Elt F)),
    binary main_v168 main_v170 main_v171 (addf : (⟨S2048x5, .f32⟩ : BufTy).Contents (Elt F) → (⟨S2048x5, .f32⟩ : BufTy).Contents (Elt F) → (⟨S2048x5, .f32⟩ : BufTy).Contents (Elt F)),
    unary main_v171 main_v172 (Host.negf : (⟨S2048x5, .f32⟩ : BufTy).Contents (Elt F) → (⟨S2048x5, .f32⟩ : BufTy).Contents (Elt F)),
    unary main_v172 main_v173 (Host.exp : (⟨S2048x5, .f32⟩ : BufTy).Contents (Elt F) → (⟨S2048x5, .f32⟩ : BufTy).Contents (Elt F)),
    nullary main_cst_29 (constant S_ .f32 0x3F800000#32),
    unary main_cst_29 main_v174 (broadcastInDim S2048x5 ![] bcast_S_S2048x5 : (⟨S_, .f32⟩ : BufTy).Contents (Elt F) → (⟨S2048x5, .f32⟩ : BufTy).Contents (Elt F)),
    binary main_v174 main_v173 main_v175 (addf : (⟨S2048x5, .f32⟩ : BufTy).Contents (Elt F) → (⟨S2048x5, .f32⟩ : BufTy).Contents (Elt F) → (⟨S2048x5, .f32⟩ : BufTy).Contents (Elt F)),
    nullary main_cst_30 (constant S_ .f32 0x3F800000#32),
    unary main_cst_30 main_v176 (broadcastInDim S2048x5 ![] bcast_S_S2048x5 : (⟨S_, .f32⟩ : BufTy).Contents (Elt F) → (⟨S2048x5, .f32⟩ : BufTy).Contents (Elt F)),
    binary main_v176 main_v175 main_v177 (Host.divf : (⟨S2048x5, .f32⟩ : BufTy).Contents (Elt F) → (⟨S2048x5, .f32⟩ : BufTy).Contents (Elt F) → (⟨S2048x5, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## The chunks -/

/-- Operations 0–11: the unused edge embedding, the two rows of node numbers, and the embedded nodes. -/
abbrev ops1 : List (HloOp τ sig (Elt F)) :=
  [ binary main_arg1 main_arg2 main_v0 ((fun l r => Host.dotGeneral dot_S600000x16_S16x32_S600000x32_1_0_0_1_n_n none l r) : (⟨S600000x16, .f32⟩ : BufTy).Contents (Elt F) → (⟨S16x32, .f32⟩ : BufTy).Contents (Elt F) → (⟨S600000x32, .f32⟩ : BufTy).Contents (Elt F)),
    unary main_arg3 main_v1 (broadcastInDim S1x32 ![1] bcast_S32_S1x32_1 : (⟨S32, .f32⟩ : BufTy).Contents (Elt F) → (⟨S1x32, .f32⟩ : BufTy).Contents (Elt F)),
    unary main_v1 main_v2 (broadcastInDim S600000x32 ![0, 1] bcast_S1x32_S600000x32_0_1 : (⟨S1x32, .f32⟩ : BufTy).Contents (Elt F) → (⟨S600000x32, .f32⟩ : BufTy).Contents (Elt F)),
    binary main_v0 main_v2 main_v3 (addf : (⟨S600000x32, .f32⟩ : BufTy).Contents (Elt F) → (⟨S600000x32, .f32⟩ : BufTy).Contents (Elt F) → (⟨S600000x32, .f32⟩ : BufTy).Contents (Elt F)),
    unary main_arg26 main_v4 ((extractStridedSlice S1x600000 ![0, 0] · slices_S2x600000_S1x600000_0_0) : (⟨S2x600000, .i32⟩ : BufTy).Contents (Elt F) → (⟨S1x600000, .i32⟩ : BufTy).Contents (Elt F)),
    reshape main_v4 main_v5 rfl shapeCasts_S1x600000_S600000,
    unary main_arg26 main_v6 ((extractStridedSlice S1x600000 ![1, 0] · slices_S2x600000_S1x600000_1_0) : (⟨S2x600000, .i32⟩ : BufTy).Contents (Elt F) → (⟨S1x600000, .i32⟩ : BufTy).Contents (Elt F)),
    reshape main_v6 main_v7 rfl shapeCasts_S1x600000_S600000,
    binary main_arg0 main_arg4 main_v8 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg5 main_v9 (broadcastInDim S1x64 ![1] bcast_S64_S1x64_1 : (⟨S64, .f32⟩ : BufTy).Contents (Elt F) → (⟨S1x64, .f32⟩ : BufTy).Contents (Elt F)),
    unary main_v9 main_v10 (broadcastInDim S50000x64 ![0, 1] bcast_S1x64_S50000x64_0_1 : (⟨S1x64, .f32⟩ : BufTy).Contents (Elt F) → (⟨S50000x64, .f32⟩ : BufTy).Contents (Elt F)),
    binary main_v8 main_v10 main_v11 (addf : (⟨S50000x64, .f32⟩ : BufTy).Contents (Elt F) → (⟨S50000x64, .f32⟩ : BufTy).Contents (Elt F) → (⟨S50000x64, .f32⟩ : BufTy).Contents (Elt F)) ]

/-- Operations 12–42: layer 1: the gathers, the joined product, the hidden layer and the messages. -/
abbrev ops2 : List (HloOp τ sig (Elt F)) :=
  [ nullary main_c (constantI S_ 32 0#32),
    unary main_c main_v12 (broadcastInDim S600000 ![] bcast_S_S600000 : (⟨S_, .i32⟩ : BufTy).Contents (Elt F) → (⟨S600000, .i32⟩ : BufTy).Contents (Elt F)),
    binary main_v7 main_v12 main_v13 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v14 (broadcastInDim S600000 ![] bcast_S_S600000 : (⟨S_, .i32⟩ : BufTy).Contents (Elt F) → (⟨S600000, .i32⟩ : BufTy).Contents (Elt F)),
    binary main_v7 main_v14 main_v15 (addi : (⟨S600000, .i32⟩ : BufTy).Contents (Elt F) → (⟨S600000, .i32⟩ : BufTy).Contents (Elt F) → (⟨S600000, .i32⟩ : BufTy).Contents (Elt F)),
    ternary main_v13 main_v15 main_v7 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v16 main_v17 (broadcastInDim S600000x1 ![0] bcast_S600000_S600000x1_0 : (⟨S600000, .i32⟩ : BufTy).Contents (Elt F) → (⟨S600000x1, .i32⟩ : BufTy).Contents (Elt F)),
    binary main_v11 main_v17 main_v18 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    nullary main_c_1 (constantI S_ 32 0#32),
    unary main_c_1 main_v19 (broadcastInDim S600000 ![] bcast_S_S600000 : (⟨S_, .i32⟩ : BufTy).Contents (Elt F) → (⟨S600000, .i32⟩ : BufTy).Contents (Elt F)),
    binary main_v5 main_v19 main_v20 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v21 (broadcastInDim S600000 ![] bcast_S_S600000 : (⟨S_, .i32⟩ : BufTy).Contents (Elt F) → (⟨S600000, .i32⟩ : BufTy).Contents (Elt F)),
    binary main_v5 main_v21 main_v22 (addi : (⟨S600000, .i32⟩ : BufTy).Contents (Elt F) → (⟨S600000, .i32⟩ : BufTy).Contents (Elt F) → (⟨S600000, .i32⟩ : BufTy).Contents (Elt F)),
    ternary main_v20 main_v22 main_v5 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v23 main_v24 (broadcastInDim S600000x1 ![0] bcast_S600000_S600000x1_0 : (⟨S600000, .i32⟩ : BufTy).Contents (Elt F) → (⟨S600000x1, .i32⟩ : BufTy).Contents (Elt F)),
    binary main_v11 main_v24 main_v25 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    binary main_v25 main_v18 main_v26 (subf : (⟨S600000x64, .f32⟩ : BufTy).Contents (Elt F) → (⟨S600000x64, .f32⟩ : BufTy).Contents (Elt F) → (⟨S600000x64, .f32⟩ : BufTy).Contents (Elt F)),
    binary main_v18 main_v26 main_v27 ((fun a b => concatenate S600000x128 1 [⟨S600000x64, a⟩, ⟨S600000x64, b⟩] concatenates_S600000x64_S600000x64_S600000x128_d1) : (⟨S600000x64, .f32⟩ : BufTy).Contents (Elt F) → (⟨S600000x64, .f32⟩ : BufTy).Contents (Elt F) → (⟨S600000x128, .f32⟩ : BufTy).Contents (Elt F)),
    binary main_v27 main_arg6 main_v28 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg7 main_v29 (broadcastInDim S1x128 ![1] bcast_S128_S1x128_1 : (⟨S128, .f32⟩ : BufTy).Contents (Elt F) → (⟨S1x128, .f32⟩ : BufTy).Contents (Elt F)),
    unary main_v29 main_v30 (broadcastInDim S600000x128 ![0, 1] bcast_S1x128_S600000x128_0_1 : (⟨S1x128, .f32⟩ : BufTy).Contents (Elt F) → (⟨S600000x128, .f32⟩ : BufTy).Contents (Elt F)),
    binary main_v28 main_v30 main_v31 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S600000x128, .f32⟩) main_call0_v0) (broadcastInDim S600000x128 ![] bcast_S_S600000x128),
    TRef.binary (TRef.of (T := ⟨S600000x128, .f32⟩) main_v31) (TRef.of (T := ⟨S600000x128, .f32⟩) main_call0_v0) (TRef.of (T := ⟨S600000x128, .f32⟩) main_v32) maximumf,
    binary main_v32 main_arg8 main_v33 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg9 main_v34 (broadcastInDim S1x128 ![1] bcast_S128_S1x128_1 : (⟨S128, .f32⟩ : BufTy).Contents (Elt F) → (⟨S1x128, .f32⟩ : BufTy).Contents (Elt F)),
    unary main_v34 main_v35 (broadcastInDim S600000x128 ![0, 1] bcast_S1x128_S600000x128_0_1 : (⟨S1x128, .f32⟩ : BufTy).Contents (Elt F) → (⟨S600000x128, .f32⟩ : BufTy).Contents (Elt F)),
    binary main_v33 main_v35 main_v36 (addf : (⟨S600000x128, .f32⟩ : BufTy).Contents (Elt F) → (⟨S600000x128, .f32⟩ : BufTy).Contents (Elt F) → (⟨S600000x128, .f32⟩ : BufTy).Contents (Elt F)) ]

/-- Operations 43–72: layer 1: the sums and counts per target node, the means, the scale row and the nodes after the layer. -/
abbrev ops3 : List (HloOp τ sig (Elt F)) :=
  [ nullary main_cst (constant S_ .f32 0x00000000#32),
    unary main_cst main_v37 (broadcastInDim S50000x128 ![] bcast_S_S50000x128 : (⟨S_, .f32⟩ : BufTy).Contents (Elt F) → (⟨S50000x128, .f32⟩ : BufTy).Contents (Elt F)),
    unary main_v7 main_v38 (broadcastInDim S600000x1 ![0] bcast_S600000_S600000x1_0 : (⟨S600000, .i32⟩ : BufTy).Contents (Elt F) → (⟨S600000x1, .i32⟩ : BufTy).Contents (Elt F)),
    ternary main_v37 main_v38 main_v36 main_v39 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_3 (constant S_ .f32 0x3F800000#32),
    unary main_cst_3 main_v40 (broadcastInDim S600000 ![] bcast_S_S600000 : (⟨S_, .f32⟩ : BufTy).Contents (Elt F) → (⟨S600000, .f32⟩ : BufTy).Contents (Elt F)),
    nullary main_cst_4 (constant S_ .f32 0x00000000#32),
    unary main_cst_4 main_v41 (broadcastInDim S50000 ![] bcast_S_S50000 : (⟨S_, .f32⟩ : BufTy).Contents (Elt F) → (⟨S50000, .f32⟩ : BufTy).Contents (Elt F)),
    unary main_v7 main_v42 (broadcastInDim S600000x1 ![0] bcast_S600000_S600000x1_0 : (⟨S600000, .i32⟩ : BufTy).Contents (Elt F) → (⟨S600000x1, .i32⟩ : BufTy).Contents (Elt F)),
    ternary main_v41 main_v42 main_v40 main_v43 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_5 (constant S_ .f32 0x3F800000#32),
    unary main_cst_5 main_v44 (broadcastInDim S50000 ![] bcast_S_S50000 : (⟨S_, .f32⟩ : BufTy).Contents (Elt F) → (⟨S50000, .f32⟩ : BufTy).Contents (Elt F)),
    binary main_v43 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v39 main_v47 main_v48 (Host.divf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3F800054#32),
    unary main_cst_6 main_v49 (Host.sqrt : (⟨S_, .f32⟩ : BufTy).Contents (Elt F) → (⟨S_, .f32⟩ : BufTy).Contents (Elt F)),
    unary main_v49 main_v50 (id : (⟨S_, .f32⟩ : BufTy).Contents (Elt F) → (⟨S_, .f32⟩ : BufTy).Contents (Elt F)),
    unary main_v50 main_v51 (broadcastInDim S128 ![] bcast_S_S128 : (⟨S_, .f32⟩ : BufTy).Contents (Elt F) → (⟨S128, .f32⟩ : BufTy).Contents (Elt F)),
    binary main_arg18 main_v51 main_v52 (Host.divf : (⟨S128, .f32⟩ : BufTy).Contents (Elt F) → (⟨S128, .f32⟩ : BufTy).Contents (Elt F) → (⟨S128, .f32⟩ : BufTy).Contents (Elt F)),
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v48 main_v54 main_v55 (mulf : (⟨S50000x128, .f32⟩ : BufTy).Contents (Elt F) → (⟨S50000x128, .f32⟩ : BufTy).Contents (Elt F) → (⟨S50000x128, .f32⟩ : BufTy).Contents (Elt F)),
    unary main_arg19 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v58) (TRef.of (T := ⟨S50000x128, .f32⟩) main_call1_v0) (TRef.of (T := ⟨S50000x128, .f32⟩) main_v59) maximumf ]

/-- Operations 73–103: layer 2: the gathers and the messages. -/
abbrev ops4 : List (HloOp τ sig (Elt F)) :=
  [ nullary main_c_7 (constantI S_ 32 0#32),
    unary main_c_7 main_v60 (broadcastInDim S600000 ![] bcast_S_S600000 : (⟨S_, .i32⟩ : BufTy).Contents (Elt F) → (⟨S600000, .i32⟩ : BufTy).Contents (Elt F)),
    binary main_v7 main_v60 main_v61 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v62 (broadcastInDim S600000 ![] bcast_S_S600000 : (⟨S_, .i32⟩ : BufTy).Contents (Elt F) → (⟨S600000, .i32⟩ : BufTy).Contents (Elt F)),
    binary main_v7 main_v62 main_v63 (addi : (⟨S600000, .i32⟩ : BufTy).Contents (Elt F) → (⟨S600000, .i32⟩ : BufTy).Contents (Elt F) → (⟨S600000, .i32⟩ : BufTy).Contents (Elt F)),
    ternary main_v61 main_v63 main_v7 main_v64 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v64 main_v65 (broadcastInDim S600000x1 ![0] bcast_S600000_S600000x1_0 : (⟨S600000, .i32⟩ : BufTy).Contents (Elt F) → (⟨S600000x1, .i32⟩ : BufTy).Contents (Elt F)),
    binary main_v59 main_v65 main_v66 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_9 (constantI S_ 32 0#32),
    unary main_c_9 main_v67 (broadcastInDim S600000 ![] bcast_S_S600000 : (⟨S_, .i32⟩ : BufTy).Contents (Elt F) → (⟨S600000, .i32⟩ : BufTy).Contents (Elt F)),
    binary main_v5 main_v67 main_v68 (cmpi .slt : (⟨S600000, .i32⟩ : BufTy).Contents (Elt F) → (⟨S600000, .i32⟩ : BufTy).Contents (Elt F) → (⟨S600000, .i1⟩ : BufTy).Contents (Elt F)),
    nullary main_c_10 (constantI S_ 32 50000#32),
    unary main_c_10 main_v69 (broadcastInDim S600000 ![] bcast_S_S600000 : (⟨S_, .i32⟩ : BufTy).Contents (Elt F) → (⟨S600000, .i32⟩ : BufTy).Contents (Elt F)),
    binary main_v5 main_v69 main_v70 (addi : (⟨S600000, .i32⟩ : BufTy).Contents (Elt F) → (⟨S600000, .i32⟩ : BufTy).Contents (Elt F) → (⟨S600000, .i32⟩ : BufTy).Contents (Elt F)),
    ternary main_v68 main_v70 main_v5 main_v71 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v71 main_v72 (broadcastInDim S600000x1 ![0] bcast_S600000_S600000x1_0 : (⟨S600000, .i32⟩ : BufTy).Contents (Elt F) → (⟨S600000x1, .i32⟩ : BufTy).Contents (Elt F)),
    binary main_v59 main_v72 main_v73 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v73 main_v66 main_v74 (subf : (⟨S600000x128, .f32⟩ : BufTy).Contents (Elt F) → (⟨S600000x128, .f32⟩ : BufTy).Contents (Elt F) → (⟨S600000x128, .f32⟩ : BufTy).Contents (Elt F)),
    binary main_v66 main_v74 main_v75 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    binary main_v75 main_arg10 main_v76 ((fun l r => Host.dotGeneral dot_S600000x256_S256x64_S600000x64_1_0_0_1_n_n none l r) : (⟨S600000x256, .f32⟩ : BufTy).Contents (Elt F) → (⟨S256x64, .f32⟩ : BufTy).Contents (Elt F) → (⟨S600000x64, .f32⟩ : BufTy).Contents (Elt F)),
    unary main_arg11 main_v77 (broadcastInDim S1x64 ![1] bcast_S64_S1x64_1 : (⟨S64, .f32⟩ : BufTy).Contents (Elt F) → (⟨S1x64, .f32⟩ : BufTy).Contents (Elt F)),
    unary main_v77 main_v78 (broadcastInDim S600000x64 ![0, 1] bcast_S1x64_S600000x64_0_1 : (⟨S1x64, .f32⟩ : BufTy).Contents (Elt F) → (⟨S600000x64, .f32⟩ : BufTy).Contents (Elt F)),
    binary main_v76 main_v78 main_v79 (addf : (⟨S600000x64, .f32⟩ : BufTy).Contents (Elt F) → (⟨S600000x64, .f32⟩ : BufTy).Contents (Elt F) → (⟨S600000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S600000x64, .f32⟩) main_call2_v0) (broadcastInDim S600000x64 ![] bcast_S_S600000x64),
    TRef.binary (TRef.of (T := ⟨S600000x64, .f32⟩) main_v79) (TRef.of (T := ⟨S600000x64, .f32⟩) main_call2_v0) (TRef.of (T := ⟨S600000x64, .f32⟩) main_v80) maximumf,
    binary main_v80 main_arg12 main_v81 ((fun l r => Host.dotGeneral dot_S600000x64_S64x64_S600000x64_1_0_0_1_n_n none l r) : (⟨S600000x64, .f32⟩ : BufTy).Contents (Elt F) → (⟨S64x64, .f32⟩ : BufTy).Contents (Elt F) → (⟨S600000x64, .f32⟩ : BufTy).Contents (Elt F)),
    unary main_arg13 main_v82 (broadcastInDim S1x64 ![1] bcast_S64_S1x64_1 : (⟨S64, .f32⟩ : BufTy).Contents (Elt F) → (⟨S1x64, .f32⟩ : BufTy).Contents (Elt F)),
    unary main_v82 main_v83 (broadcastInDim S600000x64 ![0, 1] bcast_S1x64_S600000x64_0_1 : (⟨S1x64, .f32⟩ : BufTy).Contents (Elt F) → (⟨S600000x64, .f32⟩ : BufTy).Contents (Elt F)),
    binary main_v81 main_v83 main_v84 (addf : (⟨S600000x64, .f32⟩ : BufTy).Contents (Elt F) → (⟨S600000x64, .f32⟩ : BufTy).Contents (Elt F) → (⟨S600000x64, .f32⟩ : BufTy).Contents (Elt F)) ]

/-- Operations 104–133: layer 2: the means and the nodes after the layer. -/
abbrev ops5 : List (HloOp τ sig (Elt F)) :=
  [ nullary main_cst_11 (constant S_ .f32 0x00000000#32),
    unary main_cst_11 main_v85 (broadcastInDim S50000x64 ![] bcast_S_S50000x64 : (⟨S_, .f32⟩ : BufTy).Contents (Elt F) → (⟨S50000x64, .f32⟩ : BufTy).Contents (Elt F)),
    unary main_v7 main_v86 (broadcastInDim S600000x1 ![0] bcast_S600000_S600000x1_0 : (⟨S600000, .i32⟩ : BufTy).Contents (Elt F) → (⟨S600000x1, .i32⟩ : BufTy).Contents (Elt F)),
    ternary main_v85 main_v86 main_v84 main_v87 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F)),
    nullary main_cst_12 (constant S_ .f32 0x3F800000#32),
    unary main_cst_12 main_v88 (broadcastInDim S600000 ![] bcast_S_S600000 : (⟨S_, .f32⟩ : BufTy).Contents (Elt F) → (⟨S600000, .f32⟩ : BufTy).Contents (Elt F)),
    nullary main_cst_13 (constant S_ .f32 0x00000000#32),
    unary main_cst_13 main_v89 (broadcastInDim S50000 ![] bcast_S_S50000 : (⟨S_, .f32⟩ : BufTy).Contents (Elt F) → (⟨S50000, .f32⟩ : BufTy).Contents (Elt F)),
    unary main_v7 main_v90 (broadcastInDim S600000x1 ![0] bcast_S600000_S600000x1_0 : (⟨S600000, .i32⟩ : BufTy).Contents (Elt F) → (⟨S600000x1, .i32⟩ : BufTy).Contents (Elt F)),
    ternary main_v89 main_v90 main_v88 main_v91 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_14 (constant S_ .f32 0x3F800000#32),
    unary main_cst_14 main_v92 (broadcastInDim S50000 ![] bcast_S_S50000 : (⟨S_, .f32⟩ : BufTy).Contents (Elt F) → (⟨S50000, .f32⟩ : BufTy).Contents (Elt F)),
    binary main_v91 main_v92 main_v93 (maximumf : (⟨S50000, .f32⟩ : BufTy).Contents (Elt F) → (⟨S50000, .f32⟩ : BufTy).Contents (Elt F) → (⟨S50000, .f32⟩ : BufTy).Contents (Elt F)),
    unary main_v93 main_v94 (broadcastInDim S50000x1 ![0] bcast_S50000_S50000x1_0 : (⟨S50000, .f32⟩ : BufTy).Contents (Elt F) → (⟨S50000x1, .f32⟩ : BufTy).Contents (Elt F)),
    unary main_v94 main_v95 (broadcastInDim S50000x64 ![0, 1] bcast_S50000x1_S50000x64_0_1 : (⟨S50000x1, .f32⟩ : BufTy).Contents (Elt F) → (⟨S50000x64, .f32⟩ : BufTy).Contents (Elt F)),
    binary main_v87 main_v95 main_v96 (Host.divf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x3F800054#32),
    unary main_cst_15 main_v97 (Host.sqrt : (⟨S_, .f32⟩ : BufTy).Contents (Elt F) → (⟨S_, .f32⟩ : BufTy).Contents (Elt F)),
    unary main_v97 main_v98 (id : (⟨S_, .f32⟩ : BufTy).Contents (Elt F) → (⟨S_, .f32⟩ : BufTy).Contents (Elt F)),
    unary main_v98 main_v99 (broadcastInDim S64 ![] bcast_S_S64 : (⟨S_, .f32⟩ : BufTy).Contents (Elt F) → (⟨S64, .f32⟩ : BufTy).Contents (Elt F)),
    binary main_arg20 main_v99 main_v100 (Host.divf : (⟨S64, .f32⟩ : BufTy).Contents (Elt F) → (⟨S64, .f32⟩ : BufTy).Contents (Elt F) → (⟨S64, .f32⟩ : BufTy).Contents (Elt F)),
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v96 main_v102 main_v103 (mulf : (⟨S50000x64, .f32⟩ : BufTy).Contents (Elt F) → (⟨S50000x64, .f32⟩ : BufTy).Contents (Elt F) → (⟨S50000x64, .f32⟩ : BufTy).Contents (Elt F)),
    unary main_arg21 main_v104 (broadcastInDim S1x64 ![1] bcast_S64_S1x64_1 : (⟨S64, .f32⟩ : BufTy).Contents (Elt F) → (⟨S1x64, .f32⟩ : BufTy).Contents (Elt F)),
    unary main_v104 main_v105 (broadcastInDim S50000x64 ![0, 1] bcast_S1x64_S50000x64_0_1 : (⟨S1x64, .f32⟩ : BufTy).Contents (Elt F) → (⟨S50000x64, .f32⟩ : BufTy).Contents (Elt F)),
    binary main_v103 main_v105 main_v106 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v106) (TRef.of (T := ⟨S50000x64, .f32⟩) main_call3_v0) (TRef.of (T := ⟨S50000x64, .f32⟩) main_v107) maximumf ]

/-- Operations 134–164: layer 3: the gathers and the messages. -/
abbrev ops6 : List (HloOp τ sig (Elt F)) :=
  [ nullary main_c_16 (constantI S_ 32 0#32),
    unary main_c_16 main_v108 (broadcastInDim S600000 ![] bcast_S_S600000 : (⟨S_, .i32⟩ : BufTy).Contents (Elt F) → (⟨S600000, .i32⟩ : BufTy).Contents (Elt F)),
    binary main_v7 main_v108 main_v109 (cmpi .slt : (⟨S600000, .i32⟩ : BufTy).Contents (Elt F) → (⟨S600000, .i32⟩ : BufTy).Contents (Elt F) → (⟨S600000, .i1⟩ : BufTy).Contents (Elt F)),
    nullary main_c_17 (constantI S_ 32 50000#32),
    unary main_c_17 main_v110 (broadcastInDim S600000 ![] bcast_S_S600000 : (⟨S_, .i32⟩ : BufTy).Contents (Elt F) → (⟨S600000, .i32⟩ : BufTy).Contents (Elt F)),
    binary main_v7 main_v110 main_v111 (addi : (⟨S600000, .i32⟩ : BufTy).Contents (Elt F) → (⟨S600000, .i32⟩ : BufTy).Contents (Elt F) → (⟨S600000, .i32⟩ : BufTy).Contents (Elt F)),
    ternary main_v109 main_v111 main_v7 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v112 main_v113 (broadcastInDim S600000x1 ![0] bcast_S600000_S600000x1_0 : (⟨S600000, .i32⟩ : BufTy).Contents (Elt F) → (⟨S600000x1, .i32⟩ : BufTy).Contents (Elt F)),
    binary main_v107 main_v113 main_v114 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    nullary main_c_18 (constantI S_ 32 0#32),
    unary main_c_18 main_v115 (broadcastInDim S600000 ![] bcast_S_S600000 : (⟨S_, .i32⟩ : BufTy).Contents (Elt F) → (⟨S600000, .i32⟩ : BufTy).Contents (Elt F)),
    binary main_v5 main_v115 main_v116 (cmpi .slt : (⟨S600000, .i32⟩ : BufTy).Contents (Elt F) → (⟨S600000, .i32⟩ : BufTy).Contents (Elt F) → (⟨S600000, .i1⟩ : BufTy).Contents (Elt F)),
    nullary main_c_19 (constantI S_ 32 50000#32),
    unary main_c_19 main_v117 (broadcastInDim S600000 ![] bcast_S_S600000 : (⟨S_, .i32⟩ : BufTy).Contents (Elt F) → (⟨S600000, .i32⟩ : BufTy).Contents (Elt F)),
    binary main_v5 main_v117 main_v118 (addi : (⟨S600000, .i32⟩ : BufTy).Contents (Elt F) → (⟨S600000, .i32⟩ : BufTy).Contents (Elt F) → (⟨S600000, .i32⟩ : BufTy).Contents (Elt F)),
    ternary main_v116 main_v118 main_v5 main_v119 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v119 main_v120 (broadcastInDim S600000x1 ![0] bcast_S600000_S600000x1_0 : (⟨S600000, .i32⟩ : BufTy).Contents (Elt F) → (⟨S600000x1, .i32⟩ : BufTy).Contents (Elt F)),
    binary main_v107 main_v120 main_v121 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    binary main_v121 main_v114 main_v122 (subf : (⟨S600000x64, .f32⟩ : BufTy).Contents (Elt F) → (⟨S600000x64, .f32⟩ : BufTy).Contents (Elt F) → (⟨S600000x64, .f32⟩ : BufTy).Contents (Elt F)),
    binary main_v114 main_v122 main_v123 ((fun a b => concatenate S600000x128 1 [⟨S600000x64, a⟩, ⟨S600000x64, b⟩] concatenates_S600000x64_S600000x64_S600000x128_d1) : (⟨S600000x64, .f32⟩ : BufTy).Contents (Elt F) → (⟨S600000x64, .f32⟩ : BufTy).Contents (Elt F) → (⟨S600000x128, .f32⟩ : BufTy).Contents (Elt F)),
    binary main_v123 main_arg14 main_v124 ((fun l r => Host.dotGeneral dot_S600000x128_S128x32_S600000x32_1_0_0_1_n_n none l r) : (⟨S600000x128, .f32⟩ : BufTy).Contents (Elt F) → (⟨S128x32, .f32⟩ : BufTy).Contents (Elt F) → (⟨S600000x32, .f32⟩ : BufTy).Contents (Elt F)),
    unary main_arg15 main_v125 (broadcastInDim S1x32 ![1] bcast_S32_S1x32_1 : (⟨S32, .f32⟩ : BufTy).Contents (Elt F) → (⟨S1x32, .f32⟩ : BufTy).Contents (Elt F)),
    unary main_v125 main_v126 (broadcastInDim S600000x32 ![0, 1] bcast_S1x32_S600000x32_0_1 : (⟨S1x32, .f32⟩ : BufTy).Contents (Elt F) → (⟨S600000x32, .f32⟩ : BufTy).Contents (Elt F)),
    binary main_v124 main_v126 main_v127 (addf : (⟨S600000x32, .f32⟩ : BufTy).Contents (Elt F) → (⟨S600000x32, .f32⟩ : BufTy).Contents (Elt F) → (⟨S600000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S600000x32, .f32⟩) main_call4_v0) (broadcastInDim S600000x32 ![] bcast_S_S600000x32),
    TRef.binary (TRef.of (T := ⟨S600000x32, .f32⟩) main_v127) (TRef.of (T := ⟨S600000x32, .f32⟩) main_call4_v0) (TRef.of (T := ⟨S600000x32, .f32⟩) main_v128) maximumf,
    binary main_v128 main_arg16 main_v129 ((fun l r => Host.dotGeneral dot_S600000x32_S32x32_S600000x32_1_0_0_1_n_n none l r) : (⟨S600000x32, .f32⟩ : BufTy).Contents (Elt F) → (⟨S32x32, .f32⟩ : BufTy).Contents (Elt F) → (⟨S600000x32, .f32⟩ : BufTy).Contents (Elt F)),
    unary main_arg17 main_v130 (broadcastInDim S1x32 ![1] bcast_S32_S1x32_1 : (⟨S32, .f32⟩ : BufTy).Contents (Elt F) → (⟨S1x32, .f32⟩ : BufTy).Contents (Elt F)),
    unary main_v130 main_v131 (broadcastInDim S600000x32 ![0, 1] bcast_S1x32_S600000x32_0_1 : (⟨S1x32, .f32⟩ : BufTy).Contents (Elt F) → (⟨S600000x32, .f32⟩ : BufTy).Contents (Elt F)),
    binary main_v129 main_v131 main_v132 (addf : (⟨S600000x32, .f32⟩ : BufTy).Contents (Elt F) → (⟨S600000x32, .f32⟩ : BufTy).Contents (Elt F) → (⟨S600000x32, .f32⟩ : BufTy).Contents (Elt F)) ]

/-- Operations 165–194: layer 3: the means and the nodes after the layer. -/
abbrev ops7 : List (HloOp τ sig (Elt F)) :=
  [ nullary main_cst_20 (constant S_ .f32 0x00000000#32),
    unary main_cst_20 main_v133 (broadcastInDim S50000x32 ![] bcast_S_S50000x32 : (⟨S_, .f32⟩ : BufTy).Contents (Elt F) → (⟨S50000x32, .f32⟩ : BufTy).Contents (Elt F)),
    unary main_v7 main_v134 (broadcastInDim S600000x1 ![0] bcast_S600000_S600000x1_0 : (⟨S600000, .i32⟩ : BufTy).Contents (Elt F) → (⟨S600000x1, .i32⟩ : BufTy).Contents (Elt F)),
    ternary main_v133 main_v134 main_v132 main_v135 ((fun x i u => Host.scatterAdd scatter_S50000x32_S600000x1_S600000x32_1_0_0_1 x i u) : (⟨S50000x32, .f32⟩ : BufTy).Contents (Elt F) → (⟨S600000x1, .i32⟩ : BufTy).Contents (Elt F) → (⟨S600000x32, .f32⟩ : BufTy).Contents (Elt F) → (⟨S50000x32, .f32⟩ : BufTy).Contents (Elt F)),
    nullary main_cst_21 (constant S_ .f32 0x3F800000#32),
    unary main_cst_21 main_v136 (broadcastInDim S600000 ![] bcast_S_S600000 : (⟨S_, .f32⟩ : BufTy).Contents (Elt F) → (⟨S600000, .f32⟩ : BufTy).Contents (Elt F)),
    nullary main_cst_22 (constant S_ .f32 0x00000000#32),
    unary main_cst_22 main_v137 (broadcastInDim S50000 ![] bcast_S_S50000 : (⟨S_, .f32⟩ : BufTy).Contents (Elt F) → (⟨S50000, .f32⟩ : BufTy).Contents (Elt F)),
    unary main_v7 main_v138 (broadcastInDim S600000x1 ![0] bcast_S600000_S600000x1_0 : (⟨S600000, .i32⟩ : BufTy).Contents (Elt F) → (⟨S600000x1, .i32⟩ : BufTy).Contents (Elt F)),
    ternary main_v137 main_v138 main_v136 main_v139 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_23 (constant S_ .f32 0x3F800000#32),
    unary main_cst_23 main_v140 (broadcastInDim S50000 ![] bcast_S_S50000 : (⟨S_, .f32⟩ : BufTy).Contents (Elt F) → (⟨S50000, .f32⟩ : BufTy).Contents (Elt F)),
    binary main_v139 main_v140 main_v141 (maximumf : (⟨S50000, .f32⟩ : BufTy).Contents (Elt F) → (⟨S50000, .f32⟩ : BufTy).Contents (Elt F) → (⟨S50000, .f32⟩ : BufTy).Contents (Elt F)),
    unary main_v141 main_v142 (broadcastInDim S50000x1 ![0] bcast_S50000_S50000x1_0 : (⟨S50000, .f32⟩ : BufTy).Contents (Elt F) → (⟨S50000x1, .f32⟩ : BufTy).Contents (Elt F)),
    unary main_v142 main_v143 (broadcastInDim S50000x32 ![0, 1] bcast_S50000x1_S50000x32_0_1 : (⟨S50000x1, .f32⟩ : BufTy).Contents (Elt F) → (⟨S50000x32, .f32⟩ : BufTy).Contents (Elt F)),
    binary main_v135 main_v143 main_v144 (Host.divf : (⟨S50000x32, .f32⟩ : BufTy).Contents (Elt F) → (⟨S50000x32, .f32⟩ : BufTy).Contents (Elt F) → (⟨S50000x32, .f32⟩ : BufTy).Contents (Elt F)),
    nullary main_cst_24 (constant S_ .f32 0x3F800054#32),
    unary main_cst_24 main_v145 (Host.sqrt : (⟨S_, .f32⟩ : BufTy).Contents (Elt F) → (⟨S_, .f32⟩ : BufTy).Contents (Elt F)),
    unary main_v145 main_v146 (id : (⟨S_, .f32⟩ : BufTy).Contents (Elt F) → (⟨S_, .f32⟩ : BufTy).Contents (Elt F)),
    unary main_v146 main_v147 (broadcastInDim S32 ![] bcast_S_S32 : (⟨S_, .f32⟩ : BufTy).Contents (Elt F) → (⟨S32, .f32⟩ : BufTy).Contents (Elt F)),
    binary main_arg22 main_v147 main_v148 (Host.divf : (⟨S32, .f32⟩ : BufTy).Contents (Elt F) → (⟨S32, .f32⟩ : BufTy).Contents (Elt F) → (⟨S32, .f32⟩ : BufTy).Contents (Elt F)),
    unary main_v148 main_v149 (broadcastInDim S1x32 ![1] bcast_S32_S1x32_1 : (⟨S32, .f32⟩ : BufTy).Contents (Elt F) → (⟨S1x32, .f32⟩ : BufTy).Contents (Elt F)),
    unary main_v149 main_v150 (broadcastInDim S50000x32 ![0, 1] bcast_S1x32_S50000x32_0_1 : (⟨S1x32, .f32⟩ : BufTy).Contents (Elt F) → (⟨S50000x32, .f32⟩ : BufTy).Contents (Elt F)),
    binary main_v144 main_v150 main_v151 (mulf : (⟨S50000x32, .f32⟩ : BufTy).Contents (Elt F) → (⟨S50000x32, .f32⟩ : BufTy).Contents (Elt F) → (⟨S50000x32, .f32⟩ : BufTy).Contents (Elt F)),
    unary main_arg23 main_v152 (broadcastInDim S1x32 ![1] bcast_S32_S1x32_1 : (⟨S32, .f32⟩ : BufTy).Contents (Elt F) → (⟨S1x32, .f32⟩ : BufTy).Contents (Elt F)),
    unary main_v152 main_v153 (broadcastInDim S50000x32 ![0, 1] bcast_S1x32_S50000x32_0_1 : (⟨S1x32, .f32⟩ : BufTy).Contents (Elt F) → (⟨S50000x32, .f32⟩ : BufTy).Contents (Elt F)),
    binary main_v151 main_v153 main_v154 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x32, .f32⟩) main_call5_v0) (broadcastInDim S50000x32 ![] bcast_S_S50000x32),
    TRef.binary (TRef.of (T := ⟨S50000x32, .f32⟩) main_v154) (TRef.of (T := ⟨S50000x32, .f32⟩) main_call5_v0) (TRef.of (T := ⟨S50000x32, .f32⟩) main_v155) maximumf ]

/-- Operations 195–222: the pooling per graph and the classifier. -/
abbrev ops8 : List (HloOp τ sig (Elt F)) :=
  [ nullary main_cst_25 (constant S_ .f32 0x00000000#32),
    unary main_cst_25 main_v156 (broadcastInDim S2048x32 ![] bcast_S_S2048x32 : (⟨S_, .f32⟩ : BufTy).Contents (Elt F) → (⟨S2048x32, .f32⟩ : BufTy).Contents (Elt F)),
    unary main_arg27 main_v157 (broadcastInDim S50000x1 ![0] bcast_S50000_S50000x1_0 : (⟨S50000, .i32⟩ : BufTy).Contents (Elt F) → (⟨S50000x1, .i32⟩ : BufTy).Contents (Elt F)),
    ternary main_v156 main_v157 main_v155 main_v158 ((fun x i u => Host.scatterAdd scatter_S2048x32_S50000x1_S50000x32_1_0_0_1 x i u) : (⟨S2048x32, .f32⟩ : BufTy).Contents (Elt F) → (⟨S50000x1, .i32⟩ : BufTy).Contents (Elt F) → (⟨S50000x32, .f32⟩ : BufTy).Contents (Elt F) → (⟨S2048x32, .f32⟩ : BufTy).Contents (Elt F)),
    nullary main_cst_26 (constant S_ .f32 0x3F800000#32),
    unary main_cst_26 main_v159 (broadcastInDim S50000 ![] bcast_S_S50000 : (⟨S_, .f32⟩ : BufTy).Contents (Elt F) → (⟨S50000, .f32⟩ : BufTy).Contents (Elt F)),
    nullary main_cst_27 (constant S_ .f32 0x00000000#32),
    unary main_cst_27 main_v160 (broadcastInDim S2048 ![] bcast_S_S2048 : (⟨S_, .f32⟩ : BufTy).Contents (Elt F) → (⟨S2048, .f32⟩ : BufTy).Contents (Elt F)),
    unary main_arg27 main_v161 (broadcastInDim S50000x1 ![0] bcast_S50000_S50000x1_0 : (⟨S50000, .i32⟩ : BufTy).Contents (Elt F) → (⟨S50000x1, .i32⟩ : BufTy).Contents (Elt F)),
    ternary main_v160 main_v161 main_v159 main_v162 ((fun x i u => Host.scatterAdd scatter_S2048_S50000x1_S50000_n_0_0_1 x i u) : (⟨S2048, .f32⟩ : BufTy).Contents (Elt F) → (⟨S50000x1, .i32⟩ : BufTy).Contents (Elt F) → (⟨S50000, .f32⟩ : BufTy).Contents (Elt F) → (⟨S2048, .f32⟩ : BufTy).Contents (Elt F)),
    nullary main_cst_28 (constant S_ .f32 0x3F800000#32),
    unary main_cst_28 main_v163 (broadcastInDim S2048 ![] bcast_S_S2048 : (⟨S_, .f32⟩ : BufTy).Contents (Elt F) → (⟨S2048, .f32⟩ : BufTy).Contents (Elt F)),
    binary main_v162 main_v163 main_v164 (maximumf : (⟨S2048, .f32⟩ : BufTy).Contents (Elt F) → (⟨S2048, .f32⟩ : BufTy).Contents (Elt F) → (⟨S2048, .f32⟩ : BufTy).Contents (Elt F)),
    unary main_v164 main_v165 (broadcastInDim S2048x1 ![0] bcast_S2048_S2048x1_0 : (⟨S2048, .f32⟩ : BufTy).Contents (Elt F) → (⟨S2048x1, .f32⟩ : BufTy).Contents (Elt F)),
    unary main_v165 main_v166 (broadcastInDim S2048x32 ![0, 1] bcast_S2048x1_S2048x32_0_1 : (⟨S2048x1, .f32⟩ : BufTy).Contents (Elt F) → (⟨S2048x32, .f32⟩ : BufTy).Contents (Elt F)),
    binary main_v158 main_v166 main_v167 (Host.divf : (⟨S2048x32, .f32⟩ : BufTy).Contents (Elt F) → (⟨S2048x32, .f32⟩ : BufTy).Contents (Elt F) → (⟨S2048x32, .f32⟩ : BufTy).Contents (Elt F)),
    binary main_v167 main_arg24 main_v168 ((fun l r => Host.dotGeneral dot_S2048x32_S32x5_S2048x5_1_0_0_1_n_n none l r) : (⟨S2048x32, .f32⟩ : BufTy).Contents (Elt F) → (⟨S32x5, .f32⟩ : BufTy).Contents (Elt F) → (⟨S2048x5, .f32⟩ : BufTy).Contents (Elt F)),
    unary main_arg25 main_v169 (broadcastInDim S1x5 ![1] bcast_S5_S1x5_1 : (⟨S5, .f32⟩ : BufTy).Contents (Elt F) → (⟨S1x5, .f32⟩ : BufTy).Contents (Elt F)),
    unary main_v169 main_v170 (broadcastInDim S2048x5 ![0, 1] bcast_S1x5_S2048x5_0_1 : (⟨S1x5, .f32⟩ : BufTy).Contents (Elt F) → (⟨S2048x5, .f32⟩ : BufTy).Contents (Elt F)),
    binary main_v168 main_v170 main_v171 (addf : (⟨S2048x5, .f32⟩ : BufTy).Contents (Elt F) → (⟨S2048x5, .f32⟩ : BufTy).Contents (Elt F) → (⟨S2048x5, .f32⟩ : BufTy).Contents (Elt F)),
    unary main_v171 main_v172 (Host.negf : (⟨S2048x5, .f32⟩ : BufTy).Contents (Elt F) → (⟨S2048x5, .f32⟩ : BufTy).Contents (Elt F)),
    unary main_v172 main_v173 (Host.exp : (⟨S2048x5, .f32⟩ : BufTy).Contents (Elt F) → (⟨S2048x5, .f32⟩ : BufTy).Contents (Elt F)),
    nullary main_cst_29 (constant S_ .f32 0x3F800000#32),
    unary main_cst_29 main_v174 (broadcastInDim S2048x5 ![] bcast_S_S2048x5 : (⟨S_, .f32⟩ : BufTy).Contents (Elt F) → (⟨S2048x5, .f32⟩ : BufTy).Contents (Elt F)),
    binary main_v174 main_v173 main_v175 (addf : (⟨S2048x5, .f32⟩ : BufTy).Contents (Elt F) → (⟨S2048x5, .f32⟩ : BufTy).Contents (Elt F) → (⟨S2048x5, .f32⟩ : BufTy).Contents (Elt F)),
    nullary main_cst_30 (constant S_ .f32 0x3F800000#32),
    unary main_cst_30 main_v176 (broadcastInDim S2048x5 ![] bcast_S_S2048x5 : (⟨S_, .f32⟩ : BufTy).Contents (Elt F) → (⟨S2048x5, .f32⟩ : BufTy).Contents (Elt F)),
    binary main_v176 main_v175 main_v177 (Host.divf : (⟨S2048x5, .f32⟩ : BufTy).Contents (Elt F) → (⟨S2048x5, .f32⟩ : BufTy).Contents (Elt F) → (⟨S2048x5, .f32⟩ : BufTy).Contents (Elt F)) ]

/-- The list is its chunks in order. -/
theorem ops_split : (ops : List (HloOp τ sig (Elt F))) = ops1 ++ ops2 ++ ops3 ++ ops4 ++ ops5 ++ ops6 ++ ops7 ++ ops8 := rfl

/-- Folding a list that is two lists in a row is folding the second over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The buffers after the first 1 chunk. -/
def U1 (V : Valuation τ sig (Elt F)) : Valuation τ sig (Elt F) := after ops1 (V)
/-- The buffers after the first 2 chunks. -/
def U2 (V : Valuation τ sig (Elt F)) : Valuation τ sig (Elt F) := after ops2 (U1 V)
/-- The buffers after the first 3 chunks. -/
def U3 (V : Valuation τ sig (Elt F)) : Valuation τ sig (Elt F) := after ops3 (U2 V)
/-- The buffers after the first 4 chunks. -/
def U4 (V : Valuation τ sig (Elt F)) : Valuation τ sig (Elt F) := after ops4 (U3 V)
/-- The buffers after the first 5 chunks. -/
def U5 (V : Valuation τ sig (Elt F)) : Valuation τ sig (Elt F) := after ops5 (U4 V)
/-- The buffers after the first 6 chunks. -/
def U6 (V : Valuation τ sig (Elt F)) : Valuation τ sig (Elt F) := after ops6 (U5 V)
/-- The buffers after the first 7 chunks. -/
def U7 (V : Valuation τ sig (Elt F)) : Valuation τ sig (Elt F) := after ops7 (U6 V)
/-- The buffers after the first 8 chunks. -/
def U8 (V : Valuation τ sig (Elt F)) : Valuation τ sig (Elt F) := after ops8 (U7 V)

/-- The fold of the whole list is the buffers after the eighth chunk. -/
theorem after_ops (V : Valuation τ sig (Elt F)) : after ops V = U8 V := by
  rw [ops_split]
  simp only [after_append]
  rfl

/-! ## What no chunk in between writes -/

/-- No operation of the chunk writes the buffer. -/
macro "not_written" ops:ident : tactic => `(tactic| (
  refine List.forall_iff_forall_mem.mp ?_
  simp only [$ops:ident, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- A chunk leaves a buffer none of its operations writes as it was. -/
macro "skip_chunk" b:term "," ops:ident : term =>
  `(StableHlo.after_of_forall_not_mem (b := Proc.devRef .tc $b) $ops _ (by not_written $ops))

variable (V : Valuation τ sig (Elt F))

theorem atU1_main_arg6 : U1 V (Proc.devRef .tc main_arg6) = V (Proc.devRef .tc main_arg6) := (skip_chunk main_arg6, ops1)
theorem atU1_main_arg7 : U1 V (Proc.devRef .tc main_arg7) = V (Proc.devRef .tc main_arg7) := (skip_chunk main_arg7, ops1)
theorem atU1_main_arg8 : U1 V (Proc.devRef .tc main_arg8) = V (Proc.devRef .tc main_arg8) := (skip_chunk main_arg8, ops1)
theorem atU1_main_arg9 : U1 V (Proc.devRef .tc main_arg9) = V (Proc.devRef .tc main_arg9) := (skip_chunk main_arg9, ops1)
theorem atU1_main_arg10 : U1 V (Proc.devRef .tc main_arg10) = V (Proc.devRef .tc main_arg10) := (skip_chunk main_arg10, ops1)
theorem atU1_main_arg11 : U1 V (Proc.devRef .tc main_arg11) = V (Proc.devRef .tc main_arg11) := (skip_chunk main_arg11, ops1)
theorem atU1_main_arg12 : U1 V (Proc.devRef .tc main_arg12) = V (Proc.devRef .tc main_arg12) := (skip_chunk main_arg12, ops1)
theorem atU1_main_arg13 : U1 V (Proc.devRef .tc main_arg13) = V (Proc.devRef .tc main_arg13) := (skip_chunk main_arg13, ops1)
theorem atU1_main_arg14 : U1 V (Proc.devRef .tc main_arg14) = V (Proc.devRef .tc main_arg14) := (skip_chunk main_arg14, ops1)
theorem atU1_main_arg15 : U1 V (Proc.devRef .tc main_arg15) = V (Proc.devRef .tc main_arg15) := (skip_chunk main_arg15, ops1)
theorem atU1_main_arg16 : U1 V (Proc.devRef .tc main_arg16) = V (Proc.devRef .tc main_arg16) := (skip_chunk main_arg16, ops1)
theorem atU1_main_arg17 : U1 V (Proc.devRef .tc main_arg17) = V (Proc.devRef .tc main_arg17) := (skip_chunk main_arg17, ops1)
theorem atU1_main_arg18 : U1 V (Proc.devRef .tc main_arg18) = V (Proc.devRef .tc main_arg18) := (skip_chunk main_arg18, ops1)
theorem atU1_main_arg19 : U1 V (Proc.devRef .tc main_arg19) = V (Proc.devRef .tc main_arg19) := (skip_chunk main_arg19, ops1)
theorem atU1_main_arg20 : U1 V (Proc.devRef .tc main_arg20) = V (Proc.devRef .tc main_arg20) := (skip_chunk main_arg20, ops1)
theorem atU1_main_arg21 : U1 V (Proc.devRef .tc main_arg21) = V (Proc.devRef .tc main_arg21) := (skip_chunk main_arg21, ops1)
theorem atU1_main_arg22 : U1 V (Proc.devRef .tc main_arg22) = V (Proc.devRef .tc main_arg22) := (skip_chunk main_arg22, ops1)
theorem atU1_main_arg23 : U1 V (Proc.devRef .tc main_arg23) = V (Proc.devRef .tc main_arg23) := (skip_chunk main_arg23, ops1)
theorem atU1_main_arg24 : U1 V (Proc.devRef .tc main_arg24) = V (Proc.devRef .tc main_arg24) := (skip_chunk main_arg24, ops1)
theorem atU1_main_arg25 : U1 V (Proc.devRef .tc main_arg25) = V (Proc.devRef .tc main_arg25) := (skip_chunk main_arg25, ops1)
theorem atU1_main_arg27 : U1 V (Proc.devRef .tc main_arg27) = V (Proc.devRef .tc main_arg27) := (skip_chunk main_arg27, ops1)
theorem atU2_main_v5 : U2 V (Proc.devRef .tc main_v5) = U1 V (Proc.devRef .tc main_v5) := (skip_chunk main_v5, ops2)
theorem atU2_main_v7 : U2 V (Proc.devRef .tc main_v7) = U1 V (Proc.devRef .tc main_v7) := (skip_chunk main_v7, ops2)
theorem atU2_main_arg10 : U2 V (Proc.devRef .tc main_arg10) = V (Proc.devRef .tc main_arg10) := (skip_chunk main_arg10, ops2).trans (atU1_main_arg10 V)
theorem atU2_main_arg11 : U2 V (Proc.devRef .tc main_arg11) = V (Proc.devRef .tc main_arg11) := (skip_chunk main_arg11, ops2).trans (atU1_main_arg11 V)
theorem atU2_main_arg12 : U2 V (Proc.devRef .tc main_arg12) = V (Proc.devRef .tc main_arg12) := (skip_chunk main_arg12, ops2).trans (atU1_main_arg12 V)
theorem atU2_main_arg13 : U2 V (Proc.devRef .tc main_arg13) = V (Proc.devRef .tc main_arg13) := (skip_chunk main_arg13, ops2).trans (atU1_main_arg13 V)
theorem atU2_main_arg14 : U2 V (Proc.devRef .tc main_arg14) = V (Proc.devRef .tc main_arg14) := (skip_chunk main_arg14, ops2).trans (atU1_main_arg14 V)
theorem atU2_main_arg15 : U2 V (Proc.devRef .tc main_arg15) = V (Proc.devRef .tc main_arg15) := (skip_chunk main_arg15, ops2).trans (atU1_main_arg15 V)
theorem atU2_main_arg16 : U2 V (Proc.devRef .tc main_arg16) = V (Proc.devRef .tc main_arg16) := (skip_chunk main_arg16, ops2).trans (atU1_main_arg16 V)
theorem atU2_main_arg17 : U2 V (Proc.devRef .tc main_arg17) = V (Proc.devRef .tc main_arg17) := (skip_chunk main_arg17, ops2).trans (atU1_main_arg17 V)
theorem atU2_main_arg18 : U2 V (Proc.devRef .tc main_arg18) = V (Proc.devRef .tc main_arg18) := (skip_chunk main_arg18, ops2).trans (atU1_main_arg18 V)
theorem atU2_main_arg19 : U2 V (Proc.devRef .tc main_arg19) = V (Proc.devRef .tc main_arg19) := (skip_chunk main_arg19, ops2).trans (atU1_main_arg19 V)
theorem atU2_main_arg20 : U2 V (Proc.devRef .tc main_arg20) = V (Proc.devRef .tc main_arg20) := (skip_chunk main_arg20, ops2).trans (atU1_main_arg20 V)
theorem atU2_main_arg21 : U2 V (Proc.devRef .tc main_arg21) = V (Proc.devRef .tc main_arg21) := (skip_chunk main_arg21, ops2).trans (atU1_main_arg21 V)
theorem atU2_main_arg22 : U2 V (Proc.devRef .tc main_arg22) = V (Proc.devRef .tc main_arg22) := (skip_chunk main_arg22, ops2).trans (atU1_main_arg22 V)
theorem atU2_main_arg23 : U2 V (Proc.devRef .tc main_arg23) = V (Proc.devRef .tc main_arg23) := (skip_chunk main_arg23, ops2).trans (atU1_main_arg23 V)
theorem atU2_main_arg24 : U2 V (Proc.devRef .tc main_arg24) = V (Proc.devRef .tc main_arg24) := (skip_chunk main_arg24, ops2).trans (atU1_main_arg24 V)
theorem atU2_main_arg25 : U2 V (Proc.devRef .tc main_arg25) = V (Proc.devRef .tc main_arg25) := (skip_chunk main_arg25, ops2).trans (atU1_main_arg25 V)
theorem atU2_main_arg27 : U2 V (Proc.devRef .tc main_arg27) = V (Proc.devRef .tc main_arg27) := (skip_chunk main_arg27, ops2).trans (atU1_main_arg27 V)
theorem atU3_main_v5 : U3 V (Proc.devRef .tc main_v5) = U1 V (Proc.devRef .tc main_v5) := (skip_chunk main_v5, ops3).trans (atU2_main_v5 V)
theorem atU3_main_v7 : U3 V (Proc.devRef .tc main_v7) = U1 V (Proc.devRef .tc main_v7) := (skip_chunk main_v7, ops3).trans (atU2_main_v7 V)
theorem atU3_main_arg10 : U3 V (Proc.devRef .tc main_arg10) = V (Proc.devRef .tc main_arg10) := (skip_chunk main_arg10, ops3).trans (atU2_main_arg10 V)
theorem atU3_main_arg11 : U3 V (Proc.devRef .tc main_arg11) = V (Proc.devRef .tc main_arg11) := (skip_chunk main_arg11, ops3).trans (atU2_main_arg11 V)
theorem atU3_main_arg12 : U3 V (Proc.devRef .tc main_arg12) = V (Proc.devRef .tc main_arg12) := (skip_chunk main_arg12, ops3).trans (atU2_main_arg12 V)
theorem atU3_main_arg13 : U3 V (Proc.devRef .tc main_arg13) = V (Proc.devRef .tc main_arg13) := (skip_chunk main_arg13, ops3).trans (atU2_main_arg13 V)
theorem atU3_main_arg14 : U3 V (Proc.devRef .tc main_arg14) = V (Proc.devRef .tc main_arg14) := (skip_chunk main_arg14, ops3).trans (atU2_main_arg14 V)
theorem atU3_main_arg15 : U3 V (Proc.devRef .tc main_arg15) = V (Proc.devRef .tc main_arg15) := (skip_chunk main_arg15, ops3).trans (atU2_main_arg15 V)
theorem atU3_main_arg16 : U3 V (Proc.devRef .tc main_arg16) = V (Proc.devRef .tc main_arg16) := (skip_chunk main_arg16, ops3).trans (atU2_main_arg16 V)
theorem atU3_main_arg17 : U3 V (Proc.devRef .tc main_arg17) = V (Proc.devRef .tc main_arg17) := (skip_chunk main_arg17, ops3).trans (atU2_main_arg17 V)
theorem atU3_main_arg20 : U3 V (Proc.devRef .tc main_arg20) = V (Proc.devRef .tc main_arg20) := (skip_chunk main_arg20, ops3).trans (atU2_main_arg20 V)
theorem atU3_main_arg21 : U3 V (Proc.devRef .tc main_arg21) = V (Proc.devRef .tc main_arg21) := (skip_chunk main_arg21, ops3).trans (atU2_main_arg21 V)
theorem atU3_main_arg22 : U3 V (Proc.devRef .tc main_arg22) = V (Proc.devRef .tc main_arg22) := (skip_chunk main_arg22, ops3).trans (atU2_main_arg22 V)
theorem atU3_main_arg23 : U3 V (Proc.devRef .tc main_arg23) = V (Proc.devRef .tc main_arg23) := (skip_chunk main_arg23, ops3).trans (atU2_main_arg23 V)
theorem atU3_main_arg24 : U3 V (Proc.devRef .tc main_arg24) = V (Proc.devRef .tc main_arg24) := (skip_chunk main_arg24, ops3).trans (atU2_main_arg24 V)
theorem atU3_main_arg25 : U3 V (Proc.devRef .tc main_arg25) = V (Proc.devRef .tc main_arg25) := (skip_chunk main_arg25, ops3).trans (atU2_main_arg25 V)
theorem atU3_main_arg27 : U3 V (Proc.devRef .tc main_arg27) = V (Proc.devRef .tc main_arg27) := (skip_chunk main_arg27, ops3).trans (atU2_main_arg27 V)
theorem atU4_main_v5 : U4 V (Proc.devRef .tc main_v5) = U1 V (Proc.devRef .tc main_v5) := (skip_chunk main_v5, ops4).trans (atU3_main_v5 V)
theorem atU4_main_v7 : U4 V (Proc.devRef .tc main_v7) = U1 V (Proc.devRef .tc main_v7) := (skip_chunk main_v7, ops4).trans (atU3_main_v7 V)
theorem atU4_main_arg14 : U4 V (Proc.devRef .tc main_arg14) = V (Proc.devRef .tc main_arg14) := (skip_chunk main_arg14, ops4).trans (atU3_main_arg14 V)
theorem atU4_main_arg15 : U4 V (Proc.devRef .tc main_arg15) = V (Proc.devRef .tc main_arg15) := (skip_chunk main_arg15, ops4).trans (atU3_main_arg15 V)
theorem atU4_main_arg16 : U4 V (Proc.devRef .tc main_arg16) = V (Proc.devRef .tc main_arg16) := (skip_chunk main_arg16, ops4).trans (atU3_main_arg16 V)
theorem atU4_main_arg17 : U4 V (Proc.devRef .tc main_arg17) = V (Proc.devRef .tc main_arg17) := (skip_chunk main_arg17, ops4).trans (atU3_main_arg17 V)
theorem atU4_main_arg20 : U4 V (Proc.devRef .tc main_arg20) = V (Proc.devRef .tc main_arg20) := (skip_chunk main_arg20, ops4).trans (atU3_main_arg20 V)
theorem atU4_main_arg21 : U4 V (Proc.devRef .tc main_arg21) = V (Proc.devRef .tc main_arg21) := (skip_chunk main_arg21, ops4).trans (atU3_main_arg21 V)
theorem atU4_main_arg22 : U4 V (Proc.devRef .tc main_arg22) = V (Proc.devRef .tc main_arg22) := (skip_chunk main_arg22, ops4).trans (atU3_main_arg22 V)
theorem atU4_main_arg23 : U4 V (Proc.devRef .tc main_arg23) = V (Proc.devRef .tc main_arg23) := (skip_chunk main_arg23, ops4).trans (atU3_main_arg23 V)
theorem atU4_main_arg24 : U4 V (Proc.devRef .tc main_arg24) = V (Proc.devRef .tc main_arg24) := (skip_chunk main_arg24, ops4).trans (atU3_main_arg24 V)
theorem atU4_main_arg25 : U4 V (Proc.devRef .tc main_arg25) = V (Proc.devRef .tc main_arg25) := (skip_chunk main_arg25, ops4).trans (atU3_main_arg25 V)
theorem atU4_main_arg27 : U4 V (Proc.devRef .tc main_arg27) = V (Proc.devRef .tc main_arg27) := (skip_chunk main_arg27, ops4).trans (atU3_main_arg27 V)
theorem atU5_main_v5 : U5 V (Proc.devRef .tc main_v5) = U1 V (Proc.devRef .tc main_v5) := (skip_chunk main_v5, ops5).trans (atU4_main_v5 V)
theorem atU5_main_v7 : U5 V (Proc.devRef .tc main_v7) = U1 V (Proc.devRef .tc main_v7) := (skip_chunk main_v7, ops5).trans (atU4_main_v7 V)
theorem atU5_main_arg14 : U5 V (Proc.devRef .tc main_arg14) = V (Proc.devRef .tc main_arg14) := (skip_chunk main_arg14, ops5).trans (atU4_main_arg14 V)
theorem atU5_main_arg15 : U5 V (Proc.devRef .tc main_arg15) = V (Proc.devRef .tc main_arg15) := (skip_chunk main_arg15, ops5).trans (atU4_main_arg15 V)
theorem atU5_main_arg16 : U5 V (Proc.devRef .tc main_arg16) = V (Proc.devRef .tc main_arg16) := (skip_chunk main_arg16, ops5).trans (atU4_main_arg16 V)
theorem atU5_main_arg17 : U5 V (Proc.devRef .tc main_arg17) = V (Proc.devRef .tc main_arg17) := (skip_chunk main_arg17, ops5).trans (atU4_main_arg17 V)
theorem atU5_main_arg22 : U5 V (Proc.devRef .tc main_arg22) = V (Proc.devRef .tc main_arg22) := (skip_chunk main_arg22, ops5).trans (atU4_main_arg22 V)
theorem atU5_main_arg23 : U5 V (Proc.devRef .tc main_arg23) = V (Proc.devRef .tc main_arg23) := (skip_chunk main_arg23, ops5).trans (atU4_main_arg23 V)
theorem atU5_main_arg24 : U5 V (Proc.devRef .tc main_arg24) = V (Proc.devRef .tc main_arg24) := (skip_chunk main_arg24, ops5).trans (atU4_main_arg24 V)
theorem atU5_main_arg25 : U5 V (Proc.devRef .tc main_arg25) = V (Proc.devRef .tc main_arg25) := (skip_chunk main_arg25, ops5).trans (atU4_main_arg25 V)
theorem atU5_main_arg27 : U5 V (Proc.devRef .tc main_arg27) = V (Proc.devRef .tc main_arg27) := (skip_chunk main_arg27, ops5).trans (atU4_main_arg27 V)
theorem atU6_main_v7 : U6 V (Proc.devRef .tc main_v7) = U1 V (Proc.devRef .tc main_v7) := (skip_chunk main_v7, ops6).trans (atU5_main_v7 V)
theorem atU6_main_arg22 : U6 V (Proc.devRef .tc main_arg22) = V (Proc.devRef .tc main_arg22) := (skip_chunk main_arg22, ops6).trans (atU5_main_arg22 V)
theorem atU6_main_arg23 : U6 V (Proc.devRef .tc main_arg23) = V (Proc.devRef .tc main_arg23) := (skip_chunk main_arg23, ops6).trans (atU5_main_arg23 V)
theorem atU6_main_arg24 : U6 V (Proc.devRef .tc main_arg24) = V (Proc.devRef .tc main_arg24) := (skip_chunk main_arg24, ops6).trans (atU5_main_arg24 V)
theorem atU6_main_arg25 : U6 V (Proc.devRef .tc main_arg25) = V (Proc.devRef .tc main_arg25) := (skip_chunk main_arg25, ops6).trans (atU5_main_arg25 V)
theorem atU6_main_arg27 : U6 V (Proc.devRef .tc main_arg27) = V (Proc.devRef .tc main_arg27) := (skip_chunk main_arg27, ops6).trans (atU5_main_arg27 V)
theorem atU7_main_arg24 : U7 V (Proc.devRef .tc main_arg24) = V (Proc.devRef .tc main_arg24) := (skip_chunk main_arg24, ops7).trans (atU6_main_arg24 V)
theorem atU7_main_arg25 : U7 V (Proc.devRef .tc main_arg25) = V (Proc.devRef .tc main_arg25) := (skip_chunk main_arg25, ops7).trans (atU6_main_arg25 V)
theorem atU7_main_arg27 : U7 V (Proc.devRef .tc main_arg27) = V (Proc.devRef .tc main_arg27) := (skip_chunk main_arg27, ops7).trans (atU6_main_arg27 V)

end Cert.ReferenceIdeal.HandRun

end
-- ==== Proof.LibTypedRef.lean ====
/-
  A typed reference is a buffer together with the type its contents are read at, which is the buffer's own type.
  A value written through such a reference is carried to the buffer's type, and a value read through it is carried
  back.  The two transports are inverse to each other — for every typed reference, with nothing evaluated: the
  statement does not look up what the buffer's type is.

  Where a program's operations are spelt over typed references (the operations of a function the program calls,
  standing in the call's place), each result read back through the list of operations carries one such pair per
  operation, nested one inside the other.  Cancelling the pairs with these lemmas first leaves a term that can be
  rewritten and compared like that of any other list of operations.
-/
import Idealize.ShloMosaic.Lib.StableHlo

namespace Cert.Lib.TypedRef

open Idealize.ShloMosaic Idealize.ShloMosaic.StableHlo

variable {sig : RefSig} {Val : EltTy → Type} {T : BufTy}

/-- Contents carried to a typed reference's buffer type and back are the contents. -/
theorem ofBuf_toBuf (x : TRef sig T) (v : T.Contents Val) : x.ofBuf (x.toBuf v) = v := by
  show cast _ (cast _ v) = v
  rw [cast_cast, cast_eq]

/-- Buffer contents carried to a typed reference's value type and back are the buffer contents. -/
theorem toBuf_ofBuf (x : TRef sig T) (v : x.ref.ty.Contents Val) : x.toBuf (x.ofBuf v) = v := by
  show cast _ (cast _ v) = v
  rw [cast_cast, cast_eq]

end Cert.Lib.TypedRef
-- ==== Proof.RefRunA.lean ====
/-
  The reference program's first four chunks, read back chunk by chunk.

  The buffers after each chunk of the program's operations are the fold of that chunk over the buffers before it.
  Read at the one array a chunk hands on, the fold is that array's stage function of the program's arguments: the
  chunk's own operations compose into the stage's definition, the arrays it reads from earlier chunks are those
  chunks' stages, and the argument arrays are as they were at the start. An operation of a function the program calls
  is spelt over a typed reference, whose two transports are the identity at a literal buffer; they are cancelled
  before the two sides are compared.
-/
import proofs.«142674_j19808389169323_1_alg».proof.Proof.RefRunBase
import proofs.«142674_j19808389169323_1_alg».proof.Proof.RefRead
import proofs.«142674_j19808389169323_1_alg».proof.Proof.LibTypedRef

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

/-! ## A typed reference's transports at the literal buffers of the called functions -/

theorem toBuf_call0_cst (h1 h2 h3) (X : (⟨S_, .f32⟩ : BufTy).Contents (Elt Ideal)) :
    (TRef.toBuf (Val := Elt Ideal) (TRef.of (T := ⟨S_, .f32⟩) main_call0_cst h1 h2 h3) X : (⟨S_, .f32⟩ : BufTy).Contents (Elt Ideal)) = X := rfl
theorem toBuf_call0_v0 (h1 h2 h3) (X : (⟨S600000x128, .f32⟩ : BufTy).Contents (Elt Ideal)) :
    (TRef.toBuf (Val := Elt Ideal) (TRef.of (T := ⟨S600000x128, .f32⟩) main_call0_v0 h1 h2 h3) X : (⟨S600000x128, .f32⟩ : BufTy).Contents (Elt Ideal)) = X := rfl
theorem toBuf_v32 (h1 h2 h3) (X : (⟨S600000x128, .f32⟩ : BufTy).Contents (Elt Ideal)) :
    (TRef.toBuf (Val := Elt Ideal) (TRef.of (T := ⟨S600000x128, .f32⟩) main_v32 h1 h2 h3) X : (⟨S600000x128, .f32⟩ : BufTy).Contents (Elt Ideal)) = X := rfl
theorem ofBuf_call0_cst (h1 h2 h3) (v : main_call0_cst.ty.Contents (Elt Ideal)) :
    (TRef.ofBuf (Val := Elt Ideal) (TRef.of (T := ⟨S_, .f32⟩) main_call0_cst h1 h2 h3) v : (⟨S_, .f32⟩ : BufTy).Contents (Elt Ideal)) = v := rfl
theorem ofBuf_v31 (h1 h2 h3) (v : main_v31.ty.Contents (Elt Ideal)) :
    (TRef.ofBuf (Val := Elt Ideal) (TRef.of (T := ⟨S600000x128, .f32⟩) main_v31 h1 h2 h3) v : (⟨S600000x128, .f32⟩ : BufTy).Contents (Elt Ideal)) = v := rfl
theorem ofBuf_call0_v0 (h1 h2 h3) (v : main_call0_v0.ty.Contents (Elt Ideal)) :
    (TRef.ofBuf (Val := Elt Ideal) (TRef.of (T := ⟨S600000x128, .f32⟩) main_call0_v0 h1 h2 h3) v : (⟨S600000x128, .f32⟩ : BufTy).Contents (Elt Ideal)) = v := rfl
theorem toBuf_call1_cst (h1 h2 h3) (X : (⟨S_, .f32⟩ : BufTy).Contents (Elt Ideal)) :
    (TRef.toBuf (Val := Elt Ideal) (TRef.of (T := ⟨S_, .f32⟩) main_call1_cst h1 h2 h3) X : (⟨S_, .f32⟩ : BufTy).Contents (Elt Ideal)) = X := rfl
theorem toBuf_call1_v0 (h1 h2 h3) (X : (⟨S50000x128, .f32⟩ : BufTy).Contents (Elt Ideal)) :
    (TRef.toBuf (Val := Elt Ideal) (TRef.of (T := ⟨S50000x128, .f32⟩) main_call1_v0 h1 h2 h3) X : (⟨S50000x128, .f32⟩ : BufTy).Contents (Elt Ideal)) = X := rfl
theorem toBuf_v59 (h1 h2 h3) (X : (⟨S50000x128, .f32⟩ : BufTy).Contents (Elt Ideal)) :
    (TRef.toBuf (Val := Elt Ideal) (TRef.of (T := ⟨S50000x128, .f32⟩) main_v59 h1 h2 h3) X : (⟨S50000x128, .f32⟩ : BufTy).Contents (Elt Ideal)) = X := rfl
theorem ofBuf_call1_cst (h1 h2 h3) (v : main_call1_cst.ty.Contents (Elt Ideal)) :
    (TRef.ofBuf (Val := Elt Ideal) (TRef.of (T := ⟨S_, .f32⟩) main_call1_cst h1 h2 h3) v : (⟨S_, .f32⟩ : BufTy).Contents (Elt Ideal)) = v := rfl
theorem ofBuf_v58 (h1 h2 h3) (v : main_v58.ty.Contents (Elt Ideal)) :
    (TRef.ofBuf (Val := Elt Ideal) (TRef.of (T := ⟨S50000x128, .f32⟩) main_v58 h1 h2 h3) v : (⟨S50000x128, .f32⟩ : BufTy).Contents (Elt Ideal)) = v := rfl
theorem ofBuf_call1_v0 (h1 h2 h3) (v : main_call1_v0.ty.Contents (Elt Ideal)) :
    (TRef.ofBuf (Val := Elt Ideal) (TRef.of (T := ⟨S50000x128, .f32⟩) main_call1_v0 h1 h2 h3) v : (⟨S50000x128, .f32⟩ : BufTy).Contents (Elt Ideal)) = v := rfl
theorem toBuf_call2_cst (h1 h2 h3) (X : (⟨S_, .f32⟩ : BufTy).Contents (Elt Ideal)) :
    (TRef.toBuf (Val := Elt Ideal) (TRef.of (T := ⟨S_, .f32⟩) main_call2_cst h1 h2 h3) X : (⟨S_, .f32⟩ : BufTy).Contents (Elt Ideal)) = X := rfl
theorem toBuf_call2_v0 (h1 h2 h3) (X : (⟨S600000x64, .f32⟩ : BufTy).Contents (Elt Ideal)) :
    (TRef.toBuf (Val := Elt Ideal) (TRef.of (T := ⟨S600000x64, .f32⟩) main_call2_v0 h1 h2 h3) X : (⟨S600000x64, .f32⟩ : BufTy).Contents (Elt Ideal)) = X := rfl
theorem toBuf_v80 (h1 h2 h3) (X : (⟨S600000x64, .f32⟩ : BufTy).Contents (Elt Ideal)) :
    (TRef.toBuf (Val := Elt Ideal) (TRef.of (T := ⟨S600000x64, .f32⟩) main_v80 h1 h2 h3) X : (⟨S600000x64, .f32⟩ : BufTy).Contents (Elt Ideal)) = X := rfl
theorem ofBuf_call2_cst (h1 h2 h3) (v : main_call2_cst.ty.Contents (Elt Ideal)) :
    (TRef.ofBuf (Val := Elt Ideal) (TRef.of (T := ⟨S_, .f32⟩) main_call2_cst h1 h2 h3) v : (⟨S_, .f32⟩ : BufTy).Contents (Elt Ideal)) = v := rfl
theorem ofBuf_v79 (h1 h2 h3) (v : main_v79.ty.Contents (Elt Ideal)) :
    (TRef.ofBuf (Val := Elt Ideal) (TRef.of (T := ⟨S600000x64, .f32⟩) main_v79 h1 h2 h3) v : (⟨S600000x64, .f32⟩ : BufTy).Contents (Elt Ideal)) = v := rfl
theorem ofBuf_call2_v0 (h1 h2 h3) (v : main_call2_v0.ty.Contents (Elt Ideal)) :
    (TRef.ofBuf (Val := Elt Ideal) (TRef.of (T := ⟨S600000x64, .f32⟩) main_call2_v0 h1 h2 h3) v : (⟨S600000x64, .f32⟩ : BufTy).Contents (Elt Ideal)) = v := rfl

/-! ## The two chunks that join two blocks, cut at the joining -/

section
variable {F : FTy → Type} [FloatOps F]

/-- The second chunk up to the difference of the two gathers. -/
abbrev ops2a : List (HloOp τ sig (Elt F)) :=
  [ nullary main_c (constantI S_ 32 0#32),
    unary main_c main_v12 (broadcastInDim S600000 ![] bcast_S_S600000 : (⟨S_, .i32⟩ : BufTy).Contents (Elt F) → (⟨S600000, .i32⟩ : BufTy).Contents (Elt F)),
    binary main_v7 main_v12 main_v13 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v14 (broadcastInDim S600000 ![] bcast_S_S600000 : (⟨S_, .i32⟩ : BufTy).Contents (Elt F) → (⟨S600000, .i32⟩ : BufTy).Contents (Elt F)),
    binary main_v7 main_v14 main_v15 (addi : (⟨S600000, .i32⟩ : BufTy).Contents (Elt F) → (⟨S600000, .i32⟩ : BufTy).Contents (Elt F) → (⟨S600000, .i32⟩ : BufTy).Contents (Elt F)),
    ternary main_v13 main_v15 main_v7 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v16 main_v17 (broadcastInDim S600000x1 ![0] bcast_S600000_S600000x1_0 : (⟨S600000, .i32⟩ : BufTy).Contents (Elt F) → (⟨S600000x1, .i32⟩ : BufTy).Contents (Elt F)),
    binary main_v11 main_v17 main_v18 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    nullary main_c_1 (constantI S_ 32 0#32),
    unary main_c_1 main_v19 (broadcastInDim S600000 ![] bcast_S_S600000 : (⟨S_, .i32⟩ : BufTy).Contents (Elt F) → (⟨S600000, .i32⟩ : BufTy).Contents (Elt F)),
    binary main_v5 main_v19 main_v20 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v21 (broadcastInDim S600000 ![] bcast_S_S600000 : (⟨S_, .i32⟩ : BufTy).Contents (Elt F) → (⟨S600000, .i32⟩ : BufTy).Contents (Elt F)),
    binary main_v5 main_v21 main_v22 (addi : (⟨S600000, .i32⟩ : BufTy).Contents (Elt F) → (⟨S600000, .i32⟩ : BufTy).Contents (Elt F) → (⟨S600000, .i32⟩ : BufTy).Contents (Elt F)),
    ternary main_v20 main_v22 main_v5 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v23 main_v24 (broadcastInDim S600000x1 ![0] bcast_S600000_S600000x1_0 : (⟨S600000, .i32⟩ : BufTy).Contents (Elt F) → (⟨S600000x1, .i32⟩ : BufTy).Contents (Elt F)),
    binary main_v11 main_v24 main_v25 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    binary main_v25 main_v18 main_v26 (subf : (⟨S600000x64, .f32⟩ : BufTy).Contents (Elt F) → (⟨S600000x64, .f32⟩ : BufTy).Contents (Elt F) → (⟨S600000x64, .f32⟩ : BufTy).Contents (Elt F)) ]

/-- The second chunk from the joining of the two blocks on. -/
abbrev ops2b : List (HloOp τ sig (Elt F)) :=
  [ binary main_v18 main_v26 main_v27 ((fun a b => concatenate S600000x128 1 [⟨S600000x64, a⟩, ⟨S600000x64, b⟩] concatenates_S600000x64_S600000x64_S600000x128_d1) : (⟨S600000x64, .f32⟩ : BufTy).Contents (Elt F) → (⟨S600000x64, .f32⟩ : BufTy).Contents (Elt F) → (⟨S600000x128, .f32⟩ : BufTy).Contents (Elt F)),
    binary main_v27 main_arg6 main_v28 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg7 main_v29 (broadcastInDim S1x128 ![1] bcast_S128_S1x128_1 : (⟨S128, .f32⟩ : BufTy).Contents (Elt F) → (⟨S1x128, .f32⟩ : BufTy).Contents (Elt F)),
    unary main_v29 main_v30 (broadcastInDim S600000x128 ![0, 1] bcast_S1x128_S600000x128_0_1 : (⟨S1x128, .f32⟩ : BufTy).Contents (Elt F) → (⟨S600000x128, .f32⟩ : BufTy).Contents (Elt F)),
    binary main_v28 main_v30 main_v31 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S600000x128, .f32⟩) main_call0_v0) (broadcastInDim S600000x128 ![] bcast_S_S600000x128),
    TRef.binary (TRef.of (T := ⟨S600000x128, .f32⟩) main_v31) (TRef.of (T := ⟨S600000x128, .f32⟩) main_call0_v0) (TRef.of (T := ⟨S600000x128, .f32⟩) main_v32) maximumf,
    binary main_v32 main_arg8 main_v33 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg9 main_v34 (broadcastInDim S1x128 ![1] bcast_S128_S1x128_1 : (⟨S128, .f32⟩ : BufTy).Contents (Elt F) → (⟨S1x128, .f32⟩ : BufTy).Contents (Elt F)),
    unary main_v34 main_v35 (broadcastInDim S600000x128 ![0, 1] bcast_S1x128_S600000x128_0_1 : (⟨S1x128, .f32⟩ : BufTy).Contents (Elt F) → (⟨S600000x128, .f32⟩ : BufTy).Contents (Elt F)),
    binary main_v33 main_v35 main_v36 (addf : (⟨S600000x128, .f32⟩ : BufTy).Contents (Elt F) → (⟨S600000x128, .f32⟩ : BufTy).Contents (Elt F) → (⟨S600000x128, .f32⟩ : BufTy).Contents (Elt F)) ]

/-- The chunk is its two parts in order. -/
theorem ops2_split : (ops2 : List (HloOp τ sig (Elt F))) = ops2a ++ ops2b := rfl

end

/-- The buffers after the chunk's first part. -/
def U1a (V : Valuation τ sig (Elt Ideal)) : Valuation τ sig (Elt Ideal) := after (ops2a (F := Ideal)) (U1 V)

theorem U2_eq (V : Valuation τ sig (Elt Ideal)) : U2 V = after (ops2b (F := Ideal)) (U1a V) := by
  show after (ops2 (F := Ideal)) (U1 V) = _
  rw [ops2_split, after_append]
  rfl

section
variable {F : FTy → Type} [FloatOps F]

/-- The fourth chunk up to the difference of the two gathers. -/
abbrev ops4a : List (HloOp τ sig (Elt F)) :=
  [ nullary main_c_7 (constantI S_ 32 0#32),
    unary main_c_7 main_v60 (broadcastInDim S600000 ![] bcast_S_S600000 : (⟨S_, .i32⟩ : BufTy).Contents (Elt F) → (⟨S600000, .i32⟩ : BufTy).Contents (Elt F)),
    binary main_v7 main_v60 main_v61 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v62 (broadcastInDim S600000 ![] bcast_S_S600000 : (⟨S_, .i32⟩ : BufTy).Contents (Elt F) → (⟨S600000, .i32⟩ : BufTy).Contents (Elt F)),
    binary main_v7 main_v62 main_v63 (addi : (⟨S600000, .i32⟩ : BufTy).Contents (Elt F) → (⟨S600000, .i32⟩ : BufTy).Contents (Elt F) → (⟨S600000, .i32⟩ : BufTy).Contents (Elt F)),
    ternary main_v61 main_v63 main_v7 main_v64 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v64 main_v65 (broadcastInDim S600000x1 ![0] bcast_S600000_S600000x1_0 : (⟨S600000, .i32⟩ : BufTy).Contents (Elt F) → (⟨S600000x1, .i32⟩ : BufTy).Contents (Elt F)),
    binary main_v59 main_v65 main_v66 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_9 (constantI S_ 32 0#32),
    unary main_c_9 main_v67 (broadcastInDim S600000 ![] bcast_S_S600000 : (⟨S_, .i32⟩ : BufTy).Contents (Elt F) → (⟨S600000, .i32⟩ : BufTy).Contents (Elt F)),
    binary main_v5 main_v67 main_v68 (cmpi .slt : (⟨S600000, .i32⟩ : BufTy).Contents (Elt F) → (⟨S600000, .i32⟩ : BufTy).Contents (Elt F) → (⟨S600000, .i1⟩ : BufTy).Contents (Elt F)),
    nullary main_c_10 (constantI S_ 32 50000#32),
    unary main_c_10 main_v69 (broadcastInDim S600000 ![] bcast_S_S600000 : (⟨S_, .i32⟩ : BufTy).Contents (Elt F) → (⟨S600000, .i32⟩ : BufTy).Contents (Elt F)),
    binary main_v5 main_v69 main_v70 (addi : (⟨S600000, .i32⟩ : BufTy).Contents (Elt F) → (⟨S600000, .i32⟩ : BufTy).Contents (Elt F) → (⟨S600000, .i32⟩ : BufTy).Contents (Elt F)),
    ternary main_v68 main_v70 main_v5 main_v71 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v71 main_v72 (broadcastInDim S600000x1 ![0] bcast_S600000_S600000x1_0 : (⟨S600000, .i32⟩ : BufTy).Contents (Elt F) → (⟨S600000x1, .i32⟩ : BufTy).Contents (Elt F)),
    binary main_v59 main_v72 main_v73 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v73 main_v66 main_v74 (subf : (⟨S600000x128, .f32⟩ : BufTy).Contents (Elt F) → (⟨S600000x128, .f32⟩ : BufTy).Contents (Elt F) → (⟨S600000x128, .f32⟩ : BufTy).Contents (Elt F)) ]

/-- The fourth chunk from the joining of the two blocks on. -/
abbrev ops4b : List (HloOp τ sig (Elt F)) :=
  [ binary main_v66 main_v74 main_v75 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    binary main_v75 main_arg10 main_v76 ((fun l r => Host.dotGeneral dot_S600000x256_S256x64_S600000x64_1_0_0_1_n_n none l r) : (⟨S600000x256, .f32⟩ : BufTy).Contents (Elt F) → (⟨S256x64, .f32⟩ : BufTy).Contents (Elt F) → (⟨S600000x64, .f32⟩ : BufTy).Contents (Elt F)),
    unary main_arg11 main_v77 (broadcastInDim S1x64 ![1] bcast_S64_S1x64_1 : (⟨S64, .f32⟩ : BufTy).Contents (Elt F) → (⟨S1x64, .f32⟩ : BufTy).Contents (Elt F)),
    unary main_v77 main_v78 (broadcastInDim S600000x64 ![0, 1] bcast_S1x64_S600000x64_0_1 : (⟨S1x64, .f32⟩ : BufTy).Contents (Elt F) → (⟨S600000x64, .f32⟩ : BufTy).Contents (Elt F)),
    binary main_v76 main_v78 main_v79 (addf : (⟨S600000x64, .f32⟩ : BufTy).Contents (Elt F) → (⟨S600000x64, .f32⟩ : BufTy).Contents (Elt F) → (⟨S600000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S600000x64, .f32⟩) main_call2_v0) (broadcastInDim S600000x64 ![] bcast_S_S600000x64),
    TRef.binary (TRef.of (T := ⟨S600000x64, .f32⟩) main_v79) (TRef.of (T := ⟨S600000x64, .f32⟩) main_call2_v0) (TRef.of (T := ⟨S600000x64, .f32⟩) main_v80) maximumf,
    binary main_v80 main_arg12 main_v81 ((fun l r => Host.dotGeneral dot_S600000x64_S64x64_S600000x64_1_0_0_1_n_n none l r) : (⟨S600000x64, .f32⟩ : BufTy).Contents (Elt F) → (⟨S64x64, .f32⟩ : BufTy).Contents (Elt F) → (⟨S600000x64, .f32⟩ : BufTy).Contents (Elt F)),
    unary main_arg13 main_v82 (broadcastInDim S1x64 ![1] bcast_S64_S1x64_1 : (⟨S64, .f32⟩ : BufTy).Contents (Elt F) → (⟨S1x64, .f32⟩ : BufTy).Contents (Elt F)),
    unary main_v82 main_v83 (broadcastInDim S600000x64 ![0, 1] bcast_S1x64_S600000x64_0_1 : (⟨S1x64, .f32⟩ : BufTy).Contents (Elt F) → (⟨S600000x64, .f32⟩ : BufTy).Contents (Elt F)),
    binary main_v81 main_v83 main_v84 (addf : (⟨S600000x64, .f32⟩ : BufTy).Contents (Elt F) → (⟨S600000x64, .f32⟩ : BufTy).Contents (Elt F) → (⟨S600000x64, .f32⟩ : BufTy).Contents (Elt F)) ]

/-- The chunk is its two parts in order. -/
theorem ops4_split : (ops4 : List (HloOp τ sig (Elt F))) = ops4a ++ ops4b := rfl

end

/-- The buffers after the chunk's first part. -/
def U3a (V : Valuation τ sig (Elt Ideal)) : Valuation τ sig (Elt Ideal) := after (ops4a (F := Ideal)) (U3 V)

theorem U4_eq (V : Valuation τ sig (Elt Ideal)) : U4 V = after (ops4b (F := Ideal)) (U3a V) := by
  show after (ops4 (F := Ideal)) (U3 V) = _
  rw [ops4_split, after_append]
  rfl

variable (V : Valuation τ sig (Elt Ideal))

/-! ## The chunks' exports -/

/-- After the first chunk the row of source node numbers is its stage. -/
theorem e1_v5 : U1 V (Proc.devRef .tc main_v5)
    = val_main_v5 (F := Ideal) (V (Proc.devRef .tc main_arg26) : (⟨S2x600000, .i32⟩ : BufTy).Contents (Elt Ideal)) := by
  show after ops1 V (Proc.devRef .tc main_v5) = _
  dsimp only [ops1]
  after_results_simp
  rfl

/-- After the first chunk the row of target node numbers is its stage. -/
theorem e1_v7 : U1 V (Proc.devRef .tc main_v7)
    = val_main_v7 (F := Ideal) (V (Proc.devRef .tc main_arg26) : (⟨S2x600000, .i32⟩ : BufTy).Contents (Elt Ideal)) := by
  show after ops1 V (Proc.devRef .tc main_v7) = _
  dsimp only [ops1]
  after_results_simp
  rfl

/-- After the first chunk the embedded nodes are their stage. -/
theorem e1_v11 : U1 V (Proc.devRef .tc main_v11)
    = val_main_v11 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) := by
  show after ops1 V (Proc.devRef .tc main_v11) = _
  dsimp only [ops1]
  after_results_simp
  rfl

set_option maxHeartbeats 2000000 in
/-- After the second chunk's first part the receiving nodes' rows are their stage. -/
theorem a2_v18 : U1a V (Proc.devRef .tc main_v18)
    = val_main_v18 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg26) : (⟨S2x600000, .i32⟩ : BufTy).Contents (Elt Ideal)) := by
  show after ops2a (U1 V) (Proc.devRef .tc main_v18) = _
  dsimp only [ops2a]
  after_results_simp
  rw [e1_v7 V, e1_v11 V]
  rfl

set_option maxHeartbeats 2000000 in
/-- After the second chunk's first part the difference of the two gathers is its stage. -/
theorem a2_v26 : U1a V (Proc.devRef .tc main_v26)
    = val_main_v26 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg26) : (⟨S2x600000, .i32⟩ : BufTy).Contents (Elt Ideal)) := by
  show after ops2a (U1 V) (Proc.devRef .tc main_v26) = _
  dsimp only [ops2a]
  after_results_simp
  rw [e1_v5 V, e1_v7 V, e1_v11 V]
  rfl

theorem atU1a_main_arg6 : U1a V (Proc.devRef .tc main_arg6) = V (Proc.devRef .tc main_arg6) :=
  (skip_chunk main_arg6, ops2a).trans (atU1_main_arg6 V)
theorem atU1a_main_arg7 : U1a V (Proc.devRef .tc main_arg7) = V (Proc.devRef .tc main_arg7) :=
  (skip_chunk main_arg7, ops2a).trans (atU1_main_arg7 V)
theorem atU1a_main_arg8 : U1a V (Proc.devRef .tc main_arg8) = V (Proc.devRef .tc main_arg8) :=
  (skip_chunk main_arg8, ops2a).trans (atU1_main_arg8 V)
theorem atU1a_main_arg9 : U1a V (Proc.devRef .tc main_arg9) = V (Proc.devRef .tc main_arg9) :=
  (skip_chunk main_arg9, ops2a).trans (atU1_main_arg9 V)

set_option maxHeartbeats 2000000 in
/-- After the second chunk the first layer's messages are their stage. -/
theorem e2 : U2 V (Proc.devRef .tc main_v36)
    = val_main_v36 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg26) : (⟨S2x600000, .i32⟩ : BufTy).Contents (Elt Ideal)) := by
  rw [U2_eq]
  dsimp only [ops2b]
  after_results_simp
  simp only [Cert.Lib.TypedRef.ofBuf_toBuf, toBuf_call0_cst, toBuf_call0_v0, toBuf_v32, ofBuf_call0_cst, ofBuf_v31, ofBuf_call0_v0]
  rw [a2_v18 V, a2_v26 V, atU1a_main_arg6 V, atU1a_main_arg7 V, atU1a_main_arg8 V, atU1a_main_arg9 V]
  rfl

set_option maxHeartbeats 2000000 in
/-- After the third chunk the nodes after the first layer are their stage. -/
theorem e3 : U3 V (Proc.devRef .tc main_v59)
    = val_main_v59 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg26) : (⟨S2x600000, .i32⟩ : BufTy).Contents (Elt Ideal)) := by
  show after ops3 (U2 V) (Proc.devRef .tc main_v59) = _
  dsimp only [ops3]
  after_results_simp
  simp only [Cert.Lib.TypedRef.ofBuf_toBuf, toBuf_call1_cst, toBuf_call1_v0, toBuf_v59, ofBuf_call1_cst, ofBuf_v58, ofBuf_call1_v0]
  rw [atU2_main_v7 V, e1_v7 V, e2 V, atU2_main_arg18 V, atU2_main_arg19 V]
  rfl

set_option maxHeartbeats 2000000 in
/-- After the fourth chunk's first part the receiving nodes' rows are their stage. -/
theorem a4_v66 : U3a V (Proc.devRef .tc main_v66)
    = val_main_v66 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg26) : (⟨S2x600000, .i32⟩ : BufTy).Contents (Elt Ideal)) := by
  show after ops4a (U3 V) (Proc.devRef .tc main_v66) = _
  dsimp only [ops4a]
  after_results_simp
  rw [atU3_main_v7 V, e1_v7 V, e3 V]
  rfl

set_option maxHeartbeats 2000000 in
/-- After the fourth chunk's first part the difference of the two gathers is its stage. -/
theorem a4_v74 : U3a V (Proc.devRef .tc main_v74)
    = val_main_v74 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg26) : (⟨S2x600000, .i32⟩ : BufTy).Contents (Elt Ideal)) := by
  show after ops4a (U3 V) (Proc.devRef .tc main_v74) = _
  dsimp only [ops4a]
  after_results_simp
  rw [atU3_main_v5 V, atU3_main_v7 V, e1_v5 V, e1_v7 V, e3 V]
  rfl

theorem atU3a_main_arg10 : U3a V (Proc.devRef .tc main_arg10) = V (Proc.devRef .tc main_arg10) :=
  (skip_chunk main_arg10, ops4a).trans (atU3_main_arg10 V)
theorem atU3a_main_arg11 : U3a V (Proc.devRef .tc main_arg11) = V (Proc.devRef .tc main_arg11) :=
  (skip_chunk main_arg11, ops4a).trans (atU3_main_arg11 V)
theorem atU3a_main_arg12 : U3a V (Proc.devRef .tc main_arg12) = V (Proc.devRef .tc main_arg12) :=
  (skip_chunk main_arg12, ops4a).trans (atU3_main_arg12 V)
theorem atU3a_main_arg13 : U3a V (Proc.devRef .tc main_arg13) = V (Proc.devRef .tc main_arg13) :=
  (skip_chunk main_arg13, ops4a).trans (atU3_main_arg13 V)

set_option maxHeartbeats 2000000 in
/-- After the fourth chunk the second layer's messages are their stage. -/
theorem e4 : U4 V (Proc.devRef .tc main_v84)
    = val_main_v84 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg26) : (⟨S2x600000, .i32⟩ : BufTy).Contents (Elt Ideal)) := by
  rw [U4_eq]
  dsimp only [ops4b]
  after_results_simp
  simp only [Cert.Lib.TypedRef.ofBuf_toBuf, toBuf_call2_cst, toBuf_call2_v0, toBuf_v80, ofBuf_call2_cst, ofBuf_v79, ofBuf_call2_v0]
  rw [a4_v66 V, a4_v74 V, atU3a_main_arg10 V, atU3a_main_arg11 V, atU3a_main_arg12 V, atU3a_main_arg13 V]
  rfl

end Cert.ReferenceIdeal.HandRun

end
-- ==== Proof.RefRunB.lean ====
import proofs.«142674_j19808389169323_1_alg».proof.Proof.RefRunBase
import proofs.«142674_j19808389169323_1_alg».proof.Proof.RefRead
import proofs.«142674_j19808389169323_1_alg».proof.Proof.LibTypedRef

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

/-! The last four chunks of the reference, each read as one stage of the argument arrays: what a chunk leaves in the one
    array the later chunks need is that stage, given that the chunks before it left theirs. (Chunk 5: layer 2's new
    nodes; chunk 6: layer 3's messages; chunk 7: layer 3's new nodes; chunk 8: the classifier's output.) -/

/-! ## Typed references whose type is the buffer's own -/

/-- Writing contents of the buffer's own type through the typed reference of main_v107 leaves them as they are. -/
theorem toBuf_v107 (h1 h2 h3) (X : FVec Ideal S50000x64 .f32) :
    (TRef.toBuf (Val := Elt Ideal) (TRef.of main_v107 h1 h2 h3 : TRef sig ⟨S50000x64, .f32⟩) X : FVec Ideal S50000x64 .f32) = X := rfl
/-- Reading the buffer main_v106 through its typed reference leaves the contents as they are. -/
theorem ofBuf_v106 (h1 h2 h3) (v : main_v106.ty.Contents (Elt Ideal)) :
    (TRef.ofBuf (Val := Elt Ideal) (TRef.of main_v106 h1 h2 h3 : TRef sig ⟨S50000x64, .f32⟩) v : FVec Ideal S50000x64 .f32) = v := rfl

/-- Writing contents of the buffer's own type through the typed reference of main_v128 leaves them as they are. -/
theorem toBuf_v128 (h1 h2 h3) (X : FVec Ideal S600000x32 .f32) :
    (TRef.toBuf (Val := Elt Ideal) (TRef.of main_v128 h1 h2 h3 : TRef sig ⟨S600000x32, .f32⟩) X : FVec Ideal S600000x32 .f32) = X := rfl
/-- Reading the buffer main_v127 through its typed reference leaves the contents as they are. -/
theorem ofBuf_v127 (h1 h2 h3) (v : main_v127.ty.Contents (Elt Ideal)) :
    (TRef.ofBuf (Val := Elt Ideal) (TRef.of main_v127 h1 h2 h3 : TRef sig ⟨S600000x32, .f32⟩) v : FVec Ideal S600000x32 .f32) = v := rfl

/-- Writing contents of the buffer's own type through the typed reference of main_v155 leaves them as they are. -/
theorem toBuf_v155 (h1 h2 h3) (X : FVec Ideal S50000x32 .f32) :
    (TRef.toBuf (Val := Elt Ideal) (TRef.of main_v155 h1 h2 h3 : TRef sig ⟨S50000x32, .f32⟩) X : FVec Ideal S50000x32 .f32) = X := rfl
/-- Reading the buffer main_v154 through its typed reference leaves the contents as they are. -/
theorem ofBuf_v154 (h1 h2 h3) (v : main_v154.ty.Contents (Elt Ideal)) :
    (TRef.ofBuf (Val := Elt Ideal) (TRef.of main_v154 h1 h2 h3 : TRef sig ⟨S50000x32, .f32⟩) v : FVec Ideal S50000x32 .f32) = v := rfl

/-! ## The chunks -/

set_option maxHeartbeats 2000000 in
set_option maxRecDepth 200000 in
/-- Chunk 5 turns layer 2's messages into the nodes after layer 2: per target node the mean of its messages, scaled, shifted and rectified. -/
theorem e5 (V : Valuation τ sig (Elt Ideal))
    (h7 : U1 V (Proc.devRef .tc main_v7) = val_main_v7 (F := Ideal) (V (Proc.devRef .tc main_arg26) : (⟨S2x600000, .i32⟩ : BufTy).Contents (Elt Ideal)))
    (h84 : U4 V (Proc.devRef .tc main_v84) = val_main_v84 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg26) : (⟨S2x600000, .i32⟩ : BufTy).Contents (Elt Ideal))) :
    U5 V (Proc.devRef .tc main_v107) = val_main_v107 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg26) : (⟨S2x600000, .i32⟩ : BufTy).Contents (Elt Ideal)) := by
  show after ops5 (U4 V) (Proc.devRef .tc main_v107) = _
  dsimp only [ops5]
  after_results_simp
  simp only [Cert.Lib.TypedRef.ofBuf_toBuf, toBuf_v107, ofBuf_v106]
  rw [atU4_main_v7 V, h7, h84, atU4_main_arg20 V, atU4_main_arg21 V]
  rfl

/-! ## Chunk 6, cut where its two gathers are joined

    The joined array is built from a list of the two gathered arrays; the reads inside that list are resolved
    separately, so the chunk is read in two steps: up to the difference of the two gathers, and from the joining on. -/

/-- Chunk 6 up to the difference of the two gathers. -/
abbrev ops6a {F : FTy → Type} [FloatOps F] : List (HloOp τ sig (Elt F)) :=
  [ nullary main_c_16 (constantI S_ 32 0#32),
    unary main_c_16 main_v108 (broadcastInDim S600000 ![] bcast_S_S600000 : (⟨S_, .i32⟩ : BufTy).Contents (Elt F) → (⟨S600000, .i32⟩ : BufTy).Contents (Elt F)),
    binary main_v7 main_v108 main_v109 (cmpi .slt : (⟨S600000, .i32⟩ : BufTy).Contents (Elt F) → (⟨S600000, .i32⟩ : BufTy).Contents (Elt F) → (⟨S600000, .i1⟩ : BufTy).Contents (Elt F)),
    nullary main_c_17 (constantI S_ 32 50000#32),
    unary main_c_17 main_v110 (broadcastInDim S600000 ![] bcast_S_S600000 : (⟨S_, .i32⟩ : BufTy).Contents (Elt F) → (⟨S600000, .i32⟩ : BufTy).Contents (Elt F)),
    binary main_v7 main_v110 main_v111 (addi : (⟨S600000, .i32⟩ : BufTy).Contents (Elt F) → (⟨S600000, .i32⟩ : BufTy).Contents (Elt F) → (⟨S600000, .i32⟩ : BufTy).Contents (Elt F)),
    ternary main_v109 main_v111 main_v7 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v112 main_v113 (broadcastInDim S600000x1 ![0] bcast_S600000_S600000x1_0 : (⟨S600000, .i32⟩ : BufTy).Contents (Elt F) → (⟨S600000x1, .i32⟩ : BufTy).Contents (Elt F)),
    binary main_v107 main_v113 main_v114 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    nullary main_c_18 (constantI S_ 32 0#32),
    unary main_c_18 main_v115 (broadcastInDim S600000 ![] bcast_S_S600000 : (⟨S_, .i32⟩ : BufTy).Contents (Elt F) → (⟨S600000, .i32⟩ : BufTy).Contents (Elt F)),
    binary main_v5 main_v115 main_v116 (cmpi .slt : (⟨S600000, .i32⟩ : BufTy).Contents (Elt F) → (⟨S600000, .i32⟩ : BufTy).Contents (Elt F) → (⟨S600000, .i1⟩ : BufTy).Contents (Elt F)),
    nullary main_c_19 (constantI S_ 32 50000#32),
    unary main_c_19 main_v117 (broadcastInDim S600000 ![] bcast_S_S600000 : (⟨S_, .i32⟩ : BufTy).Contents (Elt F) → (⟨S600000, .i32⟩ : BufTy).Contents (Elt F)),
    binary main_v5 main_v117 main_v118 (addi : (⟨S600000, .i32⟩ : BufTy).Contents (Elt F) → (⟨S600000, .i32⟩ : BufTy).Contents (Elt F) → (⟨S600000, .i32⟩ : BufTy).Contents (Elt F)),
    ternary main_v116 main_v118 main_v5 main_v119 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v119 main_v120 (broadcastInDim S600000x1 ![0] bcast_S600000_S600000x1_0 : (⟨S600000, .i32⟩ : BufTy).Contents (Elt F) → (⟨S600000x1, .i32⟩ : BufTy).Contents (Elt F)),
    binary main_v107 main_v120 main_v121 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    binary main_v121 main_v114 main_v122 (subf : (⟨S600000x64, .f32⟩ : BufTy).Contents (Elt F) → (⟨S600000x64, .f32⟩ : BufTy).Contents (Elt F) → (⟨S600000x64, .f32⟩ : BufTy).Contents (Elt F)) ]

/-- Chunk 6 from the joining of the gathers on. -/
abbrev ops6b {F : FTy → Type} [FloatOps F] : List (HloOp τ sig (Elt F)) :=
  [ binary main_v114 main_v122 main_v123 ((fun a b => concatenate S600000x128 1 [⟨S600000x64, a⟩, ⟨S600000x64, b⟩] concatenates_S600000x64_S600000x64_S600000x128_d1) : (⟨S600000x64, .f32⟩ : BufTy).Contents (Elt F) → (⟨S600000x64, .f32⟩ : BufTy).Contents (Elt F) → (⟨S600000x128, .f32⟩ : BufTy).Contents (Elt F)),
    binary main_v123 main_arg14 main_v124 ((fun l r => Host.dotGeneral dot_S600000x128_S128x32_S600000x32_1_0_0_1_n_n none l r) : (⟨S600000x128, .f32⟩ : BufTy).Contents (Elt F) → (⟨S128x32, .f32⟩ : BufTy).Contents (Elt F) → (⟨S600000x32, .f32⟩ : BufTy).Contents (Elt F)),
    unary main_arg15 main_v125 (broadcastInDim S1x32 ![1] bcast_S32_S1x32_1 : (⟨S32, .f32⟩ : BufTy).Contents (Elt F) → (⟨S1x32, .f32⟩ : BufTy).Contents (Elt F)),
    unary main_v125 main_v126 (broadcastInDim S600000x32 ![0, 1] bcast_S1x32_S600000x32_0_1 : (⟨S1x32, .f32⟩ : BufTy).Contents (Elt F) → (⟨S600000x32, .f32⟩ : BufTy).Contents (Elt F)),
    binary main_v124 main_v126 main_v127 (addf : (⟨S600000x32, .f32⟩ : BufTy).Contents (Elt F) → (⟨S600000x32, .f32⟩ : BufTy).Contents (Elt F) → (⟨S600000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S600000x32, .f32⟩) main_call4_v0) (broadcastInDim S600000x32 ![] bcast_S_S600000x32),
    TRef.binary (TRef.of (T := ⟨S600000x32, .f32⟩) main_v127) (TRef.of (T := ⟨S600000x32, .f32⟩) main_call4_v0) (TRef.of (T := ⟨S600000x32, .f32⟩) main_v128) maximumf,
    binary main_v128 main_arg16 main_v129 ((fun l r => Host.dotGeneral dot_S600000x32_S32x32_S600000x32_1_0_0_1_n_n none l r) : (⟨S600000x32, .f32⟩ : BufTy).Contents (Elt F) → (⟨S32x32, .f32⟩ : BufTy).Contents (Elt F) → (⟨S600000x32, .f32⟩ : BufTy).Contents (Elt F)),
    unary main_arg17 main_v130 (broadcastInDim S1x32 ![1] bcast_S32_S1x32_1 : (⟨S32, .f32⟩ : BufTy).Contents (Elt F) → (⟨S1x32, .f32⟩ : BufTy).Contents (Elt F)),
    unary main_v130 main_v131 (broadcastInDim S600000x32 ![0, 1] bcast_S1x32_S600000x32_0_1 : (⟨S1x32, .f32⟩ : BufTy).Contents (Elt F) → (⟨S600000x32, .f32⟩ : BufTy).Contents (Elt F)),
    binary main_v129 main_v131 main_v132 (addf : (⟨S600000x32, .f32⟩ : BufTy).Contents (Elt F) → (⟨S600000x32, .f32⟩ : BufTy).Contents (Elt F) → (⟨S600000x32, .f32⟩ : BufTy).Contents (Elt F)) ]

/-- The chunk is its two parts in order. -/
theorem ops6_split {F : FTy → Type} [FloatOps F] : (ops6 : List (HloOp τ sig (Elt F))) = ops6a ++ ops6b := rfl

/-- The buffers after chunk 5 and the first part of chunk 6. -/
def U5a (V : Valuation τ sig (Elt Ideal)) : Valuation τ sig (Elt Ideal) := after ops6a (U5 V)

theorem atU5a_main_arg14 (V : Valuation τ sig (Elt Ideal)) : U5a V (Proc.devRef .tc main_arg14) = V (Proc.devRef .tc main_arg14) := (skip_chunk main_arg14, ops6a).trans (atU5_main_arg14 V)
theorem atU5a_main_arg15 (V : Valuation τ sig (Elt Ideal)) : U5a V (Proc.devRef .tc main_arg15) = V (Proc.devRef .tc main_arg15) := (skip_chunk main_arg15, ops6a).trans (atU5_main_arg15 V)
theorem atU5a_main_arg16 (V : Valuation τ sig (Elt Ideal)) : U5a V (Proc.devRef .tc main_arg16) = V (Proc.devRef .tc main_arg16) := (skip_chunk main_arg16, ops6a).trans (atU5_main_arg16 V)
theorem atU5a_main_arg17 (V : Valuation τ sig (Elt Ideal)) : U5a V (Proc.devRef .tc main_arg17) = V (Proc.devRef .tc main_arg17) := (skip_chunk main_arg17, ops6a).trans (atU5_main_arg17 V)

set_option maxHeartbeats 2000000 in
set_option maxRecDepth 200000 in
/-- The first part leaves, in main_v114, the rows of the nodes after layer 2 picked by the wrapped destinations. -/
theorem e6_v114 (V : Valuation τ sig (Elt Ideal))
    (h7 : U1 V (Proc.devRef .tc main_v7) = val_main_v7 (F := Ideal) (V (Proc.devRef .tc main_arg26) : (⟨S2x600000, .i32⟩ : BufTy).Contents (Elt Ideal)))
    (h107 : U5 V (Proc.devRef .tc main_v107) = val_main_v107 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg26) : (⟨S2x600000, .i32⟩ : BufTy).Contents (Elt Ideal))) :
    U5a V (Proc.devRef .tc main_v114) = val_main_v114 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg26) : (⟨S2x600000, .i32⟩ : BufTy).Contents (Elt Ideal)) := by
  show after ops6a (U5 V) (Proc.devRef .tc main_v114) = _
  dsimp only [ops6a]
  after_results_simp
  rw [atU5_main_v7 V, h7, h107]
  rfl

set_option maxHeartbeats 2000000 in
set_option maxRecDepth 200000 in
/-- The first part leaves, in main_v122, the rows picked by the wrapped sources minus those picked by the wrapped destinations. -/
theorem e6_v122 (V : Valuation τ sig (Elt Ideal))
    (h5 : U1 V (Proc.devRef .tc main_v5) = val_main_v5 (F := Ideal) (V (Proc.devRef .tc main_arg26) : (⟨S2x600000, .i32⟩ : BufTy).Contents (Elt Ideal)))
    (h7 : U1 V (Proc.devRef .tc main_v7) = val_main_v7 (F := Ideal) (V (Proc.devRef .tc main_arg26) : (⟨S2x600000, .i32⟩ : BufTy).Contents (Elt Ideal)))
    (h107 : U5 V (Proc.devRef .tc main_v107) = val_main_v107 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg26) : (⟨S2x600000, .i32⟩ : BufTy).Contents (Elt Ideal))) :
    U5a V (Proc.devRef .tc main_v122) = val_main_v122 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg26) : (⟨S2x600000, .i32⟩ : BufTy).Contents (Elt Ideal)) := by
  show after ops6a (U5 V) (Proc.devRef .tc main_v122) = _
  dsimp only [ops6a]
  after_results_simp
  rw [atU5_main_v7 V, atU5_main_v5 V, h7, h5, h107]
  rfl

set_option maxHeartbeats 2000000 in
set_option maxRecDepth 200000 in
/-- Chunk 6 turns the nodes after layer 2 into layer 3's messages: the two gathers, the joined product, the hidden layer and the last product. -/
theorem e6 (V : Valuation τ sig (Elt Ideal))
    (h5 : U1 V (Proc.devRef .tc main_v5) = val_main_v5 (F := Ideal) (V (Proc.devRef .tc main_arg26) : (⟨S2x600000, .i32⟩ : BufTy).Contents (Elt Ideal)))
    (h7 : U1 V (Proc.devRef .tc main_v7) = val_main_v7 (F := Ideal) (V (Proc.devRef .tc main_arg26) : (⟨S2x600000, .i32⟩ : BufTy).Contents (Elt Ideal)))
    (h107 : U5 V (Proc.devRef .tc main_v107) = val_main_v107 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg26) : (⟨S2x600000, .i32⟩ : BufTy).Contents (Elt Ideal))) :
    U6 V (Proc.devRef .tc main_v132) = val_main_v132 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg14) : (⟨S128x32, .f32⟩ : BufTy).Contents (Elt Ideal)) (V (Proc.devRef .tc main_arg15) : (⟨S32, .f32⟩ : BufTy).Contents (Elt Ideal)) (V (Proc.devRef .tc main_arg16) : (⟨S32x32, .f32⟩ : BufTy).Contents (Elt Ideal)) (V (Proc.devRef .tc main_arg17) : (⟨S32, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg26) : (⟨S2x600000, .i32⟩ : BufTy).Contents (Elt Ideal)) := by
  show after ops6 (U5 V) (Proc.devRef .tc main_v132) = _
  rw [ops6_split, after_append]
  show after ops6b (U5a V) (Proc.devRef .tc main_v132) = _
  dsimp only [ops6b]
  after_results_simp
  simp only [Cert.Lib.TypedRef.ofBuf_toBuf, toBuf_v128, ofBuf_v127]
  rw [e6_v114 V h7 h107, e6_v122 V h5 h7 h107, atU5a_main_arg14 V, atU5a_main_arg15 V, atU5a_main_arg16 V, atU5a_main_arg17 V]
  rfl

set_option maxHeartbeats 2000000 in
set_option maxRecDepth 200000 in
/-- Chunk 7 turns layer 3's messages into the nodes after layer 3. -/
theorem e7 (V : Valuation τ sig (Elt Ideal))
    (h7 : U1 V (Proc.devRef .tc main_v7) = val_main_v7 (F := Ideal) (V (Proc.devRef .tc main_arg26) : (⟨S2x600000, .i32⟩ : BufTy).Contents (Elt Ideal)))
    (h132 : U6 V (Proc.devRef .tc main_v132) = val_main_v132 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg14) : (⟨S128x32, .f32⟩ : BufTy).Contents (Elt Ideal)) (V (Proc.devRef .tc main_arg15) : (⟨S32, .f32⟩ : BufTy).Contents (Elt Ideal)) (V (Proc.devRef .tc main_arg16) : (⟨S32x32, .f32⟩ : BufTy).Contents (Elt Ideal)) (V (Proc.devRef .tc main_arg17) : (⟨S32, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg26) : (⟨S2x600000, .i32⟩ : BufTy).Contents (Elt Ideal))) :
    U7 V (Proc.devRef .tc main_v155) = val_main_v155 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg14) : (⟨S128x32, .f32⟩ : BufTy).Contents (Elt Ideal)) (V (Proc.devRef .tc main_arg15) : (⟨S32, .f32⟩ : BufTy).Contents (Elt Ideal)) (V (Proc.devRef .tc main_arg16) : (⟨S32x32, .f32⟩ : BufTy).Contents (Elt Ideal)) (V (Proc.devRef .tc main_arg17) : (⟨S32, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg22) : (⟨S32, .f32⟩ : BufTy).Contents (Elt Ideal)) (V (Proc.devRef .tc main_arg23) : (⟨S32, .f32⟩ : BufTy).Contents (Elt Ideal)) (V (Proc.devRef .tc main_arg26) : (⟨S2x600000, .i32⟩ : BufTy).Contents (Elt Ideal)) := by
  show after ops7 (U6 V) (Proc.devRef .tc main_v155) = _
  dsimp only [ops7]
  after_results_simp
  simp only [Cert.Lib.TypedRef.ofBuf_toBuf, toBuf_v155, ofBuf_v154]
  rw [atU6_main_v7 V, h7, h132, atU6_main_arg22 V, atU6_main_arg23 V]
  rfl

set_option maxHeartbeats 2000000 in
set_option maxRecDepth 200000 in
/-- Chunk 8 pools the nodes after layer 3 per graph and applies the classifier. -/
theorem e8 (V : Valuation τ sig (Elt Ideal))
    (h155 : U7 V (Proc.devRef .tc main_v155) = val_main_v155 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg14) : (⟨S128x32, .f32⟩ : BufTy).Contents (Elt Ideal)) (V (Proc.devRef .tc main_arg15) : (⟨S32, .f32⟩ : BufTy).Contents (Elt Ideal)) (V (Proc.devRef .tc main_arg16) : (⟨S32x32, .f32⟩ : BufTy).Contents (Elt Ideal)) (V (Proc.devRef .tc main_arg17) : (⟨S32, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg22) : (⟨S32, .f32⟩ : BufTy).Contents (Elt Ideal)) (V (Proc.devRef .tc main_arg23) : (⟨S32, .f32⟩ : BufTy).Contents (Elt Ideal)) (V (Proc.devRef .tc main_arg26) : (⟨S2x600000, .i32⟩ : BufTy).Contents (Elt Ideal))) :
    U8 V (Proc.devRef .tc main_v177) = val_main_v177 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg14) : (⟨S128x32, .f32⟩ : BufTy).Contents (Elt Ideal)) (V (Proc.devRef .tc main_arg15) : (⟨S32, .f32⟩ : BufTy).Contents (Elt Ideal)) (V (Proc.devRef .tc main_arg16) : (⟨S32x32, .f32⟩ : BufTy).Contents (Elt Ideal)) (V (Proc.devRef .tc main_arg17) : (⟨S32, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg22) : (⟨S32, .f32⟩ : BufTy).Contents (Elt Ideal)) (V (Proc.devRef .tc main_arg23) : (⟨S32, .f32⟩ : BufTy).Contents (Elt Ideal)) (V (Proc.devRef .tc main_arg24) : (⟨S32x5, .f32⟩ : BufTy).Contents (Elt Ideal)) (V (Proc.devRef .tc main_arg25) : (⟨S5, .f32⟩ : BufTy).Contents (Elt Ideal)) (V (Proc.devRef .tc main_arg26) : (⟨S2x600000, .i32⟩ : BufTy).Contents (Elt Ideal)) (V (Proc.devRef .tc main_arg27) : (⟨S50000, .i32⟩ : BufTy).Contents (Elt Ideal)) := by
  show after ops8 (U7 V) (Proc.devRef .tc main_v177) = _
  dsimp only [ops8]
  after_results_simp
  rw [h155, atU7_main_arg27 V, atU7_main_arg24 V, atU7_main_arg25 V]
  rfl

end Cert.ReferenceIdeal.HandRun

end
-- ==== Proof.RefRun.lean ====
/-
  The reference program's run.

  The program is a straight line of host operations, so every execution ends with each buffer at the fold of the
  operations over the memory it started from. The fold was read chunk by chunk: chained, the chunks' exports say that
  the result array is its stage of the argument arrays. An argument array is written by no operation (one pass over the
  list of the buffers the operations write), so it ends as it started.
-/
import proofs.«142674_j19808389169323_1_alg».proof.Proof.RefRunBase
import proofs.«142674_j19808389169323_1_alg».proof.Proof.RefRunA
import proofs.«142674_j19808389169323_1_alg».proof.Proof.RefRunB
import proofs.«142674_j19808389169323_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable (V : Valuation τ sig (Elt Ideal))

/-- After the last chunk the result array is its stage of the argument arrays: the chunks' exports chained. -/
theorem e8_all : U8 V (Proc.devRef .tc main_v177)
    = val_main_v177 (F := Ideal) (V (Proc.devRef .tc main_arg0) : (⟨S50000x32, .f32⟩ : BufTy).Contents (Elt Ideal)) (V (Proc.devRef .tc main_arg4) : (⟨S32x64, .f32⟩ : BufTy).Contents (Elt Ideal)) (V (Proc.devRef .tc main_arg5) : (⟨S64, .f32⟩ : BufTy).Contents (Elt Ideal)) (V (Proc.devRef .tc main_arg6) : (⟨S128x128, .f32⟩ : BufTy).Contents (Elt Ideal)) (V (Proc.devRef .tc main_arg7) : (⟨S128, .f32⟩ : BufTy).Contents (Elt Ideal)) (V (Proc.devRef .tc main_arg8) : (⟨S128x128, .f32⟩ : BufTy).Contents (Elt Ideal)) (V (Proc.devRef .tc main_arg9) : (⟨S128, .f32⟩ : BufTy).Contents (Elt Ideal)) (V (Proc.devRef .tc main_arg10) : (⟨S256x64, .f32⟩ : BufTy).Contents (Elt Ideal)) (V (Proc.devRef .tc main_arg11) : (⟨S64, .f32⟩ : BufTy).Contents (Elt Ideal)) (V (Proc.devRef .tc main_arg12) : (⟨S64x64, .f32⟩ : BufTy).Contents (Elt Ideal)) (V (Proc.devRef .tc main_arg13) : (⟨S64, .f32⟩ : BufTy).Contents (Elt Ideal)) (V (Proc.devRef .tc main_arg14) : (⟨S128x32, .f32⟩ : BufTy).Contents (Elt Ideal)) (V (Proc.devRef .tc main_arg15) : (⟨S32, .f32⟩ : BufTy).Contents (Elt Ideal)) (V (Proc.devRef .tc main_arg16) : (⟨S32x32, .f32⟩ : BufTy).Contents (Elt Ideal)) (V (Proc.devRef .tc main_arg17) : (⟨S32, .f32⟩ : BufTy).Contents (Elt Ideal)) (V (Proc.devRef .tc main_arg18) : (⟨S128, .f32⟩ : BufTy).Contents (Elt Ideal)) (V (Proc.devRef .tc main_arg19) : (⟨S128, .f32⟩ : BufTy).Contents (Elt Ideal)) (V (Proc.devRef .tc main_arg20) : (⟨S64, .f32⟩ : BufTy).Contents (Elt Ideal)) (V (Proc.devRef .tc main_arg21) : (⟨S64, .f32⟩ : BufTy).Contents (Elt Ideal)) (V (Proc.devRef .tc main_arg22) : (⟨S32, .f32⟩ : BufTy).Contents (Elt Ideal)) (V (Proc.devRef .tc main_arg23) : (⟨S32, .f32⟩ : BufTy).Contents (Elt Ideal)) (V (Proc.devRef .tc main_arg24) : (⟨S32x5, .f32⟩ : BufTy).Contents (Elt Ideal)) (V (Proc.devRef .tc main_arg25) : (⟨S5, .f32⟩ : BufTy).Contents (Elt Ideal)) (V (Proc.devRef .tc main_arg26) : (⟨S2x600000, .i32⟩ : BufTy).Contents (Elt Ideal)) (V (Proc.devRef .tc main_arg27) : (⟨S50000, .i32⟩ : BufTy).Contents (Elt Ideal)) :=
  e8 V (e7 V (e1_v7 V) (e6 V (e1_v5 V) (e1_v7 V) (e5 V (e1_v7 V) (e4 V))))

/-! ## The whole run -/

set_option maxRecDepth 8192 in
/-- Every operation touches only buffers of the TensorCore's table. -/
theorem ops_sub : (ops (F := Ideal) : List (HloOp τ sig (Elt Ideal))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- The buffers the program's operations write, in the program's order. -/
def written : List (Ref sig .tc) :=
  [main_v0, main_v1, main_v2, main_v3, main_v4, main_v5, main_v6, main_v7, main_v8, main_v9, main_v10, main_v11, main_c, main_v12, main_v13, main_c_0, main_v14, main_v15, main_v16, main_v17, main_v18, main_c_1, main_v19, main_v20, main_c_2, main_v21, main_v22, main_v23, main_v24, main_v25, main_v26, main_v27, main_v28, main_v29, main_v30, main_v31, main_call0_cst, main_call0_v0, main_v32, main_v33, main_v34, main_v35, main_v36, main_cst, main_v37, main_v38, main_v39, main_cst_3, main_v40, main_cst_4, main_v41, main_v42, main_v43, main_cst_5, main_v44, main_v45, main_v46, main_v47, main_v48, main_cst_6, main_v49, main_v50, main_v51, main_v52, main_v53, main_v54, main_v55, main_v56, main_v57, main_v58, main_call1_cst, main_call1_v0, main_v59, main_c_7, main_v60, main_v61, main_c_8, main_v62, main_v63, main_v64, main_v65, main_v66, main_c_9, main_v67, main_v68, main_c_10, main_v69, main_v70, main_v71, main_v72, main_v73, main_v74, main_v75, main_v76, main_v77, main_v78, main_v79, main_call2_cst, main_call2_v0, main_v80, main_v81, main_v82, main_v83, main_v84, main_cst_11, main_v85, main_v86, main_v87, main_cst_12, main_v88, main_cst_13, main_v89, main_v90, main_v91, main_cst_14, main_v92, main_v93, main_v94, main_v95, main_v96, main_cst_15, main_v97, main_v98, main_v99, main_v100, main_v101, main_v102, main_v103, main_v104, main_v105, main_v106, main_call3_cst, main_call3_v0, main_v107, main_c_16, main_v108, main_v109, main_c_17, main_v110, main_v111, main_v112, main_v113, main_v114, main_c_18, main_v115, main_v116, main_c_19, main_v117, main_v118, main_v119, main_v120, main_v121, main_v122, main_v123, main_v124, main_v125, main_v126, main_v127, main_call4_cst, main_call4_v0, main_v128, main_v129, main_v130, main_v131, main_v132, main_cst_20, main_v133, main_v134, main_v135, main_cst_21, main_v136, main_cst_22, main_v137, main_v138, main_v139, main_cst_23, main_v140, main_v141, main_v142, main_v143, main_v144, main_cst_24, main_v145, main_v146, main_v147, main_v148, main_v149, main_v150, main_v151, main_v152, main_v153, main_v154, main_call5_cst, main_call5_v0, main_v155, main_cst_25, main_v156, main_v157, main_v158, main_cst_26, main_v159, main_cst_27, main_v160, main_v161, main_v162, main_cst_28, main_v163, main_v164, main_v165, main_v166, main_v167, main_v168, main_v169, main_v170, main_v171, main_v172, main_v173, main_cst_29, main_v174, main_v175, main_cst_30, main_v176, main_v177]

set_option maxRecDepth 8192 in
set_option maxHeartbeats 2000000 in
/-- Every operation writes only buffers of that list. -/
theorem ops_writes : (ops (F := Ideal) : List (HloOp τ sig (Elt Ideal))).Forall fun op =>
    op.writes ⊆ (written.map (Proc.devRef (τ := τ) .tc)).toFinset := by
  simp only [ops, List.Forall, StableHlo.nullary_writes, StableHlo.unary_writes, StableHlo.binary_writes, StableHlo.ternary_writes,
    StableHlo.reshape_writes, Finset.singleton_subset_iff, List.mem_toFinset]
  repeat' apply And.intro
  all_goals exact List.mem_map.mpr ⟨_, by decide, rfl⟩

/-- A buffer the program never writes holds at the end what it held at the start. -/
theorem kept (r : Ref sig .tc) (hr : r ∉ written) :
    after (ops (F := Ideal)) V (Proc.devRef .tc r) = V (Proc.devRef .tc r) :=
  after_of_writes_sub ops V ops_writes hr

/-- On every device, from any memory with zero counters: every weakly fair execution of the program terminates with
    the result array at its stage of the argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v177) = val_main_v177 (F := Ideal) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v177).trans (by rw [after_ops]; exact e8_all (launchContents m c)),
      (h c main_arg0).trans (kept (launchContents m c) main_arg0 (by decide)),
      (h c main_arg1).trans (kept (launchContents m c) main_arg1 (by decide)),
      (h c main_arg2).trans (kept (launchContents m c) main_arg2 (by decide)),
      (h c main_arg3).trans (kept (launchContents m c) main_arg3 (by decide)),
      (h c main_arg4).trans (kept (launchContents m c) main_arg4 (by decide)),
      (h c main_arg5).trans (kept (launchContents m c) main_arg5 (by decide)),
      (h c main_arg6).trans (kept (launchContents m c) main_arg6 (by decide)),
      (h c main_arg7).trans (kept (launchContents m c) main_arg7 (by decide)),
      (h c main_arg8).trans (kept (launchContents m c) main_arg8 (by decide)),
      (h c main_arg9).trans (kept (launchContents m c) main_arg9 (by decide)),
      (h c main_arg10).trans (kept (launchContents m c) main_arg10 (by decide)),
      (h c main_arg11).trans (kept (launchContents m c) main_arg11 (by decide)),
      (h c main_arg12).trans (kept (launchContents m c) main_arg12 (by decide)),
      (h c main_arg13).trans (kept (launchContents m c) main_arg13 (by decide)),
      (h c main_arg14).trans (kept (launchContents m c) main_arg14 (by decide)),
      (h c main_arg15).trans (kept (launchContents m c) main_arg15 (by decide)),
      (h c main_arg16).trans (kept (launchContents m c) main_arg16 (by decide)),
      (h c main_arg17).trans (kept (launchContents m c) main_arg17 (by decide)),
      (h c main_arg18).trans (kept (launchContents m c) main_arg18 (by decide)),
      (h c main_arg19).trans (kept (launchContents m c) main_arg19 (by decide)),
      (h c main_arg20).trans (kept (launchContents m c) main_arg20 (by decide)),
      (h c main_arg21).trans (kept (launchContents m c) main_arg21 (by decide)),
      (h c main_arg22).trans (kept (launchContents m c) main_arg22 (by decide)),
      (h c main_arg23).trans (kept (launchContents m c) main_arg23 (by decide)),
      (h c main_arg24).trans (kept (launchContents m c) main_arg24 (by decide)),
      (h c main_arg25).trans (kept (launchContents m c) main_arg25 (by decide)),
      (h c main_arg26).trans (kept (launchContents m c) main_arg26 (by decide)),
      (h c main_arg27).trans (kept (launchContents m c) main_arg27 (by decide))⟩)
    (run_seq scopedRefs_eq scopedSems_eq defs main (fun _ => ops) main_eq (fun _ => ops_sub) m ρ)

end Cert.ReferenceIdeal.HandRun

end
-- ==== Proof.KernelRun.lean ====
/-
  The idealized kernel's run with its result named.

  Every weakly fair execution of the kernel's program terminates without a fault; at the end the result array holds
  what the last of the program's eight regions leaves in it — the contents `W22` of the buffers after the last segment,
  read at the result's buffer — and every argument array holds what it held at the start. The derivation is the one
  that gives the frame (the launch over the program's twenty-two segments, the last thread state read against the
  final memory); the only addition is that the result's buffer is read too.
-/
import proofs.«142674_j19808389169323_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run, with the result array at the last boundary's contents and the arguments as launched. -/
theorem run : θ_run defs (onTc (τ := τ) (main (F := F))) ⟨m, fun _ => 0, ρ⟩ (fun r => ∀ c : Dev nD,
      r.2.mem ((c.tc : Thread nD τ).loc main_v83) = W22 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v83 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c),
       (h c _ (mem_uc main_arg20 (by decide))).trans (W22_main_arg20 m ρ c),
       (h c _ (mem_uc main_arg21 (by decide))).trans (W22_main_arg21 m ρ c),
       (h c _ (mem_uc main_arg22 (by decide))).trans (W22_main_arg22 m ρ c),
       (h c _ (mem_uc main_arg23 (by decide))).trans (W22_main_arg23 m ρ c),
       (h c _ (mem_uc main_arg24 (by decide))).trans (W22_main_arg24 m ρ c),
       (h c _ (mem_uc main_arg25 (by decide))).trans (W22_main_arg25 m ρ c),
       (h c _ (mem_uc main_arg26 (by decide))).trans (W22_main_arg26 m ρ c),
       (h c _ (mem_uc main_arg27 (by decide))).trans (W22_main_arg27 m ρ c)⟩)

end Cert.KernelIdeal.ValueRun

end
-- ==== Proof.BridgeBase.lean ====
/-
  The two programs side by side: names for the reference's stages at the kernel's arguments.

  The reference is a chain of stages, each a function of the program's arguments. The kernel's program is started from
  a memory `m`; its argument arrays, read at the reference's types, are the arguments at which the reference's stages
  are taken here. `R<n>` is the reference's stage number n at those arguments: the embedded nodes, and per layer the
  wrapped index columns, the gathered rows, the messages, their sums and means per target node, the scale row and the
  nodes after the layer; then the pooled means per graph and the result.
-/
import proofs.«142674_j19808389169323_1_alg».proof.Proof.Gen.KernelIdeal.Frame
import proofs.«142674_j19808389169323_1_alg».proof.Proof.RefRead
import Idealize.ShloMosaic.PureOps.Ideal

noncomputable section
namespace Cert.Bridge
open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (c : Dev nD)

/-- Argument 0 of the program, as the reference reads it. -/
abbrev rA0 : (⟨Cert.ReferenceIdeal.S50000x32, .f32⟩ : BufTy).Contents (Elt Ideal) := m ((c : Thread nD τ).loc main_arg0)
/-- Argument 4 of the program, as the reference reads it. -/
abbrev rA4 : (⟨Cert.ReferenceIdeal.S32x64, .f32⟩ : BufTy).Contents (Elt Ideal) := m ((c : Thread nD τ).loc main_arg4)
/-- Argument 5 of the program, as the reference reads it. -/
abbrev rA5 : (⟨Cert.ReferenceIdeal.S64, .f32⟩ : BufTy).Contents (Elt Ideal) := m ((c : Thread nD τ).loc main_arg5)
/-- Argument 6 of the program, as the reference reads it. -/
abbrev rA6 : (⟨Cert.ReferenceIdeal.S128x128, .f32⟩ : BufTy).Contents (Elt Ideal) := m ((c : Thread nD τ).loc main_arg6)
/-- Argument 7 of the program, as the reference reads it. -/
abbrev rA7 : (⟨Cert.ReferenceIdeal.S128, .f32⟩ : BufTy).Contents (Elt Ideal) := m ((c : Thread nD τ).loc main_arg7)
/-- Argument 8 of the program, as the reference reads it. -/
abbrev rA8 : (⟨Cert.ReferenceIdeal.S128x128, .f32⟩ : BufTy).Contents (Elt Ideal) := m ((c : Thread nD τ).loc main_arg8)
/-- Argument 9 of the program, as the reference reads it. -/
abbrev rA9 : (⟨Cert.ReferenceIdeal.S128, .f32⟩ : BufTy).Contents (Elt Ideal) := m ((c : Thread nD τ).loc main_arg9)
/-- Argument 10 of the program, as the reference reads it. -/
abbrev rA10 : (⟨Cert.ReferenceIdeal.S256x64, .f32⟩ : BufTy).Contents (Elt Ideal) := m ((c : Thread nD τ).loc main_arg10)
/-- Argument 11 of the program, as the reference reads it. -/
abbrev rA11 : (⟨Cert.ReferenceIdeal.S64, .f32⟩ : BufTy).Contents (Elt Ideal) := m ((c : Thread nD τ).loc main_arg11)
/-- Argument 12 of the program, as the reference reads it. -/
abbrev rA12 : (⟨Cert.ReferenceIdeal.S64x64, .f32⟩ : BufTy).Contents (Elt Ideal) := m ((c : Thread nD τ).loc main_arg12)
/-- Argument 13 of the program, as the reference reads it. -/
abbrev rA13 : (⟨Cert.ReferenceIdeal.S64, .f32⟩ : BufTy).Contents (Elt Ideal) := m ((c : Thread nD τ).loc main_arg13)
/-- Argument 14 of the program, as the reference reads it. -/
abbrev rA14 : (⟨Cert.ReferenceIdeal.S128x32, .f32⟩ : BufTy).Contents (Elt Ideal) := m ((c : Thread nD τ).loc main_arg14)
/-- Argument 15 of the program, as the reference reads it. -/
abbrev rA15 : (⟨Cert.ReferenceIdeal.S32, .f32⟩ : BufTy).Contents (Elt Ideal) := m ((c : Thread nD τ).loc main_arg15)
/-- Argument 16 of the program, as the reference reads it. -/
abbrev rA16 : (⟨Cert.ReferenceIdeal.S32x32, .f32⟩ : BufTy).Contents (Elt Ideal) := m ((c : Thread nD τ).loc main_arg16)
/-- Argument 17 of the program, as the reference reads it. -/
abbrev rA17 : (⟨Cert.ReferenceIdeal.S32, .f32⟩ : BufTy).Contents (Elt Ideal) := m ((c : Thread nD τ).loc main_arg17)
/-- Argument 18 of the program, as the reference reads it. -/
abbrev rA18 : (⟨Cert.ReferenceIdeal.S128, .f32⟩ : BufTy).Contents (Elt Ideal) := m ((c : Thread nD τ).loc main_arg18)
/-- Argument 19 of the program, as the reference reads it. -/
abbrev rA19 : (⟨Cert.ReferenceIdeal.S128, .f32⟩ : BufTy).Contents (Elt Ideal) := m ((c : Thread nD τ).loc main_arg19)
/-- Argument 20 of the program, as the reference reads it. -/
abbrev rA20 : (⟨Cert.ReferenceIdeal.S64, .f32⟩ : BufTy).Contents (Elt Ideal) := m ((c : Thread nD τ).loc main_arg20)
/-- Argument 21 of the program, as the reference reads it. -/
abbrev rA21 : (⟨Cert.ReferenceIdeal.S64, .f32⟩ : BufTy).Contents (Elt Ideal) := m ((c : Thread nD τ).loc main_arg21)
/-- Argument 22 of the program, as the reference reads it. -/
abbrev rA22 : (⟨Cert.ReferenceIdeal.S32, .f32⟩ : BufTy).Contents (Elt Ideal) := m ((c : Thread nD τ).loc main_arg22)
/-- Argument 23 of the program, as the reference reads it. -/
abbrev rA23 : (⟨Cert.ReferenceIdeal.S32, .f32⟩ : BufTy).Contents (Elt Ideal) := m ((c : Thread nD τ).loc main_arg23)
/-- Argument 24 of the program, as the reference reads it. -/
abbrev rA24 : (⟨Cert.ReferenceIdeal.S32x5, .f32⟩ : BufTy).Contents (Elt Ideal) := m ((c : Thread nD τ).loc main_arg24)
/-- Argument 25 of the program, as the reference reads it. -/
abbrev rA25 : (⟨Cert.ReferenceIdeal.S5, .f32⟩ : BufTy).Contents (Elt Ideal) := m ((c : Thread nD τ).loc main_arg25)
/-- Argument 26 of the program, as the reference reads it. -/
abbrev rA26 : (⟨Cert.ReferenceIdeal.S2x600000, .i32⟩ : BufTy).Contents (Elt Ideal) := m ((c : Thread nD τ).loc main_arg26)
/-- Argument 27 of the program, as the reference reads it. -/
abbrev rA27 : (⟨Cert.ReferenceIdeal.S50000, .i32⟩ : BufTy).Contents (Elt Ideal) := m ((c : Thread nD τ).loc main_arg27)

/-- The reference's stage: the row of source-node numbers. -/
abbrev R5 := val_main_v5 (F := Ideal) (rA26 m c)
/-- The reference's stage: the row of target-node numbers. -/
abbrev R7 := val_main_v7 (F := Ideal) (rA26 m c)
/-- The reference's stage: the embedded nodes. -/
abbrev R11 := val_main_v11 (F := Ideal) (rA0 m c) (rA4 m c) (rA5 m c)
/-- The reference's stage: layer 1: the wrapped target column. -/
abbrev R17 := val_main_v17 (F := Ideal) (rA26 m c)
/-- The reference's stage: layer 1: the rows at the targets. -/
abbrev R18 := val_main_v18 (F := Ideal) (rA0 m c) (rA4 m c) (rA5 m c) (rA26 m c)
/-- The reference's stage: layer 1: the wrapped source column. -/
abbrev R24 := val_main_v24 (F := Ideal) (rA26 m c)
/-- The reference's stage: layer 1: the rows at the sources. -/
abbrev R25 := val_main_v25 (F := Ideal) (rA0 m c) (rA4 m c) (rA5 m c) (rA26 m c)
/-- The reference's stage: layer 1: the messages. -/
abbrev R36 := val_main_v36 (F := Ideal) (rA0 m c) (rA4 m c) (rA5 m c) (rA6 m c) (rA7 m c) (rA8 m c) (rA9 m c) (rA26 m c)
/-- The reference's stage: layer 1: the raw target column of the scatter. -/
abbrev R38 := val_main_v38 (F := Ideal) (rA26 m c)
/-- The reference's stage: layer 1: the messages summed per target. -/
abbrev R39 := val_main_v39 (F := Ideal) (rA0 m c) (rA4 m c) (rA5 m c) (rA6 m c) (rA7 m c) (rA8 m c) (rA9 m c) (rA26 m c)
/-- The reference's stage: layer 1: their mean per target. -/
abbrev R48 := val_main_v48 (F := Ideal) (rA0 m c) (rA4 m c) (rA5 m c) (rA6 m c) (rA7 m c) (rA8 m c) (rA9 m c) (rA26 m c)
/-- The reference's stage: layer 1: the scale row. -/
abbrev R52 := val_main_v52 (F := Ideal) (rA18 m c)
/-- The reference's stage: layer 1: the nodes after it. -/
abbrev R59 := val_main_v59 (F := Ideal) (rA0 m c) (rA4 m c) (rA5 m c) (rA6 m c) (rA7 m c) (rA8 m c) (rA9 m c) (rA18 m c) (rA19 m c) (rA26 m c)
/-- The reference's stage: layer 2: the wrapped target column. -/
abbrev R65 := val_main_v65 (F := Ideal) (rA26 m c)
/-- The reference's stage: layer 2: the rows at the targets. -/
abbrev R66 := val_main_v66 (F := Ideal) (rA0 m c) (rA4 m c) (rA5 m c) (rA6 m c) (rA7 m c) (rA8 m c) (rA9 m c) (rA18 m c) (rA19 m c) (rA26 m c)
/-- The reference's stage: layer 2: the wrapped source column. -/
abbrev R72 := val_main_v72 (F := Ideal) (rA26 m c)
/-- The reference's stage: layer 2: the rows at the sources. -/
abbrev R73 := val_main_v73 (F := Ideal) (rA0 m c) (rA4 m c) (rA5 m c) (rA6 m c) (rA7 m c) (rA8 m c) (rA9 m c) (rA18 m c) (rA19 m c) (rA26 m c)
/-- The reference's stage: layer 2: the messages. -/
abbrev R84 := val_main_v84 (F := Ideal) (rA0 m c) (rA4 m c) (rA5 m c) (rA6 m c) (rA7 m c) (rA8 m c) (rA9 m c) (rA10 m c) (rA11 m c) (rA12 m c) (rA13 m c) (rA18 m c) (rA19 m c) (rA26 m c)
/-- The reference's stage: layer 2: the raw target column of the scatter. -/
abbrev R86 := val_main_v86 (F := Ideal) (rA26 m c)
/-- The reference's stage: layer 2: the messages summed per target. -/
abbrev R87 := val_main_v87 (F := Ideal) (rA0 m c) (rA4 m c) (rA5 m c) (rA6 m c) (rA7 m c) (rA8 m c) (rA9 m c) (rA10 m c) (rA11 m c) (rA12 m c) (rA13 m c) (rA18 m c) (rA19 m c) (rA26 m c)
/-- The reference's stage: layer 2: their mean per target. -/
abbrev R96 := val_main_v96 (F := Ideal) (rA0 m c) (rA4 m c) (rA5 m c) (rA6 m c) (rA7 m c) (rA8 m c) (rA9 m c) (rA10 m c) (rA11 m c) (rA12 m c) (rA13 m c) (rA18 m c) (rA19 m c) (rA26 m c)
/-- The reference's stage: layer 2: the scale row. -/
abbrev R100 := val_main_v100 (F := Ideal) (rA20 m c)
/-- The reference's stage: layer 2: the nodes after it. -/
abbrev R107 := val_main_v107 (F := Ideal) (rA0 m c) (rA4 m c) (rA5 m c) (rA6 m c) (rA7 m c) (rA8 m c) (rA9 m c) (rA10 m c) (rA11 m c) (rA12 m c) (rA13 m c) (rA18 m c) (rA19 m c) (rA20 m c) (rA21 m c) (rA26 m c)
/-- The reference's stage: layer 3: the wrapped target column. -/
abbrev R113 := val_main_v113 (F := Ideal) (rA26 m c)
/-- The reference's stage: layer 3: the rows at the targets. -/
abbrev R114 := val_main_v114 (F := Ideal) (rA0 m c) (rA4 m c) (rA5 m c) (rA6 m c) (rA7 m c) (rA8 m c) (rA9 m c) (rA10 m c) (rA11 m c) (rA12 m c) (rA13 m c) (rA18 m c) (rA19 m c) (rA20 m c) (rA21 m c) (rA26 m c)
/-- The reference's stage: layer 3: the wrapped source column. -/
abbrev R120 := val_main_v120 (F := Ideal) (rA26 m c)
/-- The reference's stage: layer 3: the rows at the sources. -/
abbrev R121 := val_main_v121 (F := Ideal) (rA0 m c) (rA4 m c) (rA5 m c) (rA6 m c) (rA7 m c) (rA8 m c) (rA9 m c) (rA10 m c) (rA11 m c) (rA12 m c) (rA13 m c) (rA18 m c) (rA19 m c) (rA20 m c) (rA21 m c) (rA26 m c)
/-- The reference's stage: layer 3: the messages. -/
abbrev R132 := val_main_v132 (F := Ideal) (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA26 m c)
/-- The reference's stage: layer 3: the raw target column of the scatter. -/
abbrev R134 := val_main_v134 (F := Ideal) (rA26 m c)
/-- The reference's stage: layer 3: the messages summed per target. -/
abbrev R135 := val_main_v135 (F := Ideal) (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA26 m c)
/-- The reference's stage: layer 3: their mean per target. -/
abbrev R144 := val_main_v144 (F := Ideal) (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA26 m c)
/-- The reference's stage: layer 3: the scale row. -/
abbrev R148 := val_main_v148 (F := Ideal) (rA22 m c)
/-- The reference's stage: layer 3: the nodes after it. -/
abbrev R155 := val_main_v155 (F := Ideal) (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA22 m c) (rA23 m c) (rA26 m c)
/-- The reference's stage: the graph-number column of the pooling scatter. -/
abbrev R157 := val_main_v157 (F := Ideal) (rA27 m c)
/-- The reference's stage: the nodes summed per graph. -/
abbrev R158 := val_main_v158 (F := Ideal) (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA22 m c) (rA23 m c) (rA26 m c) (rA27 m c)
/-- The reference's stage: their mean per graph. -/
abbrev R167 := val_main_v167 (F := Ideal) (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA22 m c) (rA23 m c) (rA26 m c) (rA27 m c)
/-- The reference's stage: the result. -/
abbrev R177 := val_main_v177 (F := Ideal) (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA22 m c) (rA23 m c) (rA24 m c) (rA25 m c) (rA26 m c) (rA27 m c)

end Cert.Bridge
end
-- ==== Proof.KKeep.lean ====
/-
  Buffers that live across the kernel program's regions.

  The program's buffers are written once each. The two rows of node numbers cut from the edge list (the source
  row and the target row) and the argument arrays are read by host operations and regions far from where they were
  written; between the writing and a reading every region and every stretch of host operations leaves them alone.
  This file walks each of them, boundary by boundary, from the contents after a region back to where it was last
  written: an argument to the memory the program was started from, a row of node numbers to the contents at the first
  region's entry. (The list of buffer and boundary pairs is the list of the later readings; the lines were laid out
  by a loop over that list.)
-/
import proofs.«142674_j19808389169323_1_alg».proof.Proof.Gen.KernelIdeal.Frame
import Idealize.ShloMosaic.PureOps.Ideal
import Idealize.ShloMosaic.Lib.StableHlo.Run

noncomputable section
namespace Cert.KernelIdeal.Keep
open Cert.KernelIdeal Cert.KernelIdeal.Gen
open Idealize.ShloMosaic Idealize.ShloMosaic.TcCoe Idealize.ShloMosaic.Tactic Idealize.ShloMosaic.StableHlo
open Idealize.SL.Sem

/-- No operation of the stretch writes the buffer. -/
macro "not_written" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- A stretch of host operations leaves a buffer none of them writes as it was. -/
macro "skip_stretch" b:term "," ops:ident : term =>
  `(StableHlo.after_of_forall_not_mem (b := Proc.devRef .tc $b) _ _ (by not_written $ops))

variable (m : (ℓ : Loc nD τ sig) → Buf (Elt Ideal) ℓ) (ρ : Dev nD → PrngReg) (c : Dev nD)

/-! ## After each region: what is still to be read later -/

theorem at2_main_v1 : W2 (F := Ideal) m ρ c (Proc.devRef .tc main_v1) = W1 (F := Ideal) m ρ c (Proc.devRef .tc main_v1) := W2_of_ne m ρ c main_v1 (by decide)
theorem at2_main_v3 : W2 (F := Ideal) m ρ c (Proc.devRef .tc main_v3) = W1 (F := Ideal) m ρ c (Proc.devRef .tc main_v3) := W2_of_ne m ρ c main_v3 (by decide)
theorem at2_main_arg6 : W2 (F := Ideal) m ρ c (Proc.devRef .tc main_arg6) = m ((c : Thread nD τ).loc main_arg6) := (W2_of_ne m ρ c main_arg6 (by decide)).trans (skip_stretch main_arg6, hostOps0)
theorem at2_main_arg7 : W2 (F := Ideal) m ρ c (Proc.devRef .tc main_arg7) = m ((c : Thread nD τ).loc main_arg7) := (W2_of_ne m ρ c main_arg7 (by decide)).trans (skip_stretch main_arg7, hostOps0)
theorem at2_main_arg8 : W2 (F := Ideal) m ρ c (Proc.devRef .tc main_arg8) = m ((c : Thread nD τ).loc main_arg8) := (W2_of_ne m ρ c main_arg8 (by decide)).trans (skip_stretch main_arg8, hostOps0)
theorem at2_main_arg9 : W2 (F := Ideal) m ρ c (Proc.devRef .tc main_arg9) = m ((c : Thread nD τ).loc main_arg9) := (W2_of_ne m ρ c main_arg9 (by decide)).trans (skip_stretch main_arg9, hostOps0)
theorem at2_main_arg10 : W2 (F := Ideal) m ρ c (Proc.devRef .tc main_arg10) = m ((c : Thread nD τ).loc main_arg10) := (W2_of_ne m ρ c main_arg10 (by decide)).trans (skip_stretch main_arg10, hostOps0)
theorem at2_main_arg11 : W2 (F := Ideal) m ρ c (Proc.devRef .tc main_arg11) = m ((c : Thread nD τ).loc main_arg11) := (W2_of_ne m ρ c main_arg11 (by decide)).trans (skip_stretch main_arg11, hostOps0)
theorem at2_main_arg12 : W2 (F := Ideal) m ρ c (Proc.devRef .tc main_arg12) = m ((c : Thread nD τ).loc main_arg12) := (W2_of_ne m ρ c main_arg12 (by decide)).trans (skip_stretch main_arg12, hostOps0)
theorem at2_main_arg13 : W2 (F := Ideal) m ρ c (Proc.devRef .tc main_arg13) = m ((c : Thread nD τ).loc main_arg13) := (W2_of_ne m ρ c main_arg13 (by decide)).trans (skip_stretch main_arg13, hostOps0)
theorem at2_main_arg14 : W2 (F := Ideal) m ρ c (Proc.devRef .tc main_arg14) = m ((c : Thread nD τ).loc main_arg14) := (W2_of_ne m ρ c main_arg14 (by decide)).trans (skip_stretch main_arg14, hostOps0)
theorem at2_main_arg15 : W2 (F := Ideal) m ρ c (Proc.devRef .tc main_arg15) = m ((c : Thread nD τ).loc main_arg15) := (W2_of_ne m ρ c main_arg15 (by decide)).trans (skip_stretch main_arg15, hostOps0)
theorem at2_main_arg16 : W2 (F := Ideal) m ρ c (Proc.devRef .tc main_arg16) = m ((c : Thread nD τ).loc main_arg16) := (W2_of_ne m ρ c main_arg16 (by decide)).trans (skip_stretch main_arg16, hostOps0)
theorem at2_main_arg17 : W2 (F := Ideal) m ρ c (Proc.devRef .tc main_arg17) = m ((c : Thread nD τ).loc main_arg17) := (W2_of_ne m ρ c main_arg17 (by decide)).trans (skip_stretch main_arg17, hostOps0)
theorem at2_main_arg18 : W2 (F := Ideal) m ρ c (Proc.devRef .tc main_arg18) = m ((c : Thread nD τ).loc main_arg18) := (W2_of_ne m ρ c main_arg18 (by decide)).trans (skip_stretch main_arg18, hostOps0)
theorem at2_main_arg19 : W2 (F := Ideal) m ρ c (Proc.devRef .tc main_arg19) = m ((c : Thread nD τ).loc main_arg19) := (W2_of_ne m ρ c main_arg19 (by decide)).trans (skip_stretch main_arg19, hostOps0)
theorem at2_main_arg20 : W2 (F := Ideal) m ρ c (Proc.devRef .tc main_arg20) = m ((c : Thread nD τ).loc main_arg20) := (W2_of_ne m ρ c main_arg20 (by decide)).trans (skip_stretch main_arg20, hostOps0)
theorem at2_main_arg21 : W2 (F := Ideal) m ρ c (Proc.devRef .tc main_arg21) = m ((c : Thread nD τ).loc main_arg21) := (W2_of_ne m ρ c main_arg21 (by decide)).trans (skip_stretch main_arg21, hostOps0)
theorem at2_main_arg22 : W2 (F := Ideal) m ρ c (Proc.devRef .tc main_arg22) = m ((c : Thread nD τ).loc main_arg22) := (W2_of_ne m ρ c main_arg22 (by decide)).trans (skip_stretch main_arg22, hostOps0)
theorem at2_main_arg23 : W2 (F := Ideal) m ρ c (Proc.devRef .tc main_arg23) = m ((c : Thread nD τ).loc main_arg23) := (W2_of_ne m ρ c main_arg23 (by decide)).trans (skip_stretch main_arg23, hostOps0)
theorem at2_main_arg24 : W2 (F := Ideal) m ρ c (Proc.devRef .tc main_arg24) = m ((c : Thread nD τ).loc main_arg24) := (W2_of_ne m ρ c main_arg24 (by decide)).trans (skip_stretch main_arg24, hostOps0)
theorem at2_main_arg25 : W2 (F := Ideal) m ρ c (Proc.devRef .tc main_arg25) = m ((c : Thread nD τ).loc main_arg25) := (W2_of_ne m ρ c main_arg25 (by decide)).trans (skip_stretch main_arg25, hostOps0)
theorem at2_main_arg27 : W2 (F := Ideal) m ρ c (Proc.devRef .tc main_arg27) = m ((c : Thread nD τ).loc main_arg27) := (W2_of_ne m ρ c main_arg27 (by decide)).trans (skip_stretch main_arg27, hostOps0)
theorem at6_main_v1 : W6 (F := Ideal) m ρ c (Proc.devRef .tc main_v1) = W1 (F := Ideal) m ρ c (Proc.devRef .tc main_v1) := (W6_of_ne m ρ c main_v1 (by decide)).trans ((skip_stretch main_v1, hostOps1_2).trans ((skip_stretch main_v1, hostOps1_1).trans ((skip_stretch main_v1, hostOps1).trans ((at2_main_v1 m ρ c)))))
theorem at6_main_v3 : W6 (F := Ideal) m ρ c (Proc.devRef .tc main_v3) = W1 (F := Ideal) m ρ c (Proc.devRef .tc main_v3) := (W6_of_ne m ρ c main_v3 (by decide)).trans ((skip_stretch main_v3, hostOps1_2).trans ((skip_stretch main_v3, hostOps1_1).trans ((skip_stretch main_v3, hostOps1).trans ((at2_main_v3 m ρ c)))))
theorem at6_main_arg10 : W6 (F := Ideal) m ρ c (Proc.devRef .tc main_arg10) = m ((c : Thread nD τ).loc main_arg10) := (W6_of_ne m ρ c main_arg10 (by decide)).trans ((skip_stretch main_arg10, hostOps1_2).trans ((skip_stretch main_arg10, hostOps1_1).trans ((skip_stretch main_arg10, hostOps1).trans ((at2_main_arg10 m ρ c)))))
theorem at6_main_arg11 : W6 (F := Ideal) m ρ c (Proc.devRef .tc main_arg11) = m ((c : Thread nD τ).loc main_arg11) := (W6_of_ne m ρ c main_arg11 (by decide)).trans ((skip_stretch main_arg11, hostOps1_2).trans ((skip_stretch main_arg11, hostOps1_1).trans ((skip_stretch main_arg11, hostOps1).trans ((at2_main_arg11 m ρ c)))))
theorem at6_main_arg12 : W6 (F := Ideal) m ρ c (Proc.devRef .tc main_arg12) = m ((c : Thread nD τ).loc main_arg12) := (W6_of_ne m ρ c main_arg12 (by decide)).trans ((skip_stretch main_arg12, hostOps1_2).trans ((skip_stretch main_arg12, hostOps1_1).trans ((skip_stretch main_arg12, hostOps1).trans ((at2_main_arg12 m ρ c)))))
theorem at6_main_arg13 : W6 (F := Ideal) m ρ c (Proc.devRef .tc main_arg13) = m ((c : Thread nD τ).loc main_arg13) := (W6_of_ne m ρ c main_arg13 (by decide)).trans ((skip_stretch main_arg13, hostOps1_2).trans ((skip_stretch main_arg13, hostOps1_1).trans ((skip_stretch main_arg13, hostOps1).trans ((at2_main_arg13 m ρ c)))))
theorem at6_main_arg14 : W6 (F := Ideal) m ρ c (Proc.devRef .tc main_arg14) = m ((c : Thread nD τ).loc main_arg14) := (W6_of_ne m ρ c main_arg14 (by decide)).trans ((skip_stretch main_arg14, hostOps1_2).trans ((skip_stretch main_arg14, hostOps1_1).trans ((skip_stretch main_arg14, hostOps1).trans ((at2_main_arg14 m ρ c)))))
theorem at6_main_arg15 : W6 (F := Ideal) m ρ c (Proc.devRef .tc main_arg15) = m ((c : Thread nD τ).loc main_arg15) := (W6_of_ne m ρ c main_arg15 (by decide)).trans ((skip_stretch main_arg15, hostOps1_2).trans ((skip_stretch main_arg15, hostOps1_1).trans ((skip_stretch main_arg15, hostOps1).trans ((at2_main_arg15 m ρ c)))))
theorem at6_main_arg16 : W6 (F := Ideal) m ρ c (Proc.devRef .tc main_arg16) = m ((c : Thread nD τ).loc main_arg16) := (W6_of_ne m ρ c main_arg16 (by decide)).trans ((skip_stretch main_arg16, hostOps1_2).trans ((skip_stretch main_arg16, hostOps1_1).trans ((skip_stretch main_arg16, hostOps1).trans ((at2_main_arg16 m ρ c)))))
theorem at6_main_arg17 : W6 (F := Ideal) m ρ c (Proc.devRef .tc main_arg17) = m ((c : Thread nD τ).loc main_arg17) := (W6_of_ne m ρ c main_arg17 (by decide)).trans ((skip_stretch main_arg17, hostOps1_2).trans ((skip_stretch main_arg17, hostOps1_1).trans ((skip_stretch main_arg17, hostOps1).trans ((at2_main_arg17 m ρ c)))))
theorem at6_main_arg18 : W6 (F := Ideal) m ρ c (Proc.devRef .tc main_arg18) = m ((c : Thread nD τ).loc main_arg18) := (W6_of_ne m ρ c main_arg18 (by decide)).trans ((skip_stretch main_arg18, hostOps1_2).trans ((skip_stretch main_arg18, hostOps1_1).trans ((skip_stretch main_arg18, hostOps1).trans ((at2_main_arg18 m ρ c)))))
theorem at6_main_arg19 : W6 (F := Ideal) m ρ c (Proc.devRef .tc main_arg19) = m ((c : Thread nD τ).loc main_arg19) := (W6_of_ne m ρ c main_arg19 (by decide)).trans ((skip_stretch main_arg19, hostOps1_2).trans ((skip_stretch main_arg19, hostOps1_1).trans ((skip_stretch main_arg19, hostOps1).trans ((at2_main_arg19 m ρ c)))))
theorem at6_main_arg20 : W6 (F := Ideal) m ρ c (Proc.devRef .tc main_arg20) = m ((c : Thread nD τ).loc main_arg20) := (W6_of_ne m ρ c main_arg20 (by decide)).trans ((skip_stretch main_arg20, hostOps1_2).trans ((skip_stretch main_arg20, hostOps1_1).trans ((skip_stretch main_arg20, hostOps1).trans ((at2_main_arg20 m ρ c)))))
theorem at6_main_arg21 : W6 (F := Ideal) m ρ c (Proc.devRef .tc main_arg21) = m ((c : Thread nD τ).loc main_arg21) := (W6_of_ne m ρ c main_arg21 (by decide)).trans ((skip_stretch main_arg21, hostOps1_2).trans ((skip_stretch main_arg21, hostOps1_1).trans ((skip_stretch main_arg21, hostOps1).trans ((at2_main_arg21 m ρ c)))))
theorem at6_main_arg22 : W6 (F := Ideal) m ρ c (Proc.devRef .tc main_arg22) = m ((c : Thread nD τ).loc main_arg22) := (W6_of_ne m ρ c main_arg22 (by decide)).trans ((skip_stretch main_arg22, hostOps1_2).trans ((skip_stretch main_arg22, hostOps1_1).trans ((skip_stretch main_arg22, hostOps1).trans ((at2_main_arg22 m ρ c)))))
theorem at6_main_arg23 : W6 (F := Ideal) m ρ c (Proc.devRef .tc main_arg23) = m ((c : Thread nD τ).loc main_arg23) := (W6_of_ne m ρ c main_arg23 (by decide)).trans ((skip_stretch main_arg23, hostOps1_2).trans ((skip_stretch main_arg23, hostOps1_1).trans ((skip_stretch main_arg23, hostOps1).trans ((at2_main_arg23 m ρ c)))))
theorem at6_main_arg24 : W6 (F := Ideal) m ρ c (Proc.devRef .tc main_arg24) = m ((c : Thread nD τ).loc main_arg24) := (W6_of_ne m ρ c main_arg24 (by decide)).trans ((skip_stretch main_arg24, hostOps1_2).trans ((skip_stretch main_arg24, hostOps1_1).trans ((skip_stretch main_arg24, hostOps1).trans ((at2_main_arg24 m ρ c)))))
theorem at6_main_arg25 : W6 (F := Ideal) m ρ c (Proc.devRef .tc main_arg25) = m ((c : Thread nD τ).loc main_arg25) := (W6_of_ne m ρ c main_arg25 (by decide)).trans ((skip_stretch main_arg25, hostOps1_2).trans ((skip_stretch main_arg25, hostOps1_1).trans ((skip_stretch main_arg25, hostOps1).trans ((at2_main_arg25 m ρ c)))))
theorem at6_main_arg27 : W6 (F := Ideal) m ρ c (Proc.devRef .tc main_arg27) = m ((c : Thread nD τ).loc main_arg27) := (W6_of_ne m ρ c main_arg27 (by decide)).trans ((skip_stretch main_arg27, hostOps1_2).trans ((skip_stretch main_arg27, hostOps1_1).trans ((skip_stretch main_arg27, hostOps1).trans ((at2_main_arg27 m ρ c)))))
theorem at8_main_v1 : W8 (F := Ideal) m ρ c (Proc.devRef .tc main_v1) = W1 (F := Ideal) m ρ c (Proc.devRef .tc main_v1) := (W8_of_ne m ρ c main_v1 (by decide)).trans ((skip_stretch main_v1, hostOps2).trans ((at6_main_v1 m ρ c)))
theorem at8_main_v3 : W8 (F := Ideal) m ρ c (Proc.devRef .tc main_v3) = W1 (F := Ideal) m ρ c (Proc.devRef .tc main_v3) := (W8_of_ne m ρ c main_v3 (by decide)).trans ((skip_stretch main_v3, hostOps2).trans ((at6_main_v3 m ρ c)))
theorem at8_main_arg10 : W8 (F := Ideal) m ρ c (Proc.devRef .tc main_arg10) = m ((c : Thread nD τ).loc main_arg10) := (W8_of_ne m ρ c main_arg10 (by decide)).trans ((skip_stretch main_arg10, hostOps2).trans ((at6_main_arg10 m ρ c)))
theorem at8_main_arg11 : W8 (F := Ideal) m ρ c (Proc.devRef .tc main_arg11) = m ((c : Thread nD τ).loc main_arg11) := (W8_of_ne m ρ c main_arg11 (by decide)).trans ((skip_stretch main_arg11, hostOps2).trans ((at6_main_arg11 m ρ c)))
theorem at8_main_arg12 : W8 (F := Ideal) m ρ c (Proc.devRef .tc main_arg12) = m ((c : Thread nD τ).loc main_arg12) := (W8_of_ne m ρ c main_arg12 (by decide)).trans ((skip_stretch main_arg12, hostOps2).trans ((at6_main_arg12 m ρ c)))
theorem at8_main_arg13 : W8 (F := Ideal) m ρ c (Proc.devRef .tc main_arg13) = m ((c : Thread nD τ).loc main_arg13) := (W8_of_ne m ρ c main_arg13 (by decide)).trans ((skip_stretch main_arg13, hostOps2).trans ((at6_main_arg13 m ρ c)))
theorem at8_main_arg14 : W8 (F := Ideal) m ρ c (Proc.devRef .tc main_arg14) = m ((c : Thread nD τ).loc main_arg14) := (W8_of_ne m ρ c main_arg14 (by decide)).trans ((skip_stretch main_arg14, hostOps2).trans ((at6_main_arg14 m ρ c)))
theorem at8_main_arg15 : W8 (F := Ideal) m ρ c (Proc.devRef .tc main_arg15) = m ((c : Thread nD τ).loc main_arg15) := (W8_of_ne m ρ c main_arg15 (by decide)).trans ((skip_stretch main_arg15, hostOps2).trans ((at6_main_arg15 m ρ c)))
theorem at8_main_arg16 : W8 (F := Ideal) m ρ c (Proc.devRef .tc main_arg16) = m ((c : Thread nD τ).loc main_arg16) := (W8_of_ne m ρ c main_arg16 (by decide)).trans ((skip_stretch main_arg16, hostOps2).trans ((at6_main_arg16 m ρ c)))
theorem at8_main_arg17 : W8 (F := Ideal) m ρ c (Proc.devRef .tc main_arg17) = m ((c : Thread nD τ).loc main_arg17) := (W8_of_ne m ρ c main_arg17 (by decide)).trans ((skip_stretch main_arg17, hostOps2).trans ((at6_main_arg17 m ρ c)))
theorem at8_main_arg20 : W8 (F := Ideal) m ρ c (Proc.devRef .tc main_arg20) = m ((c : Thread nD τ).loc main_arg20) := (W8_of_ne m ρ c main_arg20 (by decide)).trans ((skip_stretch main_arg20, hostOps2).trans ((at6_main_arg20 m ρ c)))
theorem at8_main_arg21 : W8 (F := Ideal) m ρ c (Proc.devRef .tc main_arg21) = m ((c : Thread nD τ).loc main_arg21) := (W8_of_ne m ρ c main_arg21 (by decide)).trans ((skip_stretch main_arg21, hostOps2).trans ((at6_main_arg21 m ρ c)))
theorem at8_main_arg22 : W8 (F := Ideal) m ρ c (Proc.devRef .tc main_arg22) = m ((c : Thread nD τ).loc main_arg22) := (W8_of_ne m ρ c main_arg22 (by decide)).trans ((skip_stretch main_arg22, hostOps2).trans ((at6_main_arg22 m ρ c)))
theorem at8_main_arg23 : W8 (F := Ideal) m ρ c (Proc.devRef .tc main_arg23) = m ((c : Thread nD τ).loc main_arg23) := (W8_of_ne m ρ c main_arg23 (by decide)).trans ((skip_stretch main_arg23, hostOps2).trans ((at6_main_arg23 m ρ c)))
theorem at8_main_arg24 : W8 (F := Ideal) m ρ c (Proc.devRef .tc main_arg24) = m ((c : Thread nD τ).loc main_arg24) := (W8_of_ne m ρ c main_arg24 (by decide)).trans ((skip_stretch main_arg24, hostOps2).trans ((at6_main_arg24 m ρ c)))
theorem at8_main_arg25 : W8 (F := Ideal) m ρ c (Proc.devRef .tc main_arg25) = m ((c : Thread nD τ).loc main_arg25) := (W8_of_ne m ρ c main_arg25 (by decide)).trans ((skip_stretch main_arg25, hostOps2).trans ((at6_main_arg25 m ρ c)))
theorem at8_main_arg27 : W8 (F := Ideal) m ρ c (Proc.devRef .tc main_arg27) = m ((c : Thread nD τ).loc main_arg27) := (W8_of_ne m ρ c main_arg27 (by decide)).trans ((skip_stretch main_arg27, hostOps2).trans ((at6_main_arg27 m ρ c)))
theorem at12_main_v1 : W12 (F := Ideal) m ρ c (Proc.devRef .tc main_v1) = W1 (F := Ideal) m ρ c (Proc.devRef .tc main_v1) := (W12_of_ne m ρ c main_v1 (by decide)).trans ((skip_stretch main_v1, hostOps3_2).trans ((skip_stretch main_v1, hostOps3_1).trans ((skip_stretch main_v1, hostOps3).trans ((at8_main_v1 m ρ c)))))
theorem at12_main_v3 : W12 (F := Ideal) m ρ c (Proc.devRef .tc main_v3) = W1 (F := Ideal) m ρ c (Proc.devRef .tc main_v3) := (W12_of_ne m ρ c main_v3 (by decide)).trans ((skip_stretch main_v3, hostOps3_2).trans ((skip_stretch main_v3, hostOps3_1).trans ((skip_stretch main_v3, hostOps3).trans ((at8_main_v3 m ρ c)))))
theorem at12_main_arg14 : W12 (F := Ideal) m ρ c (Proc.devRef .tc main_arg14) = m ((c : Thread nD τ).loc main_arg14) := (W12_of_ne m ρ c main_arg14 (by decide)).trans ((skip_stretch main_arg14, hostOps3_2).trans ((skip_stretch main_arg14, hostOps3_1).trans ((skip_stretch main_arg14, hostOps3).trans ((at8_main_arg14 m ρ c)))))
theorem at12_main_arg15 : W12 (F := Ideal) m ρ c (Proc.devRef .tc main_arg15) = m ((c : Thread nD τ).loc main_arg15) := (W12_of_ne m ρ c main_arg15 (by decide)).trans ((skip_stretch main_arg15, hostOps3_2).trans ((skip_stretch main_arg15, hostOps3_1).trans ((skip_stretch main_arg15, hostOps3).trans ((at8_main_arg15 m ρ c)))))
theorem at12_main_arg16 : W12 (F := Ideal) m ρ c (Proc.devRef .tc main_arg16) = m ((c : Thread nD τ).loc main_arg16) := (W12_of_ne m ρ c main_arg16 (by decide)).trans ((skip_stretch main_arg16, hostOps3_2).trans ((skip_stretch main_arg16, hostOps3_1).trans ((skip_stretch main_arg16, hostOps3).trans ((at8_main_arg16 m ρ c)))))
theorem at12_main_arg17 : W12 (F := Ideal) m ρ c (Proc.devRef .tc main_arg17) = m ((c : Thread nD τ).loc main_arg17) := (W12_of_ne m ρ c main_arg17 (by decide)).trans ((skip_stretch main_arg17, hostOps3_2).trans ((skip_stretch main_arg17, hostOps3_1).trans ((skip_stretch main_arg17, hostOps3).trans ((at8_main_arg17 m ρ c)))))
theorem at12_main_arg20 : W12 (F := Ideal) m ρ c (Proc.devRef .tc main_arg20) = m ((c : Thread nD τ).loc main_arg20) := (W12_of_ne m ρ c main_arg20 (by decide)).trans ((skip_stretch main_arg20, hostOps3_2).trans ((skip_stretch main_arg20, hostOps3_1).trans ((skip_stretch main_arg20, hostOps3).trans ((at8_main_arg20 m ρ c)))))
theorem at12_main_arg21 : W12 (F := Ideal) m ρ c (Proc.devRef .tc main_arg21) = m ((c : Thread nD τ).loc main_arg21) := (W12_of_ne m ρ c main_arg21 (by decide)).trans ((skip_stretch main_arg21, hostOps3_2).trans ((skip_stretch main_arg21, hostOps3_1).trans ((skip_stretch main_arg21, hostOps3).trans ((at8_main_arg21 m ρ c)))))
theorem at12_main_arg22 : W12 (F := Ideal) m ρ c (Proc.devRef .tc main_arg22) = m ((c : Thread nD τ).loc main_arg22) := (W12_of_ne m ρ c main_arg22 (by decide)).trans ((skip_stretch main_arg22, hostOps3_2).trans ((skip_stretch main_arg22, hostOps3_1).trans ((skip_stretch main_arg22, hostOps3).trans ((at8_main_arg22 m ρ c)))))
theorem at12_main_arg23 : W12 (F := Ideal) m ρ c (Proc.devRef .tc main_arg23) = m ((c : Thread nD τ).loc main_arg23) := (W12_of_ne m ρ c main_arg23 (by decide)).trans ((skip_stretch main_arg23, hostOps3_2).trans ((skip_stretch main_arg23, hostOps3_1).trans ((skip_stretch main_arg23, hostOps3).trans ((at8_main_arg23 m ρ c)))))
theorem at12_main_arg24 : W12 (F := Ideal) m ρ c (Proc.devRef .tc main_arg24) = m ((c : Thread nD τ).loc main_arg24) := (W12_of_ne m ρ c main_arg24 (by decide)).trans ((skip_stretch main_arg24, hostOps3_2).trans ((skip_stretch main_arg24, hostOps3_1).trans ((skip_stretch main_arg24, hostOps3).trans ((at8_main_arg24 m ρ c)))))
theorem at12_main_arg25 : W12 (F := Ideal) m ρ c (Proc.devRef .tc main_arg25) = m ((c : Thread nD τ).loc main_arg25) := (W12_of_ne m ρ c main_arg25 (by decide)).trans ((skip_stretch main_arg25, hostOps3_2).trans ((skip_stretch main_arg25, hostOps3_1).trans ((skip_stretch main_arg25, hostOps3).trans ((at8_main_arg25 m ρ c)))))
theorem at12_main_arg27 : W12 (F := Ideal) m ρ c (Proc.devRef .tc main_arg27) = m ((c : Thread nD τ).loc main_arg27) := (W12_of_ne m ρ c main_arg27 (by decide)).trans ((skip_stretch main_arg27, hostOps3_2).trans ((skip_stretch main_arg27, hostOps3_1).trans ((skip_stretch main_arg27, hostOps3).trans ((at8_main_arg27 m ρ c)))))
theorem at14_main_v1 : W14 (F := Ideal) m ρ c (Proc.devRef .tc main_v1) = W1 (F := Ideal) m ρ c (Proc.devRef .tc main_v1) := (W14_of_ne m ρ c main_v1 (by decide)).trans ((skip_stretch main_v1, hostOps4).trans ((at12_main_v1 m ρ c)))
theorem at14_main_v3 : W14 (F := Ideal) m ρ c (Proc.devRef .tc main_v3) = W1 (F := Ideal) m ρ c (Proc.devRef .tc main_v3) := (W14_of_ne m ρ c main_v3 (by decide)).trans ((skip_stretch main_v3, hostOps4).trans ((at12_main_v3 m ρ c)))
theorem at14_main_arg14 : W14 (F := Ideal) m ρ c (Proc.devRef .tc main_arg14) = m ((c : Thread nD τ).loc main_arg14) := (W14_of_ne m ρ c main_arg14 (by decide)).trans ((skip_stretch main_arg14, hostOps4).trans ((at12_main_arg14 m ρ c)))
theorem at14_main_arg15 : W14 (F := Ideal) m ρ c (Proc.devRef .tc main_arg15) = m ((c : Thread nD τ).loc main_arg15) := (W14_of_ne m ρ c main_arg15 (by decide)).trans ((skip_stretch main_arg15, hostOps4).trans ((at12_main_arg15 m ρ c)))
theorem at14_main_arg16 : W14 (F := Ideal) m ρ c (Proc.devRef .tc main_arg16) = m ((c : Thread nD τ).loc main_arg16) := (W14_of_ne m ρ c main_arg16 (by decide)).trans ((skip_stretch main_arg16, hostOps4).trans ((at12_main_arg16 m ρ c)))
theorem at14_main_arg17 : W14 (F := Ideal) m ρ c (Proc.devRef .tc main_arg17) = m ((c : Thread nD τ).loc main_arg17) := (W14_of_ne m ρ c main_arg17 (by decide)).trans ((skip_stretch main_arg17, hostOps4).trans ((at12_main_arg17 m ρ c)))
theorem at14_main_arg22 : W14 (F := Ideal) m ρ c (Proc.devRef .tc main_arg22) = m ((c : Thread nD τ).loc main_arg22) := (W14_of_ne m ρ c main_arg22 (by decide)).trans ((skip_stretch main_arg22, hostOps4).trans ((at12_main_arg22 m ρ c)))
theorem at14_main_arg23 : W14 (F := Ideal) m ρ c (Proc.devRef .tc main_arg23) = m ((c : Thread nD τ).loc main_arg23) := (W14_of_ne m ρ c main_arg23 (by decide)).trans ((skip_stretch main_arg23, hostOps4).trans ((at12_main_arg23 m ρ c)))
theorem at14_main_arg24 : W14 (F := Ideal) m ρ c (Proc.devRef .tc main_arg24) = m ((c : Thread nD τ).loc main_arg24) := (W14_of_ne m ρ c main_arg24 (by decide)).trans ((skip_stretch main_arg24, hostOps4).trans ((at12_main_arg24 m ρ c)))
theorem at14_main_arg25 : W14 (F := Ideal) m ρ c (Proc.devRef .tc main_arg25) = m ((c : Thread nD τ).loc main_arg25) := (W14_of_ne m ρ c main_arg25 (by decide)).trans ((skip_stretch main_arg25, hostOps4).trans ((at12_main_arg25 m ρ c)))
theorem at14_main_arg27 : W14 (F := Ideal) m ρ c (Proc.devRef .tc main_arg27) = m ((c : Thread nD τ).loc main_arg27) := (W14_of_ne m ρ c main_arg27 (by decide)).trans ((skip_stretch main_arg27, hostOps4).trans ((at12_main_arg27 m ρ c)))
theorem at18_main_v3 : W18 (F := Ideal) m ρ c (Proc.devRef .tc main_v3) = W1 (F := Ideal) m ρ c (Proc.devRef .tc main_v3) := (W18_of_ne m ρ c main_v3 (by decide)).trans ((skip_stretch main_v3, hostOps5_2).trans ((skip_stretch main_v3, hostOps5_1).trans ((skip_stretch main_v3, hostOps5).trans ((at14_main_v3 m ρ c)))))
theorem at18_main_arg22 : W18 (F := Ideal) m ρ c (Proc.devRef .tc main_arg22) = m ((c : Thread nD τ).loc main_arg22) := (W18_of_ne m ρ c main_arg22 (by decide)).trans ((skip_stretch main_arg22, hostOps5_2).trans ((skip_stretch main_arg22, hostOps5_1).trans ((skip_stretch main_arg22, hostOps5).trans ((at14_main_arg22 m ρ c)))))
theorem at18_main_arg23 : W18 (F := Ideal) m ρ c (Proc.devRef .tc main_arg23) = m ((c : Thread nD τ).loc main_arg23) := (W18_of_ne m ρ c main_arg23 (by decide)).trans ((skip_stretch main_arg23, hostOps5_2).trans ((skip_stretch main_arg23, hostOps5_1).trans ((skip_stretch main_arg23, hostOps5).trans ((at14_main_arg23 m ρ c)))))
theorem at18_main_arg24 : W18 (F := Ideal) m ρ c (Proc.devRef .tc main_arg24) = m ((c : Thread nD τ).loc main_arg24) := (W18_of_ne m ρ c main_arg24 (by decide)).trans ((skip_stretch main_arg24, hostOps5_2).trans ((skip_stretch main_arg24, hostOps5_1).trans ((skip_stretch main_arg24, hostOps5).trans ((at14_main_arg24 m ρ c)))))
theorem at18_main_arg25 : W18 (F := Ideal) m ρ c (Proc.devRef .tc main_arg25) = m ((c : Thread nD τ).loc main_arg25) := (W18_of_ne m ρ c main_arg25 (by decide)).trans ((skip_stretch main_arg25, hostOps5_2).trans ((skip_stretch main_arg25, hostOps5_1).trans ((skip_stretch main_arg25, hostOps5).trans ((at14_main_arg25 m ρ c)))))
theorem at18_main_arg27 : W18 (F := Ideal) m ρ c (Proc.devRef .tc main_arg27) = m ((c : Thread nD τ).loc main_arg27) := (W18_of_ne m ρ c main_arg27 (by decide)).trans ((skip_stretch main_arg27, hostOps5_2).trans ((skip_stretch main_arg27, hostOps5_1).trans ((skip_stretch main_arg27, hostOps5).trans ((at14_main_arg27 m ρ c)))))
theorem at20_main_arg24 : W20 (F := Ideal) m ρ c (Proc.devRef .tc main_arg24) = m ((c : Thread nD τ).loc main_arg24) := (W20_of_ne m ρ c main_arg24 (by decide)).trans ((skip_stretch main_arg24, hostOps6).trans ((at18_main_arg24 m ρ c)))
theorem at20_main_arg25 : W20 (F := Ideal) m ρ c (Proc.devRef .tc main_arg25) = m ((c : Thread nD τ).loc main_arg25) := (W20_of_ne m ρ c main_arg25 (by decide)).trans ((skip_stretch main_arg25, hostOps6).trans ((at18_main_arg25 m ρ c)))
theorem at20_main_arg27 : W20 (F := Ideal) m ρ c (Proc.devRef .tc main_arg27) = m ((c : Thread nD τ).loc main_arg27) := (W20_of_ne m ρ c main_arg27 (by decide)).trans ((skip_stretch main_arg27, hostOps6).trans ((at18_main_arg27 m ρ c)))

/-! ## At each region's entry: the argument arrays among its windows -/

theorem in1_main_arg0 : W1 (F := Ideal) m ρ c (Proc.devRef .tc main_arg0) = m ((c : Thread nD τ).loc main_arg0) := (skip_stretch main_arg0, hostOps0)
theorem in1_main_arg4 : W1 (F := Ideal) m ρ c (Proc.devRef .tc main_arg4) = m ((c : Thread nD τ).loc main_arg4) := (skip_stretch main_arg4, hostOps0)
theorem in1_main_arg5 : W1 (F := Ideal) m ρ c (Proc.devRef .tc main_arg5) = m ((c : Thread nD τ).loc main_arg5) := (skip_stretch main_arg5, hostOps0)
theorem in5_main_arg7 : W5 (F := Ideal) m ρ c (Proc.devRef .tc main_arg7) = m ((c : Thread nD τ).loc main_arg7) := (skip_stretch main_arg7, hostOps1_2).trans ((skip_stretch main_arg7, hostOps1_1).trans ((skip_stretch main_arg7, hostOps1).trans ((at2_main_arg7 m ρ c))))
theorem in5_main_arg8 : W5 (F := Ideal) m ρ c (Proc.devRef .tc main_arg8) = m ((c : Thread nD τ).loc main_arg8) := (skip_stretch main_arg8, hostOps1_2).trans ((skip_stretch main_arg8, hostOps1_1).trans ((skip_stretch main_arg8, hostOps1).trans ((at2_main_arg8 m ρ c))))
theorem in5_main_arg9 : W5 (F := Ideal) m ρ c (Proc.devRef .tc main_arg9) = m ((c : Thread nD τ).loc main_arg9) := (skip_stretch main_arg9, hostOps1_2).trans ((skip_stretch main_arg9, hostOps1_1).trans ((skip_stretch main_arg9, hostOps1).trans ((at2_main_arg9 m ρ c))))
theorem in7_main_arg19 : W7 (F := Ideal) m ρ c (Proc.devRef .tc main_arg19) = m ((c : Thread nD τ).loc main_arg19) := (skip_stretch main_arg19, hostOps2).trans ((at6_main_arg19 m ρ c))
theorem in11_main_arg11 : W11 (F := Ideal) m ρ c (Proc.devRef .tc main_arg11) = m ((c : Thread nD τ).loc main_arg11) := (skip_stretch main_arg11, hostOps3_2).trans ((skip_stretch main_arg11, hostOps3_1).trans ((skip_stretch main_arg11, hostOps3).trans ((at8_main_arg11 m ρ c))))
theorem in11_main_arg12 : W11 (F := Ideal) m ρ c (Proc.devRef .tc main_arg12) = m ((c : Thread nD τ).loc main_arg12) := (skip_stretch main_arg12, hostOps3_2).trans ((skip_stretch main_arg12, hostOps3_1).trans ((skip_stretch main_arg12, hostOps3).trans ((at8_main_arg12 m ρ c))))
theorem in11_main_arg13 : W11 (F := Ideal) m ρ c (Proc.devRef .tc main_arg13) = m ((c : Thread nD τ).loc main_arg13) := (skip_stretch main_arg13, hostOps3_2).trans ((skip_stretch main_arg13, hostOps3_1).trans ((skip_stretch main_arg13, hostOps3).trans ((at8_main_arg13 m ρ c))))
theorem in13_main_arg21 : W13 (F := Ideal) m ρ c (Proc.devRef .tc main_arg21) = m ((c : Thread nD τ).loc main_arg21) := (skip_stretch main_arg21, hostOps4).trans ((at12_main_arg21 m ρ c))
theorem in17_main_arg15 : W17 (F := Ideal) m ρ c (Proc.devRef .tc main_arg15) = m ((c : Thread nD τ).loc main_arg15) := (skip_stretch main_arg15, hostOps5_2).trans ((skip_stretch main_arg15, hostOps5_1).trans ((skip_stretch main_arg15, hostOps5).trans ((at14_main_arg15 m ρ c))))
theorem in17_main_arg16 : W17 (F := Ideal) m ρ c (Proc.devRef .tc main_arg16) = m ((c : Thread nD τ).loc main_arg16) := (skip_stretch main_arg16, hostOps5_2).trans ((skip_stretch main_arg16, hostOps5_1).trans ((skip_stretch main_arg16, hostOps5).trans ((at14_main_arg16 m ρ c))))
theorem in17_main_arg17 : W17 (F := Ideal) m ρ c (Proc.devRef .tc main_arg17) = m ((c : Thread nD τ).loc main_arg17) := (skip_stretch main_arg17, hostOps5_2).trans ((skip_stretch main_arg17, hostOps5_1).trans ((skip_stretch main_arg17, hostOps5).trans ((at14_main_arg17 m ρ c))))
theorem in19_main_arg23 : W19 (F := Ideal) m ρ c (Proc.devRef .tc main_arg23) = m ((c : Thread nD τ).loc main_arg23) := (skip_stretch main_arg23, hostOps6).trans ((at18_main_arg23 m ρ c))
theorem in21_main_arg24 : W21 (F := Ideal) m ρ c (Proc.devRef .tc main_arg24) = m ((c : Thread nD τ).loc main_arg24) := (skip_stretch main_arg24, hostOps7).trans ((at20_main_arg24 m ρ c))
theorem in21_main_arg25 : W21 (F := Ideal) m ρ c (Proc.devRef .tc main_arg25) = m ((c : Thread nD τ).loc main_arg25) := (skip_stretch main_arg25, hostOps7).trans ((at20_main_arg25 m ρ c))

end Cert.KernelIdeal.Keep
end
-- ==== Proof.Spec.lean ====
/-
  The network's layers as pure functions of arrays of extended reals, entry by entry.

  Every array here is a function on the index type of a literal shape; an entry is addressed by its row and column
  numbers. Nothing is assumed finite: the sums and products are the extended reals' own, so each function is defined
  on every input. These are the meeting point of the two programs: each stage of either program is shown to compute
  one of these functions of the stage's inputs.

  * `affine x w b`      : the matrix product of `x` and `w` with the row `b` added to every row.
  * `edgeHidden`        : the hidden layer of an edge's message, max(xi·A + (xj − xi)·B + ba, 0), where A and B are the
                          two halves of the first weight matrix (the half that meets xi, the half that meets xj − xi).
  * `edgeOut`           : the message itself, edgeHidden·Wb + bb.
  * `scaleShiftRelu`    : max(x·s + b, 0) with the rows `s` and `b` applied to every row of `x`.
  * `classify`          : 1 / (1 + e^(−(p·w + b))).
  * `rowsFrom off n`    : a block of consecutive rows of a matrix (the two halves of an edge layer's first weight matrix).
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `A` rows and `B` columns. -/
abbrev Mat (A B : Nat) := (⟨2, ![A, B]⟩ : Shape).Idx → EReal
/-- A row of `A` extended reals. -/
abbrev Row (A : Nat) := (⟨1, ![A]⟩ : Shape).Idx → EReal

/-- The zero the rectifiers compare with: the all-zero f32 word read exactly. -/
abbrev zeroWord : EReal := Ideal.ofBits .f32 0x00000000#32

/-- The `n` consecutive rows of `w` starting at row `off`. -/
def rowsFrom {R C : Nat} (off n : Nat) (h : off + n ≤ R) (w : Mat R C) : Mat n C :=
  fun j => w (ix2 ⟨off + (j 0).val, by have := idx2_lt0 j; omega⟩ (j 1))

theorem rowsFrom_apply {R C : Nat} (off n : Nat) (h : off + n ≤ R) (w : Mat R C) (k : Fin n) (c : Fin C) :
    rowsFrom off n h w (ix2 k c) = w (ix2 ⟨off + k.val, by omega⟩ c) := rfl

/-- Entry (e, c) of x·w + b. -/
def affine {M K C : Nat} (x : Mat M K) (w : Mat K C) (b : Row C) (e : Fin M) (c : Fin C) : EReal :=
  (∑ k : Fin K, x (ix2 e k) * w (ix2 k c)) + b (ix1 c)

/-- Entry (e, h) of the hidden layer of the edge messages: max(xi·A + (xj − xi)·B + ba, 0). -/
def edgeHidden {M D H : Nat} (xi xj : Mat M D) (A B : Mat D H) (ba : Row H) (e : Fin M) (h : Fin H) : EReal :=
  max (((∑ k : Fin D, xi (ix2 e k) * A (ix2 k h))
        + (∑ k : Fin D, (xj (ix2 e k) - xi (ix2 e k)) * B (ix2 k h))) + ba (ix1 h)) zeroWord

/-- Entry (e, c) of the edge messages: edgeHidden·Wb + bb. -/
def edgeOut {M D H O : Nat} (xi xj : Mat M D) (A B : Mat D H) (ba : Row H) (Wb : Mat H O) (bb : Row O)
    (e : Fin M) (c : Fin O) : EReal :=
  (∑ h : Fin H, edgeHidden xi xj A B ba e h * Wb (ix2 h c)) + bb (ix1 c)

/-- Entry (e, c) of max(x·s + b, 0), the rows `s` and `b` applied to every row of `x`. -/
def scaleShiftRelu {M D : Nat} (x : Mat M D) (s b : Row D) (e : Fin M) (c : Fin D) : EReal :=
  max (x (ix2 e c) * s (ix1 c) + b (ix1 c)) zeroWord

/-- Entry (e, c) of the classifier: the logistic function of p·w + b. -/
def classify {M D O : Nat} (p : Mat M D) (w : Mat D O) (b : Row O) (e : Fin M) (c : Fin O) : EReal :=
  Ideal.logistic (affine p w b e c)

/-- A message depends only on its own edge's rows of `xi` and `xj`. -/
theorem edgeOut_congr_row {M D H O : Nat} (xi xj xi' xj' : Mat M D) (A B : Mat D H) (ba : Row H) (Wb : Mat H O)
    (bb : Row O) (e : Fin M) (c : Fin O)
    (hi : ∀ k : Fin D, xi (ix2 e k) = xi' (ix2 e k)) (hj : ∀ k : Fin D, xj (ix2 e k) = xj' (ix2 e k)) :
    edgeOut xi xj A B ba Wb bb e c = edgeOut xi' xj' A B ba Wb bb e c := by
  unfold edgeOut edgeHidden
  simp only [hi, hj]

end Cert.Spec

end
-- ==== Proof.Region0.lean ====
/-
  The first stage of the kernel program: each block of 10000 rows of the node features is multiplied by the node
  weights and the bias row is added; the five blocks tile the 50000 rows, so the whole array ends holding
  x·W + b, entry by entry.
-/
import proofs.«142674_j19808389169323_1_alg».proof.Proof.Gen.KernelIdeal.Frame
import proofs.«142674_j19808389169323_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Idealize.ShloMosaic Idealize.ShloMosaic.ValueIdx Idealize.ShloMosaic.TcCoe Idealize.SL.Sem
open Idealize.ShloMosaic.Pipeline (Dat)

/-! ## The block's arithmetic at an entry -/

/-- The left operand's row coordinate is the output entry's row. -/
theorem lhs_row (i : S10000x64.Idx) (u : dot_S10000x32_S32x64_S10000x64_1_0_0_1_n_n.contr.Idx) : (dot_S10000x32_S32x64_S10000x64_1_0_0_1_n_n.lhsIdx i u 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl

/-- The right operand's column coordinate is the output entry's column. -/
theorem rhs_col (i : S10000x64.Idx) (u : dot_S10000x32_S32x64_S10000x64_1_0_0_1_n_n.contr.Idx) : (dot_S10000x32_S32x64_S10000x64_1_0_0_1_n_n.rhsIdx i u 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The left operand's index at output entry (p, q) and contraction position k is (p, k). -/
theorem lhs_idx (p : Fin 10000) (q : Fin 64) (k : Fin 32) :
    dot_S10000x32_S32x64_S10000x64_1_0_0_1_n_n.lhsIdx (ix2 p q) ((contrEquiv1 dot_S10000x32_S32x64_S10000x64_1_0_0_1_n_n 32 rfl rfl).symm k) = ix2 p k :=
  funext fun a => Fin.ext (by
    match a with
    | ⟨0, _⟩ => exact lhs_row _ _
    | ⟨1, _⟩ => exact (dot_S10000x32_S32x64_S10000x64_1_0_0_1_n_n.lhsIdx_val_of_single rfl _ _).trans (contrEquiv1_symm_val dot_S10000x32_S32x64_S10000x64_1_0_0_1_n_n 32 rfl rfl k))

/-- The right operand's index at output entry (p, q) and contraction position k is (k, q). -/
theorem rhs_idx (p : Fin 10000) (q : Fin 64) (k : Fin 32) :
    dot_S10000x32_S32x64_S10000x64_1_0_0_1_n_n.rhsIdx (ix2 p q) ((contrEquiv1 dot_S10000x32_S32x64_S10000x64_1_0_0_1_n_n 32 rfl rfl).symm k) = ix2 k q :=
  funext fun a => Fin.ext (by
    match a with
    | ⟨0, _⟩ => exact (dot_S10000x32_S32x64_S10000x64_1_0_0_1_n_n.rhsIdx_val_of_single rfl _ _).trans (contrEquiv1_symm_val dot_S10000x32_S32x64_S10000x64_1_0_0_1_n_n 32 rfl rfl k)
    | ⟨1, _⟩ => exact rhs_col _ _)

/-- Entry (p, q) of what the body stores: the row p of the feature block times the column q of the weights, plus
    the bias at q. -/
theorem pay_apply (x : Vec Ideal S10000x32 .f32) (w : Vec Ideal S32x64 .f32) (b : Vec Ideal S64 .f32)
    (p : Fin 10000) (q : Fin 64) :
    Gen.k0_pay1 (F := Ideal) x w b (ix2 p q) = (∑ k : Fin 32, x (ix2 p k) * w (ix2 k q)) + b (ix1 q) := by
  unfold Gen.k0_pay1
  refine (addf_apply _ _ _).trans ?_
  refine congrArg₂ (· + ·) ?_ ?_
  · refine (Ideal.matmul_constant_zero_apply dot_S10000x32_S32x64_S10000x64_1_0_0_1_n_n none _ _ (ix2 p q)).trans ?_
    rw [← Equiv.sum_comp (contrEquiv1 dot_S10000x32_S32x64_S10000x64_1_0_0_1_n_n 32 rfl rfl).symm]
    refine Finset.sum_congr rfl fun k _ => ?_
    rw [lhs_idx p q k, rhs_idx p q k]
    rfl
  · refine (broadcastTo_1b_ab_apply _ _ p q).trans ?_
    exact shapeCast_a_1a_apply b _ (0 : Fin 1) q

/-! ## The grid's index maps -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the feature window and the output window sit at row block t, the weights
    and the bias at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- An entry of the output array is in the block of point t iff each coordinate is in the block's range. -/
theorem mem_blk (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v4).slice (win0_3.rect t)).set ↔ _
  rw [View.set_slice_whole, Rect.mem_set_unit]
  exact Iff.rfl

/-- Every entry of the output array is in the block of the point its row falls in, row / 10000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 10000 :=
    ⟨⟨(i 0).val / 10000, by rw [show cfg0.N = 5 from Gen.N_0]; omega⟩, rfl⟩
  obtain ⟨-, -, -, -, -, e30, e31⟩ := idx_facts t
  refine ⟨t, Gen.flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-! ## What each point writes back -/

/-- Entry (p, q) of what the body stores, when the feature block's row p is row r of an array X and the weights and
    the bias are read at the column s: entry (r, s) of X·W + B. -/
theorem pay_eq_spec (x : Vec Ideal S10000x32 .f32) (w : Vec Ideal S32x64 .f32) (b : Vec Ideal S64 .f32)
    (X : Cert.Spec.Mat 50000 32) (Wn : Cert.Spec.Mat 32 64) (B : Cert.Spec.Row 64)
    (p : Fin 10000) (q : Fin 64) (r : Fin 50000) (s : Fin 64)
    (hx : ∀ k : Fin 32, x (ix2 p k) = X (ix2 r k)) (hw : ∀ k : Fin 32, w (ix2 k q) = Wn (ix2 k s))
    (hb : b (ix1 q) = B (ix1 s)) :
    Gen.k0_pay1 (F := Ideal) x w b (ix2 p q) = Cert.Spec.affine X Wn B r s := by
  rw [pay_apply, hb]
  unfold Cert.Spec.affine
  exact congrArg (· + B (ix1 s)) (Finset.sum_congr rfl fun k _ => by rw [hx k, hw k])

variable (V : (c : Dev nD) → (b : Ref sig .tc) → Buf (Elt Ideal) ((c : Thread nD τ).loc b))

/-- The output array as one function of the three input arrays as the stage finds them. -/
abbrev G (c : Dev nD) : S50000x64.Idx → EReal := fun j =>
  Cert.Spec.affine (V c (Pipeline.arrRef spec0 0)) (V c (Pipeline.arrRef spec0 1)) (V c (Pipeline.arrRef spec0 2)) (j 0) (j 1)

/-- Point t writes back block t of that function. -/
theorem flushed_eq (c : Dev nD) (t : Fin cfg0.N) :
    (Gen.dat0 (F := Ideal) V c).flushed 3 t = ((cfg0.win 3).blk t).view.read (Elt Ideal) (G V c) := by
  show (cfg0.win 3).cut (grid0.coords t) ((Gen.dat0 (F := Ideal) V c).after 3 t) = _
  rw [Gen.after0_3]
  unfold Gen.out0_3
  rw [View.canon_unit_zero hz2]
  simp only [View.ld_unit_zero (S := S10000x32) hz2, View.ld_unit_zero (S := S32x64) hz2, View.ld_unit_zero (S := S64) hz1]
  obtain ⟨e00, e01, e10, e11, e20, e30, e31⟩ := idx_facts t
  funext y
  obtain ⟨p, q, rfl⟩ : ∃ (p : Fin 10000) (q : Fin 64), y = ix2 p q := ⟨y 0, y 1, eq_ix2 y⟩
  show Gen.k0_pay1 (F := Ideal) (Gen.iblk0 V c 0 t) (Gen.iblk0 V c 1 t) (Gen.iblk0 V c 2 t) (ix2 p q)
      = Cert.Spec.affine (V c (Pipeline.arrRef spec0 0)) (V c (Pipeline.arrRef spec0 1)) (V c (Pipeline.arrRef spec0 2))
          ((((cfg0.win 3).blk t).view.emb (ix2 p q)) 0) ((((cfg0.win 3).blk t).view.emb (ix2 p q)) 1)
  refine pay_eq_spec _ _ _ _ _ _ p q _ _ (fun k => ?_) (fun k => ?_) ?_
  · show V c (Pipeline.arrRef spec0 0) (((cfg0.win 0).blk t).view.emb (ix2 p k))
        = V c (Pipeline.arrRef spec0 0) (ix2 ((((cfg0.win 3).blk t).view.emb (ix2 p q)) 0) k)
    refine congrArg _ (funext fun a => Fin.ext ?_)
    match a with
    | ⟨0, _⟩ =>
      show win0_0.index t (0 : Fin 2) * 10000 + 1 * p.val = win0_3.index t (0 : Fin 2) * 10000 + 1 * p.val
      omega
    | ⟨1, _⟩ =>
      show win0_0.index t (1 : Fin 2) * 32 + 1 * k.val = k.val
      omega
  · show V c (Pipeline.arrRef spec0 1) (((cfg0.win 1).blk t).view.emb (ix2 k q))
        = V c (Pipeline.arrRef spec0 1) (ix2 k ((((cfg0.win 3).blk t).view.emb (ix2 p q)) 1))
    refine congrArg _ (funext fun a => Fin.ext ?_)
    match a with
    | ⟨0, _⟩ =>
      show win0_1.index t (0 : Fin 2) * 32 + 1 * k.val = k.val
      omega
    | ⟨1, _⟩ =>
      show win0_1.index t (1 : Fin 2) * 64 + 1 * q.val = win0_3.index t (1 : Fin 2) * 64 + 1 * q.val
      omega
  · show V c (Pipeline.arrRef spec0 2) (((cfg0.win 2).blk t).view.emb (ix1 q))
        = V c (Pipeline.arrRef spec0 2) (ix1 ((((cfg0.win 3).blk t).view.emb (ix2 p q)) 1))
    refine congrArg _ (funext fun a => Fin.ext ?_)
    match a with
    | ⟨0, _⟩ =>
      show win0_2.index t (0 : Fin 1) * 64 + 1 * q.val = win0_3.index t (1 : Fin 2) * 64 + 1 * q.val
      omega

/-! ## The array after the stage -/

/-- After the five points have run, the output array is x·W + b of the input arrays as the stage found them. -/
theorem arr (c : Dev nD) :
    (Gen.dat0 (F := Ideal) V c).arrAt 3 cfg0.N = fun j =>
      Cert.Spec.affine (V c (Pipeline.arrRef spec0 0)) (V c (Pipeline.arrRef spec0 1)) (V c (Pipeline.arrRef spec0 2)) (j 0) (j 1) :=
  (Gen.dat0 (F := Ideal) V c).arrAt_eq_of_cover 3 (G V c) (fun t _ => flushed_eq V c t) cover

end Cert.KernelIdeal.Region0

end
-- ==== Proof.RefStages.lean ====
/-
  The reference program's stages as the specification's layer functions.

  Each theorem says that one stage of the reference — the value one operation of the program writes — is, entry by
  entry, one of the layer functions of the specification applied to the earlier stages it is computed from. The earlier
  stages (the gathered rows, the segment means, the scale rows) stay opaque terms: nothing here looks inside a gather
  or a scatter. The only arithmetic is that a sum over the joined columns of two blocks laid side by side splits at the
  seam; the extended reals are an additive commutative monoid, so no finiteness is needed for it.
-/
import proofs.«142674_j19808389169323_1_alg».proof.Proof.RefRead
import proofs.«142674_j19808389169323_1_alg».proof.Proof.Spec
import Idealize.ShloMosaic.Lib.IdealHost

noncomputable section

open scoped BigOperators

namespace Cert.ReferenceIdeal.Stage

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Cert.Spec

/-- A row of two blocks laid side by side, multiplied into a matrix, is the first block against the top rows plus the
    second block against the bottom rows: the sum over the joined columns splits at the seam. -/
theorem sum_concat_split {M D R H : Nat} (hR : D + D = R) (xi d : Mat M D) (w : Mat R H)
    (hc : Shape.Concatenates [(⟨2, ![M, D]⟩ : Shape), ⟨2, ![M, D]⟩] ⟨2, ![M, R]⟩ 1) (e : Fin M) (h : Fin H) :
    (∑ k : Fin R, concatenate (⟨2, ![M, R]⟩ : Shape) 1 [⟨⟨2, ![M, D]⟩, xi⟩, ⟨⟨2, ![M, D]⟩, d⟩] hc (ix2 e k) * w (ix2 k h))
      = (∑ k : Fin D, xi (ix2 e k) * rowsFrom 0 D (by omega) w (ix2 k h))
        + ∑ k : Fin D, d (ix2 e k) * rowsFrom D D (by omega) w (ix2 k h) := by
  subst hR
  rw [Fin.sum_univ_add]
  congr 1
  · refine Finset.sum_congr rfl fun k _ => ?_
    rw [concatenate_pair_apply_left 1 xi d hc (ix2 e (Fin.castAdd D k)) rfl (ix2 e k)
      (fun b => by match b with | ⟨0, _⟩ => rfl | ⟨1, _⟩ => rfl), rowsFrom_apply]
    have hk : (Fin.castAdd D k : Fin (D + D)) = ⟨0 + k.val, by have := k.isLt; omega⟩ :=
      Fin.ext (by show k.val = 0 + k.val; omega)
    rw [hk]
  · refine Finset.sum_congr rfl fun k _ => ?_
    rw [concatenate_pair_apply_right 1 xi d hc (ix2 e (Fin.natAdd D k)) rfl rfl (ix2 e k)
      (fun b hb => by match b with | ⟨0, _⟩ => rfl | ⟨1, _⟩ => exact absurd rfl hb)
      (by show k.val + D = D + k.val; omega), rowsFrom_apply]
    rfl

/-- The three layers of an edge's message — the joined row against the first weights with its bias, rectified, then the
    second weights with their bias — are the message function of the two gathered rows. -/
theorem edgeOut_of_layers {M D R H O : Nat} (hR : D + D = R) (xi xj d : Mat M D) (hd : ∀ i, d i = xj i - xi i)
    (A : Mat R H) (ba : Row H) (Wb : Mat H O) (bb : Row O)
    (hc : Shape.Concatenates [(⟨2, ![M, D]⟩ : Shape), ⟨2, ![M, D]⟩] ⟨2, ![M, R]⟩ 1)
    (cat : Mat M R) (hcat : cat = concatenate (⟨2, ![M, R]⟩ : Shape) 1 [⟨⟨2, ![M, D]⟩, xi⟩, ⟨⟨2, ![M, D]⟩, d⟩] hc)
    (hid : Mat M H)
    (hhid : ∀ (e : Fin M) (h : Fin H), hid (ix2 e h) = max ((∑ k : Fin R, cat (ix2 e k) * A (ix2 k h)) + ba (ix1 h)) zeroWord)
    (out : Mat M O)
    (hout : ∀ (e : Fin M) (c : Fin O), out (ix2 e c) = (∑ h : Fin H, hid (ix2 e h) * Wb (ix2 h c)) + bb (ix1 c)) :
    out = fun j => edgeOut xi xj (rowsFrom 0 D (by omega) A) (rowsFrom D D (by omega) A) ba Wb bb (j 0) (j 1) := by
  funext j
  obtain ⟨e, c, rfl⟩ : ∃ (e : Fin M) (c : Fin O), j = ix2 e c := ⟨j 0, j 1, eq_ix2 j⟩
  rw [hout]
  show _ = edgeOut xi xj (rowsFrom 0 D (by omega) A) (rowsFrom D D (by omega) A) ba Wb bb e c
  unfold edgeOut edgeHidden
  congr 1
  refine Finset.sum_congr rfl fun h _ => ?_
  rw [hhid, hcat, sum_concat_split hR xi d A hc e h]
  simp only [hd]

/-- The node embedding is the input times the node weights plus the node bias, entry by entry. -/
theorem stage_v11 (x0 : (⟨S50000x32, .f32⟩ : BufTy).Contents (Elt Ideal)) (x4 : (⟨S32x64, .f32⟩ : BufTy).Contents (Elt Ideal)) (x5 : (⟨S64, .f32⟩ : BufTy).Contents (Elt Ideal)) :
    val_main_v11 (F := Ideal) x0 x4 x5 = fun j => Cert.Spec.affine (M := 50000) (K := 32) (C := 64) x0 x4 x5 (j 0) (j 1) := by
  funext j
  obtain ⟨e, c, rfl⟩ : ∃ (e : Fin 50000) (c : Fin 64), j = ix2 e c := ⟨j 0, j 1, eq_ix2 j⟩
  rw [val_main_v11_apply, val_main_v8_apply, val_main_v10_apply, val_main_v9_apply]
  have h1 : ∀ k : Fin 32, lidx_main_v8 (ix2 e c) k = ix2 e k := fun k => funext fun a => Fin.ext (by match a with | ⟨0, _⟩ => rfl | ⟨1, _⟩ => rfl)
  have h2 : ∀ k : Fin 32, ridx_main_v8 (ix2 e c) k = ix2 k c := fun k => funext fun a => Fin.ext (by match a with | ⟨0, _⟩ => rfl | ⟨1, _⟩ => rfl)
  have h3 : idx_main_v9 (idx_main_v10 (ix2 e c)) = ix1 c := funext fun a => Fin.ext (by match a with | ⟨0, _⟩ => rfl)
  simp only [h1, h2, h3]
  rfl

/-- The normalisation layer: the segment mean times the scale row plus the shift row, rectified. -/
theorem stage_v59 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 x18 x19 : (⟨S128, .f32⟩ : BufTy).Contents (Elt Ideal)) (x26 : (⟨S2x600000, .i32⟩ : BufTy).Contents (Elt Ideal)) :
    val_main_v59 (F := Ideal) x0 x4 x5 x6 x7 x8 x9 x18 x19 x26 = fun j => Cert.Spec.scaleShiftRelu (M := 50000) (D := 128) (val_main_v48 (F := Ideal) x0 x4 x5 x6 x7 x8 x9 x26) (val_main_v52 (F := Ideal) x18) x19 (j 0) (j 1) := by
  funext j
  obtain ⟨e, c, rfl⟩ : ∃ (e : Fin 50000) (c : Fin 128), j = ix2 e c := ⟨j 0, j 1, eq_ix2 j⟩
  rw [val_main_v59_apply, val_main_v58_apply, val_main_v55_apply, val_main_v54_apply, val_main_v53_apply,
    val_main_v57_apply, val_main_v56_apply, val_main_call1_v0_apply, val_main_call1_cst_apply]
  generalize val_main_v48 (F := Ideal) x0 x4 x5 x6 x7 x8 x9 x26 = X
  generalize val_main_v52 (F := Ideal) x18 = s
  have h1 : idx_main_v53 (idx_main_v54 (ix2 e c)) = ix1 c := funext fun a => Fin.ext (by match a with | ⟨0, _⟩ => rfl)
  have h2 : idx_main_v56 (idx_main_v57 (ix2 e c)) = ix1 c := funext fun a => Fin.ext (by match a with | ⟨0, _⟩ => rfl)
  rw [h1, h2]
  rfl

/-- The one word of the constant one, read as the extended real one. -/
theorem one_word : (FloatOps.ofBits (F := Ideal) .f32 0x3F800000#32 : EReal) = 1 := Ideal.ofBits_one_f32

/-- The classifier: the logistic function of the pooled features times the weights plus the bias. -/
theorem stage_v177 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S128x32, .f32⟩ : BufTy).Contents (Elt Ideal)) (x15 : (⟨S32, .f32⟩ : BufTy).Contents (Elt Ideal)) (x16 : (⟨S32x32, .f32⟩ : BufTy).Contents (Elt Ideal)) (x17 : (⟨S32, .f32⟩ : BufTy).Contents (Elt Ideal)) (x18 x19 : (⟨S128, .f32⟩ : BufTy).Contents (Elt Ideal)) (x20 x21 : (⟨S64, .f32⟩ : BufTy).Contents (Elt Ideal)) (x22 x23 : (⟨S32, .f32⟩ : BufTy).Contents (Elt Ideal)) (x24 : (⟨S32x5, .f32⟩ : BufTy).Contents (Elt Ideal)) (x25 : (⟨S5, .f32⟩ : BufTy).Contents (Elt Ideal)) (x26 : (⟨S2x600000, .i32⟩ : BufTy).Contents (Elt Ideal)) (x27 : (⟨S50000, .i32⟩ : BufTy).Contents (Elt Ideal)) :
    val_main_v177 (F := Ideal) x0 x4 x5 x6 x7 x8 x9 x10 x11 x12 x13 x14 x15 x16 x17 x18 x19 x20 x21 x22 x23 x24 x25 x26 x27 = fun j => Cert.Spec.classify (M := 2048) (D := 32) (O := 5) (val_main_v167 (F := Ideal) x0 x4 x5 x6 x7 x8 x9 x10 x11 x12 x13 x14 x15 x16 x17 x18 x19 x20 x21 x22 x23 x26 x27) x24 x25 (j 0) (j 1) := by
  funext j
  obtain ⟨e, c, rfl⟩ : ∃ (e : Fin 2048) (c : Fin 5), j = ix2 e c := ⟨j 0, j 1, eq_ix2 j⟩
  rw [val_main_v177_apply, val_main_v176_apply, val_main_cst_30_apply, val_main_v175_apply, val_main_v174_apply, val_main_cst_29_apply,
    val_main_v173_apply, val_main_v172_apply, val_main_v171_apply, val_main_v168_apply, val_main_v170_apply, val_main_v169_apply]
  generalize val_main_v167 (F := Ideal) x0 x4 x5 x6 x7 x8 x9 x10 x11 x12 x13 x14 x15 x16 x17 x18 x19 x20 x21 x22 x23 x26 x27 = P
  have h1 : ∀ k : Fin 32, lidx_main_v168 (ix2 e c) k = ix2 e k := fun k => funext fun a => Fin.ext (by match a with | ⟨0, _⟩ => rfl | ⟨1, _⟩ => rfl)
  have h2 : ∀ k : Fin 32, ridx_main_v168 (ix2 e c) k = ix2 k c := fun k => funext fun a => Fin.ext (by match a with | ⟨0, _⟩ => rfl | ⟨1, _⟩ => rfl)
  have h3 : idx_main_v169 (idx_main_v170 (ix2 e c)) = ix1 c := funext fun a => Fin.ext (by match a with | ⟨0, _⟩ => rfl)
  simp only [h1, h2, h3, one_word]
  rfl

/-- The hidden layer of the edge messages at one entry: the joined row against the first weights, plus their bias, rectified. -/
theorem hid_v32 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x26 : (⟨S2x600000, .i32⟩ : BufTy).Contents (Elt Ideal)) (e : Fin 600000) (h : Fin 128) :
    val_main_v32 (F := Ideal) x0 x4 x5 x6 x7 x26 (ix2 e h)
      = max ((∑ k : Fin 128, val_main_v27 (F := Ideal) x0 x4 x5 x26 (ix2 e k) * x6 (ix2 k h)) + x7 (ix1 h)) Cert.Spec.zeroWord := by
  rw [val_main_v32_apply, val_main_v31_apply, val_main_v28_apply, val_main_v30_apply, val_main_v29_apply,
    val_main_call0_v0_apply, val_main_call0_cst_apply]
  generalize val_main_v27 (F := Ideal) x0 x4 x5 x26 = y
  have h1 : ∀ k : Fin 128, lidx_main_v28 (ix2 e h) k = ix2 e k := fun k => funext fun a => Fin.ext (by match a with | ⟨0, _⟩ => rfl | ⟨1, _⟩ => rfl)
  have h2 : ∀ k : Fin 128, ridx_main_v28 (ix2 e h) k = ix2 k h := fun k => funext fun a => Fin.ext (by match a with | ⟨0, _⟩ => rfl | ⟨1, _⟩ => rfl)
  have h3 : idx_main_v29 (idx_main_v30 (ix2 e h)) = ix1 h := funext fun a => Fin.ext (by match a with | ⟨0, _⟩ => rfl)
  simp only [h1, h2, h3]
  rfl

/-- The edge messages at one entry: the hidden layer against the second weights, plus their bias. -/
theorem out_v36 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x26 : (⟨S2x600000, .i32⟩ : BufTy).Contents (Elt Ideal)) (e : Fin 600000) (c : Fin 128) :
    val_main_v36 (F := Ideal) x0 x4 x5 x6 x7 x8 x9 x26 (ix2 e c)
      = (∑ h : Fin 128, val_main_v32 (F := Ideal) x0 x4 x5 x6 x7 x26 (ix2 e h) * x8 (ix2 h c)) + x9 (ix1 c) := by
  rw [val_main_v36_apply, val_main_v33_apply, val_main_v35_apply, val_main_v34_apply]
  generalize val_main_v32 (F := Ideal) x0 x4 x5 x6 x7 x26 = y
  have h1 : ∀ k : Fin 128, lidx_main_v33 (ix2 e c) k = ix2 e k := fun k => funext fun a => Fin.ext (by match a with | ⟨0, _⟩ => rfl | ⟨1, _⟩ => rfl)
  have h2 : ∀ k : Fin 128, ridx_main_v33 (ix2 e c) k = ix2 k c := fun k => funext fun a => Fin.ext (by match a with | ⟨0, _⟩ => rfl | ⟨1, _⟩ => rfl)
  have h3 : idx_main_v34 (idx_main_v35 (ix2 e c)) = ix1 c := funext fun a => Fin.ext (by match a with | ⟨0, _⟩ => rfl)
  simp only [h1, h2, h3]
  rfl

/-- The edge layer is the message function of the two gathered rows: the first weight matrix's top rows meet the
    receiving node's features, its bottom rows the difference of the sending node's and the receiving node's. -/
theorem stage_v36 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x26 : (⟨S2x600000, .i32⟩ : BufTy).Contents (Elt Ideal)) :
    val_main_v36 (F := Ideal) x0 x4 x5 x6 x7 x8 x9 x26 = fun j => Cert.Spec.edgeOut (M := 600000) (D := 64) (H := 128) (O := 128) (val_main_v18 (F := Ideal) x0 x4 x5 x26) (val_main_v25 (F := Ideal) x0 x4 x5 x26)
      (Cert.Spec.rowsFrom 0 64 (by decide) x6) (Cert.Spec.rowsFrom 64 64 (by decide) x6) x7 x8 x9 (j 0) (j 1) :=
  edgeOut_of_layers (M := 600000) (D := 64) (R := 128) (H := 128) (O := 128) rfl (val_main_v18 (F := Ideal) x0 x4 x5 x26) (val_main_v25 (F := Ideal) x0 x4 x5 x26) (val_main_v26 (F := Ideal) x0 x4 x5 x26)
    (fun i => val_main_v26_apply (F := Ideal) x0 x4 x5 x26 i) x6 x7 x8 x9 concatenates_S600000x64_S600000x64_S600000x128_d1 (val_main_v27 (F := Ideal) x0 x4 x5 x26) rfl
    (val_main_v32 (F := Ideal) x0 x4 x5 x6 x7 x26) (hid_v32 x0 x4 x5 x6 x7 x26)
    (val_main_v36 (F := Ideal) x0 x4 x5 x6 x7 x8 x9 x26) (out_v36 x0 x4 x5 x6 x7 x8 x9 x26)

/-- The hidden layer of the edge messages at one entry: the joined row against the first weights, plus their bias, rectified. -/
theorem hid_v80 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x64, .f32⟩ : BufTy).Contents (Elt Ideal)) (x11 : (⟨S64, .f32⟩ : BufTy).Contents (Elt Ideal)) (x18 x19 : (⟨S128, .f32⟩ : BufTy).Contents (Elt Ideal)) (x26 : (⟨S2x600000, .i32⟩ : BufTy).Contents (Elt Ideal)) (e : Fin 600000) (h : Fin 64) :
    val_main_v80 (F := Ideal) x0 x4 x5 x6 x7 x8 x9 x10 x11 x18 x19 x26 (ix2 e h)
      = max ((∑ k : Fin 256, val_main_v75 (F := Ideal) x0 x4 x5 x6 x7 x8 x9 x18 x19 x26 (ix2 e k) * x10 (ix2 k h)) + x11 (ix1 h)) Cert.Spec.zeroWord := by
  rw [val_main_v80_apply, val_main_v79_apply, val_main_v76_apply, val_main_v78_apply, val_main_v77_apply,
    val_main_call2_v0_apply, val_main_call2_cst_apply]
  generalize val_main_v75 (F := Ideal) x0 x4 x5 x6 x7 x8 x9 x18 x19 x26 = y
  have h1 : ∀ k : Fin 256, lidx_main_v76 (ix2 e h) k = ix2 e k := fun k => funext fun a => Fin.ext (by match a with | ⟨0, _⟩ => rfl | ⟨1, _⟩ => rfl)
  have h2 : ∀ k : Fin 256, ridx_main_v76 (ix2 e h) k = ix2 k h := fun k => funext fun a => Fin.ext (by match a with | ⟨0, _⟩ => rfl | ⟨1, _⟩ => rfl)
  have h3 : idx_main_v77 (idx_main_v78 (ix2 e h)) = ix1 h := funext fun a => Fin.ext (by match a with | ⟨0, _⟩ => rfl)
  simp only [h1, h2, h3]
  rfl

/-- The edge messages at one entry: the hidden layer against the second weights, plus their bias. -/
theorem out_v84 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x18 x19 : (⟨S128, .f32⟩ : BufTy).Contents (Elt Ideal)) (x26 : (⟨S2x600000, .i32⟩ : BufTy).Contents (Elt Ideal)) (e : Fin 600000) (c : Fin 64) :
    val_main_v84 (F := Ideal) x0 x4 x5 x6 x7 x8 x9 x10 x11 x12 x13 x18 x19 x26 (ix2 e c)
      = (∑ h : Fin 64, val_main_v80 (F := Ideal) x0 x4 x5 x6 x7 x8 x9 x10 x11 x18 x19 x26 (ix2 e h) * x12 (ix2 h c)) + x13 (ix1 c) := by
  rw [val_main_v84_apply, val_main_v81_apply, val_main_v83_apply, val_main_v82_apply]
  generalize val_main_v80 (F := Ideal) x0 x4 x5 x6 x7 x8 x9 x10 x11 x18 x19 x26 = y
  have h1 : ∀ k : Fin 64, lidx_main_v81 (ix2 e c) k = ix2 e k := fun k => funext fun a => Fin.ext (by match a with | ⟨0, _⟩ => rfl | ⟨1, _⟩ => rfl)
  have h2 : ∀ k : Fin 64, ridx_main_v81 (ix2 e c) k = ix2 k c := fun k => funext fun a => Fin.ext (by match a with | ⟨0, _⟩ => rfl | ⟨1, _⟩ => rfl)
  have h3 : idx_main_v82 (idx_main_v83 (ix2 e c)) = ix1 c := funext fun a => Fin.ext (by match a with | ⟨0, _⟩ => rfl)
  simp only [h1, h2, h3]
  rfl

/-- The edge layer is the message function of the two gathered rows: the first weight matrix's top rows meet the
    receiving node's features, its bottom rows the difference of the sending node's and the receiving node's. -/
theorem stage_v84 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x18 x19 : (⟨S128, .f32⟩ : BufTy).Contents (Elt Ideal)) (x26 : (⟨S2x600000, .i32⟩ : BufTy).Contents (Elt Ideal)) :
    val_main_v84 (F := Ideal) x0 x4 x5 x6 x7 x8 x9 x10 x11 x12 x13 x18 x19 x26 = fun j => Cert.Spec.edgeOut (M := 600000) (D := 128) (H := 64) (O := 64) (val_main_v66 (F := Ideal) x0 x4 x5 x6 x7 x8 x9 x18 x19 x26) (val_main_v73 (F := Ideal) x0 x4 x5 x6 x7 x8 x9 x18 x19 x26)
      (Cert.Spec.rowsFrom 0 128 (by decide) x10) (Cert.Spec.rowsFrom 128 128 (by decide) x10) x11 x12 x13 (j 0) (j 1) :=
  edgeOut_of_layers (M := 600000) (D := 128) (R := 256) (H := 64) (O := 64) rfl (val_main_v66 (F := Ideal) x0 x4 x5 x6 x7 x8 x9 x18 x19 x26) (val_main_v73 (F := Ideal) x0 x4 x5 x6 x7 x8 x9 x18 x19 x26) (val_main_v74 (F := Ideal) x0 x4 x5 x6 x7 x8 x9 x18 x19 x26)
    (fun i => val_main_v74_apply (F := Ideal) x0 x4 x5 x6 x7 x8 x9 x18 x19 x26 i) x10 x11 x12 x13 concatenates_S600000x128_S600000x128_S600000x256_d1 (val_main_v75 (F := Ideal) x0 x4 x5 x6 x7 x8 x9 x18 x19 x26) rfl
    (val_main_v80 (F := Ideal) x0 x4 x5 x6 x7 x8 x9 x10 x11 x18 x19 x26) (hid_v80 x0 x4 x5 x6 x7 x8 x9 x10 x11 x18 x19 x26)
    (val_main_v84 (F := Ideal) x0 x4 x5 x6 x7 x8 x9 x10 x11 x12 x13 x18 x19 x26) (out_v84 x0 x4 x5 x6 x7 x8 x9 x10 x11 x12 x13 x18 x19 x26)

/-- The hidden layer of the edge messages at one entry: the joined row against the first weights, plus their bias, rectified. -/
theorem hid_v128 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S128x32, .f32⟩ : BufTy).Contents (Elt Ideal)) (x15 : (⟨S32, .f32⟩ : BufTy).Contents (Elt Ideal)) (x18 x19 : (⟨S128, .f32⟩ : BufTy).Contents (Elt Ideal)) (x20 x21 : (⟨S64, .f32⟩ : BufTy).Contents (Elt Ideal)) (x26 : (⟨S2x600000, .i32⟩ : BufTy).Contents (Elt Ideal)) (e : Fin 600000) (h : Fin 32) :
    val_main_v128 (F := Ideal) x0 x4 x5 x6 x7 x8 x9 x10 x11 x12 x13 x14 x15 x18 x19 x20 x21 x26 (ix2 e h)
      = max ((∑ k : Fin 128, val_main_v123 (F := Ideal) x0 x4 x5 x6 x7 x8 x9 x10 x11 x12 x13 x18 x19 x20 x21 x26 (ix2 e k) * x14 (ix2 k h)) + x15 (ix1 h)) Cert.Spec.zeroWord := by
  rw [val_main_v128_apply, val_main_v127_apply, val_main_v124_apply, val_main_v126_apply, val_main_v125_apply,
    val_main_call4_v0_apply, val_main_call4_cst_apply]
  generalize val_main_v123 (F := Ideal) x0 x4 x5 x6 x7 x8 x9 x10 x11 x12 x13 x18 x19 x20 x21 x26 = y
  have h1 : ∀ k : Fin 128, lidx_main_v124 (ix2 e h) k = ix2 e k := fun k => funext fun a => Fin.ext (by match a with | ⟨0, _⟩ => rfl | ⟨1, _⟩ => rfl)
  have h2 : ∀ k : Fin 128, ridx_main_v124 (ix2 e h) k = ix2 k h := fun k => funext fun a => Fin.ext (by match a with | ⟨0, _⟩ => rfl | ⟨1, _⟩ => rfl)
  have h3 : idx_main_v125 (idx_main_v126 (ix2 e h)) = ix1 h := funext fun a => Fin.ext (by match a with | ⟨0, _⟩ => rfl)
  simp only [h1, h2, h3]
  rfl

/-- The edge messages at one entry: the hidden layer against the second weights, plus their bias. -/
theorem out_v132 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S128x32, .f32⟩ : BufTy).Contents (Elt Ideal)) (x15 : (⟨S32, .f32⟩ : BufTy).Contents (Elt Ideal)) (x16 : (⟨S32x32, .f32⟩ : BufTy).Contents (Elt Ideal)) (x17 : (⟨S32, .f32⟩ : BufTy).Contents (Elt Ideal)) (x18 x19 : (⟨S128, .f32⟩ : BufTy).Contents (Elt Ideal)) (x20 x21 : (⟨S64, .f32⟩ : BufTy).Contents (Elt Ideal)) (x26 : (⟨S2x600000, .i32⟩ : BufTy).Contents (Elt Ideal)) (e : Fin 600000) (c : Fin 32) :
    val_main_v132 (F := Ideal) x0 x4 x5 x6 x7 x8 x9 x10 x11 x12 x13 x14 x15 x16 x17 x18 x19 x20 x21 x26 (ix2 e c)
      = (∑ h : Fin 32, val_main_v128 (F := Ideal) x0 x4 x5 x6 x7 x8 x9 x10 x11 x12 x13 x14 x15 x18 x19 x20 x21 x26 (ix2 e h) * x16 (ix2 h c)) + x17 (ix1 c) := by
  rw [val_main_v132_apply, val_main_v129_apply, val_main_v131_apply, val_main_v130_apply]
  generalize val_main_v128 (F := Ideal) x0 x4 x5 x6 x7 x8 x9 x10 x11 x12 x13 x14 x15 x18 x19 x20 x21 x26 = y
  have h1 : ∀ k : Fin 32, lidx_main_v129 (ix2 e c) k = ix2 e k := fun k => funext fun a => Fin.ext (by match a with | ⟨0, _⟩ => rfl | ⟨1, _⟩ => rfl)
  have h2 : ∀ k : Fin 32, ridx_main_v129 (ix2 e c) k = ix2 k c := fun k => funext fun a => Fin.ext (by match a with | ⟨0, _⟩ => rfl | ⟨1, _⟩ => rfl)
  have h3 : idx_main_v130 (idx_main_v131 (ix2 e c)) = ix1 c := funext fun a => Fin.ext (by match a with | ⟨0, _⟩ => rfl)
  simp only [h1, h2, h3]
  rfl

/-- The edge layer is the message function of the two gathered rows: the first weight matrix's top rows meet the
    receiving node's features, its bottom rows the difference of the sending node's and the receiving node's. -/
theorem stage_v132 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S128x32, .f32⟩ : BufTy).Contents (Elt Ideal)) (x15 : (⟨S32, .f32⟩ : BufTy).Contents (Elt Ideal)) (x16 : (⟨S32x32, .f32⟩ : BufTy).Contents (Elt Ideal)) (x17 : (⟨S32, .f32⟩ : BufTy).Contents (Elt Ideal)) (x18 x19 : (⟨S128, .f32⟩ : BufTy).Contents (Elt Ideal)) (x20 x21 : (⟨S64, .f32⟩ : BufTy).Contents (Elt Ideal)) (x26 : (⟨S2x600000, .i32⟩ : BufTy).Contents (Elt Ideal)) :
    val_main_v132 (F := Ideal) x0 x4 x5 x6 x7 x8 x9 x10 x11 x12 x13 x14 x15 x16 x17 x18 x19 x20 x21 x26 = fun j => Cert.Spec.edgeOut (M := 600000) (D := 64) (H := 32) (O := 32) (val_main_v114 (F := Ideal) x0 x4 x5 x6 x7 x8 x9 x10 x11 x12 x13 x18 x19 x20 x21 x26) (val_main_v121 (F := Ideal) x0 x4 x5 x6 x7 x8 x9 x10 x11 x12 x13 x18 x19 x20 x21 x26)
      (Cert.Spec.rowsFrom 0 64 (by decide) x14) (Cert.Spec.rowsFrom 64 64 (by decide) x14) x15 x16 x17 (j 0) (j 1) :=
  edgeOut_of_layers (M := 600000) (D := 64) (R := 128) (H := 32) (O := 32) rfl (val_main_v114 (F := Ideal) x0 x4 x5 x6 x7 x8 x9 x10 x11 x12 x13 x18 x19 x20 x21 x26) (val_main_v121 (F := Ideal) x0 x4 x5 x6 x7 x8 x9 x10 x11 x12 x13 x18 x19 x20 x21 x26) (val_main_v122 (F := Ideal) x0 x4 x5 x6 x7 x8 x9 x10 x11 x12 x13 x18 x19 x20 x21 x26)
    (fun i => val_main_v122_apply (F := Ideal) x0 x4 x5 x6 x7 x8 x9 x10 x11 x12 x13 x18 x19 x20 x21 x26 i) x14 x15 x16 x17 concatenates_S600000x64_S600000x64_S600000x128_d1 (val_main_v123 (F := Ideal) x0 x4 x5 x6 x7 x8 x9 x10 x11 x12 x13 x18 x19 x20 x21 x26) rfl
    (val_main_v128 (F := Ideal) x0 x4 x5 x6 x7 x8 x9 x10 x11 x12 x13 x14 x15 x18 x19 x20 x21 x26) (hid_v128 x0 x4 x5 x6 x7 x8 x9 x10 x11 x12 x13 x14 x15 x18 x19 x20 x21 x26)
    (val_main_v132 (F := Ideal) x0 x4 x5 x6 x7 x8 x9 x10 x11 x12 x13 x14 x15 x16 x17 x18 x19 x20 x21 x26) (out_v132 x0 x4 x5 x6 x7 x8 x9 x10 x11 x12 x13 x14 x15 x16 x17 x18 x19 x20 x21 x26)

/-- The normalisation layer: the segment mean times the scale row plus the shift row, rectified. -/
theorem stage_v107 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x18 x19 : (⟨S128, .f32⟩ : BufTy).Contents (Elt Ideal)) (x20 x21 : (⟨S64, .f32⟩ : BufTy).Contents (Elt Ideal)) (x26 : (⟨S2x600000, .i32⟩ : BufTy).Contents (Elt Ideal)) :
    val_main_v107 (F := Ideal) x0 x4 x5 x6 x7 x8 x9 x10 x11 x12 x13 x18 x19 x20 x21 x26 = fun j => Cert.Spec.scaleShiftRelu (M := 50000) (D := 64) (val_main_v96 (F := Ideal) x0 x4 x5 x6 x7 x8 x9 x10 x11 x12 x13 x18 x19 x26) (val_main_v100 (F := Ideal) x20) x21 (j 0) (j 1) := by
  funext j
  obtain ⟨e, c, rfl⟩ : ∃ (e : Fin 50000) (c : Fin 64), j = ix2 e c := ⟨j 0, j 1, eq_ix2 j⟩
  rw [val_main_v107_apply, val_main_v106_apply, val_main_v103_apply, val_main_v102_apply, val_main_v101_apply,
    val_main_v105_apply, val_main_v104_apply, val_main_call3_v0_apply, val_main_call3_cst_apply]
  generalize val_main_v96 (F := Ideal) x0 x4 x5 x6 x7 x8 x9 x10 x11 x12 x13 x18 x19 x26 = X
  generalize val_main_v100 (F := Ideal) x20 = s
  have h1 : idx_main_v101 (idx_main_v102 (ix2 e c)) = ix1 c := funext fun a => Fin.ext (by match a with | ⟨0, _⟩ => rfl)
  have h2 : idx_main_v104 (idx_main_v105 (ix2 e c)) = ix1 c := funext fun a => Fin.ext (by match a with | ⟨0, _⟩ => rfl)
  rw [h1, h2]
  rfl

/-- The normalisation layer: the segment mean times the scale row plus the shift row, rectified. -/
theorem stage_v155 (x0 : (⟨S50000x32, .f32⟩ : BufTy).Contents (Elt Ideal)) (x4 : (⟨S32x64, .f32⟩ : BufTy).Contents (Elt Ideal)) (x5 : (⟨S64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S128x32, .f32⟩ : BufTy).Contents (Elt Ideal)) (x15 : (⟨S32, .f32⟩ : BufTy).Contents (Elt Ideal)) (x16 : (⟨S32x32, .f32⟩ : BufTy).Contents (Elt Ideal)) (x17 : (⟨S32, .f32⟩ : BufTy).Contents (Elt Ideal)) (x18 x19 : (⟨S128, .f32⟩ : BufTy).Contents (Elt Ideal)) (x20 x21 : (⟨S64, .f32⟩ : BufTy).Contents (Elt Ideal)) (x22 x23 : (⟨S32, .f32⟩ : BufTy).Contents (Elt Ideal)) (x26 : (⟨S2x600000, .i32⟩ : BufTy).Contents (Elt Ideal)) :
    val_main_v155 (F := Ideal) x0 x4 x5 x6 x7 x8 x9 x10 x11 x12 x13 x14 x15 x16 x17 x18 x19 x20 x21 x22 x23 x26 = fun j => Cert.Spec.scaleShiftRelu (M := 50000) (D := 32) (val_main_v144 (F := Ideal) x0 x4 x5 x6 x7 x8 x9 x10 x11 x12 x13 x14 x15 x16 x17 x18 x19 x20 x21 x26) (val_main_v148 (F := Ideal) x22) x23 (j 0) (j 1) := by
  funext j
  obtain ⟨e, c, rfl⟩ : ∃ (e : Fin 50000) (c : Fin 32), j = ix2 e c := ⟨j 0, j 1, eq_ix2 j⟩
  rw [val_main_v155_apply, val_main_v154_apply, val_main_v151_apply, val_main_v150_apply, val_main_v149_apply,
    val_main_v153_apply, val_main_v152_apply, val_main_call5_v0_apply, val_main_call5_cst_apply]
  generalize val_main_v144 (F := Ideal) x0 x4 x5 x6 x7 x8 x9 x10 x11 x12 x13 x14 x15 x16 x17 x18 x19 x20 x21 x26 = X
  generalize val_main_v148 (F := Ideal) x22 = s
  have h1 : idx_main_v149 (idx_main_v150 (ix2 e c)) = ix1 c := funext fun a => Fin.ext (by match a with | ⟨0, _⟩ => rfl)
  have h2 : idx_main_v152 (idx_main_v153 (ix2 e c)) = ix1 c := funext fun a => Fin.ext (by match a with | ⟨0, _⟩ => rfl)
  rw [h1, h2]
  rfl

end Cert.ReferenceIdeal.Stage

end
-- ==== Proof.Bridge0.lean ====
/-
  The start of the two programs, side by side: the rows of node numbers and the embedded nodes.

  The kernel's program cuts the edge list into the row of source-node numbers and the row of target-node numbers before
  its first region; the reference cuts the same two rows. The first region multiplies the node features by the embedding
  matrix and adds the bias row, block of rows by block of rows; the reference does it in one product. Entry by entry
  both are the sum over the 32 features of feature times weight, plus the bias.
-/
import proofs.«142674_j19808389169323_1_alg».proof.Proof.Gen.KernelIdeal.Frame
import proofs.«142674_j19808389169323_1_alg».proof.Proof.RefRead
import proofs.«142674_j19808389169323_1_alg».proof.Proof.KKeep
import proofs.«142674_j19808389169323_1_alg».proof.Proof.BridgeBase
import proofs.«142674_j19808389169323_1_alg».proof.Proof.Region0
import proofs.«142674_j19808389169323_1_alg».proof.Proof.RefStages
import proofs.«142674_j19808389169323_1_alg».proof.Proof.Spec
import Idealize.ShloMosaic.PureOps.Ideal
import Idealize.ShloMosaic.Lib.StableHlo.Run
import Idealize.ShloMosaic.Lib.ValueIdx

noncomputable section
namespace Cert.Bridge
open Cert.KernelIdeal Cert.KernelIdeal.Gen Cert.KernelIdeal.Keep
open Idealize.ShloMosaic Idealize.ShloMosaic.TcCoe Idealize.ShloMosaic.Tactic Idealize.ShloMosaic.StableHlo Idealize.ShloMosaic.ValueIdx
open Idealize.SL.Sem
open Cert.ReferenceIdeal.Read

variable (m : (ℓ : Loc nD τ sig) → Buf (Elt Ideal) ℓ) (ρ : Dev nD → PrngReg) (c : Dev nD)

/-- Reading a row of node numbers through a typed reference changes nothing. -/
theorem ofBuf_main_v3 (h1 h2 h3) (v : main_v3.ty.Contents (Elt Ideal)) :
    (TRef.ofBuf (Val := Elt Ideal) (TRef.of main_v3 h1 h2 h3 : TRef sig ⟨S600000, .i32⟩) v : IVec S600000 32) = v := rfl
theorem ofBuf_main_v1 (h1 h2 h3) (v : main_v1.ty.Contents (Elt Ideal)) :
    (TRef.ofBuf (Val := Elt Ideal) (TRef.of main_v1 h1 h2 h3 : TRef sig ⟨S600000, .i32⟩) v : IVec S600000 32) = v := rfl

/-- The row of source-node numbers the kernel's program cuts from the edge list is the reference's. -/
theorem src_row : W1 (F := Ideal) m ρ c (Proc.devRef .tc main_v1) = R5 m c := by
  dsimp only [W1, hostOps0]
  after_results_simp
  rfl

/-- The row of target-node numbers the kernel's program cuts from the edge list is the reference's. -/
theorem dst_row : W1 (F := Ideal) m ρ c (Proc.devRef .tc main_v3) = R7 m c := by
  dsimp only [W1, hostOps0]
  after_results_simp
  rfl

/-- After the first region the node array holds the reference's embedded nodes. -/
theorem nodes0 : W2 (F := Ideal) m ρ c (Proc.devRef .tc main_v4) = R11 m c := by
  refine (W2_arr m ρ c 3).trans ?_
  refine (Cert.KernelIdeal.Region0.arr (V1 (F := Ideal) m ρ) c).trans ?_
  have e0 : V1 (F := Ideal) m ρ c (Pipeline.arrRef spec0 0) = m ((c : Thread nD τ).loc main_arg0) := in1_main_arg0 m ρ c
  have e1 : V1 (F := Ideal) m ρ c (Pipeline.arrRef spec0 1) = m ((c : Thread nD τ).loc main_arg4) := in1_main_arg4 m ρ c
  have e2 : V1 (F := Ideal) m ρ c (Pipeline.arrRef spec0 2) = m ((c : Thread nD τ).loc main_arg5) := in1_main_arg5 m ρ c
  rw [e0, e1, e2]
  exact (Cert.ReferenceIdeal.Stage.stage_v11 (rA0 m c) (rA4 m c) (rA5 m c)).symm

end Cert.Bridge
end
-- ==== Proof.Region1.lean ====
import proofs.«142674_j19808389169323_1_alg».proof.Proof.Gen.KernelIdeal.Frame
import proofs.«142674_j19808389169323_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Region1

/-- The first two products' dimensions: a [6000,64] block of rows against a [64,128] matrix. -/
abbrev DA := dot_S6000x64_S64x128_S6000x128_1_0_0_1_n_n

theorem DA_lhs0 (i : S6000x128.Idx) (q : DA.contr.Idx) : (DA.lhsIdx i q 0).val = (i 0).val := by
  unfold DotDims.lhsIdx
  rw [dif_neg (show ¬(0 : Fin S6000x64.rank) ∈ DA.lhsBatch by decide), dif_pos (show (0 : Fin S6000x64.rank) ∈ DA.lhsNonContracting by decide)]
  rfl
theorem DA_lhs1 (i : S6000x128.Idx) (q : DA.contr.Idx) : (DA.lhsIdx i q 1).val = (q ⟨0, by decide⟩).val :=
  DA.lhsIdx_val_of_single rfl i q
theorem DA_rhs0 (i : S6000x128.Idx) (q : DA.contr.Idx) : (DA.rhsIdx i q 0).val = (q ⟨0, by decide⟩).val :=
  DA.rhsIdx_val_of_single rfl i q
theorem DA_rhs1 (i : S6000x128.Idx) (q : DA.contr.Idx) : (DA.rhsIdx i q 1).val = (i 1).val := by
  unfold DotDims.rhsIdx
  rw [dif_neg (show ¬(1 : Fin S64x128.rank) ∈ DA.rhsBatch by decide), dif_pos (show (1 : Fin S64x128.rank) ∈ DA.rhsNonContracting by decide)]
  rfl

/-- Such a product into the zero accumulator, read at row p and column q: the sum over the 64 shared coordinates. -/
theorem DA_apply (l : FVec Ideal S6000x64 .bf16) (r : FVec Ideal S64x128 .bf16) (p : Fin 6000) (q : Fin 128) :
    matmul DA none l r (constant (F := Ideal) S6000x128 .f32 0x00000000#32) (ix2 p q)
      = ∑ k : Fin 64, l (ix2 p k) * r (ix2 k q) := by
  refine (Ideal.matmul_constant_zero_apply DA none l r (ix2 p q)).trans ?_
  rw [← Equiv.sum_comp (contrEquiv1 DA 64 rfl rfl).symm]
  refine Finset.sum_congr rfl fun k _ => ?_
  have hk := contrEquiv1_symm_val DA 64 rfl rfl k
  have el : DA.lhsIdx (ix2 p q) ((contrEquiv1 DA 64 rfl rfl).symm k) = ix2 p k := funext fun a => Fin.ext (by
    match a with
    | ⟨0, _⟩ => exact DA_lhs0 _ _
    | ⟨1, _⟩ => exact (DA_lhs1 _ _).trans hk)
  have er : DA.rhsIdx (ix2 p q) ((contrEquiv1 DA 64 rfl rfl).symm k) = ix2 k q := funext fun a => Fin.ext (by
    match a with
    | ⟨0, _⟩ => exact (DA_rhs0 _ _).trans hk
    | ⟨1, _⟩ => exact DA_rhs1 _ _)
  rw [el, er]

/-- The last product's dimensions: the [6000,128] hidden block against the [128,128] matrix. -/
abbrev DW := dot_S6000x128_S128x128_S6000x128_1_0_0_1_n_n

theorem DW_lhs0 (i : S6000x128.Idx) (q : DW.contr.Idx) : (DW.lhsIdx i q 0).val = (i 0).val := by
  unfold DotDims.lhsIdx
  rw [dif_neg (show ¬(0 : Fin S6000x128.rank) ∈ DW.lhsBatch by decide), dif_pos (show (0 : Fin S6000x128.rank) ∈ DW.lhsNonContracting by decide)]
  rfl
theorem DW_lhs1 (i : S6000x128.Idx) (q : DW.contr.Idx) : (DW.lhsIdx i q 1).val = (q ⟨0, by decide⟩).val :=
  DW.lhsIdx_val_of_single rfl i q
theorem DW_rhs0 (i : S6000x128.Idx) (q : DW.contr.Idx) : (DW.rhsIdx i q 0).val = (q ⟨0, by decide⟩).val :=
  DW.rhsIdx_val_of_single rfl i q
theorem DW_rhs1 (i : S6000x128.Idx) (q : DW.contr.Idx) : (DW.rhsIdx i q 1).val = (i 1).val := by
  unfold DotDims.rhsIdx
  rw [dif_neg (show ¬(1 : Fin S128x128.rank) ∈ DW.rhsBatch by decide), dif_pos (show (1 : Fin S128x128.rank) ∈ DW.rhsNonContracting by decide)]
  rfl

/-- Such a product into the zero accumulator, read at row p and column q: the sum over the 128 shared coordinates. -/
theorem DW_apply (l : FVec Ideal S6000x128 .bf16) (r : FVec Ideal S128x128 .bf16) (p : Fin 6000) (q : Fin 128) :
    matmul DW none l r (constant (F := Ideal) S6000x128 .f32 0x00000000#32) (ix2 p q)
      = ∑ k : Fin 128, l (ix2 p k) * r (ix2 k q) := by
  refine (Ideal.matmul_constant_zero_apply DW none l r (ix2 p q)).trans ?_
  rw [← Equiv.sum_comp (contrEquiv1 DW 128 rfl rfl).symm]
  refine Finset.sum_congr rfl fun k _ => ?_
  have hk := contrEquiv1_symm_val DW 128 rfl rfl k
  have el : DW.lhsIdx (ix2 p q) ((contrEquiv1 DW 128 rfl rfl).symm k) = ix2 p k := funext fun a => Fin.ext (by
    match a with
    | ⟨0, _⟩ => exact DW_lhs0 _ _
    | ⟨1, _⟩ => exact (DW_lhs1 _ _).trans hk)
  have er : DW.rhsIdx (ix2 p q) ((contrEquiv1 DW 128 rfl rfl).symm k) = ix2 k q := funext fun a => Fin.ext (by
    match a with
    | ⟨0, _⟩ => exact (DW_rhs0 _ _).trans hk
    | ⟨1, _⟩ => exact DW_rhs1 _ _)
  rw [el, er]

/-- A row of 128 entries re-laid as one row of a matrix and repeated down 6000 rows reads, at (p, q), its entry q. -/
theorem rowH_apply (b : Vec Ideal S128 .f32) (p : Fin 6000) (q : Fin 128) :
    broadcastTo S6000x128 (shapeCast S1x128 b Gen.shapeCasts_S128_S1x128) Gen.broadcasts_S1x128_S6000x128 (ix2 p q) = b (ix1 q) :=
  (broadcastTo_1b_ab_apply _ Gen.broadcasts_S1x128_S6000x128 p q).trans (shapeCast_a_1a_apply b Gen.shapeCasts_S128_S1x128 0 q)

/-- The body's arithmetic at entry (p, q) of its output block, over any seven loaded blocks: the message's entry. -/
theorem pay_apply (x0 x1 : Vec Ideal S6000x64 .f32) (a b : Vec Ideal S64x128 .f32) (ba : Vec Ideal S128 .f32)
    (wb : Vec Ideal S128x128 .f32) (bb : Vec Ideal S128 .f32) (p : Fin 6000) (q : Fin 128) :
    Gen.k1_pay1 (F := Ideal) x0 x1 a b ba wb bb (ix2 p q) = Cert.Spec.edgeOut x0 x1 a b ba wb bb p q := by
  unfold Gen.k1_pay1
  simp only [shapeCast_self]
  refine (congrArg₂ (· + ·) (DW_apply _ _ p q) (rowH_apply bb p q)).trans ?_
  refine congrArg (· + bb (ix1 q)) (Finset.sum_congr rfl fun h _ => ?_)
  refine congrArg (· * wb (ix2 h q)) ?_
  refine congrArg (max · (Ideal.ofBits .f32 0x00000000#32)) ?_
  exact congrArg₂ (· + ·) (congrArg₂ (· + ·) (DA_apply _ _ p h) (DA_apply _ _ p h)) (rowH_apply ba p h)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-blocked inputs and the output are at block t of their rows, every
    other window at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Window 0's block at point t is rows 6000·t … 6000·t + 5999 of its array. -/
theorem rows0_apply (V : (c : Dev nD) → (b : Ref sig .tc) → Buf (Elt Ideal) ((c : Thread nD τ).loc b)) (c : Dev nD) (t : Fin cfg1.N) (p : Fin 6000) (k : Fin 64) (r : Fin 600000)
    (hr : r.val = t.val * 6000 + p.val) :
    (Gen.iblk1 V c 0 t : Vec Ideal S6000x64 .f32) (ix2 p k) = (V c (Pipeline.arrRef spec1 0) : S600000x64.Idx → EReal) (ix2 r k) := by
  have e0 := (idx_facts t).1
  have e1 := (idx_facts t).2.1
  unfold Gen.iblk1
  rw [View.read_apply]
  refine congrArg (V c (Pipeline.arrRef spec1 0)) (funext fun a => Fin.ext ?_)
  match a with
  | ⟨0, _⟩ => show win1_0.index t (0 : Fin 2) * 6000 + 1 * p.val = r.val; rw [e0, hr]; omega
  | ⟨1, _⟩ => show win1_0.index t (1 : Fin 2) * 64 + 1 * k.val = k.val; rw [e1]; omega

/-- Window 1's block at point t is rows 6000·t … 6000·t + 5999 of its array. -/
theorem rows1_apply (V : (c : Dev nD) → (b : Ref sig .tc) → Buf (Elt Ideal) ((c : Thread nD τ).loc b)) (c : Dev nD) (t : Fin cfg1.N) (p : Fin 6000) (k : Fin 64) (r : Fin 600000)
    (hr : r.val = t.val * 6000 + p.val) :
    (Gen.iblk1 V c 1 t : Vec Ideal S6000x64 .f32) (ix2 p k) = (V c (Pipeline.arrRef spec1 1) : S600000x64.Idx → EReal) (ix2 r k) := by
  have e0 := (idx_facts t).2.2.1
  have e1 := (idx_facts t).2.2.2.1
  unfold Gen.iblk1
  rw [View.read_apply]
  refine congrArg (V c (Pipeline.arrRef spec1 1)) (funext fun a => Fin.ext ?_)
  match a with
  | ⟨0, _⟩ => show win1_1.index t (0 : Fin 2) * 6000 + 1 * p.val = r.val; rw [e0, hr]; omega
  | ⟨1, _⟩ => show win1_1.index t (1 : Fin 2) * 64 + 1 * k.val = k.val; rw [e1]; omega

/-- Window 2's block at every point is its whole array. -/
theorem whole2_apply (V : (c : Dev nD) → (b : Ref sig .tc) → Buf (Elt Ideal) ((c : Thread nD τ).loc b)) (c : Dev nD) (t : Fin cfg1.N) (x : Fin 64) (y : Fin 128) :
    (Gen.iblk1 V c 2 t : Vec Ideal S64x128 .f32) (ix2 x y) = (V c (Pipeline.arrRef spec1 2) : S64x128.Idx → EReal) (ix2 x y) := by
  have e0 := (idx_facts t).2.2.2.2.1
  have e1 := (idx_facts t).2.2.2.2.2.1
  unfold Gen.iblk1
  rw [View.read_apply]
  refine congrArg (V c (Pipeline.arrRef spec1 2)) (funext fun a => Fin.ext ?_)
  match a with
  | ⟨0, _⟩ => show win1_2.index t (0 : Fin 2) * 64 + 1 * x.val = x.val; rw [e0]; omega
  | ⟨1, _⟩ => show win1_2.index t (1 : Fin 2) * 128 + 1 * y.val = y.val; rw [e1]; omega

/-- Window 3's block at every point is its whole array. -/
theorem whole3_apply (V : (c : Dev nD) → (b : Ref sig .tc) → Buf (Elt Ideal) ((c : Thread nD τ).loc b)) (c : Dev nD) (t : Fin cfg1.N) (x : Fin 64) (y : Fin 128) :
    (Gen.iblk1 V c 3 t : Vec Ideal S64x128 .f32) (ix2 x y) = (V c (Pipeline.arrRef spec1 3) : S64x128.Idx → EReal) (ix2 x y) := by
  have e0 := (idx_facts t).2.2.2.2.2.2.1
  have e1 := (idx_facts t).2.2.2.2.2.2.2.1
  unfold Gen.iblk1
  rw [View.read_apply]
  refine congrArg (V c (Pipeline.arrRef spec1 3)) (funext fun a => Fin.ext ?_)
  match a with
  | ⟨0, _⟩ => show win1_3.index t (0 : Fin 2) * 64 + 1 * x.val = x.val; rw [e0]; omega
  | ⟨1, _⟩ => show win1_3.index t (1 : Fin 2) * 128 + 1 * y.val = y.val; rw [e1]; omega

/-- Window 4's block at every point is its whole array. -/
theorem whole4_apply (V : (c : Dev nD) → (b : Ref sig .tc) → Buf (Elt Ideal) ((c : Thread nD τ).loc b)) (c : Dev nD) (t : Fin cfg1.N) (x : Fin 128) :
    (Gen.iblk1 V c 4 t : Vec Ideal S128 .f32) (ix1 x) = (V c (Pipeline.arrRef spec1 4) : S128.Idx → EReal) (ix1 x) := by
  have e0 := (idx_facts t).2.2.2.2.2.2.2.2.1
  unfold Gen.iblk1
  rw [View.read_apply]
  refine congrArg (V c (Pipeline.arrRef spec1 4)) (funext fun a => Fin.ext ?_)
  match a with
  | ⟨0, _⟩ => show win1_4.index t (0 : Fin 1) * 128 + 1 * x.val = x.val; rw [e0]; omega

/-- Window 5's block at every point is its whole array. -/
theorem whole5_apply (V : (c : Dev nD) → (b : Ref sig .tc) → Buf (Elt Ideal) ((c : Thread nD τ).loc b)) (c : Dev nD) (t : Fin cfg1.N) (x : Fin 128) (y : Fin 128) :
    (Gen.iblk1 V c 5 t : Vec Ideal S128x128 .f32) (ix2 x y) = (V c (Pipeline.arrRef spec1 5) : S128x128.Idx → EReal) (ix2 x y) := by
  have e0 := (idx_facts t).2.2.2.2.2.2.2.2.2.1
  have e1 := (idx_facts t).2.2.2.2.2.2.2.2.2.2.1
  unfold Gen.iblk1
  rw [View.read_apply]
  refine congrArg (V c (Pipeline.arrRef spec1 5)) (funext fun a => Fin.ext ?_)
  match a with
  | ⟨0, _⟩ => show win1_5.index t (0 : Fin 2) * 128 + 1 * x.val = x.val; rw [e0]; omega
  | ⟨1, _⟩ => show win1_5.index t (1 : Fin 2) * 128 + 1 * y.val = y.val; rw [e1]; omega

/-- Window 6's block at every point is its whole array. -/
theorem whole6_apply (V : (c : Dev nD) → (b : Ref sig .tc) → Buf (Elt Ideal) ((c : Thread nD τ).loc b)) (c : Dev nD) (t : Fin cfg1.N) (x : Fin 128) :
    (Gen.iblk1 V c 6 t : Vec Ideal S128 .f32) (ix1 x) = (V c (Pipeline.arrRef spec1 6) : S128.Idx → EReal) (ix1 x) := by
  have e0 := (idx_facts t).2.2.2.2.2.2.2.2.2.2.2.1
  unfold Gen.iblk1
  rw [View.read_apply]
  refine congrArg (V c (Pipeline.arrRef spec1 6)) (funext fun a => Fin.ext ?_)
  match a with
  | ⟨0, _⟩ => show win1_6.index t (0 : Fin 1) * 128 + 1 * x.val = x.val; rw [e0]; omega

/-- The messages of all 600000 edges, entry by entry, from the arrays as the region finds them. -/
abbrev G (V : (c : Dev nD) → (b : Ref sig .tc) → Buf (Elt Ideal) ((c : Thread nD τ).loc b)) (c : Dev nD) : S600000x128.Idx → EReal :=
  fun j => Cert.Spec.edgeOut (V c (Pipeline.arrRef spec1 0) : S600000x64.Idx → EReal) (V c (Pipeline.arrRef spec1 1) : S600000x64.Idx → EReal) (V c (Pipeline.arrRef spec1 2) : S64x128.Idx → EReal) (V c (Pipeline.arrRef spec1 3) : S64x128.Idx → EReal) (V c (Pipeline.arrRef spec1 4) : S128.Idx → EReal) (V c (Pipeline.arrRef spec1 5) : S128x128.Idx → EReal) (V c (Pipeline.arrRef spec1 6) : S128.Idx → EReal) (j 0) (j 1)

/-- What point t writes back is block t of the messages. -/
theorem flushed_eq (V : (c : Dev nD) → (b : Ref sig .tc) → Buf (Elt Ideal) ((c : Thread nD τ).loc b)) (c : Dev nD) (t : Fin cfg1.N) :
    (Gen.dat1 (F := Ideal) V c).flushed 7 t = ((cfg1.win 7).blk t).view.read (Elt Ideal) (G V c) := by
  show (cfg1.win 7).cut (grid1.coords t) ((Gen.dat1 V c).after 7 t) = _
  rw [Gen.after1_7]
  unfold Gen.out1_7
  rw [View.canon_unit_zero hz2]
  simp only [View.ld_unit_zero (S := S6000x64) hz2, View.ld_unit_zero (S := S64x128) hz2, View.ld_unit_zero (S := S128x128) hz2, View.ld_unit_zero (S := S128) hz1]
  funext j
  obtain ⟨p, q, rfl⟩ : ∃ (p : Fin 6000) (q : Fin 128), j = ix2 p q := ⟨j 0, j 1, eq_ix2 j⟩

  have hN : cfg1.N = 100 := Gen.N_1
  have ht : t.val < 100 := by have := t.isLt; omega
  obtain ⟨r, hr⟩ : ∃ r : Fin 600000, r.val = t.val * 6000 + p.val := ⟨⟨t.val * 6000 + p.val, by have := p.isLt; omega⟩, rfl⟩
  have e0 := (idx_facts t).2.2.2.2.2.2.2.2.2.2.2.2.1
  have e1 := (idx_facts t).2.2.2.2.2.2.2.2.2.2.2.2.2
  have hemb : ((cfg1.win 7).blk t).view.emb (ix2 p q) = (ix2 r q : S600000x128.Idx) := funext fun a => Fin.ext (by
    match a with
    | ⟨0, _⟩ => show win1_7.index t (0 : Fin 2) * 6000 + 1 * p.val = r.val; rw [e0, hr]; omega
    | ⟨1, _⟩ => show win1_7.index t (1 : Fin 2) * 128 + 1 * q.val = q.val; rw [e1]; omega)
  show Gen.k1_pay1 (F := Ideal) (Gen.iblk1 V c 0 t) (Gen.iblk1 V c 1 t) (Gen.iblk1 V c 2 t) (Gen.iblk1 V c 3 t) (Gen.iblk1 V c 4 t) (Gen.iblk1 V c 5 t) (Gen.iblk1 V c 6 t) (ix2 p q) = G V c (((cfg1.win 7).blk t).view.emb (ix2 p q))
  refine (pay_apply (Gen.iblk1 V c 0 t) (Gen.iblk1 V c 1 t) (Gen.iblk1 V c 2 t) (Gen.iblk1 V c 3 t) (Gen.iblk1 V c 4 t) (Gen.iblk1 V c 5 t) (Gen.iblk1 V c 6 t) p q).trans ?_
  refine Eq.trans ?_ (congrArg (G V c) hemb).symm
  show Cert.Spec.edgeOut (Gen.iblk1 V c 0 t) (Gen.iblk1 V c 1 t) (Gen.iblk1 V c 2 t) (Gen.iblk1 V c 3 t) (Gen.iblk1 V c 4 t) (Gen.iblk1 V c 5 t) (Gen.iblk1 V c 6 t) p q = Cert.Spec.edgeOut (V c (Pipeline.arrRef spec1 0) : S600000x64.Idx → EReal) (V c (Pipeline.arrRef spec1 1) : S600000x64.Idx → EReal) (V c (Pipeline.arrRef spec1 2) : S64x128.Idx → EReal) (V c (Pipeline.arrRef spec1 3) : S64x128.Idx → EReal) (V c (Pipeline.arrRef spec1 4) : S128.Idx → EReal) (V c (Pipeline.arrRef spec1 5) : S128x128.Idx → EReal) (V c (Pipeline.arrRef spec1 6) : S128.Idx → EReal) r q
  unfold Cert.Spec.edgeOut Cert.Spec.edgeHidden
  simp only [fun k => rows0_apply V c t p k r hr, fun k => rows1_apply V c t p k r hr, whole2_apply V c t, whole3_apply V c t,
    whole4_apply V c t, whole5_apply V c t, whole6_apply V c t]

/-- An index of the output array is in point t's block iff each coordinate is in the block's range on its axis. -/
theorem mem_blk (t : Fin cfg1.N) (i : S600000x128.Idx) :
    i ∈ ((cfg1.win 7).blk t).view.set ↔ ∀ a : Fin 2, win1_7.index t a * S6000x128.size a ≤ (i a).val ∧ (i a).val < win1_7.index t a * S6000x128.size a + S6000x128.size a := by
  show i ∈ ((View.whole main_v9).slice (win1_7.rect t)).set ↔ _
  rw [View.set_slice_whole, Rect.mem_set_unit]
  exact Iff.rfl

/-- Every row of the output array is in the block of the point numbered by the row's quotient by 6000. -/
theorem cover (i : S600000x128.Idx) : ∃ t : Fin cfg1.N, (cfg1.win 7).flush t = true ∧ i ∈ ((cfg1.win 7).blk t).view.set := by
  have h0 : (i 0).val < 600000 := (i 0).isLt
  have h1 : (i 1).val < 128 := (i 1).isLt
  have hN : cfg1.N = 100 := Gen.N_1
  obtain ⟨t, htv⟩ : ∃ t : Fin cfg1.N, t.val = (i 0).val / 6000 := ⟨⟨(i 0).val / 6000, by omega⟩, rfl⟩
  have e0 := (idx_facts t).2.2.2.2.2.2.2.2.2.2.2.2.1
  have e1 := (idx_facts t).2.2.2.2.2.2.2.2.2.2.2.2.2
  refine ⟨t, Gen.flush1_7 t, ?_⟩
  rw [mem_blk]
  intro a
  match a with
  | ⟨0, _⟩ => show win1_7.index t (0 : Fin 2) * 6000 ≤ (i 0).val ∧ (i 0).val < win1_7.index t (0 : Fin 2) * 6000 + 6000; rw [e0, htv]; omega
  | ⟨1, _⟩ => show win1_7.index t (1 : Fin 2) * 128 ≤ (i 1).val ∧ (i 1).val < win1_7.index t (1 : Fin 2) * 128 + 128; rw [e1]; omega

/-- After the region's whole grid the output array holds the messages of the input arrays as the region found them. -/
theorem arr (V : (c : Dev nD) → (b : Ref sig .tc) → Buf (Elt Ideal) ((c : Thread nD τ).loc b)) (c : Dev nD) :
    (Gen.dat1 (F := Ideal) V c).arrAt 7 cfg1.N = fun j => Cert.Spec.edgeOut (V c (Pipeline.arrRef spec1 0) : S600000x64.Idx → EReal) (V c (Pipeline.arrRef spec1 1) : S600000x64.Idx → EReal) (V c (Pipeline.arrRef spec1 2) : S64x128.Idx → EReal) (V c (Pipeline.arrRef spec1 3) : S64x128.Idx → EReal) (V c (Pipeline.arrRef spec1 4) : S128.Idx → EReal) (V c (Pipeline.arrRef spec1 5) : S128x128.Idx → EReal) (V c (Pipeline.arrRef spec1 6) : S128.Idx → EReal) (j 0) (j 1) :=
  (Gen.dat1 V c).arrAt_eq_of_cover 7 (G V c) (fun t _ => flushed_eq V c t) cover

end Cert.KernelIdeal.Region1

end
-- ==== Proof.Region2.lean ====
/-
  The scale-shift-rectify stage at width 128.

  The stage takes a matrix h of 50000 rows and 128 columns and two rows s and b of 128 entries, and leaves the matrix whose
  entry (r, c) is max(h(r, c) · s(c) + b(c), 0). It is computed in 10 steps; step t computes rows 5000·t … 5000·t + 4999
  from the same rows of h and the whole of s and b, and the 10 row blocks tile the result.

  * `pay_apply`   : one step's arithmetic at an entry (p, q) of its block: max(x(p, q) · s(q) + b(q), 0). The two rows
                    are first viewed as one-row matrices and then repeated over the 5000 rows; both re-layings read
                    entry q of the row whatever p is.
  * `index_facts` : step t reads block t of h, the only block of s and of b, and writes block t of the result.
  * `block*_apply`: an entry of a step's input block is the entry of the whole array at row 5000·t + p.
  * `flushed_eq`  : what step t writes is block t of the whole-array function.
  * `cover`       : row r of the result is in the block of step r / 5000.
  * `arr`         : after the 10 steps the result is the whole-array function, entry by entry.
-/
import proofs.«142674_j19808389169323_1_alg».proof.Proof.Gen.KernelIdeal.Frame
import proofs.«142674_j19808389169323_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Two zero offsets, as the constant function. -/
theorem zero2 : (![0, 0] : Fin 2 → Nat) = fun _ => 0 := funext fun a => by fin_cases a <;> rfl

/-- One zero offset, as the constant function. -/
theorem zero1 : (![0] : Fin 1 → Nat) = fun _ => 0 := funext fun a => by fin_cases a; rfl

/-- The whole-array function: entry (r, c) is max(h(r, c) · s(c) + b(c), 0). -/
abbrev G (h : S50000x128.Idx → Elt Ideal .f32) (s b : S128.Idx → Elt Ideal .f32) : S50000x128.Idx → Elt Ideal .f32 :=
  fun j => Cert.Spec.scaleShiftRelu (M := 50000) (D := 128) h s b (j 0) (j 1)

/-- One step's arithmetic at entry (p, q) of its block: the scale and the shift are read at column q. -/
theorem pay_apply (x0 : Vec Ideal S5000x128 .f32) (x1 : Vec Ideal S128 .f32) (x2 : Vec Ideal S128 .f32)
    (p : Fin 5000) (q : Fin 128) :
    Gen.k2_pay1 (F := Ideal) x0 x1 x2 (ix2 p q)
      = max (x0 (ix2 p q) * x1 (ix1 q) + x2 (ix1 q)) Cert.Spec.zeroWord := by
  unfold Gen.k2_pay1
  simp only [maximumf_apply, addf_apply, mulf_apply, broadcast_apply, shapeCast_self, broadcastTo_1b_ab_apply,
    shapeCast_a_1a_apply]
  rfl

/-- Step t reads block t of the matrix and the one block of each row, and writes block t of the result. -/
theorem index_facts : ∀ t : Fin cfg2.N,
    win2_0.index t (0 : Fin 2) = t.val ∧ win2_0.index t (1 : Fin 2) = 0
    ∧ win2_1.index t (0 : Fin 1) = 0 ∧ win2_2.index t (0 : Fin 1) = 0
    ∧ win2_3.index t (0 : Fin 2) = t.val ∧ win2_3.index t (1 : Fin 2) = 0 :=
  (by decide +kernel : ∀ t : Fin grid2.N, _)

/-- Entry x of step t's block of the matrix is the matrix's entry at row 5000·t + x₀, column x₁. -/
theorem block0_apply (c : Dev nD) (t : Fin cfg2.N) (x : S5000x128.Idx) (k : S50000x128.Idx)
    (hk0 : (k 0).val = t.val * 5000 + (x 0).val) (hk1 : (k 1).val = (x 1).val) :
    (Gen.iblk2 V c 0 t : Vec Ideal S5000x128 .f32) x
      = (V c (Pipeline.arrRef spec2 0) : S50000x128.Idx → Elt Ideal .f32) k := by
  obtain ⟨e0, e1, -, -, -, -⟩ := index_facts t
  unfold Gen.iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * (x 0).val = (k 0).val; omega
  | ⟨1, _⟩ => show win2_0.index t (1 : Fin 2) * 128 + 1 * (x 1).val = (k 1).val; omega

/-- Step t's block of the scale row is the whole row. -/
theorem block1_apply (c : Dev nD) (t : Fin cfg2.N) (x : S128.Idx) :
    (Gen.iblk2 V c 1 t : Vec Ideal S128 .f32) x
      = (V c (Pipeline.arrRef spec2 1) : S128.Idx → Elt Ideal .f32) x := by
  obtain ⟨-, -, e2, -, -, -⟩ := index_facts t
  unfold Gen.iblk2
  rw [View.read_apply]
  show V c (Pipeline.arrRef spec2 1) _ = V c (Pipeline.arrRef spec2 1) _
  congr 1
  funext a
  apply Fin.ext
  match a with
  | ⟨0, _⟩ => show win2_1.index t (0 : Fin 1) * 128 + 1 * (x 0).val = (x 0).val; omega

/-- Step t's block of the shift row is the whole row. -/
theorem block2_apply (c : Dev nD) (t : Fin cfg2.N) (x : S128.Idx) :
    (Gen.iblk2 V c 2 t : Vec Ideal S128 .f32) x
      = (V c (Pipeline.arrRef spec2 2) : S128.Idx → Elt Ideal .f32) x := by
  obtain ⟨-, -, -, e3, -, -⟩ := index_facts t
  unfold Gen.iblk2
  rw [View.read_apply]
  show V c (Pipeline.arrRef spec2 2) _ = V c (Pipeline.arrRef spec2 2) _
  congr 1
  funext a
  apply Fin.ext
  match a with
  | ⟨0, _⟩ => show win2_2.index t (0 : Fin 1) * 128 + 1 * (x 0).val = (x 0).val; omega

/-- One step's arithmetic at entry (p, q) of its block is the whole-array function at entry (r, q), when the block of the
    matrix reads row r of the matrix at its row p and the two rows are read whole. -/
theorem entry_of (x0 : Vec Ideal S5000x128 .f32) (x1 : Vec Ideal S128 .f32) (x2 : Vec Ideal S128 .f32)
    (a0 : S50000x128.Idx → Elt Ideal .f32) (a1 a2 : S128.Idx → Elt Ideal .f32) (p : Fin 5000) (q : Fin 128) (r : Fin 50000)
    (h0 : x0 (ix2 p q) = a0 (ix2 r q)) (h1 : x1 (ix1 q) = a1 (ix1 q)) (h2 : x2 (ix1 q) = a2 (ix1 q)) :
    Gen.k2_pay1 (F := Ideal) x0 x1 x2 (ix2 p q) = G a0 a1 a2 (ix2 r q) := by
  refine (pay_apply x0 x1 x2 p q).trans ?_
  rw [h0, h1, h2]
  rfl

/-- What the step leaves in the result's block is its arithmetic of the three input blocks. -/
theorem after_eq (c : Dev nD) (t : Fin cfg2.N) :
    (Gen.dat2 (F := Ideal) V c).after 3 t = Gen.k2_pay1 (Gen.iblk2 V c 0 t) (Gen.iblk2 V c 1 t) (Gen.iblk2 V c 2 t) := by
  rw [Gen.after2_3]
  unfold Gen.out2_3
  rw [View.canon_unit_zero zero2]
  simp only [View.ld_unit_zero (S := S5000x128) zero2, View.ld_unit_zero (S := S128) zero1]

/-- What step t writes back is block t of the whole-array function of the three arrays as the stage finds them. -/
theorem flushed_eq (c : Dev nD) (t : Fin cfg2.N) :
    (Gen.dat2 (F := Ideal) V c).flushed 3 t
      = ((cfg2.win 3).blk t).view.read (Elt Ideal) (G (V c (Pipeline.arrRef spec2 0)) (V c (Pipeline.arrRef spec2 1)) (V c (Pipeline.arrRef spec2 2))) := by
  show (cfg2.win 3).cut (grid2.coords t) ((Gen.dat2 V c).after 3 t) = _
  rw [after_eq V c t]
  obtain ⟨-, -, -, -, e4, e5⟩ := index_facts t
  have hN : cfg2.N = 10 := Gen.N_2
  have ht : t.val < 10 := hN ▸ t.isLt
  funext j
  -- the entry's coordinates (p, q) inside the block, and the row r of the whole array it lands on
  have hp : (j 0).val < 5000 := (j 0).isLt
  have hq : (j 1).val < 128 := (j 1).isLt
  have hr : t.val * 5000 + (j 0).val < 50000 := by omega
  have hx : (cfg2.win 3).xinj (grid2.coords t) j = ix2 (n0 := 5000) (n1 := 128) ⟨(j 0).val, hp⟩ ⟨(j 1).val, hq⟩ :=
    funext fun a => by match a with | ⟨0, _⟩ => rfl | ⟨1, _⟩ => rfl
  have hE : (((cfg2.win 3).blk t).view.emb j : S50000x128.Idx)
      = ix2 (n0 := 50000) (n1 := 128) ⟨t.val * 5000 + (j 0).val, hr⟩ ⟨(j 1).val, hq⟩ := by
    funext a
    apply Fin.ext
    match a with
    | ⟨0, _⟩ => show win2_3.index t (0 : Fin 2) * 5000 + 1 * (j 0).val = t.val * 5000 + (j 0).val; omega
    | ⟨1, _⟩ => show win2_3.index t (1 : Fin 2) * 128 + 1 * (j 1).val = (j 1).val; omega
  show Gen.k2_pay1 (Gen.iblk2 V c 0 t) (Gen.iblk2 V c 1 t) (Gen.iblk2 V c 2 t) ((cfg2.win 3).xinj (grid2.coords t) j)
    = G (V c (Pipeline.arrRef spec2 0)) (V c (Pipeline.arrRef spec2 1)) (V c (Pipeline.arrRef spec2 2)) (((cfg2.win 3).blk t).view.emb j : S50000x128.Idx)
  exact (congrArg (Gen.k2_pay1 (Gen.iblk2 V c 0 t) (Gen.iblk2 V c 1 t) (Gen.iblk2 V c 2 t)) hx).trans
    ((entry_of (Gen.iblk2 V c 0 t) (Gen.iblk2 V c 1 t) (Gen.iblk2 V c 2 t) (V c (Pipeline.arrRef spec2 0)) (V c (Pipeline.arrRef spec2 1)) (V c (Pipeline.arrRef spec2 2)) ⟨(j 0).val, hp⟩ ⟨(j 1).val, hq⟩ ⟨t.val * 5000 + (j 0).val, hr⟩
        (block0_apply V c t (ix2 ⟨(j 0).val, hp⟩ ⟨(j 1).val, hq⟩) (ix2 ⟨t.val * 5000 + (j 0).val, hr⟩ ⟨(j 1).val, hq⟩) rfl rfl)
        (block1_apply V c t (ix1 ⟨(j 1).val, hq⟩)) (block2_apply V c t (ix1 ⟨(j 1).val, hq⟩))).trans
      (congrArg (G (V c (Pipeline.arrRef spec2 0)) (V c (Pipeline.arrRef spec2 1)) (V c (Pipeline.arrRef spec2 2))) hE).symm)

/-- An entry of the result is in step t's block iff its row is among rows 5000·t … 5000·t + 4999. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v26).slice (win2_3.rect t)).set ↔ _
  rw [View.set_slice_whole, Rect.mem_set_unit]
  exact Iff.rfl

/-- Every entry of the result is in the block of the step its row names: row r is written by step r / 5000. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := Gen.N_2
  let t : Fin cfg2.N := ⟨(i 0).val / 5000, by rw [hN]; omega⟩
  obtain ⟨-, -, -, -, e4, e5⟩ := index_facts t
  have ht : t.val = (i 0).val / 5000 := rfl
  refine ⟨t, Gen.flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After its 10 steps the stage's result is max(h · s + b, 0) of the three arrays as the stage found them, entry by entry. -/
theorem arr (c : Dev nD) :
    (Gen.dat2 (F := Ideal) V c).arrAt 3 cfg2.N
      = fun j => Cert.Spec.scaleShiftRelu (M := 50000) (D := 128) (V c (Pipeline.arrRef spec2 0)) (V c (Pipeline.arrRef spec2 1))
          (V c (Pipeline.arrRef spec2 2)) (j 0) (j 1) :=
  (Gen.dat2 (F := Ideal) V c).arrAt_eq_of_cover 3
    (G (V c (Pipeline.arrRef spec2 0)) (V c (Pipeline.arrRef spec2 1)) (V c (Pipeline.arrRef spec2 2)))
    (fun t _ => flushed_eq V c t) cover

end Cert.KernelIdeal.Region2

end
-- ==== Proof.LibRowOps.lean ====
/-
  Rows picked by an integer array: the two StableHLO forms that `x[idx]` and `segment_sum(v, idx)` lower to when
  `idx` is a flat list of M row numbers laid out as an [M, 1] array of start indices.

  * A GATHER of whole rows: of a vector [N] (result [M]) and of a matrix [N, C] (result [M, C]). Result row `e` is
    the operand's row number `idx[e, 0]`, the number read as a signed integer and clamped into [0, N − 1].
  * An accumulating SCATTER of rows into a matrix [N, C] from updates [M, C]: update element (e, f) is added to
    operand element (idx[e, 0], f), the number read signed and NOT clamped; an update whose row number falls outside
    [0, N) is dropped. At the exact reading of floats the result element is the operand element plus the finite sum of
    the update elements that land on it, so multiplying every landing update by a number that depends only on the
    landing row is multiplying the sum by it — provided that number is a nonnegative real, which is what lets a product
    distribute over a sum of extended reals.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The dimension numbers -/

/-- Gather of entries of a vector [N] at start indices [M, 1]: the one operand axis collapsed, the start index's
    one component naming it, the index vector on axis 1. -/
abbrev gatherRows1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Gather of whole rows of a matrix [N, C] at start indices [M, 1]: the row axis collapsed and named by the start
    index, the column axis an offset axis of full extent. -/
abbrev gatherRows2 (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Scatter of rows [M, C] into a matrix [N, C] at scatter indices [M, 1]: the row axis inserted and named by the
    index, the column axis a window axis. -/
abbrev scatterRows2 (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The place of row number `e` in the [M, 1] array of indices. -/
abbrev at0 {M : Nat} (e : Fin M) : (⟨2, ![M, 1]⟩ : Shape).Idx := ix2 e (0 : Fin 1)

/-! ## The gathers read at an index -/

/-- Entry `e` of the gathered vector is the operand at the start index read signed and clamped into [0, N − 1]. -/
theorem gatherRows1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gatherRows1 N M wf) x idx (ix1 e)
      = x (ix1 ⟨min (idx (at0 e)).toInt.toNat (N - 1), by omega⟩) := by
  -- the operand index has one coordinate: the clamped start, with no batching and no offset part
  unfold Host.gather
  congr 1
  funext a
  obtain rfl : a = 0 := Subsingleton.elim _ _
  refine Fin.ext ?_
  show (gatherRows1 N M wf).start (ix1 e) idx 0 + (gatherRows1 N M wf).batchCoord (ix1 e) 0
    + (gatherRows1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherRows1 N M wf).startIndexMap from List.mem_singleton.mpr rfl)]
  have hsi : (gatherRows1 N M wf).siIdx (ix1 e) ⟨List.idxOf (0 : Fin 1) (gatherRows1 N M wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- Element (e, f) of the gathered matrix is the operand's element in column `f` of the row the start index names,
    read signed and clamped into [0, N − 1]. -/
theorem gatherRows2_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (gatherRows2 N M C wf) x idx (ix2 e f)
      = x (ix2 ⟨min (idx (at0 e)).toInt.toNat (N - 1), by omega⟩ f) := by
  unfold Host.gather
  congr 1
  funext a
  refine Fin.ext ?_
  match a with
  -- row axis: the clamped start alone; column axis: start 0 plus the offset coordinate f
  | ⟨0, _⟩ =>
    show (gatherRows2 N M C wf).start (ix2 e f) idx 0 + (gatherRows2 N M C wf).batchCoord (ix2 e f) 0
      + (gatherRows2 N M C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows2 N M C wf).startIndexMap from List.mem_singleton.mpr rfl)]
    have hsi : (gatherRows2 N M C wf).siIdx (ix2 e f) ⟨List.idxOf (0 : Fin 2) (gatherRows2 N M C wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  | ⟨1, _⟩ =>
    show (gatherRows2 N M C wf).start (ix2 e f) idx 1 + (gatherRows2 N M C wf).batchCoord (ix2 e f) 1
      + (gatherRows2 N M C wf).offCoord (ix2 e f) 1 = f.val
    rw [GatherDims.batchCoord_eq_zero _ _ _ List.not_mem_nil]
    unfold GatherDims.start
    rw [dif_neg (show (1 : Fin 2) ∉ (gatherRows2 N M C wf).startIndexMap from
      (by decide : (1 : Fin 2) ∉ ([0] : List (Fin 2))))]
    simp only [Nat.add_zero, Nat.zero_add]
    unfold GatherDims.offCoord
    rw [dif_pos (show (1 : Fin 2) ∈ (gatherRows2 N M C wf).sKept from
      (GatherDims.mem_sKept _ _).mpr ⟨(by decide : (1 : Fin 2) ∉ ([0] : List (Fin 2))), List.not_mem_nil⟩)]
    rfl

/-! ## Where an update lands -/

/-- Update element (e, f) lands on operand element (i, f') exactly when the index of row `e`, read signed, is `i`
    and the columns agree. -/
theorem scatterRows2_lands {N M C w : Nat}
    (wf : ScatterDims.WF ⟨2, ![N, C]⟩ ⟨2, ![M, 1]⟩ ⟨2, ![M, C]⟩ [1] [0] [0] 1)
    (idx : IVec ⟨2, ![M, 1]⟩ w) (e : Fin M) (f : Fin C) (i : Fin N) (f' : Fin C) :
    (scatterRows2 N M C wf).resultIdx? (ix2 e f) idx = some (ix2 i f')
      ↔ (idx (at0 e)).toInt = (i.val : Int) ∧ f = f' := by
  -- on the row axis: start = the signed index, window = 0; on the column axis: start = 0, window = f
  have h00 : (scatterRows2 N M C wf).start (ix2 e f) idx 0 = (idx (at0 e)).toInt := by
    unfold ScatterDims.start
    rw [dif_pos (show (0 : Fin 2) ∈ (scatterRows2 N M C wf).scatterDimsToOperandDims from List.mem_singleton.mpr rfl)]
    have hsi : (scatterRows2 N M C wf).siIdx (ix2 e f) ⟨List.idxOf (0 : Fin 2) (scatterRows2 N M C wf).scatterDimsToOperandDims,
        List.idxOf_lt_length_iff.2 (List.mem_singleton.mpr rfl)⟩ = at0 e := by
      funext b; refine Fin.ext ?_
      match b with
      | ⟨0, _⟩ => rfl
      | ⟨1, _⟩ => rfl
    rw [hsi]
  have hw0 : (scatterRows2 N M C wf).window (ix2 e f) 0 = 0 := by
    unfold ScatterDims.window
    rw [dif_neg (show (0 : Fin 2) ∉ (scatterRows2 N M C wf).sKept from
      (by decide : (0 : Fin 2) ∉ (List.finRange 2).filter (fun a => a ∉ ([0] : List (Fin 2)))))]
  have hs1 : (scatterRows2 N M C wf).start (ix2 e f) idx 1 = 0 := by
    unfold ScatterDims.start
    rw [dif_neg (show (1 : Fin 2) ∉ (scatterRows2 N M C wf).scatterDimsToOperandDims from
      (by decide : (1 : Fin 2) ∉ ([0] : List (Fin 2))))]
  have hw1 : (scatterRows2 N M C wf).window (ix2 e f) 1 = f.val := by
    unfold ScatterDims.window
    rw [dif_pos (show (1 : Fin 2) ∈ (scatterRows2 N M C wf).sKept from
      (by decide : (1 : Fin 2) ∈ (List.finRange 2).filter (fun a => a ∉ ([0] : List (Fin 2)))))]
    rfl
  unfold ScatterDims.resultIdx?
  split
  · rename_i h
    rw [Option.some.injEq]
    constructor
    · intro hg
      have g0 : ((scatterRows2 N M C wf).start (ix2 e f) idx 0 + ((scatterRows2 N M C wf).window (ix2 e f) 0 : ℕ)).toNat = i.val := congrArg Fin.val (congrFun hg 0)
      have g1 : ((scatterRows2 N M C wf).start (ix2 e f) idx 1 + ((scatterRows2 N M C wf).window (ix2 e f) 1 : ℕ)).toNat = f'.val := congrArg Fin.val (congrFun hg 1)
      have k0 := (h 0).1
      rw [h00, hw0] at g0 k0
      rw [hs1, hw1] at g1
      exact ⟨by omega, Fin.ext (by omega)⟩
    · rintro ⟨hi, rfl⟩
      funext a
      refine Fin.ext ?_
      match a with
      | ⟨0, _⟩ =>
        show ((scatterRows2 N M C wf).start (ix2 e f) idx 0 + ((scatterRows2 N M C wf).window (ix2 e f) 0 : ℕ)).toNat = i.val
        rw [h00, hw0]; omega
      | ⟨1, _⟩ =>
        show ((scatterRows2 N M C wf).start (ix2 e f) idx 1 + ((scatterRows2 N M C wf).window (ix2 e f) 1 : ℕ)).toNat = f.val
        rw [hs1, hw1]; omega
  · rename_i h
    constructor
    · intro hg; cases hg
    · rintro ⟨hi, rfl⟩
      exfalso; apply h
      intro a
      match a with
      | ⟨0, _⟩ =>
        show 0 ≤ (scatterRows2 N M C wf).start (ix2 e f) idx 0 + ((scatterRows2 N M C wf).window (ix2 e f) 0 : ℕ) ∧ (scatterRows2 N M C wf).start (ix2 e f) idx 0 + ((scatterRows2 N M C wf).window (ix2 e f) 0 : ℕ) < (N : ℤ)
        rw [h00, hw0]; have := i.isLt; omega
      | ⟨1, _⟩ =>
        show 0 ≤ (scatterRows2 N M C wf).start (ix2 e f) idx 1 + ((scatterRows2 N M C wf).window (ix2 e f) 1 : ℕ) ∧ (scatterRows2 N M C wf).start (ix2 e f) idx 1 + ((scatterRows2 N M C wf).window (ix2 e f) 1 : ℕ) < (C : ℤ)
        rw [hs1, hw1]; have := f.isLt; omega

/-! ## Scaling the rows that land -/

/-- A finite sum of extended reals times a nonnegative real is the sum of the products. -/
theorem sum_mul_of_nonneg_ne_top {ι : Type} (s : Finset ι) (a : ι → EReal) {c : EReal} (h0 : 0 ≤ c) (ht : c ≠ ⊤) :
    (∑ j ∈ s, a j) * c = ∑ j ∈ s, a j * c := by
  classical
  induction s using Finset.induction_on with
  | empty => rw [Finset.sum_empty, Finset.sum_empty, zero_mul]
  | insert j s hj ih =>
    rw [Finset.sum_insert hj, Finset.sum_insert hj, EReal.right_distrib_of_nonneg_of_ne_top h0 ht, ih]

/-- THE LAW. Scatter-add rows into a zero matrix and then scale result row `i` by `c i`; or scale every update
    row by `c` gathered at the (wrapped, clamped) index of the row it lands on, and then scatter-add: the same matrix,
    when every `c i` is a nonnegative real and the gather's indices `idxG` agree with the scatter's `idxS` wherever
    the latter is not negative (a gather clamps and a scatter drops, so only rows that land matter). -/
theorem scatterRows2_scale {N M C : Nat} (hN : 0 < N)
    (wfS : ScatterDims.WF ⟨2, ![N, C]⟩ ⟨2, ![M, 1]⟩ ⟨2, ![M, C]⟩ [1] [0] [0] 1)
    (wfG : GatherDims.WF ⟨1, ![N]⟩ ⟨2, ![M, 1]⟩ ⟨1, ![M]⟩ [] [0] [] [0] [] 1 ![1])
    (c : (⟨1, ![N]⟩ : Shape).Idx → EReal) (hc : ∀ i, 0 ≤ c i ∧ c i ≠ ⊤)
    (idxS idxG : IVec ⟨2, ![M, 1]⟩ 32)
    (hidx : ∀ e : Fin M, 0 ≤ (idxS (at0 e)).toInt → idxG (at0 e) = idxS (at0 e))
    (a : (⟨2, ![M, C]⟩ : Shape).Idx → EReal) (i : (⟨2, ![N, C]⟩ : Shape).Idx) :
    Ideal.hostScatterAdd (scatterRows2 N M C wfS) (fun _ => 0) idxS a i * c (ix1 (i 0))
      = Ideal.hostScatterAdd (scatterRows2 N M C wfS) (fun _ => 0) idxS
          (fun j => a j * Host.gather (gatherRows1 N M wfG) c idxG (ix1 (j 0))) i := by
  obtain ⟨i0, f', rfl⟩ : ∃ (i0 : Fin N) (f' : Fin C), i = ix2 i0 f' := ⟨i 0, i 1, eq_ix2 i⟩
  unfold Ideal.hostScatterAdd
  simp only [zero_add]
  rw [sum_mul_of_nonneg_ne_top _ _ (hc _).1 (hc _).2]
  -- term by term: an update that lands on row i0 has signed index i0, so its gathered factor is c i0
  refine Finset.sum_congr rfl ?_
  intro j hj
  obtain ⟨e, f, rfl⟩ : ∃ (e : Fin M) (f : Fin C), j = ix2 e f := ⟨j 0, j 1, eq_ix2 j⟩
  have hl := (scatterRows2_lands wfS idxS e f i0 f').mp (Finset.mem_filter.mp hj).2
  have hnn : 0 ≤ (idxS (at0 e)).toInt := by rw [hl.1]; exact Int.natCast_nonneg _
  have hG := hidx e hnn
  have hi0 : (⟨min (idxG (at0 e)).toInt.toNat (N - 1), by omega⟩ : Fin N) = i0 :=
    Fin.ext (by
      have h1 := i0.isLt
      have h2 := hl.1
      show min (idxG (at0 e)).toInt.toNat (N - 1) = i0.val
      rw [hG]; omega)
  show a (ix2 e f) * c (ix1 i0) = a (ix2 e f) * Host.gather (gatherRows1 N M wfG) c idxG (ix1 e)
  rw [gatherRows1_apply hN wfG c idxG e, hi0]

end Cert.Lib.RowOps

end
-- ==== Proof.Glue.lean ====
/-
  Facts about rows picked by integer arrays and about blocks of rows, independent of any program.

  * An accumulating scatter of rows ignores the rows it drops: if two update matrices agree on every row whose index,
    read as a signed integer, lies in [0, N), the two scatters give the same matrix. (An update aimed outside the
    operand contributes nothing to any entry.)
  * The index wrap of Python-style indexing: a signed 32-bit number v with −N ≤ v < N, replaced by v + N when it is
    negative, lies in [0, N − 1]; a number already in [0, N) is left alone. Here N = 50000.
  * A unit-stride slice of consecutive rows of a matrix is that block of rows, entry by entry.
-/
import proofs.«142674_j19808389169323_1_alg».proof.Proof.LibRowOps
import proofs.«142674_j19808389169323_1_alg».proof.Proof.Spec
import Idealize.ShloMosaic.Lib.Pipeline.Value

noncomputable section

open scoped BigOperators

namespace Cert.Glue

open Idealize.ShloMosaic Idealize.ShloMosaic.ValueIdx Cert.Lib.RowOps

/-- Two update matrices that agree on every row whose index lands inside the operand scatter to the same matrix. -/
theorem scatterRows2_congr {N M C : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ 32)
    (a a' : (⟨2, ![M, C]⟩ : Shape).Idx → EReal)
    (h : ∀ (e : Fin M) (f : Fin C), 0 ≤ (idx (at0 e)).toInt → (idx (at0 e)).toInt < (N : Int) →
      a (ix2 e f) = a' (ix2 e f)) :
    Ideal.hostScatterAdd (scatterRows2 N M C wf) x idx a = Ideal.hostScatterAdd (scatterRows2 N M C wf) x idx a' := by
  funext i
  obtain ⟨i0, f', rfl⟩ : ∃ (i0 : Fin N) (f' : Fin C), i = ix2 i0 f' := ⟨i 0, i 1, eq_ix2 i⟩
  unfold Ideal.hostScatterAdd
  refine congrArg (x (ix2 i0 f') + ·) (Finset.sum_congr rfl ?_)
  intro j hj
  obtain ⟨e, f, rfl⟩ : ∃ (e : Fin M) (f : Fin C), j = ix2 e f := ⟨j 0, j 1, eq_ix2 j⟩
  -- an update that lands on row i0 has signed index i0, which lies in [0, N)
  have hl := (scatterRows2_lands wf idx e f i0 f').mp (Finset.mem_filter.mp hj).2
  have h1 := i0.isLt
  exact h e f (by rw [hl.1]; exact Int.natCast_nonneg _) (by rw [hl.1]; exact_mod_cast h1)

/-! ## A block of rows cut from a matrix -/

/-- The `k` rows of a matrix from row `off`, cut out as a unit-stride slice, are the specification's block of rows. -/
theorem slice_rows {R C k : Nat} (x : (⟨2, ![R, C]⟩ : Shape).Idx → EReal) (off : Nat) (h : off + k ≤ R)
    (hs : (⟨2, ![R, C]⟩ : Shape).Slices ![off, 0] (⟨2, ![k, C]⟩ : Shape)) :
    extractStridedSlice (⟨2, ![k, C]⟩ : Shape) ![off, 0] x hs = Cert.Spec.rowsFrom off k h x :=
  funext fun j => extractStridedSlice_apply ![off, 0] x hs j _ (by
    intro a; fin_cases a <;> simp [ix2])

/-! ## The index wrap -/

/-- The wrapped index, as both programs compute it entry by entry: v + 50000 when v is negative, v otherwise. -/
def wrap (v : BitVec 32) : BitVec 32 := Scalar.select (IntOp.cmpi .slt v 0#32) (IntOp.addi v 50000#32) v

/-- Adding 50000 to a number in [−50000, 0) does not overflow 32 bits. -/
theorem toInt_add_fifty (v : BitVec 32) (h1 : (-50000 : Int) ≤ v.toInt) (h2 : v.toInt < 0) :
    (v + 50000#32).toInt = v.toInt + 50000 := by
  rw [BitVec.toInt_add]
  have e : (50000#32 : BitVec 32).toInt = 50000 := by decide
  rw [e, Int.bmod_def]
  have hm : ((2:Int) ^ 32) = 4294967296 := by norm_num
  simp only [hm] at *
  omega

/-- A number in [−50000, 50000) wraps into [0, 49999]. -/
theorem wrap_toInt (v : BitVec 32) (h1 : (-50000 : Int) ≤ v.toInt) (h2 : v.toInt < 50000) :
    0 ≤ (wrap v).toInt ∧ (wrap v).toInt ≤ 49999 := by
  unfold wrap Scalar.select IntOp.cmpi IntOp.addi
  by_cases hneg : v.toInt < 0
  · have hs : v.slt 0#32 = true := by
      rw [BitVec.slt]; simpa using hneg
    simp only [hs, BitVec.ofBool_true, if_true]
    rw [toInt_add_fifty v h1 hneg]; omega
  · have hs : v.slt 0#32 = false := by
      rw [BitVec.slt]; simpa using hneg
    simp only [hs, BitVec.ofBool_false]
    rw [if_neg (by decide)]
    omega

/-- A number that is not negative is left alone by the wrap. -/
theorem wrap_of_nonneg (v : BitVec 32) (h0 : 0 ≤ v.toInt) : wrap v = v := by
  unfold wrap Scalar.select IntOp.cmpi
  have hs : v.slt 0#32 = false := by
    rw [BitVec.slt]; simpa using h0
  simp only [hs, BitVec.ofBool_false]
  rw [if_neg (by decide)]

/-- The in-bounds test the gather-with-fill makes on a wrapped index — 0 ≤ w and w ≤ 49999, both signed, joined by
    "and" — answers 1 when the index is in [0, 49999]. -/
theorem inBounds_eq_one (w : BitVec 32) (h0 : 0 ≤ w.toInt) (h1 : w.toInt ≤ 49999) :
    IntOp.andi (IntOp.cmpi .sge w 0#32) (IntOp.cmpi .sle w 49999#32) = 1#1 := by
  unfold IntOp.andi IntOp.cmpi
  have e0 : (0#32 : BitVec 32).toInt = 0 := by decide
  have e1 : (49999#32 : BitVec 32).toInt = 49999 := by decide
  have hs0 : (0#32 : BitVec 32).sle w = true := by
    rw [BitVec.sle]; simpa [e0] using h0
  have hs1 : w.sle 49999#32 = true := by
    rw [BitVec.sle]; simpa [e1] using h1
  simp only [hs0, hs1, BitVec.ofBool_true]
  decide

end Cert.Glue

end
-- ==== Proof.RefIndex.lean ====
import proofs.«142674_j19808389169323_1_alg».proof.Proof.RefRead
import proofs.«142674_j19808389169323_1_alg».proof.Proof.Glue

noncomputable section

namespace Cert.ReferenceIdeal.Index

open Cert.ReferenceIdeal Cert.ReferenceIdeal.Read Idealize.ShloMosaic Idealize.ShloMosaic.ValueIdx

variable {F : FTy → Type} [FloatOps F]

/-! The edge list is a [2, 600000] array of 32-bit integers: row 0 holds each edge's source node, row 1 its destination.
    Every integer column the layers pick rows by is one of these two rows, raw or wrapped into [0, 50000). -/

/-- The source of edge e: row 0 of the edge list at column e. -/
theorem src_apply (x26 : (⟨S2x600000, .i32⟩ : BufTy).Contents (Elt F)) (e : Fin 600000) :
    val_main_v5 (F := F) x26 (ix1 e) = x26 (ix2 (0 : Fin 2) e) := by
  rw [val_main_v5_apply, val_main_v4_apply]
  refine congrArg x26 (funext fun a => Fin.ext ?_)
  match a with
  | ⟨0, _⟩ => rfl
  | ⟨1, _⟩ => show e.val % 600000 = e.val; exact Nat.mod_eq_of_lt e.isLt

/-- The destination of edge e: row 1 of the edge list at column e. -/
theorem dst_apply (x26 : (⟨S2x600000, .i32⟩ : BufTy).Contents (Elt F)) (e : Fin 600000) :
    val_main_v7 (F := F) x26 (ix1 e) = x26 (ix2 (1 : Fin 2) e) := by
  rw [val_main_v7_apply, val_main_v6_apply]
  refine congrArg x26 (funext fun a => Fin.ext ?_)
  match a with
  | ⟨0, _⟩ => rfl
  | ⟨1, _⟩ => show e.val % 600000 = e.val; exact Nat.mod_eq_of_lt e.isLt

/-! ## The wrapped columns the layers gather by -/

/-- Layer 1 gathers the destination's row by the wrapped destination. -/
theorem wrap_dst1 (x26 : (⟨S2x600000, .i32⟩ : BufTy).Contents (Elt F)) (e : Fin 600000) :
    val_main_v17 (F := F) x26 (ix2 e (0 : Fin 1)) = Cert.Glue.wrap (val_main_v7 (F := F) x26 (ix1 e)) := by
  have hi : idx_main_v17 (ix2 e (0 : Fin 1)) = ix1 e := funext fun a => Fin.ext (by match a with | ⟨0, _⟩ => rfl)
  rw [val_main_v17_apply, hi, val_main_v16_apply, val_main_v13_apply, val_main_v15_apply, val_main_v12_apply,
    val_main_c_apply, val_main_v14_apply, val_main_c_0_apply]
  rfl

/-- Layer 1 gathers the source's row by the wrapped source. -/
theorem wrap_src1 (x26 : (⟨S2x600000, .i32⟩ : BufTy).Contents (Elt F)) (e : Fin 600000) :
    val_main_v24 (F := F) x26 (ix2 e (0 : Fin 1)) = Cert.Glue.wrap (val_main_v5 (F := F) x26 (ix1 e)) := by
  have hi : idx_main_v24 (ix2 e (0 : Fin 1)) = ix1 e := funext fun a => Fin.ext (by match a with | ⟨0, _⟩ => rfl)
  rw [val_main_v24_apply, hi, val_main_v23_apply, val_main_v20_apply, val_main_v22_apply, val_main_v19_apply,
    val_main_c_1_apply, val_main_v21_apply, val_main_c_2_apply]
  rfl

/-- Layer 2 gathers the destination's row by the wrapped destination. -/
theorem wrap_dst2 (x26 : (⟨S2x600000, .i32⟩ : BufTy).Contents (Elt F)) (e : Fin 600000) :
    val_main_v65 (F := F) x26 (ix2 e (0 : Fin 1)) = Cert.Glue.wrap (val_main_v7 (F := F) x26 (ix1 e)) := by
  have hi : idx_main_v65 (ix2 e (0 : Fin 1)) = ix1 e := funext fun a => Fin.ext (by match a with | ⟨0, _⟩ => rfl)
  rw [val_main_v65_apply, hi, val_main_v64_apply, val_main_v61_apply, val_main_v63_apply, val_main_v60_apply,
    val_main_c_7_apply, val_main_v62_apply, val_main_c_8_apply]
  rfl

/-- Layer 2 gathers the source's row by the wrapped source. -/
theorem wrap_src2 (x26 : (⟨S2x600000, .i32⟩ : BufTy).Contents (Elt F)) (e : Fin 600000) :
    val_main_v72 (F := F) x26 (ix2 e (0 : Fin 1)) = Cert.Glue.wrap (val_main_v5 (F := F) x26 (ix1 e)) := by
  have hi : idx_main_v72 (ix2 e (0 : Fin 1)) = ix1 e := funext fun a => Fin.ext (by match a with | ⟨0, _⟩ => rfl)
  rw [val_main_v72_apply, hi, val_main_v71_apply, val_main_v68_apply, val_main_v70_apply, val_main_v67_apply,
    val_main_c_9_apply, val_main_v69_apply, val_main_c_10_apply]
  rfl

/-- Layer 3 gathers the destination's row by the wrapped destination. -/
theorem wrap_dst3 (x26 : (⟨S2x600000, .i32⟩ : BufTy).Contents (Elt F)) (e : Fin 600000) :
    val_main_v113 (F := F) x26 (ix2 e (0 : Fin 1)) = Cert.Glue.wrap (val_main_v7 (F := F) x26 (ix1 e)) := by
  have hi : idx_main_v113 (ix2 e (0 : Fin 1)) = ix1 e := funext fun a => Fin.ext (by match a with | ⟨0, _⟩ => rfl)
  rw [val_main_v113_apply, hi, val_main_v112_apply, val_main_v109_apply, val_main_v111_apply, val_main_v108_apply,
    val_main_c_16_apply, val_main_v110_apply, val_main_c_17_apply]
  rfl

/-- Layer 3 gathers the source's row by the wrapped source. -/
theorem wrap_src3 (x26 : (⟨S2x600000, .i32⟩ : BufTy).Contents (Elt F)) (e : Fin 600000) :
    val_main_v120 (F := F) x26 (ix2 e (0 : Fin 1)) = Cert.Glue.wrap (val_main_v5 (F := F) x26 (ix1 e)) := by
  have hi : idx_main_v120 (ix2 e (0 : Fin 1)) = ix1 e := funext fun a => Fin.ext (by match a with | ⟨0, _⟩ => rfl)
  rw [val_main_v120_apply, hi, val_main_v119_apply, val_main_v116_apply, val_main_v118_apply, val_main_v115_apply,
    val_main_c_18_apply, val_main_v117_apply, val_main_c_19_apply]
  rfl

/-! ## The raw columns the layers scatter by -/

/-- Layer 1 adds each message onto the row of the edge's destination, unwrapped. -/
theorem raw_dst1 (x26 : (⟨S2x600000, .i32⟩ : BufTy).Contents (Elt F)) (e : Fin 600000) :
    val_main_v38 (F := F) x26 (ix2 e (0 : Fin 1)) = val_main_v7 (F := F) x26 (ix1 e) := by
  have hi : idx_main_v38 (ix2 e (0 : Fin 1)) = ix1 e := funext fun a => Fin.ext (by match a with | ⟨0, _⟩ => rfl)
  rw [val_main_v38_apply, hi]

/-- Layer 2 adds each message onto the row of the edge's destination, unwrapped. -/
theorem raw_dst2 (x26 : (⟨S2x600000, .i32⟩ : BufTy).Contents (Elt F)) (e : Fin 600000) :
    val_main_v86 (F := F) x26 (ix2 e (0 : Fin 1)) = val_main_v7 (F := F) x26 (ix1 e) := by
  have hi : idx_main_v86 (ix2 e (0 : Fin 1)) = ix1 e := funext fun a => Fin.ext (by match a with | ⟨0, _⟩ => rfl)
  rw [val_main_v86_apply, hi]

/-- Layer 3 adds each message onto the row of the edge's destination, unwrapped. -/
theorem raw_dst3 (x26 : (⟨S2x600000, .i32⟩ : BufTy).Contents (Elt F)) (e : Fin 600000) :
    val_main_v134 (F := F) x26 (ix2 e (0 : Fin 1)) = val_main_v7 (F := F) x26 (ix1 e) := by
  have hi : idx_main_v134 (ix2 e (0 : Fin 1)) = ix1 e := funext fun a => Fin.ext (by match a with | ⟨0, _⟩ => rfl)
  rw [val_main_v134_apply, hi]

end Cert.ReferenceIdeal.Index

end
-- ==== Proof.TakeMask.lean ====
/-
  The row mask of a gather with fill.

  A row of a 50000-row table is picked for each of 600000 edges by an index column; an edge whose index is outside
  0 … 49999 gets a fill value instead. The mask is computed per edge as the conjunction, over the one entry of the edge's
  row of the index column, of (0 ≤ index) and (index ≤ 49999), starting from "true".

  * `inBoundsRow`            : the mask as a function of the index column.
  * `inBoundsRow_apply`      : at edge e it is (0 ≤ col(e, 0)) and (col(e, 0) ≤ 49999): a conjunction over an axis of
                               extent one is its one term, and "x and true" is x on one-bit words.
  * `select_of_inBounds64/128`: where the mask holds at edge e, the selection between the gathered rows and the fill reads
                               the gathered row at every column of e.
-/
import proofs.«142674_j19808389169323_1_alg».proof.Proof.Gen.KernelIdeal.Frame
import Idealize.ShloMosaic.PureOps.Ideal
import Idealize.ShloMosaic.PureOps.Reduce
import Idealize.ShloMosaic.Lib.ValueIdx
import Idealize.ShloMosaic.Lib.Pipeline.Value

noncomputable section

namespace Cert.KernelIdeal.TakeMask

open Cert.KernelIdeal Idealize.ShloMosaic Idealize.ShloMosaic.ValueIdx

/-- The per-edge mask: the conjunction along the index column's unit axis of (0 ≤ index) and (index ≤ 49999). -/
def inBoundsRow (col : IVec S600000x1 32) : IVec S600000 1 :=
  Host.reduce IntOp.andi (andi (cmpi .sge col (broadcastInDim S600000x1 ![] Gen.bcast_S_S600000x1 (constantI S_ 32 0#32))) (cmpi .sle col (broadcastInDim S600000x1 ![0, 1] Gen.bcast_S1x1_S600000x1_0_1 (broadcastInDim S1x1 ![1] Gen.bcast_S1_S1x1_1 (constantI S1 32 49999#32))))) (constantI S_ 1 1#1) Gen.reducesTo_S600000x1_S600000_d1 Gen.h_S_

/-- Dropping the unit axis of a 600000 × 1 column leaves a row of 600000. -/
theorem reduces_col : S600000x1.Reduces [1] S600000 := by decide

/-- The entry of the column over edge e, whatever the coordinate on the unit axis, is (e, 0). -/
theorem lift_eq (e : Fin 600000) (k : Fin (S600000x1.size 1)) : reduces_col.lift (ix1 e) k = ix2 e (0 : Fin 1) := by
  have hk1 : k.val < 1 := k.isLt
  have hk : k.val = 0 := by omega
  funext c
  apply Fin.ext
  show reduces_col.liftVal (ix1 e) k.val c = (ix2 e (0 : Fin 1) c).val
  unfold Shape.Reduces.liftVal
  match c with
  | ⟨0, _⟩ => rfl
  | ⟨1, _⟩ => exact hk

/-- A fold of a commutative, associative operation over an axis of extent one is the operation applied to the one term. -/
theorem fold_unit {n : Nat} (hn : n = 1) (op : BitVec 1 → BitVec 1 → BitVec 1) [Std.Commutative op] [Std.Associative op]
    (b : BitVec 1) (f : Fin n → BitVec 1) :
    (Finset.univ : Finset (Fin n)).fold op b f = op (f ⟨0, by omega⟩) b := by
  subst hn
  rw [Finset.univ_unique, Finset.fold_singleton]
  rfl

/-- On one-bit words, "x and true" is x. -/
theorem andi_one (x : BitVec 1) : IntOp.andi x 1#1 = x := by
  rcases BitVec.eq_zero_or_eq_one x with rfl | rfl <;> decide

/-- The mask at edge e: (0 ≤ col(e, 0)) and (col(e, 0) ≤ 49999). -/
theorem inBoundsRow_apply (col : IVec S600000x1 32) (e : Fin 600000) :
    inBoundsRow col (ValueIdx.ix1 e) = IntOp.andi (IntOp.cmpi .sge (col (ValueIdx.ix2 e (0 : Fin 1))) 0#32) (IntOp.cmpi .sle (col (ValueIdx.ix2 e (0 : Fin 1))) 49999#32) := by
  unfold inBoundsRow
  refine (Host.reduce_eq_fold_single IntOp.andi _ _ Gen.reducesTo_S600000x1_S600000_d1 reduces_col Gen.h_S_ (ix1 e)).trans ?_
  refine (fold_unit (n := S600000x1.size 1) rfl IntOp.andi _ _).trans ?_
  have hL : reduces_col.lift (ix1 e) (⟨0, by decide⟩ : Fin (S600000x1.size 1)) = ix2 e (0 : Fin 1) := lift_eq e _
  show IntOp.andi (IntOp.andi (IntOp.cmpi .sge (col (reduces_col.lift (ix1 e) (⟨0, by decide⟩ : Fin (S600000x1.size 1)))) 0#32)
      (IntOp.cmpi .sle (col (reduces_col.lift (ix1 e) (⟨0, by decide⟩ : Fin (S600000x1.size 1)))) 49999#32)) 1#1 = _
  rw [hL]
  exact andi_one _

/-- Where the mask holds at edge e, the selection reads the gathered row at every one of the 64 columns of e. -/
theorem select_of_inBounds64 (col : IVec S600000x1 32) (g fill : FVec Ideal S600000x64 .f32) (e : Fin 600000) (k : Fin 64)
    (h : inBoundsRow col (ValueIdx.ix1 e) = 1#1) :
    select (broadcastInDim S600000x64 ![0] Gen.bcast_S600000_S600000x64_0 (inBoundsRow col)) g fill (ValueIdx.ix2 e k) = g (ValueIdx.ix2 e k) := by
  have hb : broadcastInDim S600000x64 ![0] Gen.bcast_S600000_S600000x64_0 (inBoundsRow col) (ix2 e k) = inBoundsRow col (ix1 e) :=
    broadcastInDim_apply _ Gen.bcast_S600000_S600000x64_0 (inBoundsRow col) (ix2 e k) (ix1 e) (fun a => match a with
      | ⟨0, _⟩ => by show e.val = if (600000 : Nat) = 1 then 0 else e.val; rw [if_neg (by decide)])
  refine (select_apply _ g fill (ix2 e k)).trans ?_
  rw [hb, h]
  exact select_one _ _

/-- Where the mask holds at edge e, the selection reads the gathered row at every one of the 128 columns of e. -/
theorem select_of_inBounds128 (col : IVec S600000x1 32) (g fill : FVec Ideal S600000x128 .f32) (e : Fin 600000) (k : Fin 128)
    (h : inBoundsRow col (ValueIdx.ix1 e) = 1#1) :
    select (broadcastInDim S600000x128 ![0] Gen.bcast_S600000_S600000x128_0 (inBoundsRow col)) g fill (ValueIdx.ix2 e k) = g (ValueIdx.ix2 e k) := by
  have hb : broadcastInDim S600000x128 ![0] Gen.bcast_S600000_S600000x128_0 (inBoundsRow col) (ix2 e k) = inBoundsRow col (ix1 e) :=
    broadcastInDim_apply _ Gen.bcast_S600000_S600000x128_0 (inBoundsRow col) (ix2 e k) (ix1 e) (fun a => match a with
      | ⟨0, _⟩ => by show e.val = if (600000 : Nat) = 1 then 0 else e.val; rw [if_neg (by decide)])
  refine (select_apply _ g fill (ix2 e k)).trans ?_
  rw [hb, h]
  exact select_one _ _

end Cert.KernelIdeal.TakeMask

end
-- ==== Proof.Bridge1.lean ====
/-
  Layer 1 of the network, the two programs side by side.

  The kernel's program gathers, per edge, the node row at the edge's target and the node row at its source (a row whose
  number is out of range filled with a fill word), cuts the layer's first weight matrix into the half that meets the
  target row and the half that meets the difference of the rows, computes the messages in a region, sums them per target
  node, divides by the number of edges at the node (at least one), and in a second region scales, shifts and rectifies.
  The reference does the same with one joined product per edge and no fill. Under the one assumption that every source
  number is a row number (counted from the end when negative): the gathered source rows are the reference's; the
  gathered target rows are the reference's on every edge whose target number is a row number; such an edge's message is
  the reference's; the other edges' messages are dropped by the sum in both programs; so the sums, the means and the
  nodes after the layer are the reference's.
-/
import proofs.«142674_j19808389169323_1_alg».proof.Proof.Gen.KernelIdeal.Frame
import proofs.«142674_j19808389169323_1_alg».proof.Proof.RefRead
import proofs.«142674_j19808389169323_1_alg».proof.Proof.KKeep
import proofs.«142674_j19808389169323_1_alg».proof.Proof.BridgeBase
import proofs.«142674_j19808389169323_1_alg».proof.Proof.Bridge0
import proofs.«142674_j19808389169323_1_alg».proof.Proof.Region1
import proofs.«142674_j19808389169323_1_alg».proof.Proof.Region2
import proofs.«142674_j19808389169323_1_alg».proof.Proof.RefStages
import proofs.«142674_j19808389169323_1_alg».proof.Proof.RefIndex
import proofs.«142674_j19808389169323_1_alg».proof.Proof.TakeMask
import proofs.«142674_j19808389169323_1_alg».proof.Proof.Glue
import proofs.«142674_j19808389169323_1_alg».proof.Proof.LibTypedRef
import proofs.«142674_j19808389169323_1_alg».proof.Proof.Spec
import Idealize.ShloMosaic.PureOps.Ideal
import Idealize.ShloMosaic.Lib.StableHlo.Run
import Idealize.ShloMosaic.Lib.ValueIdx

noncomputable section
namespace Cert.Bridge
open Cert.KernelIdeal Cert.KernelIdeal.Gen Cert.KernelIdeal.Keep
open Idealize.ShloMosaic Idealize.ShloMosaic.TcCoe Idealize.ShloMosaic.Tactic Idealize.ShloMosaic.StableHlo Idealize.ShloMosaic.ValueIdx
open Idealize.SL.Sem
open Cert.ReferenceIdeal.Read

variable (m : (ℓ : Loc nD τ sig) → Buf (Elt Ideal) ℓ) (ρ : Dev nD → PrngReg) (c : Dev nD)

/-- Two edge layers agree at an entry when the edge's own rows of the two gathered arrays agree and the weights agree. -/
theorem edgeOut_congr {M D H O : Nat} {xi xi' xj xj' : Cert.Spec.Mat M D} {A A' B B' : Cert.Spec.Mat D H}
    {ba ba' : Cert.Spec.Row H} {Wb Wb' : Cert.Spec.Mat H O} {bb bb' : Cert.Spec.Row O} (e : Fin M) (f : Fin O)
    (hi : ∀ k : Fin D, xi (ix2 e k) = xi' (ix2 e k)) (hj : ∀ k : Fin D, xj (ix2 e k) = xj' (ix2 e k))
    (hA : A = A') (hB : B = B') (hba : ba = ba') (hW : Wb = Wb') (hbb : bb = bb') :
    Cert.Spec.edgeOut xi xj A B ba Wb bb e f = Cert.Spec.edgeOut xi' xj' A' B' ba' Wb' bb' e f := by
  subst hA hB hba hW hbb
  exact Cert.Spec.edgeOut_congr_row _ _ _ _ _ _ _ _ _ e f hi hj

/-! ## Layer 1 -/

/-- Writing through the typed reference of a gathered array, and reading an operand through one, change nothing. -/
theorem toBuf_main_v5 (h1 h2 h3) (X : FVec Ideal S600000x64 .f32) :
    (TRef.toBuf (Val := Elt Ideal) (TRef.of main_v5 h1 h2 h3 : TRef sig ⟨S600000x64, .f32⟩) X : FVec Ideal S600000x64 .f32) = X := rfl
theorem toBuf_main_v6 (h1 h2 h3) (X : FVec Ideal S600000x64 .f32) :
    (TRef.toBuf (Val := Elt Ideal) (TRef.of main_v6 h1 h2 h3 : TRef sig ⟨S600000x64, .f32⟩) X : FVec Ideal S600000x64 .f32) = X := rfl
theorem ofBuf_main_v4 (h1 h2 h3) (v : main_v4.ty.Contents (Elt Ideal)) :
    (TRef.ofBuf (Val := Elt Ideal) (TRef.of main_v4 h1 h2 h3 : TRef sig ⟨S50000x64, .f32⟩) v : FVec Ideal S50000x64 .f32) = v := rfl

/-- The rows at the targets as the kernel's program gathers them: the reference's rows, but a row whose target number is
    not a row number filled with the fill word. -/
theorem xi1 : W5 (F := Ideal) m ρ c (Proc.devRef .tc main_v5)
    = select (broadcastInDim S600000x64 ![0] bcast_S600000_S600000x64_0 (Cert.KernelIdeal.TakeMask.inBoundsRow (R17 m c))) (R18 m c)
        (broadcastInDim S600000x64 ![] bcast_S_S600000x64 (constant (F := Ideal) S_ .f32 0x7FC00000#32)) := by
  refine ((skip_stretch main_v5, hostOps1_2).trans (skip_stretch main_v5, hostOps1_1)).trans ?_
  dsimp only [W3, hostOps1]
  after_results_simp
  simp only [Cert.Lib.TypedRef.ofBuf_toBuf, toBuf_main_v5, ofBuf_main_v3, ofBuf_main_v4]
  rw [at2_main_v3 m ρ c, dst_row m ρ c, nodes0 m ρ c]
  rfl

/-- The rows at the sources as the kernel's program gathers them, likewise. -/
theorem xj1 : W5 (F := Ideal) m ρ c (Proc.devRef .tc main_v6)
    = select (broadcastInDim S600000x64 ![0] bcast_S600000_S600000x64_0 (Cert.KernelIdeal.TakeMask.inBoundsRow (R24 m c))) (R25 m c)
        (broadcastInDim S600000x64 ![] bcast_S_S600000x64 (constant (F := Ideal) S_ .f32 0x7FC00000#32)) := by
  refine (skip_stretch main_v6, hostOps1_2).trans ?_
  dsimp only [W4, W3, hostOps1_1]
  after_results_simp
  simp only [Cert.Lib.TypedRef.ofBuf_toBuf, toBuf_main_v6, ofBuf_main_v1, ofBuf_main_v4]
  rw [at2_main_v1 m ρ c, src_row m ρ c, nodes0 m ρ c]
  rfl

/-- Where the target number is a row number, the kernel's gathered row is the reference's. -/
theorem xi1_apply (e : Fin 600000) (k : Fin 64) (h0 : 0 ≤ (R7 m c (ix1 e)).toInt) (h1 : (R7 m c (ix1 e)).toInt < 50000) :
    (W5 (F := Ideal) m ρ c (Proc.devRef .tc main_v5) : S600000x64.Idx → EReal) (ix2 e k) = R18 m c (ix2 e k) := by
  rw [xi1 m ρ c]
  refine Cert.KernelIdeal.TakeMask.select_of_inBounds64 _ _ _ e k ?_
  have hw : R17 m c (ix2 e (0 : Fin 1)) = Cert.Glue.wrap (R7 m c (ix1 e)) := Cert.ReferenceIdeal.Index.wrap_dst1 (rA26 m c) e
  rw [Cert.KernelIdeal.TakeMask.inBoundsRow_apply, hw, Cert.Glue.wrap_of_nonneg _ h0]
  exact Cert.Glue.inBounds_eq_one _ h0 (by omega)

/-- Every source number indexes a row (counted from the end when negative), so the rows at the sources are the reference's. -/
theorem xj1_eq (hsrc : ∀ e : Fin 600000, (-50000 : Int) ≤ (R5 m c (ix1 e)).toInt ∧ (R5 m c (ix1 e)).toInt < 50000) :
    W5 (F := Ideal) m ρ c (Proc.devRef .tc main_v6) = R25 m c := by
  rw [xj1 m ρ c]
  funext j
  obtain ⟨e, k, rfl⟩ : ∃ (e : Fin 600000) (k : Fin 64), j = ix2 e k := ⟨j 0, j 1, eq_ix2 j⟩
  refine Cert.KernelIdeal.TakeMask.select_of_inBounds64 _ _ _ e k ?_
  have hc : R24 m c (ix2 e (0 : Fin 1)) = Cert.Glue.wrap (R5 m c (ix1 e)) := Cert.ReferenceIdeal.Index.wrap_src1 (rA26 m c) e
  rw [Cert.KernelIdeal.TakeMask.inBoundsRow_apply, hc]
  have hw := Cert.Glue.wrap_toInt _ (hsrc e).1 (hsrc e).2
  exact Cert.Glue.inBounds_eq_one _ hw.1 hw.2

/-- The half of the first weight matrix that meets the target rows, and the half that meets the differences. -/
theorem wA1 : W5 (F := Ideal) m ρ c (Proc.devRef .tc main_v7) = Cert.Spec.rowsFrom 0 64 (by decide) (rA6 m c) := by
  have h : W5 (F := Ideal) m ρ c (Proc.devRef .tc main_v7)
      = extractStridedSlice S64x128 ![0, 0] (W2 (F := Ideal) m ρ c (Proc.devRef .tc main_arg6)) slices_S128x128_S64x128_0_0 := by
    dsimp only [W5, hostOps1_2]
    after_results_simp
  rw [h, at2_main_arg6 m ρ c]
  exact Cert.Glue.slice_rows (rA6 m c) 0 (by decide) _
theorem wB1 : W5 (F := Ideal) m ρ c (Proc.devRef .tc main_v8) = Cert.Spec.rowsFrom 64 64 (by decide) (rA6 m c) := by
  have h : W5 (F := Ideal) m ρ c (Proc.devRef .tc main_v8)
      = extractStridedSlice S64x128 ![64, 0] (W2 (F := Ideal) m ρ c (Proc.devRef .tc main_arg6)) slices_S128x128_S64x128_64_0 := by
    dsimp only [W5, hostOps1_2]
    after_results_simp
  rw [h, at2_main_arg6 m ρ c]
  exact Cert.Glue.slice_rows (rA6 m c) 64 (by decide) _

/-- The messages of the edges whose target number is a row number are the reference's. -/
theorem msg1_apply (hsrc : ∀ e : Fin 600000, (-50000 : Int) ≤ (R5 m c (ix1 e)).toInt ∧ (R5 m c (ix1 e)).toInt < 50000) (e : Fin 600000) (f : Fin 128)
    (h0 : 0 ≤ (R7 m c (ix1 e)).toInt) (h1 : (R7 m c (ix1 e)).toInt < 50000) :
    (W6 (F := Ideal) m ρ c (Proc.devRef .tc main_v9) : S600000x128.Idx → EReal) (ix2 e f) = R36 m c (ix2 e f) := by
  have hW := (W6_arr m ρ c 7).trans (Cert.KernelIdeal.Region1.arr (V5 (F := Ideal) m ρ) c)
  refine (congrFun hW (ix2 e f)).trans ?_
  refine Eq.trans ?_ (congrFun (Cert.ReferenceIdeal.Stage.stage_v36 (rA0 m c) (rA4 m c) (rA5 m c) (rA6 m c) (rA7 m c) (rA8 m c) (rA9 m c) (rA26 m c)) (ix2 e f)).symm
  exact edgeOut_congr e f
    (fun k => xi1_apply m ρ c e k h0 h1)
    (fun k => congrFun (xj1_eq m ρ c hsrc) (ix2 e k))
    (wA1 m ρ c) (wB1 m ρ c)
    (in5_main_arg7 m ρ c) (in5_main_arg8 m ρ c) (in5_main_arg9 m ρ c)

/-- The kernel's messages scattered to their target nodes sum to the reference's sums: an edge whose target number is not
    a row number contributes to no node, in either program, and on every other edge the messages agree. -/
theorem scat1 (hsrc : ∀ e : Fin 600000, (-50000 : Int) ≤ (R5 m c (ix1 e)).toInt ∧ (R5 m c (ix1 e)).toInt < 50000) :
    Host.scatterAdd (F := Ideal) scatter_S50000x128_S600000x1_S600000x128_1_0_0_1 (broadcastInDim S50000x128 ![] bcast_S_S50000x128 (constant (F := Ideal) S_ .f32 0x00000000#32)) (broadcastInDim S600000x1 ![0] bcast_S600000_S600000x1_0 (R7 m c)) (W6 (F := Ideal) m ρ c (Proc.devRef .tc main_v9))
      = R39 m c := by
  have key := Cert.Glue.scatterRows2_congr (N := 50000) (M := 600000) (C := 128) (by decide)
    (broadcastInDim S50000x128 ![] bcast_S_S50000x128 (constant (F := Ideal) S_ .f32 0x00000000#32)) (broadcastInDim S600000x1 ![0] bcast_S600000_S600000x1_0 (R7 m c)) (W6 (F := Ideal) m ρ c (Proc.devRef .tc main_v9)) (R36 m c) (by
      intro e f h0 h1
      have hidx : (broadcastInDim S600000x1 ![0] bcast_S600000_S600000x1_0 (R7 m c)) (Cert.Lib.RowOps.at0 e) = R7 m c (ix1 e) := Cert.ReferenceIdeal.Index.raw_dst1 (rA26 m c) e
      rw [hidx] at h0 h1
      exact msg1_apply m ρ c hsrc e f h0 h1)
  exact key

/-- The means per target node are the reference's. -/
theorem mean1 (hsrc : ∀ e : Fin 600000, (-50000 : Int) ≤ (R5 m c (ix1 e)).toInt ∧ (R5 m c (ix1 e)).toInt < 50000) : W7 (F := Ideal) m ρ c (Proc.devRef .tc main_v21) = R48 m c := by
  dsimp only [W7, hostOps2]
  after_results_simp
  rw [at6_main_v3 m ρ c, dst_row m ρ c, scat1 m ρ c hsrc]
  rfl

/-- The scale row (the gain divided by the square root of one plus epsilon) is the reference's. -/
theorem scale1 : W7 (F := Ideal) m ρ c (Proc.devRef .tc main_v25) = R52 m c := by
  dsimp only [W7, hostOps2]
  after_results_simp
  rw [at6_main_arg18 m ρ c]
  rfl

/-- After the layer's second region the node array holds the reference's nodes after the layer. -/
theorem nodes1 (hsrc : ∀ e : Fin 600000, (-50000 : Int) ≤ (R5 m c (ix1 e)).toInt ∧ (R5 m c (ix1 e)).toInt < 50000) : W8 (F := Ideal) m ρ c (Proc.devRef .tc main_v26) = R59 m c := by
  refine (W8_arr m ρ c 3).trans ?_
  refine (Cert.KernelIdeal.Region2.arr (V7 (F := Ideal) m ρ) c).trans ?_
  have e0 : V7 (F := Ideal) m ρ c (Pipeline.arrRef spec2 0) = R48 m c := mean1 m ρ c hsrc
  have e1 : V7 (F := Ideal) m ρ c (Pipeline.arrRef spec2 1) = R52 m c := scale1 m ρ c
  have e2 : V7 (F := Ideal) m ρ c (Pipeline.arrRef spec2 2) = m ((c : Thread nD τ).loc main_arg19) := in7_main_arg19 m ρ c
  rw [e0, e1, e2]
  exact (Cert.ReferenceIdeal.Stage.stage_v59 (rA0 m c) (rA4 m c) (rA5 m c) (rA6 m c) (rA7 m c) (rA8 m c) (rA9 m c) (rA18 m c) (rA19 m c) (rA26 m c)).symm

end Cert.Bridge
end
-- ==== Proof.Region3.lean ====
import proofs.«142674_j19808389169323_1_alg».proof.Proof.Gen.KernelIdeal.Frame
import proofs.«142674_j19808389169323_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Region3

/-- The first two products' dimensions: a [6000,128] block of rows against a [128,64] matrix. -/
abbrev DA := dot_S6000x128_S128x64_S6000x64_1_0_0_1_n_n

theorem DA_lhs0 (i : S6000x64.Idx) (q : DA.contr.Idx) : (DA.lhsIdx i q 0).val = (i 0).val := by
  unfold DotDims.lhsIdx
  rw [dif_neg (show ¬(0 : Fin S6000x128.rank) ∈ DA.lhsBatch by decide), dif_pos (show (0 : Fin S6000x128.rank) ∈ DA.lhsNonContracting by decide)]
  rfl
theorem DA_lhs1 (i : S6000x64.Idx) (q : DA.contr.Idx) : (DA.lhsIdx i q 1).val = (q ⟨0, by decide⟩).val :=
  DA.lhsIdx_val_of_single rfl i q
theorem DA_rhs0 (i : S6000x64.Idx) (q : DA.contr.Idx) : (DA.rhsIdx i q 0).val = (q ⟨0, by decide⟩).val :=
  DA.rhsIdx_val_of_single rfl i q
theorem DA_rhs1 (i : S6000x64.Idx) (q : DA.contr.Idx) : (DA.rhsIdx i q 1).val = (i 1).val := by
  unfold DotDims.rhsIdx
  rw [dif_neg (show ¬(1 : Fin S128x64.rank) ∈ DA.rhsBatch by decide), dif_pos (show (1 : Fin S128x64.rank) ∈ DA.rhsNonContracting by decide)]
  rfl

/-- Such a product into the zero accumulator, read at row p and column q: the sum over the 128 shared coordinates. -/
theorem DA_apply (l : FVec Ideal S6000x128 .bf16) (r : FVec Ideal S128x64 .bf16) (p : Fin 6000) (q : Fin 64) :
    matmul DA none l r (constant (F := Ideal) S6000x64 .f32 0x00000000#32) (ix2 p q)
      = ∑ k : Fin 128, l (ix2 p k) * r (ix2 k q) := by
  refine (Ideal.matmul_constant_zero_apply DA none l r (ix2 p q)).trans ?_
  rw [← Equiv.sum_comp (contrEquiv1 DA 128 rfl rfl).symm]
  refine Finset.sum_congr rfl fun k _ => ?_
  have hk := contrEquiv1_symm_val DA 128 rfl rfl k
  have el : DA.lhsIdx (ix2 p q) ((contrEquiv1 DA 128 rfl rfl).symm k) = ix2 p k := funext fun a => Fin.ext (by
    match a with
    | ⟨0, _⟩ => exact DA_lhs0 _ _
    | ⟨1, _⟩ => exact (DA_lhs1 _ _).trans hk)
  have er : DA.rhsIdx (ix2 p q) ((contrEquiv1 DA 128 rfl rfl).symm k) = ix2 k q := funext fun a => Fin.ext (by
    match a with
    | ⟨0, _⟩ => exact (DA_rhs0 _ _).trans hk
    | ⟨1, _⟩ => exact DA_rhs1 _ _)
  rw [el, er]

/-- The last product's dimensions: the [6000,64] hidden block against the [64,64] matrix. -/
abbrev DW := dot_S6000x64_S64x64_S6000x64_1_0_0_1_n_n

theorem DW_lhs0 (i : S6000x64.Idx) (q : DW.contr.Idx) : (DW.lhsIdx i q 0).val = (i 0).val := by
  unfold DotDims.lhsIdx
  rw [dif_neg (show ¬(0 : Fin S6000x64.rank) ∈ DW.lhsBatch by decide), dif_pos (show (0 : Fin S6000x64.rank) ∈ DW.lhsNonContracting by decide)]
  rfl
theorem DW_lhs1 (i : S6000x64.Idx) (q : DW.contr.Idx) : (DW.lhsIdx i q 1).val = (q ⟨0, by decide⟩).val :=
  DW.lhsIdx_val_of_single rfl i q
theorem DW_rhs0 (i : S6000x64.Idx) (q : DW.contr.Idx) : (DW.rhsIdx i q 0).val = (q ⟨0, by decide⟩).val :=
  DW.rhsIdx_val_of_single rfl i q
theorem DW_rhs1 (i : S6000x64.Idx) (q : DW.contr.Idx) : (DW.rhsIdx i q 1).val = (i 1).val := by
  unfold DotDims.rhsIdx
  rw [dif_neg (show ¬(1 : Fin S64x64.rank) ∈ DW.rhsBatch by decide), dif_pos (show (1 : Fin S64x64.rank) ∈ DW.rhsNonContracting by decide)]
  rfl

/-- Such a product into the zero accumulator, read at row p and column q: the sum over the 64 shared coordinates. -/
theorem DW_apply (l : FVec Ideal S6000x64 .bf16) (r : FVec Ideal S64x64 .bf16) (p : Fin 6000) (q : Fin 64) :
    matmul DW none l r (constant (F := Ideal) S6000x64 .f32 0x00000000#32) (ix2 p q)
      = ∑ k : Fin 64, l (ix2 p k) * r (ix2 k q) := by
  refine (Ideal.matmul_constant_zero_apply DW none l r (ix2 p q)).trans ?_
  rw [← Equiv.sum_comp (contrEquiv1 DW 64 rfl rfl).symm]
  refine Finset.sum_congr rfl fun k _ => ?_
  have hk := contrEquiv1_symm_val DW 64 rfl rfl k
  have el : DW.lhsIdx (ix2 p q) ((contrEquiv1 DW 64 rfl rfl).symm k) = ix2 p k := funext fun a => Fin.ext (by
    match a with
    | ⟨0, _⟩ => exact DW_lhs0 _ _
    | ⟨1, _⟩ => exact (DW_lhs1 _ _).trans hk)
  have er : DW.rhsIdx (ix2 p q) ((contrEquiv1 DW 64 rfl rfl).symm k) = ix2 k q := funext fun a => Fin.ext (by
    match a with
    | ⟨0, _⟩ => exact (DW_rhs0 _ _).trans hk
    | ⟨1, _⟩ => exact DW_rhs1 _ _)
  rw [el, er]

/-- A row of 64 entries re-laid as one row of a matrix and repeated down 6000 rows reads, at (p, q), its entry q. -/
theorem rowH_apply (b : Vec Ideal S64 .f32) (p : Fin 6000) (q : Fin 64) :
    broadcastTo S6000x64 (shapeCast S1x64 b Gen.shapeCasts_S64_S1x64) Gen.broadcasts_S1x64_S6000x64 (ix2 p q) = b (ix1 q) :=
  (broadcastTo_1b_ab_apply _ Gen.broadcasts_S1x64_S6000x64 p q).trans (shapeCast_a_1a_apply b Gen.shapeCasts_S64_S1x64 0 q)

/-- The body's arithmetic at entry (p, q) of its output block, over any seven loaded blocks: the message's entry. -/
theorem pay_apply (x0 x1 : Vec Ideal S6000x128 .f32) (a b : Vec Ideal S128x64 .f32) (ba : Vec Ideal S64 .f32)
    (wb : Vec Ideal S64x64 .f32) (bb : Vec Ideal S64 .f32) (p : Fin 6000) (q : Fin 64) :
    Gen.k3_pay1 (F := Ideal) x0 x1 a b ba wb bb (ix2 p q) = Cert.Spec.edgeOut x0 x1 a b ba wb bb p q := by
  unfold Gen.k3_pay1
  simp only [shapeCast_self]
  refine (congrArg₂ (· + ·) (DW_apply _ _ p q) (rowH_apply bb p q)).trans ?_
  refine congrArg (· + bb (ix1 q)) (Finset.sum_congr rfl fun h _ => ?_)
  refine congrArg (· * wb (ix2 h q)) ?_
  refine congrArg (max · (Ideal.ofBits .f32 0x00000000#32)) ?_
  exact congrArg₂ (· + ·) (congrArg₂ (· + ·) (DA_apply _ _ p h) (DA_apply _ _ p h)) (rowH_apply ba p h)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-blocked inputs and the output are at block t of their rows, every
    other window at its one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

/-- Window 0's block at point t is rows 6000·t … 6000·t + 5999 of its array. -/
theorem rows0_apply (V : (c : Dev nD) → (b : Ref sig .tc) → Buf (Elt Ideal) ((c : Thread nD τ).loc b)) (c : Dev nD) (t : Fin cfg3.N) (p : Fin 6000) (k : Fin 128) (r : Fin 600000)
    (hr : r.val = t.val * 6000 + p.val) :
    (Gen.iblk3 V c 0 t : Vec Ideal S6000x128 .f32) (ix2 p k) = (V c (Pipeline.arrRef spec3 0) : S600000x128.Idx → EReal) (ix2 r k) := by
  have e0 := (idx_facts t).1
  have e1 := (idx_facts t).2.1
  unfold Gen.iblk3
  rw [View.read_apply]
  refine congrArg (V c (Pipeline.arrRef spec3 0)) (funext fun a => Fin.ext ?_)
  match a with
  | ⟨0, _⟩ => show win3_0.index t (0 : Fin 2) * 6000 + 1 * p.val = r.val; rw [e0, hr]; omega
  | ⟨1, _⟩ => show win3_0.index t (1 : Fin 2) * 128 + 1 * k.val = k.val; rw [e1]; omega

/-- Window 1's block at point t is rows 6000·t … 6000·t + 5999 of its array. -/
theorem rows1_apply (V : (c : Dev nD) → (b : Ref sig .tc) → Buf (Elt Ideal) ((c : Thread nD τ).loc b)) (c : Dev nD) (t : Fin cfg3.N) (p : Fin 6000) (k : Fin 128) (r : Fin 600000)
    (hr : r.val = t.val * 6000 + p.val) :
    (Gen.iblk3 V c 1 t : Vec Ideal S6000x128 .f32) (ix2 p k) = (V c (Pipeline.arrRef spec3 1) : S600000x128.Idx → EReal) (ix2 r k) := by
  have e0 := (idx_facts t).2.2.1
  have e1 := (idx_facts t).2.2.2.1
  unfold Gen.iblk3
  rw [View.read_apply]
  refine congrArg (V c (Pipeline.arrRef spec3 1)) (funext fun a => Fin.ext ?_)
  match a with
  | ⟨0, _⟩ => show win3_1.index t (0 : Fin 2) * 6000 + 1 * p.val = r.val; rw [e0, hr]; omega
  | ⟨1, _⟩ => show win3_1.index t (1 : Fin 2) * 128 + 1 * k.val = k.val; rw [e1]; omega

/-- Window 2's block at every point is its whole array. -/
theorem whole2_apply (V : (c : Dev nD) → (b : Ref sig .tc) → Buf (Elt Ideal) ((c : Thread nD τ).loc b)) (c : Dev nD) (t : Fin cfg3.N) (x : Fin 128) (y : Fin 64) :
    (Gen.iblk3 V c 2 t : Vec Ideal S128x64 .f32) (ix2 x y) = (V c (Pipeline.arrRef spec3 2) : S128x64.Idx → EReal) (ix2 x y) := by
  have e0 := (idx_facts t).2.2.2.2.1
  have e1 := (idx_facts t).2.2.2.2.2.1
  unfold Gen.iblk3
  rw [View.read_apply]
  refine congrArg (V c (Pipeline.arrRef spec3 2)) (funext fun a => Fin.ext ?_)
  match a with
  | ⟨0, _⟩ => show win3_2.index t (0 : Fin 2) * 128 + 1 * x.val = x.val; rw [e0]; omega
  | ⟨1, _⟩ => show win3_2.index t (1 : Fin 2) * 64 + 1 * y.val = y.val; rw [e1]; omega

/-- Window 3's block at every point is its whole array. -/
theorem whole3_apply (V : (c : Dev nD) → (b : Ref sig .tc) → Buf (Elt Ideal) ((c : Thread nD τ).loc b)) (c : Dev nD) (t : Fin cfg3.N) (x : Fin 128) (y : Fin 64) :
    (Gen.iblk3 V c 3 t : Vec Ideal S128x64 .f32) (ix2 x y) = (V c (Pipeline.arrRef spec3 3) : S128x64.Idx → EReal) (ix2 x y) := by
  have e0 := (idx_facts t).2.2.2.2.2.2.1
  have e1 := (idx_facts t).2.2.2.2.2.2.2.1
  unfold Gen.iblk3
  rw [View.read_apply]
  refine congrArg (V c (Pipeline.arrRef spec3 3)) (funext fun a => Fin.ext ?_)
  match a with
  | ⟨0, _⟩ => show win3_3.index t (0 : Fin 2) * 128 + 1 * x.val = x.val; rw [e0]; omega
  | ⟨1, _⟩ => show win3_3.index t (1 : Fin 2) * 64 + 1 * y.val = y.val; rw [e1]; omega

/-- Window 4's block at every point is its whole array. -/
theorem whole4_apply (V : (c : Dev nD) → (b : Ref sig .tc) → Buf (Elt Ideal) ((c : Thread nD τ).loc b)) (c : Dev nD) (t : Fin cfg3.N) (x : Fin 64) :
    (Gen.iblk3 V c 4 t : Vec Ideal S64 .f32) (ix1 x) = (V c (Pipeline.arrRef spec3 4) : S64.Idx → EReal) (ix1 x) := by
  have e0 := (idx_facts t).2.2.2.2.2.2.2.2.1
  unfold Gen.iblk3
  rw [View.read_apply]
  refine congrArg (V c (Pipeline.arrRef spec3 4)) (funext fun a => Fin.ext ?_)
  match a with
  | ⟨0, _⟩ => show win3_4.index t (0 : Fin 1) * 64 + 1 * x.val = x.val; rw [e0]; omega

/-- Window 5's block at every point is its whole array. -/
theorem whole5_apply (V : (c : Dev nD) → (b : Ref sig .tc) → Buf (Elt Ideal) ((c : Thread nD τ).loc b)) (c : Dev nD) (t : Fin cfg3.N) (x : Fin 64) (y : Fin 64) :
    (Gen.iblk3 V c 5 t : Vec Ideal S64x64 .f32) (ix2 x y) = (V c (Pipeline.arrRef spec3 5) : S64x64.Idx → EReal) (ix2 x y) := by
  have e0 := (idx_facts t).2.2.2.2.2.2.2.2.2.1
  have e1 := (idx_facts t).2.2.2.2.2.2.2.2.2.2.1
  unfold Gen.iblk3
  rw [View.read_apply]
  refine congrArg (V c (Pipeline.arrRef spec3 5)) (funext fun a => Fin.ext ?_)
  match a with
  | ⟨0, _⟩ => show win3_5.index t (0 : Fin 2) * 64 + 1 * x.val = x.val; rw [e0]; omega
  | ⟨1, _⟩ => show win3_5.index t (1 : Fin 2) * 64 + 1 * y.val = y.val; rw [e1]; omega

/-- Window 6's block at every point is its whole array. -/
theorem whole6_apply (V : (c : Dev nD) → (b : Ref sig .tc) → Buf (Elt Ideal) ((c : Thread nD τ).loc b)) (c : Dev nD) (t : Fin cfg3.N) (x : Fin 64) :
    (Gen.iblk3 V c 6 t : Vec Ideal S64 .f32) (ix1 x) = (V c (Pipeline.arrRef spec3 6) : S64.Idx → EReal) (ix1 x) := by
  have e0 := (idx_facts t).2.2.2.2.2.2.2.2.2.2.2.1
  unfold Gen.iblk3
  rw [View.read_apply]
  refine congrArg (V c (Pipeline.arrRef spec3 6)) (funext fun a => Fin.ext ?_)
  match a with
  | ⟨0, _⟩ => show win3_6.index t (0 : Fin 1) * 64 + 1 * x.val = x.val; rw [e0]; omega

/-- The messages of all 600000 edges, entry by entry, from the arrays as the region finds them. -/
abbrev G (V : (c : Dev nD) → (b : Ref sig .tc) → Buf (Elt Ideal) ((c : Thread nD τ).loc b)) (c : Dev nD) : S600000x64.Idx → EReal :=
  fun j => Cert.Spec.edgeOut (V c (Pipeline.arrRef spec3 0) : S600000x128.Idx → EReal) (V c (Pipeline.arrRef spec3 1) : S600000x128.Idx → EReal) (V c (Pipeline.arrRef spec3 2) : S128x64.Idx → EReal) (V c (Pipeline.arrRef spec3 3) : S128x64.Idx → EReal) (V c (Pipeline.arrRef spec3 4) : S64.Idx → EReal) (V c (Pipeline.arrRef spec3 5) : S64x64.Idx → EReal) (V c (Pipeline.arrRef spec3 6) : S64.Idx → EReal) (j 0) (j 1)

/-- What point t writes back is block t of the messages. -/
theorem flushed_eq (V : (c : Dev nD) → (b : Ref sig .tc) → Buf (Elt Ideal) ((c : Thread nD τ).loc b)) (c : Dev nD) (t : Fin cfg3.N) :
    (Gen.dat3 (F := Ideal) V c).flushed 7 t = ((cfg3.win 7).blk t).view.read (Elt Ideal) (G V c) := by
  show (cfg3.win 7).cut (grid3.coords t) ((Gen.dat3 V c).after 7 t) = _
  rw [Gen.after3_7]
  unfold Gen.out3_7
  rw [View.canon_unit_zero hz2]
  simp only [View.ld_unit_zero (S := S6000x128) hz2, View.ld_unit_zero (S := S128x64) hz2, View.ld_unit_zero (S := S64x64) hz2, View.ld_unit_zero (S := S64) hz1]
  funext j
  obtain ⟨p, q, rfl⟩ : ∃ (p : Fin 6000) (q : Fin 64), j = ix2 p q := ⟨j 0, j 1, eq_ix2 j⟩

  have hN : cfg3.N = 100 := Gen.N_3
  have ht : t.val < 100 := by have := t.isLt; omega
  obtain ⟨r, hr⟩ : ∃ r : Fin 600000, r.val = t.val * 6000 + p.val := ⟨⟨t.val * 6000 + p.val, by have := p.isLt; omega⟩, rfl⟩
  have e0 := (idx_facts t).2.2.2.2.2.2.2.2.2.2.2.2.1
  have e1 := (idx_facts t).2.2.2.2.2.2.2.2.2.2.2.2.2
  have hemb : ((cfg3.win 7).blk t).view.emb (ix2 p q) = (ix2 r q : S600000x64.Idx) := funext fun a => Fin.ext (by
    match a with
    | ⟨0, _⟩ => show win3_7.index t (0 : Fin 2) * 6000 + 1 * p.val = r.val; rw [e0, hr]; omega
    | ⟨1, _⟩ => show win3_7.index t (1 : Fin 2) * 64 + 1 * q.val = q.val; rw [e1]; omega)
  show Gen.k3_pay1 (F := Ideal) (Gen.iblk3 V c 0 t) (Gen.iblk3 V c 1 t) (Gen.iblk3 V c 2 t) (Gen.iblk3 V c 3 t) (Gen.iblk3 V c 4 t) (Gen.iblk3 V c 5 t) (Gen.iblk3 V c 6 t) (ix2 p q) = G V c (((cfg3.win 7).blk t).view.emb (ix2 p q))
  refine (pay_apply (Gen.iblk3 V c 0 t) (Gen.iblk3 V c 1 t) (Gen.iblk3 V c 2 t) (Gen.iblk3 V c 3 t) (Gen.iblk3 V c 4 t) (Gen.iblk3 V c 5 t) (Gen.iblk3 V c 6 t) p q).trans ?_
  refine Eq.trans ?_ (congrArg (G V c) hemb).symm
  show Cert.Spec.edgeOut (Gen.iblk3 V c 0 t) (Gen.iblk3 V c 1 t) (Gen.iblk3 V c 2 t) (Gen.iblk3 V c 3 t) (Gen.iblk3 V c 4 t) (Gen.iblk3 V c 5 t) (Gen.iblk3 V c 6 t) p q = Cert.Spec.edgeOut (V c (Pipeline.arrRef spec3 0) : S600000x128.Idx → EReal) (V c (Pipeline.arrRef spec3 1) : S600000x128.Idx → EReal) (V c (Pipeline.arrRef spec3 2) : S128x64.Idx → EReal) (V c (Pipeline.arrRef spec3 3) : S128x64.Idx → EReal) (V c (Pipeline.arrRef spec3 4) : S64.Idx → EReal) (V c (Pipeline.arrRef spec3 5) : S64x64.Idx → EReal) (V c (Pipeline.arrRef spec3 6) : S64.Idx → EReal) r q
  unfold Cert.Spec.edgeOut Cert.Spec.edgeHidden
  simp only [fun k => rows0_apply V c t p k r hr, fun k => rows1_apply V c t p k r hr, whole2_apply V c t, whole3_apply V c t,
    whole4_apply V c t, whole5_apply V c t, whole6_apply V c t]

/-- An index of the output array is in point t's block iff each coordinate is in the block's range on its axis. -/
theorem mem_blk (t : Fin cfg3.N) (i : S600000x64.Idx) :
    i ∈ ((cfg3.win 7).blk t).view.set ↔ ∀ a : Fin 2, win3_7.index t a * S6000x64.size a ≤ (i a).val ∧ (i a).val < win3_7.index t a * S6000x64.size a + S6000x64.size a := by
  show i ∈ ((View.whole main_v31).slice (win3_7.rect t)).set ↔ _
  rw [View.set_slice_whole, Rect.mem_set_unit]
  exact Iff.rfl

/-- Every row of the output array is in the block of the point numbered by the row's quotient by 6000. -/
theorem cover (i : S600000x64.Idx) : ∃ t : Fin cfg3.N, (cfg3.win 7).flush t = true ∧ i ∈ ((cfg3.win 7).blk t).view.set := by
  have h0 : (i 0).val < 600000 := (i 0).isLt
  have h1 : (i 1).val < 64 := (i 1).isLt
  have hN : cfg3.N = 100 := Gen.N_3
  obtain ⟨t, htv⟩ : ∃ t : Fin cfg3.N, t.val = (i 0).val / 6000 := ⟨⟨(i 0).val / 6000, by omega⟩, rfl⟩
  have e0 := (idx_facts t).2.2.2.2.2.2.2.2.2.2.2.2.1
  have e1 := (idx_facts t).2.2.2.2.2.2.2.2.2.2.2.2.2
  refine ⟨t, Gen.flush3_7 t, ?_⟩
  rw [mem_blk]
  intro a
  match a with
  | ⟨0, _⟩ => show win3_7.index t (0 : Fin 2) * 6000 ≤ (i 0).val ∧ (i 0).val < win3_7.index t (0 : Fin 2) * 6000 + 6000; rw [e0, htv]; omega
  | ⟨1, _⟩ => show win3_7.index t (1 : Fin 2) * 64 ≤ (i 1).val ∧ (i 1).val < win3_7.index t (1 : Fin 2) * 64 + 64; rw [e1]; omega

/-- After the region's whole grid the output array holds the messages of the input arrays as the region found them. -/
theorem arr (V : (c : Dev nD) → (b : Ref sig .tc) → Buf (Elt Ideal) ((c : Thread nD τ).loc b)) (c : Dev nD) :
    (Gen.dat3 (F := Ideal) V c).arrAt 7 cfg3.N = fun j => Cert.Spec.edgeOut (V c (Pipeline.arrRef spec3 0) : S600000x128.Idx → EReal) (V c (Pipeline.arrRef spec3 1) : S600000x128.Idx → EReal) (V c (Pipeline.arrRef spec3 2) : S128x64.Idx → EReal) (V c (Pipeline.arrRef spec3 3) : S128x64.Idx → EReal) (V c (Pipeline.arrRef spec3 4) : S64.Idx → EReal) (V c (Pipeline.arrRef spec3 5) : S64x64.Idx → EReal) (V c (Pipeline.arrRef spec3 6) : S64.Idx → EReal) (j 0) (j 1) :=
  (Gen.dat3 V c).arrAt_eq_of_cover 7 (G V c) (fun t _ => flushed_eq V c t) cover

end Cert.KernelIdeal.Region3

end
-- ==== Proof.Region4.lean ====
/-
  The scale-shift-rectify stage at width 64.

  The stage takes a matrix h of 50000 rows and 64 columns and two rows s and b of 64 entries, and leaves the matrix whose
  entry (r, c) is max(h(r, c) · s(c) + b(c), 0). It is computed in 10 steps; step t computes rows 5000·t … 5000·t + 4999
  from the same rows of h and the whole of s and b, and the 10 row blocks tile the result.

  * `pay_apply`   : one step's arithmetic at an entry (p, q) of its block: max(x(p, q) · s(q) + b(q), 0). The two rows
                    are first viewed as one-row matrices and then repeated over the 5000 rows; both re-layings read
                    entry q of the row whatever p is.
  * `index_facts` : step t reads block t of h, the only block of s and of b, and writes block t of the result.
  * `block*_apply`: an entry of a step's input block is the entry of the whole array at row 5000·t + p.
  * `flushed_eq`  : what step t writes is block t of the whole-array function.
  * `cover`       : row r of the result is in the block of step r / 5000.
  * `arr`         : after the 10 steps the result is the whole-array function, entry by entry.
-/
import proofs.«142674_j19808389169323_1_alg».proof.Proof.Gen.KernelIdeal.Frame
import proofs.«142674_j19808389169323_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Two zero offsets, as the constant function. -/
theorem zero2 : (![0, 0] : Fin 2 → Nat) = fun _ => 0 := funext fun a => by fin_cases a <;> rfl

/-- One zero offset, as the constant function. -/
theorem zero1 : (![0] : Fin 1 → Nat) = fun _ => 0 := funext fun a => by fin_cases a; rfl

/-- The whole-array function: entry (r, c) is max(h(r, c) · s(c) + b(c), 0). -/
abbrev G (h : S50000x64.Idx → Elt Ideal .f32) (s b : S64.Idx → Elt Ideal .f32) : S50000x64.Idx → Elt Ideal .f32 :=
  fun j => Cert.Spec.scaleShiftRelu (M := 50000) (D := 64) h s b (j 0) (j 1)

/-- One step's arithmetic at entry (p, q) of its block: the scale and the shift are read at column q. -/
theorem pay_apply (x0 : Vec Ideal S5000x64 .f32) (x1 : Vec Ideal S64 .f32) (x2 : Vec Ideal S64 .f32)
    (p : Fin 5000) (q : Fin 64) :
    Gen.k4_pay1 (F := Ideal) x0 x1 x2 (ix2 p q)
      = max (x0 (ix2 p q) * x1 (ix1 q) + x2 (ix1 q)) Cert.Spec.zeroWord := by
  unfold Gen.k4_pay1
  simp only [maximumf_apply, addf_apply, mulf_apply, broadcast_apply, shapeCast_self, broadcastTo_1b_ab_apply,
    shapeCast_a_1a_apply]
  rfl

/-- Step t reads block t of the matrix and the one block of each row, and writes block t of the result. -/
theorem index_facts : ∀ t : Fin cfg4.N,
    win4_0.index t (0 : Fin 2) = t.val ∧ win4_0.index t (1 : Fin 2) = 0
    ∧ win4_1.index t (0 : Fin 1) = 0 ∧ win4_2.index t (0 : Fin 1) = 0
    ∧ win4_3.index t (0 : Fin 2) = t.val ∧ win4_3.index t (1 : Fin 2) = 0 :=
  (by decide +kernel : ∀ t : Fin grid4.N, _)

/-- Entry x of step t's block of the matrix is the matrix's entry at row 5000·t + x₀, column x₁. -/
theorem block0_apply (c : Dev nD) (t : Fin cfg4.N) (x : S5000x64.Idx) (k : S50000x64.Idx)
    (hk0 : (k 0).val = t.val * 5000 + (x 0).val) (hk1 : (k 1).val = (x 1).val) :
    (Gen.iblk4 V c 0 t : Vec Ideal S5000x64 .f32) x
      = (V c (Pipeline.arrRef spec4 0) : S50000x64.Idx → Elt Ideal .f32) k := by
  obtain ⟨e0, e1, -, -, -, -⟩ := index_facts t
  unfold Gen.iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * (x 0).val = (k 0).val; omega
  | ⟨1, _⟩ => show win4_0.index t (1 : Fin 2) * 64 + 1 * (x 1).val = (k 1).val; omega

/-- Step t's block of the scale row is the whole row. -/
theorem block1_apply (c : Dev nD) (t : Fin cfg4.N) (x : S64.Idx) :
    (Gen.iblk4 V c 1 t : Vec Ideal S64 .f32) x
      = (V c (Pipeline.arrRef spec4 1) : S64.Idx → Elt Ideal .f32) x := by
  obtain ⟨-, -, e2, -, -, -⟩ := index_facts t
  unfold Gen.iblk4
  rw [View.read_apply]
  show V c (Pipeline.arrRef spec4 1) _ = V c (Pipeline.arrRef spec4 1) _
  congr 1
  funext a
  apply Fin.ext
  match a with
  | ⟨0, _⟩ => show win4_1.index t (0 : Fin 1) * 64 + 1 * (x 0).val = (x 0).val; omega

/-- Step t's block of the shift row is the whole row. -/
theorem block2_apply (c : Dev nD) (t : Fin cfg4.N) (x : S64.Idx) :
    (Gen.iblk4 V c 2 t : Vec Ideal S64 .f32) x
      = (V c (Pipeline.arrRef spec4 2) : S64.Idx → Elt Ideal .f32) x := by
  obtain ⟨-, -, -, e3, -, -⟩ := index_facts t
  unfold Gen.iblk4
  rw [View.read_apply]
  show V c (Pipeline.arrRef spec4 2) _ = V c (Pipeline.arrRef spec4 2) _
  congr 1
  funext a
  apply Fin.ext
  match a with
  | ⟨0, _⟩ => show win4_2.index t (0 : Fin 1) * 64 + 1 * (x 0).val = (x 0).val; omega

/-- One step's arithmetic at entry (p, q) of its block is the whole-array function at entry (r, q), when the block of the
    matrix reads row r of the matrix at its row p and the two rows are read whole. -/
theorem entry_of (x0 : Vec Ideal S5000x64 .f32) (x1 : Vec Ideal S64 .f32) (x2 : Vec Ideal S64 .f32)
    (a0 : S50000x64.Idx → Elt Ideal .f32) (a1 a2 : S64.Idx → Elt Ideal .f32) (p : Fin 5000) (q : Fin 64) (r : Fin 50000)
    (h0 : x0 (ix2 p q) = a0 (ix2 r q)) (h1 : x1 (ix1 q) = a1 (ix1 q)) (h2 : x2 (ix1 q) = a2 (ix1 q)) :
    Gen.k4_pay1 (F := Ideal) x0 x1 x2 (ix2 p q) = G a0 a1 a2 (ix2 r q) := by
  refine (pay_apply x0 x1 x2 p q).trans ?_
  rw [h0, h1, h2]
  rfl

/-- What the step leaves in the result's block is its arithmetic of the three input blocks. -/
theorem after_eq (c : Dev nD) (t : Fin cfg4.N) :
    (Gen.dat4 (F := Ideal) V c).after 3 t = Gen.k4_pay1 (Gen.iblk4 V c 0 t) (Gen.iblk4 V c 1 t) (Gen.iblk4 V c 2 t) := by
  rw [Gen.after4_3]
  unfold Gen.out4_3
  rw [View.canon_unit_zero zero2]
  simp only [View.ld_unit_zero (S := S5000x64) zero2, View.ld_unit_zero (S := S64) zero1]

/-- What step t writes back is block t of the whole-array function of the three arrays as the stage finds them. -/
theorem flushed_eq (c : Dev nD) (t : Fin cfg4.N) :
    (Gen.dat4 (F := Ideal) V c).flushed 3 t
      = ((cfg4.win 3).blk t).view.read (Elt Ideal) (G (V c (Pipeline.arrRef spec4 0)) (V c (Pipeline.arrRef spec4 1)) (V c (Pipeline.arrRef spec4 2))) := by
  show (cfg4.win 3).cut (grid4.coords t) ((Gen.dat4 V c).after 3 t) = _
  rw [after_eq V c t]
  obtain ⟨-, -, -, -, e4, e5⟩ := index_facts t
  have hN : cfg4.N = 10 := Gen.N_4
  have ht : t.val < 10 := hN ▸ t.isLt
  funext j
  -- the entry's coordinates (p, q) inside the block, and the row r of the whole array it lands on
  have hp : (j 0).val < 5000 := (j 0).isLt
  have hq : (j 1).val < 64 := (j 1).isLt
  have hr : t.val * 5000 + (j 0).val < 50000 := by omega
  have hx : (cfg4.win 3).xinj (grid4.coords t) j = ix2 (n0 := 5000) (n1 := 64) ⟨(j 0).val, hp⟩ ⟨(j 1).val, hq⟩ :=
    funext fun a => by match a with | ⟨0, _⟩ => rfl | ⟨1, _⟩ => rfl
  have hE : (((cfg4.win 3).blk t).view.emb j : S50000x64.Idx)
      = ix2 (n0 := 50000) (n1 := 64) ⟨t.val * 5000 + (j 0).val, hr⟩ ⟨(j 1).val, hq⟩ := by
    funext a
    apply Fin.ext
    match a with
    | ⟨0, _⟩ => show win4_3.index t (0 : Fin 2) * 5000 + 1 * (j 0).val = t.val * 5000 + (j 0).val; omega
    | ⟨1, _⟩ => show win4_3.index t (1 : Fin 2) * 64 + 1 * (j 1).val = (j 1).val; omega
  show Gen.k4_pay1 (Gen.iblk4 V c 0 t) (Gen.iblk4 V c 1 t) (Gen.iblk4 V c 2 t) ((cfg4.win 3).xinj (grid4.coords t) j)
    = G (V c (Pipeline.arrRef spec4 0)) (V c (Pipeline.arrRef spec4 1)) (V c (Pipeline.arrRef spec4 2)) (((cfg4.win 3).blk t).view.emb j : S50000x64.Idx)
  exact (congrArg (Gen.k4_pay1 (Gen.iblk4 V c 0 t) (Gen.iblk4 V c 1 t) (Gen.iblk4 V c 2 t)) hx).trans
    ((entry_of (Gen.iblk4 V c 0 t) (Gen.iblk4 V c 1 t) (Gen.iblk4 V c 2 t) (V c (Pipeline.arrRef spec4 0)) (V c (Pipeline.arrRef spec4 1)) (V c (Pipeline.arrRef spec4 2)) ⟨(j 0).val, hp⟩ ⟨(j 1).val, hq⟩ ⟨t.val * 5000 + (j 0).val, hr⟩
        (block0_apply V c t (ix2 ⟨(j 0).val, hp⟩ ⟨(j 1).val, hq⟩) (ix2 ⟨t.val * 5000 + (j 0).val, hr⟩ ⟨(j 1).val, hq⟩) rfl rfl)
        (block1_apply V c t (ix1 ⟨(j 1).val, hq⟩)) (block2_apply V c t (ix1 ⟨(j 1).val, hq⟩))).trans
      (congrArg (G (V c (Pipeline.arrRef spec4 0)) (V c (Pipeline.arrRef spec4 1)) (V c (Pipeline.arrRef spec4 2))) hE).symm)

/-- An entry of the result is in step t's block iff its row is among rows 5000·t … 5000·t + 4999. -/
theorem mem_blk (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v48).slice (win4_3.rect t)).set ↔ _
  rw [View.set_slice_whole, Rect.mem_set_unit]
  exact Iff.rfl

/-- Every entry of the result is in the block of the step its row names: row r is written by step r / 5000. -/
theorem cover (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := Gen.N_4
  let t : Fin cfg4.N := ⟨(i 0).val / 5000, by rw [hN]; omega⟩
  obtain ⟨-, -, -, -, e4, e5⟩ := index_facts t
  have ht : t.val = (i 0).val / 5000 := rfl
  refine ⟨t, Gen.flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After its 10 steps the stage's result is max(h · s + b, 0) of the three arrays as the stage found them, entry by entry. -/
theorem arr (c : Dev nD) :
    (Gen.dat4 (F := Ideal) V c).arrAt 3 cfg4.N
      = fun j => Cert.Spec.scaleShiftRelu (M := 50000) (D := 64) (V c (Pipeline.arrRef spec4 0)) (V c (Pipeline.arrRef spec4 1))
          (V c (Pipeline.arrRef spec4 2)) (j 0) (j 1) :=
  (Gen.dat4 (F := Ideal) V c).arrAt_eq_of_cover 3
    (G (V c (Pipeline.arrRef spec4 0)) (V c (Pipeline.arrRef spec4 1)) (V c (Pipeline.arrRef spec4 2)))
    (fun t _ => flushed_eq V c t) cover

end Cert.KernelIdeal.Region4

end
-- ==== Proof.Bridge2.lean ====
/-
  Layer 2 of the network, the two programs side by side.

  The kernel's program gathers, per edge, the node row at the edge's target and the node row at its source (a row whose
  number is out of range filled with a fill word), cuts the layer's first weight matrix into the half that meets the
  target row and the half that meets the difference of the rows, computes the messages in a region, sums them per target
  node, divides by the number of edges at the node (at least one), and in a second region scales, shifts and rectifies.
  The reference does the same with one joined product per edge and no fill. Under the one assumption that every source
  number is a row number (counted from the end when negative): the gathered source rows are the reference's; the
  gathered target rows are the reference's on every edge whose target number is a row number; such an edge's message is
  the reference's; the other edges' messages are dropped by the sum in both programs; so the sums, the means and the
  nodes after the layer are the reference's.
-/
import proofs.«142674_j19808389169323_1_alg».proof.Proof.Gen.KernelIdeal.Frame
import proofs.«142674_j19808389169323_1_alg».proof.Proof.RefRead
import proofs.«142674_j19808389169323_1_alg».proof.Proof.KKeep
import proofs.«142674_j19808389169323_1_alg».proof.Proof.BridgeBase
import proofs.«142674_j19808389169323_1_alg».proof.Proof.Bridge1
import proofs.«142674_j19808389169323_1_alg».proof.Proof.Region3
import proofs.«142674_j19808389169323_1_alg».proof.Proof.Region4
import proofs.«142674_j19808389169323_1_alg».proof.Proof.RefStages
import proofs.«142674_j19808389169323_1_alg».proof.Proof.RefIndex
import proofs.«142674_j19808389169323_1_alg».proof.Proof.TakeMask
import proofs.«142674_j19808389169323_1_alg».proof.Proof.Glue
import proofs.«142674_j19808389169323_1_alg».proof.Proof.LibTypedRef
import proofs.«142674_j19808389169323_1_alg».proof.Proof.Spec
import Idealize.ShloMosaic.PureOps.Ideal
import Idealize.ShloMosaic.Lib.StableHlo.Run
import Idealize.ShloMosaic.Lib.ValueIdx

noncomputable section
namespace Cert.Bridge
open Cert.KernelIdeal Cert.KernelIdeal.Gen Cert.KernelIdeal.Keep
open Idealize.ShloMosaic Idealize.ShloMosaic.TcCoe Idealize.ShloMosaic.Tactic Idealize.ShloMosaic.StableHlo Idealize.ShloMosaic.ValueIdx
open Idealize.SL.Sem
open Cert.ReferenceIdeal.Read

variable (m : (ℓ : Loc nD τ sig) → Buf (Elt Ideal) ℓ) (ρ : Dev nD → PrngReg) (c : Dev nD)

/-! ## Layer 2 -/

/-- Writing through the typed reference of a gathered array, and reading an operand through one, change nothing. -/
theorem toBuf_main_v27 (h1 h2 h3) (X : FVec Ideal S600000x128 .f32) :
    (TRef.toBuf (Val := Elt Ideal) (TRef.of main_v27 h1 h2 h3 : TRef sig ⟨S600000x128, .f32⟩) X : FVec Ideal S600000x128 .f32) = X := rfl
theorem toBuf_main_v28 (h1 h2 h3) (X : FVec Ideal S600000x128 .f32) :
    (TRef.toBuf (Val := Elt Ideal) (TRef.of main_v28 h1 h2 h3 : TRef sig ⟨S600000x128, .f32⟩) X : FVec Ideal S600000x128 .f32) = X := rfl
theorem ofBuf_main_v26 (h1 h2 h3) (v : main_v26.ty.Contents (Elt Ideal)) :
    (TRef.ofBuf (Val := Elt Ideal) (TRef.of main_v26 h1 h2 h3 : TRef sig ⟨S50000x128, .f32⟩) v : FVec Ideal S50000x128 .f32) = v := rfl

/-- The rows at the targets as the kernel's program gathers them: the reference's rows, but a row whose target number is
    not a row number filled with the fill word. -/
theorem xi2 (hsrc : ∀ e : Fin 600000, (-50000 : Int) ≤ (R5 m c (ix1 e)).toInt ∧ (R5 m c (ix1 e)).toInt < 50000) : W11 (F := Ideal) m ρ c (Proc.devRef .tc main_v27)
    = select (broadcastInDim S600000x128 ![0] bcast_S600000_S600000x128_0 (Cert.KernelIdeal.TakeMask.inBoundsRow (R65 m c))) (R66 m c)
        (broadcastInDim S600000x128 ![] bcast_S_S600000x128 (constant (F := Ideal) S_ .f32 0x7FC00000#32)) := by
  refine ((skip_stretch main_v27, hostOps3_2).trans (skip_stretch main_v27, hostOps3_1)).trans ?_
  dsimp only [W9, hostOps3]
  after_results_simp
  simp only [Cert.Lib.TypedRef.ofBuf_toBuf, toBuf_main_v27, ofBuf_main_v3, ofBuf_main_v26]
  rw [at8_main_v3 m ρ c, dst_row m ρ c, nodes1 m ρ c hsrc]
  rfl

/-- The rows at the sources as the kernel's program gathers them, likewise. -/
theorem xj2 (hsrc : ∀ e : Fin 600000, (-50000 : Int) ≤ (R5 m c (ix1 e)).toInt ∧ (R5 m c (ix1 e)).toInt < 50000) : W11 (F := Ideal) m ρ c (Proc.devRef .tc main_v28)
    = select (broadcastInDim S600000x128 ![0] bcast_S600000_S600000x128_0 (Cert.KernelIdeal.TakeMask.inBoundsRow (R72 m c))) (R73 m c)
        (broadcastInDim S600000x128 ![] bcast_S_S600000x128 (constant (F := Ideal) S_ .f32 0x7FC00000#32)) := by
  refine (skip_stretch main_v28, hostOps3_2).trans ?_
  dsimp only [W10, W9, hostOps3_1]
  after_results_simp
  simp only [Cert.Lib.TypedRef.ofBuf_toBuf, toBuf_main_v28, ofBuf_main_v1, ofBuf_main_v26]
  rw [at8_main_v1 m ρ c, src_row m ρ c, nodes1 m ρ c hsrc]
  rfl

/-- Where the target number is a row number, the kernel's gathered row is the reference's. -/
theorem xi2_apply (hsrc : ∀ e : Fin 600000, (-50000 : Int) ≤ (R5 m c (ix1 e)).toInt ∧ (R5 m c (ix1 e)).toInt < 50000) (e : Fin 600000) (k : Fin 128) (h0 : 0 ≤ (R7 m c (ix1 e)).toInt) (h1 : (R7 m c (ix1 e)).toInt < 50000) :
    (W11 (F := Ideal) m ρ c (Proc.devRef .tc main_v27) : S600000x128.Idx → EReal) (ix2 e k) = R66 m c (ix2 e k) := by
  rw [xi2 m ρ c hsrc]
  refine Cert.KernelIdeal.TakeMask.select_of_inBounds128 _ _ _ e k ?_
  have hw : R65 m c (ix2 e (0 : Fin 1)) = Cert.Glue.wrap (R7 m c (ix1 e)) := Cert.ReferenceIdeal.Index.wrap_dst2 (rA26 m c) e
  rw [Cert.KernelIdeal.TakeMask.inBoundsRow_apply, hw, Cert.Glue.wrap_of_nonneg _ h0]
  exact Cert.Glue.inBounds_eq_one _ h0 (by omega)

/-- Every source number indexes a row (counted from the end when negative), so the rows at the sources are the reference's. -/
theorem xj2_eq (hsrc : ∀ e : Fin 600000, (-50000 : Int) ≤ (R5 m c (ix1 e)).toInt ∧ (R5 m c (ix1 e)).toInt < 50000) :
    W11 (F := Ideal) m ρ c (Proc.devRef .tc main_v28) = R73 m c := by
  rw [xj2 m ρ c hsrc]
  funext j
  obtain ⟨e, k, rfl⟩ : ∃ (e : Fin 600000) (k : Fin 128), j = ix2 e k := ⟨j 0, j 1, eq_ix2 j⟩
  refine Cert.KernelIdeal.TakeMask.select_of_inBounds128 _ _ _ e k ?_
  have hc : R72 m c (ix2 e (0 : Fin 1)) = Cert.Glue.wrap (R5 m c (ix1 e)) := Cert.ReferenceIdeal.Index.wrap_src2 (rA26 m c) e
  rw [Cert.KernelIdeal.TakeMask.inBoundsRow_apply, hc]
  have hw := Cert.Glue.wrap_toInt _ (hsrc e).1 (hsrc e).2
  exact Cert.Glue.inBounds_eq_one _ hw.1 hw.2

/-- The half of the first weight matrix that meets the target rows, and the half that meets the differences. -/
theorem wA2 : W11 (F := Ideal) m ρ c (Proc.devRef .tc main_v29) = Cert.Spec.rowsFrom 0 128 (by decide) (rA10 m c) := by
  have h : W11 (F := Ideal) m ρ c (Proc.devRef .tc main_v29)
      = extractStridedSlice S128x64 ![0, 0] (W8 (F := Ideal) m ρ c (Proc.devRef .tc main_arg10)) slices_S256x64_S128x64_0_0 := by
    dsimp only [W11, hostOps3_2]
    after_results_simp
  rw [h, at8_main_arg10 m ρ c]
  exact Cert.Glue.slice_rows (rA10 m c) 0 (by decide) _
theorem wB2 : W11 (F := Ideal) m ρ c (Proc.devRef .tc main_v30) = Cert.Spec.rowsFrom 128 128 (by decide) (rA10 m c) := by
  have h : W11 (F := Ideal) m ρ c (Proc.devRef .tc main_v30)
      = extractStridedSlice S128x64 ![128, 0] (W8 (F := Ideal) m ρ c (Proc.devRef .tc main_arg10)) slices_S256x64_S128x64_128_0 := by
    dsimp only [W11, hostOps3_2]
    after_results_simp
  rw [h, at8_main_arg10 m ρ c]
  exact Cert.Glue.slice_rows (rA10 m c) 128 (by decide) _

/-- The messages of the edges whose target number is a row number are the reference's. -/
theorem msg2_apply (hsrc : ∀ e : Fin 600000, (-50000 : Int) ≤ (R5 m c (ix1 e)).toInt ∧ (R5 m c (ix1 e)).toInt < 50000) (e : Fin 600000) (f : Fin 64)
    (h0 : 0 ≤ (R7 m c (ix1 e)).toInt) (h1 : (R7 m c (ix1 e)).toInt < 50000) :
    (W12 (F := Ideal) m ρ c (Proc.devRef .tc main_v31) : S600000x64.Idx → EReal) (ix2 e f) = R84 m c (ix2 e f) := by
  have hW := (W12_arr m ρ c 7).trans (Cert.KernelIdeal.Region3.arr (V11 (F := Ideal) m ρ) c)
  refine (congrFun hW (ix2 e f)).trans ?_
  refine Eq.trans ?_ (congrFun (Cert.ReferenceIdeal.Stage.stage_v84 (rA0 m c) (rA4 m c) (rA5 m c) (rA6 m c) (rA7 m c) (rA8 m c) (rA9 m c) (rA10 m c) (rA11 m c) (rA12 m c) (rA13 m c) (rA18 m c) (rA19 m c) (rA26 m c)) (ix2 e f)).symm
  exact edgeOut_congr e f
    (fun k => xi2_apply m ρ c hsrc e k h0 h1)
    (fun k => congrFun (xj2_eq m ρ c hsrc) (ix2 e k))
    (wA2 m ρ c) (wB2 m ρ c)
    (in11_main_arg11 m ρ c) (in11_main_arg12 m ρ c) (in11_main_arg13 m ρ c)

/-- The kernel's messages scattered to their target nodes sum to the reference's sums: an edge whose target number is not
    a row number contributes to no node, in either program, and on every other edge the messages agree. -/
theorem scat2 (hsrc : ∀ e : Fin 600000, (-50000 : Int) ≤ (R5 m c (ix1 e)).toInt ∧ (R5 m c (ix1 e)).toInt < 50000) :
    Host.scatterAdd (F := Ideal) scatter_S50000x64_S600000x1_S600000x64_1_0_0_1 (broadcastInDim S50000x64 ![] bcast_S_S50000x64 (constant (F := Ideal) S_ .f32 0x00000000#32)) (broadcastInDim S600000x1 ![0] bcast_S600000_S600000x1_0 (R7 m c)) (W12 (F := Ideal) m ρ c (Proc.devRef .tc main_v31))
      = R87 m c := by
  have key := Cert.Glue.scatterRows2_congr (N := 50000) (M := 600000) (C := 64) (by decide)
    (broadcastInDim S50000x64 ![] bcast_S_S50000x64 (constant (F := Ideal) S_ .f32 0x00000000#32)) (broadcastInDim S600000x1 ![0] bcast_S600000_S600000x1_0 (R7 m c)) (W12 (F := Ideal) m ρ c (Proc.devRef .tc main_v31)) (R84 m c) (by
      intro e f h0 h1
      have hidx : (broadcastInDim S600000x1 ![0] bcast_S600000_S600000x1_0 (R7 m c)) (Cert.Lib.RowOps.at0 e) = R7 m c (ix1 e) := Cert.ReferenceIdeal.Index.raw_dst2 (rA26 m c) e
      rw [hidx] at h0 h1
      exact msg2_apply m ρ c hsrc e f h0 h1)
  exact key

/-- The means per target node are the reference's. -/
theorem mean2 (hsrc : ∀ e : Fin 600000, (-50000 : Int) ≤ (R5 m c (ix1 e)).toInt ∧ (R5 m c (ix1 e)).toInt < 50000) : W13 (F := Ideal) m ρ c (Proc.devRef .tc main_v43) = R96 m c := by
  dsimp only [W13, hostOps4]
  after_results_simp
  rw [at12_main_v3 m ρ c, dst_row m ρ c, scat2 m ρ c hsrc]
  rfl

/-- The scale row (the gain divided by the square root of one plus epsilon) is the reference's. -/
theorem scale2 : W13 (F := Ideal) m ρ c (Proc.devRef .tc main_v47) = R100 m c := by
  dsimp only [W13, hostOps4]
  after_results_simp
  rw [at12_main_arg20 m ρ c]
  rfl

/-- After the layer's second region the node array holds the reference's nodes after the layer. -/
theorem nodes2 (hsrc : ∀ e : Fin 600000, (-50000 : Int) ≤ (R5 m c (ix1 e)).toInt ∧ (R5 m c (ix1 e)).toInt < 50000) : W14 (F := Ideal) m ρ c (Proc.devRef .tc main_v48) = R107 m c := by
  refine (W14_arr m ρ c 3).trans ?_
  refine (Cert.KernelIdeal.Region4.arr (V13 (F := Ideal) m ρ) c).trans ?_
  have e0 : V13 (F := Ideal) m ρ c (Pipeline.arrRef spec4 0) = R96 m c := mean2 m ρ c hsrc
  have e1 : V13 (F := Ideal) m ρ c (Pipeline.arrRef spec4 1) = R100 m c := scale2 m ρ c
  have e2 : V13 (F := Ideal) m ρ c (Pipeline.arrRef spec4 2) = m ((c : Thread nD τ).loc main_arg21) := in13_main_arg21 m ρ c
  rw [e0, e1, e2]
  exact (Cert.ReferenceIdeal.Stage.stage_v107 (rA0 m c) (rA4 m c) (rA5 m c) (rA6 m c) (rA7 m c) (rA8 m c) (rA9 m c) (rA10 m c) (rA11 m c) (rA12 m c) (rA13 m c) (rA18 m c) (rA19 m c) (rA20 m c) (rA21 m c) (rA26 m c)).symm

end Cert.Bridge
end
-- ==== Proof.Region5.lean ====
import proofs.«142674_j19808389169323_1_alg».proof.Proof.Gen.KernelIdeal.Frame
import proofs.«142674_j19808389169323_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Region5

/-- The first two products' dimensions: a [6000,64] block of rows against a [64,32] matrix. -/
abbrev DA := dot_S6000x64_S64x32_S6000x32_1_0_0_1_n_n

theorem DA_lhs0 (i : S6000x32.Idx) (q : DA.contr.Idx) : (DA.lhsIdx i q 0).val = (i 0).val := by
  unfold DotDims.lhsIdx
  rw [dif_neg (show ¬(0 : Fin S6000x64.rank) ∈ DA.lhsBatch by decide), dif_pos (show (0 : Fin S6000x64.rank) ∈ DA.lhsNonContracting by decide)]
  rfl
theorem DA_lhs1 (i : S6000x32.Idx) (q : DA.contr.Idx) : (DA.lhsIdx i q 1).val = (q ⟨0, by decide⟩).val :=
  DA.lhsIdx_val_of_single rfl i q
theorem DA_rhs0 (i : S6000x32.Idx) (q : DA.contr.Idx) : (DA.rhsIdx i q 0).val = (q ⟨0, by decide⟩).val :=
  DA.rhsIdx_val_of_single rfl i q
theorem DA_rhs1 (i : S6000x32.Idx) (q : DA.contr.Idx) : (DA.rhsIdx i q 1).val = (i 1).val := by
  unfold DotDims.rhsIdx
  rw [dif_neg (show ¬(1 : Fin S64x32.rank) ∈ DA.rhsBatch by decide), dif_pos (show (1 : Fin S64x32.rank) ∈ DA.rhsNonContracting by decide)]
  rfl

/-- Such a product into the zero accumulator, read at row p and column q: the sum over the 64 shared coordinates. -/
theorem DA_apply (l : FVec Ideal S6000x64 .bf16) (r : FVec Ideal S64x32 .bf16) (p : Fin 6000) (q : Fin 32) :
    matmul DA none l r (constant (F := Ideal) S6000x32 .f32 0x00000000#32) (ix2 p q)
      = ∑ k : Fin 64, l (ix2 p k) * r (ix2 k q) := by
  refine (Ideal.matmul_constant_zero_apply DA none l r (ix2 p q)).trans ?_
  rw [← Equiv.sum_comp (contrEquiv1 DA 64 rfl rfl).symm]
  refine Finset.sum_congr rfl fun k _ => ?_
  have hk := contrEquiv1_symm_val DA 64 rfl rfl k
  have el : DA.lhsIdx (ix2 p q) ((contrEquiv1 DA 64 rfl rfl).symm k) = ix2 p k := funext fun a => Fin.ext (by
    match a with
    | ⟨0, _⟩ => exact DA_lhs0 _ _
    | ⟨1, _⟩ => exact (DA_lhs1 _ _).trans hk)
  have er : DA.rhsIdx (ix2 p q) ((contrEquiv1 DA 64 rfl rfl).symm k) = ix2 k q := funext fun a => Fin.ext (by
    match a with
    | ⟨0, _⟩ => exact (DA_rhs0 _ _).trans hk
    | ⟨1, _⟩ => exact DA_rhs1 _ _)
  rw [el, er]

/-- The last product's dimensions: the [6000,32] hidden block against the [32,32] matrix. -/
abbrev DW := dot_S6000x32_S32x32_S6000x32_1_0_0_1_n_n

theorem DW_lhs0 (i : S6000x32.Idx) (q : DW.contr.Idx) : (DW.lhsIdx i q 0).val = (i 0).val := by
  unfold DotDims.lhsIdx
  rw [dif_neg (show ¬(0 : Fin S6000x32.rank) ∈ DW.lhsBatch by decide), dif_pos (show (0 : Fin S6000x32.rank) ∈ DW.lhsNonContracting by decide)]
  rfl
theorem DW_lhs1 (i : S6000x32.Idx) (q : DW.contr.Idx) : (DW.lhsIdx i q 1).val = (q ⟨0, by decide⟩).val :=
  DW.lhsIdx_val_of_single rfl i q
theorem DW_rhs0 (i : S6000x32.Idx) (q : DW.contr.Idx) : (DW.rhsIdx i q 0).val = (q ⟨0, by decide⟩).val :=
  DW.rhsIdx_val_of_single rfl i q
theorem DW_rhs1 (i : S6000x32.Idx) (q : DW.contr.Idx) : (DW.rhsIdx i q 1).val = (i 1).val := by
  unfold DotDims.rhsIdx
  rw [dif_neg (show ¬(1 : Fin S32x32.rank) ∈ DW.rhsBatch by decide), dif_pos (show (1 : Fin S32x32.rank) ∈ DW.rhsNonContracting by decide)]
  rfl

/-- Such a product into the zero accumulator, read at row p and column q: the sum over the 32 shared coordinates. -/
theorem DW_apply (l : FVec Ideal S6000x32 .bf16) (r : FVec Ideal S32x32 .bf16) (p : Fin 6000) (q : Fin 32) :
    matmul DW none l r (constant (F := Ideal) S6000x32 .f32 0x00000000#32) (ix2 p q)
      = ∑ k : Fin 32, l (ix2 p k) * r (ix2 k q) := by
  refine (Ideal.matmul_constant_zero_apply DW none l r (ix2 p q)).trans ?_
  rw [← Equiv.sum_comp (contrEquiv1 DW 32 rfl rfl).symm]
  refine Finset.sum_congr rfl fun k _ => ?_
  have hk := contrEquiv1_symm_val DW 32 rfl rfl k
  have el : DW.lhsIdx (ix2 p q) ((contrEquiv1 DW 32 rfl rfl).symm k) = ix2 p k := funext fun a => Fin.ext (by
    match a with
    | ⟨0, _⟩ => exact DW_lhs0 _ _
    | ⟨1, _⟩ => exact (DW_lhs1 _ _).trans hk)
  have er : DW.rhsIdx (ix2 p q) ((contrEquiv1 DW 32 rfl rfl).symm k) = ix2 k q := funext fun a => Fin.ext (by
    match a with
    | ⟨0, _⟩ => exact (DW_rhs0 _ _).trans hk
    | ⟨1, _⟩ => exact DW_rhs1 _ _)
  rw [el, er]

/-- A row of 32 entries re-laid as one row of a matrix and repeated down 6000 rows reads, at (p, q), its entry q. -/
theorem rowH_apply (b : Vec Ideal S32 .f32) (p : Fin 6000) (q : Fin 32) :
    broadcastTo S6000x32 (shapeCast S1x32 b Gen.shapeCasts_S32_S1x32) Gen.broadcasts_S1x32_S6000x32 (ix2 p q) = b (ix1 q) :=
  (broadcastTo_1b_ab_apply _ Gen.broadcasts_S1x32_S6000x32 p q).trans (shapeCast_a_1a_apply b Gen.shapeCasts_S32_S1x32 0 q)

/-- The body's arithmetic at entry (p, q) of its output block, over any seven loaded blocks: the message's entry. -/
theorem pay_apply (x0 x1 : Vec Ideal S6000x64 .f32) (a b : Vec Ideal S64x32 .f32) (ba : Vec Ideal S32 .f32)
    (wb : Vec Ideal S32x32 .f32) (bb : Vec Ideal S32 .f32) (p : Fin 6000) (q : Fin 32) :
    Gen.k5_pay1 (F := Ideal) x0 x1 a b ba wb bb (ix2 p q) = Cert.Spec.edgeOut x0 x1 a b ba wb bb p q := by
  unfold Gen.k5_pay1
  simp only [shapeCast_self]
  refine (congrArg₂ (· + ·) (DW_apply _ _ p q) (rowH_apply bb p q)).trans ?_
  refine congrArg (· + bb (ix1 q)) (Finset.sum_congr rfl fun h _ => ?_)
  refine congrArg (· * wb (ix2 h q)) ?_
  refine congrArg (max · (Ideal.ofBits .f32 0x00000000#32)) ?_
  exact congrArg₂ (· + ·) (congrArg₂ (· + ·) (DA_apply _ _ p h) (DA_apply _ _ p h)) (rowH_apply ba p h)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-blocked inputs and the output are at block t of their rows, every
    other window at its one block. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

/-- Window 0's block at point t is rows 6000·t … 6000·t + 5999 of its array. -/
theorem rows0_apply (V : (c : Dev nD) → (b : Ref sig .tc) → Buf (Elt Ideal) ((c : Thread nD τ).loc b)) (c : Dev nD) (t : Fin cfg5.N) (p : Fin 6000) (k : Fin 64) (r : Fin 600000)
    (hr : r.val = t.val * 6000 + p.val) :
    (Gen.iblk5 V c 0 t : Vec Ideal S6000x64 .f32) (ix2 p k) = (V c (Pipeline.arrRef spec5 0) : S600000x64.Idx → EReal) (ix2 r k) := by
  have e0 := (idx_facts t).1
  have e1 := (idx_facts t).2.1
  unfold Gen.iblk5
  rw [View.read_apply]
  refine congrArg (V c (Pipeline.arrRef spec5 0)) (funext fun a => Fin.ext ?_)
  match a with
  | ⟨0, _⟩ => show win5_0.index t (0 : Fin 2) * 6000 + 1 * p.val = r.val; rw [e0, hr]; omega
  | ⟨1, _⟩ => show win5_0.index t (1 : Fin 2) * 64 + 1 * k.val = k.val; rw [e1]; omega

/-- Window 1's block at point t is rows 6000·t … 6000·t + 5999 of its array. -/
theorem rows1_apply (V : (c : Dev nD) → (b : Ref sig .tc) → Buf (Elt Ideal) ((c : Thread nD τ).loc b)) (c : Dev nD) (t : Fin cfg5.N) (p : Fin 6000) (k : Fin 64) (r : Fin 600000)
    (hr : r.val = t.val * 6000 + p.val) :
    (Gen.iblk5 V c 1 t : Vec Ideal S6000x64 .f32) (ix2 p k) = (V c (Pipeline.arrRef spec5 1) : S600000x64.Idx → EReal) (ix2 r k) := by
  have e0 := (idx_facts t).2.2.1
  have e1 := (idx_facts t).2.2.2.1
  unfold Gen.iblk5
  rw [View.read_apply]
  refine congrArg (V c (Pipeline.arrRef spec5 1)) (funext fun a => Fin.ext ?_)
  match a with
  | ⟨0, _⟩ => show win5_1.index t (0 : Fin 2) * 6000 + 1 * p.val = r.val; rw [e0, hr]; omega
  | ⟨1, _⟩ => show win5_1.index t (1 : Fin 2) * 64 + 1 * k.val = k.val; rw [e1]; omega

/-- Window 2's block at every point is its whole array. -/
theorem whole2_apply (V : (c : Dev nD) → (b : Ref sig .tc) → Buf (Elt Ideal) ((c : Thread nD τ).loc b)) (c : Dev nD) (t : Fin cfg5.N) (x : Fin 64) (y : Fin 32) :
    (Gen.iblk5 V c 2 t : Vec Ideal S64x32 .f32) (ix2 x y) = (V c (Pipeline.arrRef spec5 2) : S64x32.Idx → EReal) (ix2 x y) := by
  have e0 := (idx_facts t).2.2.2.2.1
  have e1 := (idx_facts t).2.2.2.2.2.1
  unfold Gen.iblk5
  rw [View.read_apply]
  refine congrArg (V c (Pipeline.arrRef spec5 2)) (funext fun a => Fin.ext ?_)
  match a with
  | ⟨0, _⟩ => show win5_2.index t (0 : Fin 2) * 64 + 1 * x.val = x.val; rw [e0]; omega
  | ⟨1, _⟩ => show win5_2.index t (1 : Fin 2) * 32 + 1 * y.val = y.val; rw [e1]; omega

/-- Window 3's block at every point is its whole array. -/
theorem whole3_apply (V : (c : Dev nD) → (b : Ref sig .tc) → Buf (Elt Ideal) ((c : Thread nD τ).loc b)) (c : Dev nD) (t : Fin cfg5.N) (x : Fin 64) (y : Fin 32) :
    (Gen.iblk5 V c 3 t : Vec Ideal S64x32 .f32) (ix2 x y) = (V c (Pipeline.arrRef spec5 3) : S64x32.Idx → EReal) (ix2 x y) := by
  have e0 := (idx_facts t).2.2.2.2.2.2.1
  have e1 := (idx_facts t).2.2.2.2.2.2.2.1
  unfold Gen.iblk5
  rw [View.read_apply]
  refine congrArg (V c (Pipeline.arrRef spec5 3)) (funext fun a => Fin.ext ?_)
  match a with
  | ⟨0, _⟩ => show win5_3.index t (0 : Fin 2) * 64 + 1 * x.val = x.val; rw [e0]; omega
  | ⟨1, _⟩ => show win5_3.index t (1 : Fin 2) * 32 + 1 * y.val = y.val; rw [e1]; omega

/-- Window 4's block at every point is its whole array. -/
theorem whole4_apply (V : (c : Dev nD) → (b : Ref sig .tc) → Buf (Elt Ideal) ((c : Thread nD τ).loc b)) (c : Dev nD) (t : Fin cfg5.N) (x : Fin 32) :
    (Gen.iblk5 V c 4 t : Vec Ideal S32 .f32) (ix1 x) = (V c (Pipeline.arrRef spec5 4) : S32.Idx → EReal) (ix1 x) := by
  have e0 := (idx_facts t).2.2.2.2.2.2.2.2.1
  unfold Gen.iblk5
  rw [View.read_apply]
  refine congrArg (V c (Pipeline.arrRef spec5 4)) (funext fun a => Fin.ext ?_)
  match a with
  | ⟨0, _⟩ => show win5_4.index t (0 : Fin 1) * 32 + 1 * x.val = x.val; rw [e0]; omega

/-- Window 5's block at every point is its whole array. -/
theorem whole5_apply (V : (c : Dev nD) → (b : Ref sig .tc) → Buf (Elt Ideal) ((c : Thread nD τ).loc b)) (c : Dev nD) (t : Fin cfg5.N) (x : Fin 32) (y : Fin 32) :
    (Gen.iblk5 V c 5 t : Vec Ideal S32x32 .f32) (ix2 x y) = (V c (Pipeline.arrRef spec5 5) : S32x32.Idx → EReal) (ix2 x y) := by
  have e0 := (idx_facts t).2.2.2.2.2.2.2.2.2.1
  have e1 := (idx_facts t).2.2.2.2.2.2.2.2.2.2.1
  unfold Gen.iblk5
  rw [View.read_apply]
  refine congrArg (V c (Pipeline.arrRef spec5 5)) (funext fun a => Fin.ext ?_)
  match a with
  | ⟨0, _⟩ => show win5_5.index t (0 : Fin 2) * 32 + 1 * x.val = x.val; rw [e0]; omega
  | ⟨1, _⟩ => show win5_5.index t (1 : Fin 2) * 32 + 1 * y.val = y.val; rw [e1]; omega

/-- Window 6's block at every point is its whole array. -/
theorem whole6_apply (V : (c : Dev nD) → (b : Ref sig .tc) → Buf (Elt Ideal) ((c : Thread nD τ).loc b)) (c : Dev nD) (t : Fin cfg5.N) (x : Fin 32) :
    (Gen.iblk5 V c 6 t : Vec Ideal S32 .f32) (ix1 x) = (V c (Pipeline.arrRef spec5 6) : S32.Idx → EReal) (ix1 x) := by
  have e0 := (idx_facts t).2.2.2.2.2.2.2.2.2.2.2.1
  unfold Gen.iblk5
  rw [View.read_apply]
  refine congrArg (V c (Pipeline.arrRef spec5 6)) (funext fun a => Fin.ext ?_)
  match a with
  | ⟨0, _⟩ => show win5_6.index t (0 : Fin 1) * 32 + 1 * x.val = x.val; rw [e0]; omega

/-- The messages of all 600000 edges, entry by entry, from the arrays as the region finds them. -/
abbrev G (V : (c : Dev nD) → (b : Ref sig .tc) → Buf (Elt Ideal) ((c : Thread nD τ).loc b)) (c : Dev nD) : S600000x32.Idx → EReal :=
  fun j => Cert.Spec.edgeOut (V c (Pipeline.arrRef spec5 0) : S600000x64.Idx → EReal) (V c (Pipeline.arrRef spec5 1) : S600000x64.Idx → EReal) (V c (Pipeline.arrRef spec5 2) : S64x32.Idx → EReal) (V c (Pipeline.arrRef spec5 3) : S64x32.Idx → EReal) (V c (Pipeline.arrRef spec5 4) : S32.Idx → EReal) (V c (Pipeline.arrRef spec5 5) : S32x32.Idx → EReal) (V c (Pipeline.arrRef spec5 6) : S32.Idx → EReal) (j 0) (j 1)

/-- What point t writes back is block t of the messages. -/
theorem flushed_eq (V : (c : Dev nD) → (b : Ref sig .tc) → Buf (Elt Ideal) ((c : Thread nD τ).loc b)) (c : Dev nD) (t : Fin cfg5.N) :
    (Gen.dat5 (F := Ideal) V c).flushed 7 t = ((cfg5.win 7).blk t).view.read (Elt Ideal) (G V c) := by
  show (cfg5.win 7).cut (grid5.coords t) ((Gen.dat5 V c).after 7 t) = _
  rw [Gen.after5_7]
  unfold Gen.out5_7
  rw [View.canon_unit_zero hz2]
  simp only [View.ld_unit_zero (S := S6000x64) hz2, View.ld_unit_zero (S := S64x32) hz2, View.ld_unit_zero (S := S32x32) hz2, View.ld_unit_zero (S := S32) hz1]
  funext j
  obtain ⟨p, q, rfl⟩ : ∃ (p : Fin 6000) (q : Fin 32), j = ix2 p q := ⟨j 0, j 1, eq_ix2 j⟩

  have hN : cfg5.N = 100 := Gen.N_5
  have ht : t.val < 100 := by have := t.isLt; omega
  obtain ⟨r, hr⟩ : ∃ r : Fin 600000, r.val = t.val * 6000 + p.val := ⟨⟨t.val * 6000 + p.val, by have := p.isLt; omega⟩, rfl⟩
  have e0 := (idx_facts t).2.2.2.2.2.2.2.2.2.2.2.2.1
  have e1 := (idx_facts t).2.2.2.2.2.2.2.2.2.2.2.2.2
  have hemb : ((cfg5.win 7).blk t).view.emb (ix2 p q) = (ix2 r q : S600000x32.Idx) := funext fun a => Fin.ext (by
    match a with
    | ⟨0, _⟩ => show win5_7.index t (0 : Fin 2) * 6000 + 1 * p.val = r.val; rw [e0, hr]; omega
    | ⟨1, _⟩ => show win5_7.index t (1 : Fin 2) * 32 + 1 * q.val = q.val; rw [e1]; omega)
  show Gen.k5_pay1 (F := Ideal) (Gen.iblk5 V c 0 t) (Gen.iblk5 V c 1 t) (Gen.iblk5 V c 2 t) (Gen.iblk5 V c 3 t) (Gen.iblk5 V c 4 t) (Gen.iblk5 V c 5 t) (Gen.iblk5 V c 6 t) (ix2 p q) = G V c (((cfg5.win 7).blk t).view.emb (ix2 p q))
  refine (pay_apply (Gen.iblk5 V c 0 t) (Gen.iblk5 V c 1 t) (Gen.iblk5 V c 2 t) (Gen.iblk5 V c 3 t) (Gen.iblk5 V c 4 t) (Gen.iblk5 V c 5 t) (Gen.iblk5 V c 6 t) p q).trans ?_
  refine Eq.trans ?_ (congrArg (G V c) hemb).symm
  show Cert.Spec.edgeOut (Gen.iblk5 V c 0 t) (Gen.iblk5 V c 1 t) (Gen.iblk5 V c 2 t) (Gen.iblk5 V c 3 t) (Gen.iblk5 V c 4 t) (Gen.iblk5 V c 5 t) (Gen.iblk5 V c 6 t) p q = Cert.Spec.edgeOut (V c (Pipeline.arrRef spec5 0) : S600000x64.Idx → EReal) (V c (Pipeline.arrRef spec5 1) : S600000x64.Idx → EReal) (V c (Pipeline.arrRef spec5 2) : S64x32.Idx → EReal) (V c (Pipeline.arrRef spec5 3) : S64x32.Idx → EReal) (V c (Pipeline.arrRef spec5 4) : S32.Idx → EReal) (V c (Pipeline.arrRef spec5 5) : S32x32.Idx → EReal) (V c (Pipeline.arrRef spec5 6) : S32.Idx → EReal) r q
  unfold Cert.Spec.edgeOut Cert.Spec.edgeHidden
  simp only [fun k => rows0_apply V c t p k r hr, fun k => rows1_apply V c t p k r hr, whole2_apply V c t, whole3_apply V c t,
    whole4_apply V c t, whole5_apply V c t, whole6_apply V c t]

/-- An index of the output array is in point t's block iff each coordinate is in the block's range on its axis. -/
theorem mem_blk (t : Fin cfg5.N) (i : S600000x32.Idx) :
    i ∈ ((cfg5.win 7).blk t).view.set ↔ ∀ a : Fin 2, win5_7.index t a * S6000x32.size a ≤ (i a).val ∧ (i a).val < win5_7.index t a * S6000x32.size a + S6000x32.size a := by
  show i ∈ ((View.whole main_v53).slice (win5_7.rect t)).set ↔ _
  rw [View.set_slice_whole, Rect.mem_set_unit]
  exact Iff.rfl

/-- Every row of the output array is in the block of the point numbered by the row's quotient by 6000. -/
theorem cover (i : S600000x32.Idx) : ∃ t : Fin cfg5.N, (cfg5.win 7).flush t = true ∧ i ∈ ((cfg5.win 7).blk t).view.set := by
  have h0 : (i 0).val < 600000 := (i 0).isLt
  have h1 : (i 1).val < 32 := (i 1).isLt
  have hN : cfg5.N = 100 := Gen.N_5
  obtain ⟨t, htv⟩ : ∃ t : Fin cfg5.N, t.val = (i 0).val / 6000 := ⟨⟨(i 0).val / 6000, by omega⟩, rfl⟩
  have e0 := (idx_facts t).2.2.2.2.2.2.2.2.2.2.2.2.1
  have e1 := (idx_facts t).2.2.2.2.2.2.2.2.2.2.2.2.2
  refine ⟨t, Gen.flush5_7 t, ?_⟩
  rw [mem_blk]
  intro a
  match a with
  | ⟨0, _⟩ => show win5_7.index t (0 : Fin 2) * 6000 ≤ (i 0).val ∧ (i 0).val < win5_7.index t (0 : Fin 2) * 6000 + 6000; rw [e0, htv]; omega
  | ⟨1, _⟩ => show win5_7.index t (1 : Fin 2) * 32 ≤ (i 1).val ∧ (i 1).val < win5_7.index t (1 : Fin 2) * 32 + 32; rw [e1]; omega

/-- After the region's whole grid the output array holds the messages of the input arrays as the region found them. -/
theorem arr (V : (c : Dev nD) → (b : Ref sig .tc) → Buf (Elt Ideal) ((c : Thread nD τ).loc b)) (c : Dev nD) :
    (Gen.dat5 (F := Ideal) V c).arrAt 7 cfg5.N = fun j => Cert.Spec.edgeOut (V c (Pipeline.arrRef spec5 0) : S600000x64.Idx → EReal) (V c (Pipeline.arrRef spec5 1) : S600000x64.Idx → EReal) (V c (Pipeline.arrRef spec5 2) : S64x32.Idx → EReal) (V c (Pipeline.arrRef spec5 3) : S64x32.Idx → EReal) (V c (Pipeline.arrRef spec5 4) : S32.Idx → EReal) (V c (Pipeline.arrRef spec5 5) : S32x32.Idx → EReal) (V c (Pipeline.arrRef spec5 6) : S32.Idx → EReal) (j 0) (j 1) :=
  (Gen.dat5 V c).arrAt_eq_of_cover 7 (G V c) (fun t _ => flushed_eq V c t) cover

end Cert.KernelIdeal.Region5

end
-- ==== Proof.Region6.lean ====
/-
  The scale-shift-rectify stage at width 32.

  The stage takes a matrix h of 50000 rows and 32 columns and two rows s and b of 32 entries, and leaves the matrix whose
  entry (r, c) is max(h(r, c) · s(c) + b(c), 0). It is computed in 10 steps; step t computes rows 5000·t … 5000·t + 4999
  from the same rows of h and the whole of s and b, and the 10 row blocks tile the result.

  * `pay_apply`   : one step's arithmetic at an entry (p, q) of its block: max(x(p, q) · s(q) + b(q), 0). The two rows
                    are first viewed as one-row matrices and then repeated over the 5000 rows; both re-layings read
                    entry q of the row whatever p is.
  * `index_facts` : step t reads block t of h, the only block of s and of b, and writes block t of the result.
  * `block*_apply`: an entry of a step's input block is the entry of the whole array at row 5000·t + p.
  * `flushed_eq`  : what step t writes is block t of the whole-array function.
  * `cover`       : row r of the result is in the block of step r / 5000.
  * `arr`         : after the 10 steps the result is the whole-array function, entry by entry.
-/
import proofs.«142674_j19808389169323_1_alg».proof.Proof.Gen.KernelIdeal.Frame
import proofs.«142674_j19808389169323_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region6

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Two zero offsets, as the constant function. -/
theorem zero2 : (![0, 0] : Fin 2 → Nat) = fun _ => 0 := funext fun a => by fin_cases a <;> rfl

/-- One zero offset, as the constant function. -/
theorem zero1 : (![0] : Fin 1 → Nat) = fun _ => 0 := funext fun a => by fin_cases a; rfl

/-- The whole-array function: entry (r, c) is max(h(r, c) · s(c) + b(c), 0). -/
abbrev G (h : S50000x32.Idx → Elt Ideal .f32) (s b : S32.Idx → Elt Ideal .f32) : S50000x32.Idx → Elt Ideal .f32 :=
  fun j => Cert.Spec.scaleShiftRelu (M := 50000) (D := 32) h s b (j 0) (j 1)

/-- One step's arithmetic at entry (p, q) of its block: the scale and the shift are read at column q. -/
theorem pay_apply (x0 : Vec Ideal S5000x32 .f32) (x1 : Vec Ideal S32 .f32) (x2 : Vec Ideal S32 .f32)
    (p : Fin 5000) (q : Fin 32) :
    Gen.k6_pay1 (F := Ideal) x0 x1 x2 (ix2 p q)
      = max (x0 (ix2 p q) * x1 (ix1 q) + x2 (ix1 q)) Cert.Spec.zeroWord := by
  unfold Gen.k6_pay1
  simp only [maximumf_apply, addf_apply, mulf_apply, broadcast_apply, shapeCast_self, broadcastTo_1b_ab_apply,
    shapeCast_a_1a_apply]
  rfl

/-- Step t reads block t of the matrix and the one block of each row, and writes block t of the result. -/
theorem index_facts : ∀ t : Fin cfg6.N,
    win6_0.index t (0 : Fin 2) = t.val ∧ win6_0.index t (1 : Fin 2) = 0
    ∧ win6_1.index t (0 : Fin 1) = 0 ∧ win6_2.index t (0 : Fin 1) = 0
    ∧ win6_3.index t (0 : Fin 2) = t.val ∧ win6_3.index t (1 : Fin 2) = 0 :=
  (by decide +kernel : ∀ t : Fin grid6.N, _)

/-- Entry x of step t's block of the matrix is the matrix's entry at row 5000·t + x₀, column x₁. -/
theorem block0_apply (c : Dev nD) (t : Fin cfg6.N) (x : S5000x32.Idx) (k : S50000x32.Idx)
    (hk0 : (k 0).val = t.val * 5000 + (x 0).val) (hk1 : (k 1).val = (x 1).val) :
    (Gen.iblk6 V c 0 t : Vec Ideal S5000x32 .f32) x
      = (V c (Pipeline.arrRef spec6 0) : S50000x32.Idx → Elt Ideal .f32) k := by
  obtain ⟨e0, e1, -, -, -, -⟩ := index_facts t
  unfold Gen.iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * (x 0).val = (k 0).val; omega
  | ⟨1, _⟩ => show win6_0.index t (1 : Fin 2) * 32 + 1 * (x 1).val = (k 1).val; omega

/-- Step t's block of the scale row is the whole row. -/
theorem block1_apply (c : Dev nD) (t : Fin cfg6.N) (x : S32.Idx) :
    (Gen.iblk6 V c 1 t : Vec Ideal S32 .f32) x
      = (V c (Pipeline.arrRef spec6 1) : S32.Idx → Elt Ideal .f32) x := by
  obtain ⟨-, -, e2, -, -, -⟩ := index_facts t
  unfold Gen.iblk6
  rw [View.read_apply]
  show V c (Pipeline.arrRef spec6 1) _ = V c (Pipeline.arrRef spec6 1) _
  congr 1
  funext a
  apply Fin.ext
  match a with
  | ⟨0, _⟩ => show win6_1.index t (0 : Fin 1) * 32 + 1 * (x 0).val = (x 0).val; omega

/-- Step t's block of the shift row is the whole row. -/
theorem block2_apply (c : Dev nD) (t : Fin cfg6.N) (x : S32.Idx) :
    (Gen.iblk6 V c 2 t : Vec Ideal S32 .f32) x
      = (V c (Pipeline.arrRef spec6 2) : S32.Idx → Elt Ideal .f32) x := by
  obtain ⟨-, -, -, e3, -, -⟩ := index_facts t
  unfold Gen.iblk6
  rw [View.read_apply]
  show V c (Pipeline.arrRef spec6 2) _ = V c (Pipeline.arrRef spec6 2) _
  congr 1
  funext a
  apply Fin.ext
  match a with
  | ⟨0, _⟩ => show win6_2.index t (0 : Fin 1) * 32 + 1 * (x 0).val = (x 0).val; omega

/-- One step's arithmetic at entry (p, q) of its block is the whole-array function at entry (r, q), when the block of the
    matrix reads row r of the matrix at its row p and the two rows are read whole. -/
theorem entry_of (x0 : Vec Ideal S5000x32 .f32) (x1 : Vec Ideal S32 .f32) (x2 : Vec Ideal S32 .f32)
    (a0 : S50000x32.Idx → Elt Ideal .f32) (a1 a2 : S32.Idx → Elt Ideal .f32) (p : Fin 5000) (q : Fin 32) (r : Fin 50000)
    (h0 : x0 (ix2 p q) = a0 (ix2 r q)) (h1 : x1 (ix1 q) = a1 (ix1 q)) (h2 : x2 (ix1 q) = a2 (ix1 q)) :
    Gen.k6_pay1 (F := Ideal) x0 x1 x2 (ix2 p q) = G a0 a1 a2 (ix2 r q) := by
  refine (pay_apply x0 x1 x2 p q).trans ?_
  rw [h0, h1, h2]
  rfl

/-- What the step leaves in the result's block is its arithmetic of the three input blocks. -/
theorem after_eq (c : Dev nD) (t : Fin cfg6.N) :
    (Gen.dat6 (F := Ideal) V c).after 3 t = Gen.k6_pay1 (Gen.iblk6 V c 0 t) (Gen.iblk6 V c 1 t) (Gen.iblk6 V c 2 t) := by
  rw [Gen.after6_3]
  unfold Gen.out6_3
  rw [View.canon_unit_zero zero2]
  simp only [View.ld_unit_zero (S := S5000x32) zero2, View.ld_unit_zero (S := S32) zero1]

/-- What step t writes back is block t of the whole-array function of the three arrays as the stage finds them. -/
theorem flushed_eq (c : Dev nD) (t : Fin cfg6.N) :
    (Gen.dat6 (F := Ideal) V c).flushed 3 t
      = ((cfg6.win 3).blk t).view.read (Elt Ideal) (G (V c (Pipeline.arrRef spec6 0)) (V c (Pipeline.arrRef spec6 1)) (V c (Pipeline.arrRef spec6 2))) := by
  show (cfg6.win 3).cut (grid6.coords t) ((Gen.dat6 V c).after 3 t) = _
  rw [after_eq V c t]
  obtain ⟨-, -, -, -, e4, e5⟩ := index_facts t
  have hN : cfg6.N = 10 := Gen.N_6
  have ht : t.val < 10 := hN ▸ t.isLt
  funext j
  -- the entry's coordinates (p, q) inside the block, and the row r of the whole array it lands on
  have hp : (j 0).val < 5000 := (j 0).isLt
  have hq : (j 1).val < 32 := (j 1).isLt
  have hr : t.val * 5000 + (j 0).val < 50000 := by omega
  have hx : (cfg6.win 3).xinj (grid6.coords t) j = ix2 (n0 := 5000) (n1 := 32) ⟨(j 0).val, hp⟩ ⟨(j 1).val, hq⟩ :=
    funext fun a => by match a with | ⟨0, _⟩ => rfl | ⟨1, _⟩ => rfl
  have hE : (((cfg6.win 3).blk t).view.emb j : S50000x32.Idx)
      = ix2 (n0 := 50000) (n1 := 32) ⟨t.val * 5000 + (j 0).val, hr⟩ ⟨(j 1).val, hq⟩ := by
    funext a
    apply Fin.ext
    match a with
    | ⟨0, _⟩ => show win6_3.index t (0 : Fin 2) * 5000 + 1 * (j 0).val = t.val * 5000 + (j 0).val; omega
    | ⟨1, _⟩ => show win6_3.index t (1 : Fin 2) * 32 + 1 * (j 1).val = (j 1).val; omega
  show Gen.k6_pay1 (Gen.iblk6 V c 0 t) (Gen.iblk6 V c 1 t) (Gen.iblk6 V c 2 t) ((cfg6.win 3).xinj (grid6.coords t) j)
    = G (V c (Pipeline.arrRef spec6 0)) (V c (Pipeline.arrRef spec6 1)) (V c (Pipeline.arrRef spec6 2)) (((cfg6.win 3).blk t).view.emb j : S50000x32.Idx)
  exact (congrArg (Gen.k6_pay1 (Gen.iblk6 V c 0 t) (Gen.iblk6 V c 1 t) (Gen.iblk6 V c 2 t)) hx).trans
    ((entry_of (Gen.iblk6 V c 0 t) (Gen.iblk6 V c 1 t) (Gen.iblk6 V c 2 t) (V c (Pipeline.arrRef spec6 0)) (V c (Pipeline.arrRef spec6 1)) (V c (Pipeline.arrRef spec6 2)) ⟨(j 0).val, hp⟩ ⟨(j 1).val, hq⟩ ⟨t.val * 5000 + (j 0).val, hr⟩
        (block0_apply V c t (ix2 ⟨(j 0).val, hp⟩ ⟨(j 1).val, hq⟩) (ix2 ⟨t.val * 5000 + (j 0).val, hr⟩ ⟨(j 1).val, hq⟩) rfl rfl)
        (block1_apply V c t (ix1 ⟨(j 1).val, hq⟩)) (block2_apply V c t (ix1 ⟨(j 1).val, hq⟩))).trans
      (congrArg (G (V c (Pipeline.arrRef spec6 0)) (V c (Pipeline.arrRef spec6 1)) (V c (Pipeline.arrRef spec6 2))) hE).symm)

/-- An entry of the result is in step t's block iff its row is among rows 5000·t … 5000·t + 4999. -/
theorem mem_blk (t : Fin cfg6.N) (i : S50000x32.Idx) :
    i ∈ ((cfg6.win 3).blk t).view.set ↔ ∀ a : Fin 2, win6_3.index t a * S5000x32.size a ≤ (i a).val ∧ (i a).val < win6_3.index t a * S5000x32.size a + S5000x32.size a := by
  show i ∈ ((View.whole main_v70).slice (win6_3.rect t)).set ↔ _
  rw [View.set_slice_whole, Rect.mem_set_unit]
  exact Iff.rfl

/-- Every entry of the result is in the block of the step its row names: row r is written by step r / 5000. -/
theorem cover (i : S50000x32.Idx) :
    ∃ t : Fin cfg6.N, (cfg6.win 3).flush t = true ∧ i ∈ ((cfg6.win 3).blk t).view.set := by
  have hi0 : (i 0).val < 50000 := (i 0).isLt
  have hi1 : (i 1).val < 32 := (i 1).isLt
  have hN : cfg6.N = 10 := Gen.N_6
  let t : Fin cfg6.N := ⟨(i 0).val / 5000, by rw [hN]; omega⟩
  obtain ⟨-, -, -, -, e4, e5⟩ := index_facts t
  have ht : t.val = (i 0).val / 5000 := rfl
  refine ⟨t, Gen.flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 32 ≤ (i 1).val ∧ (i 1).val < win6_3.index t (1 : Fin 2) * 32 + 32; omega

/-- After its 10 steps the stage's result is max(h · s + b, 0) of the three arrays as the stage found them, entry by entry. -/
theorem arr (c : Dev nD) :
    (Gen.dat6 (F := Ideal) V c).arrAt 3 cfg6.N
      = fun j => Cert.Spec.scaleShiftRelu (M := 50000) (D := 32) (V c (Pipeline.arrRef spec6 0)) (V c (Pipeline.arrRef spec6 1))
          (V c (Pipeline.arrRef spec6 2)) (j 0) (j 1) :=
  (Gen.dat6 (F := Ideal) V c).arrAt_eq_of_cover 3
    (G (V c (Pipeline.arrRef spec6 0)) (V c (Pipeline.arrRef spec6 1)) (V c (Pipeline.arrRef spec6 2)))
    (fun t _ => flushed_eq V c t) cover

end Cert.KernelIdeal.Region6

end
-- ==== Proof.Bridge3.lean ====
/-
  Layer 3 of the network, the two programs side by side.

  The kernel's program gathers, per edge, the node row at the edge's target and the node row at its source (a row whose
  number is out of range filled with a fill word), cuts the layer's first weight matrix into the half that meets the
  target row and the half that meets the difference of the rows, computes the messages in a region, sums them per target
  node, divides by the number of edges at the node (at least one), and in a second region scales, shifts and rectifies.
  The reference does the same with one joined product per edge and no fill. Under the one assumption that every source
  number is a row number (counted from the end when negative): the gathered source rows are the reference's; the
  gathered target rows are the reference's on every edge whose target number is a row number; such an edge's message is
  the reference's; the other edges' messages are dropped by the sum in both programs; so the sums, the means and the
  nodes after the layer are the reference's.
-/
import proofs.«142674_j19808389169323_1_alg».proof.Proof.Gen.KernelIdeal.Frame
import proofs.«142674_j19808389169323_1_alg».proof.Proof.RefRead
import proofs.«142674_j19808389169323_1_alg».proof.Proof.KKeep
import proofs.«142674_j19808389169323_1_alg».proof.Proof.BridgeBase
import proofs.«142674_j19808389169323_1_alg».proof.Proof.Bridge2
import proofs.«142674_j19808389169323_1_alg».proof.Proof.Region5
import proofs.«142674_j19808389169323_1_alg».proof.Proof.Region6
import proofs.«142674_j19808389169323_1_alg».proof.Proof.RefStages
import proofs.«142674_j19808389169323_1_alg».proof.Proof.RefIndex
import proofs.«142674_j19808389169323_1_alg».proof.Proof.TakeMask
import proofs.«142674_j19808389169323_1_alg».proof.Proof.Glue
import proofs.«142674_j19808389169323_1_alg».proof.Proof.LibTypedRef
import proofs.«142674_j19808389169323_1_alg».proof.Proof.Spec
import Idealize.ShloMosaic.PureOps.Ideal
import Idealize.ShloMosaic.Lib.StableHlo.Run
import Idealize.ShloMosaic.Lib.ValueIdx

noncomputable section
namespace Cert.Bridge
open Cert.KernelIdeal Cert.KernelIdeal.Gen Cert.KernelIdeal.Keep
open Idealize.ShloMosaic Idealize.ShloMosaic.TcCoe Idealize.ShloMosaic.Tactic Idealize.ShloMosaic.StableHlo Idealize.ShloMosaic.ValueIdx
open Idealize.SL.Sem
open Cert.ReferenceIdeal.Read

variable (m : (ℓ : Loc nD τ sig) → Buf (Elt Ideal) ℓ) (ρ : Dev nD → PrngReg) (c : Dev nD)

/-! ## Layer 3 -/

/-- Writing through the typed reference of a gathered array, and reading an operand through one, change nothing. -/
theorem toBuf_main_v49 (h1 h2 h3) (X : FVec Ideal S600000x64 .f32) :
    (TRef.toBuf (Val := Elt Ideal) (TRef.of main_v49 h1 h2 h3 : TRef sig ⟨S600000x64, .f32⟩) X : FVec Ideal S600000x64 .f32) = X := rfl
theorem toBuf_main_v50 (h1 h2 h3) (X : FVec Ideal S600000x64 .f32) :
    (TRef.toBuf (Val := Elt Ideal) (TRef.of main_v50 h1 h2 h3 : TRef sig ⟨S600000x64, .f32⟩) X : FVec Ideal S600000x64 .f32) = X := rfl
theorem ofBuf_main_v48 (h1 h2 h3) (v : main_v48.ty.Contents (Elt Ideal)) :
    (TRef.ofBuf (Val := Elt Ideal) (TRef.of main_v48 h1 h2 h3 : TRef sig ⟨S50000x64, .f32⟩) v : FVec Ideal S50000x64 .f32) = v := rfl

/-- The rows at the targets as the kernel's program gathers them: the reference's rows, but a row whose target number is
    not a row number filled with the fill word. -/
theorem xi3 (hsrc : ∀ e : Fin 600000, (-50000 : Int) ≤ (R5 m c (ix1 e)).toInt ∧ (R5 m c (ix1 e)).toInt < 50000) : W17 (F := Ideal) m ρ c (Proc.devRef .tc main_v49)
    = select (broadcastInDim S600000x64 ![0] bcast_S600000_S600000x64_0 (Cert.KernelIdeal.TakeMask.inBoundsRow (R113 m c))) (R114 m c)
        (broadcastInDim S600000x64 ![] bcast_S_S600000x64 (constant (F := Ideal) S_ .f32 0x7FC00000#32)) := by
  refine ((skip_stretch main_v49, hostOps5_2).trans (skip_stretch main_v49, hostOps5_1)).trans ?_
  dsimp only [W15, hostOps5]
  after_results_simp
  simp only [Cert.Lib.TypedRef.ofBuf_toBuf, toBuf_main_v49, ofBuf_main_v3, ofBuf_main_v48]
  rw [at14_main_v3 m ρ c, dst_row m ρ c, nodes2 m ρ c hsrc]
  rfl

/-- The rows at the sources as the kernel's program gathers them, likewise. -/
theorem xj3 (hsrc : ∀ e : Fin 600000, (-50000 : Int) ≤ (R5 m c (ix1 e)).toInt ∧ (R5 m c (ix1 e)).toInt < 50000) : W17 (F := Ideal) m ρ c (Proc.devRef .tc main_v50)
    = select (broadcastInDim S600000x64 ![0] bcast_S600000_S600000x64_0 (Cert.KernelIdeal.TakeMask.inBoundsRow (R120 m c))) (R121 m c)
        (broadcastInDim S600000x64 ![] bcast_S_S600000x64 (constant (F := Ideal) S_ .f32 0x7FC00000#32)) := by
  refine (skip_stretch main_v50, hostOps5_2).trans ?_
  dsimp only [W16, W15, hostOps5_1]
  after_results_simp
  simp only [Cert.Lib.TypedRef.ofBuf_toBuf, toBuf_main_v50, ofBuf_main_v1, ofBuf_main_v48]
  rw [at14_main_v1 m ρ c, src_row m ρ c, nodes2 m ρ c hsrc]
  rfl

/-- Where the target number is a row number, the kernel's gathered row is the reference's. -/
theorem xi3_apply (hsrc : ∀ e : Fin 600000, (-50000 : Int) ≤ (R5 m c (ix1 e)).toInt ∧ (R5 m c (ix1 e)).toInt < 50000) (e : Fin 600000) (k : Fin 64) (h0 : 0 ≤ (R7 m c (ix1 e)).toInt) (h1 : (R7 m c (ix1 e)).toInt < 50000) :
    (W17 (F := Ideal) m ρ c (Proc.devRef .tc main_v49) : S600000x64.Idx → EReal) (ix2 e k) = R114 m c (ix2 e k) := by
  rw [xi3 m ρ c hsrc]
  refine Cert.KernelIdeal.TakeMask.select_of_inBounds64 _ _ _ e k ?_
  have hw : R113 m c (ix2 e (0 : Fin 1)) = Cert.Glue.wrap (R7 m c (ix1 e)) := Cert.ReferenceIdeal.Index.wrap_dst3 (rA26 m c) e
  rw [Cert.KernelIdeal.TakeMask.inBoundsRow_apply, hw, Cert.Glue.wrap_of_nonneg _ h0]
  exact Cert.Glue.inBounds_eq_one _ h0 (by omega)

/-- Every source number indexes a row (counted from the end when negative), so the rows at the sources are the reference's. -/
theorem xj3_eq (hsrc : ∀ e : Fin 600000, (-50000 : Int) ≤ (R5 m c (ix1 e)).toInt ∧ (R5 m c (ix1 e)).toInt < 50000) :
    W17 (F := Ideal) m ρ c (Proc.devRef .tc main_v50) = R121 m c := by
  rw [xj3 m ρ c hsrc]
  funext j
  obtain ⟨e, k, rfl⟩ : ∃ (e : Fin 600000) (k : Fin 64), j = ix2 e k := ⟨j 0, j 1, eq_ix2 j⟩
  refine Cert.KernelIdeal.TakeMask.select_of_inBounds64 _ _ _ e k ?_
  have hc : R120 m c (ix2 e (0 : Fin 1)) = Cert.Glue.wrap (R5 m c (ix1 e)) := Cert.ReferenceIdeal.Index.wrap_src3 (rA26 m c) e
  rw [Cert.KernelIdeal.TakeMask.inBoundsRow_apply, hc]
  have hw := Cert.Glue.wrap_toInt _ (hsrc e).1 (hsrc e).2
  exact Cert.Glue.inBounds_eq_one _ hw.1 hw.2

/-- The half of the first weight matrix that meets the target rows, and the half that meets the differences. -/
theorem wA3 : W17 (F := Ideal) m ρ c (Proc.devRef .tc main_v51) = Cert.Spec.rowsFrom 0 64 (by decide) (rA14 m c) := by
  have h : W17 (F := Ideal) m ρ c (Proc.devRef .tc main_v51)
      = extractStridedSlice S64x32 ![0, 0] (W14 (F := Ideal) m ρ c (Proc.devRef .tc main_arg14)) slices_S128x32_S64x32_0_0 := by
    dsimp only [W17, hostOps5_2]
    after_results_simp
  rw [h, at14_main_arg14 m ρ c]
  exact Cert.Glue.slice_rows (rA14 m c) 0 (by decide) _
theorem wB3 : W17 (F := Ideal) m ρ c (Proc.devRef .tc main_v52) = Cert.Spec.rowsFrom 64 64 (by decide) (rA14 m c) := by
  have h : W17 (F := Ideal) m ρ c (Proc.devRef .tc main_v52)
      = extractStridedSlice S64x32 ![64, 0] (W14 (F := Ideal) m ρ c (Proc.devRef .tc main_arg14)) slices_S128x32_S64x32_64_0 := by
    dsimp only [W17, hostOps5_2]
    after_results_simp
  rw [h, at14_main_arg14 m ρ c]
  exact Cert.Glue.slice_rows (rA14 m c) 64 (by decide) _

/-- The messages of the edges whose target number is a row number are the reference's. -/
theorem msg3_apply (hsrc : ∀ e : Fin 600000, (-50000 : Int) ≤ (R5 m c (ix1 e)).toInt ∧ (R5 m c (ix1 e)).toInt < 50000) (e : Fin 600000) (f : Fin 32)
    (h0 : 0 ≤ (R7 m c (ix1 e)).toInt) (h1 : (R7 m c (ix1 e)).toInt < 50000) :
    (W18 (F := Ideal) m ρ c (Proc.devRef .tc main_v53) : S600000x32.Idx → EReal) (ix2 e f) = R132 m c (ix2 e f) := by
  have hW := (W18_arr m ρ c 7).trans (Cert.KernelIdeal.Region5.arr (V17 (F := Ideal) m ρ) c)
  refine (congrFun hW (ix2 e f)).trans ?_
  refine Eq.trans ?_ (congrFun (Cert.ReferenceIdeal.Stage.stage_v132 (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA26 m c)) (ix2 e f)).symm
  exact edgeOut_congr e f
    (fun k => xi3_apply m ρ c hsrc e k h0 h1)
    (fun k => congrFun (xj3_eq m ρ c hsrc) (ix2 e k))
    (wA3 m ρ c) (wB3 m ρ c)
    (in17_main_arg15 m ρ c) (in17_main_arg16 m ρ c) (in17_main_arg17 m ρ c)

/-- The kernel's messages scattered to their target nodes sum to the reference's sums: an edge whose target number is not
    a row number contributes to no node, in either program, and on every other edge the messages agree. -/
theorem scat3 (hsrc : ∀ e : Fin 600000, (-50000 : Int) ≤ (R5 m c (ix1 e)).toInt ∧ (R5 m c (ix1 e)).toInt < 50000) :
    Host.scatterAdd (F := Ideal) scatter_S50000x32_S600000x1_S600000x32_1_0_0_1 (broadcastInDim S50000x32 ![] bcast_S_S50000x32 (constant (F := Ideal) S_ .f32 0x00000000#32)) (broadcastInDim S600000x1 ![0] bcast_S600000_S600000x1_0 (R7 m c)) (W18 (F := Ideal) m ρ c (Proc.devRef .tc main_v53))
      = R135 m c := by
  have key := Cert.Glue.scatterRows2_congr (N := 50000) (M := 600000) (C := 32) (by decide)
    (broadcastInDim S50000x32 ![] bcast_S_S50000x32 (constant (F := Ideal) S_ .f32 0x00000000#32)) (broadcastInDim S600000x1 ![0] bcast_S600000_S600000x1_0 (R7 m c)) (W18 (F := Ideal) m ρ c (Proc.devRef .tc main_v53)) (R132 m c) (by
      intro e f h0 h1
      have hidx : (broadcastInDim S600000x1 ![0] bcast_S600000_S600000x1_0 (R7 m c)) (Cert.Lib.RowOps.at0 e) = R7 m c (ix1 e) := Cert.ReferenceIdeal.Index.raw_dst3 (rA26 m c) e
      rw [hidx] at h0 h1
      exact msg3_apply m ρ c hsrc e f h0 h1)
  exact key

/-- The means per target node are the reference's. -/
theorem mean3 (hsrc : ∀ e : Fin 600000, (-50000 : Int) ≤ (R5 m c (ix1 e)).toInt ∧ (R5 m c (ix1 e)).toInt < 50000) : W19 (F := Ideal) m ρ c (Proc.devRef .tc main_v65) = R144 m c := by
  dsimp only [W19, hostOps6]
  after_results_simp
  rw [at18_main_v3 m ρ c, dst_row m ρ c, scat3 m ρ c hsrc]
  rfl

/-- The scale row (the gain divided by the square root of one plus epsilon) is the reference's. -/
theorem scale3 : W19 (F := Ideal) m ρ c (Proc.devRef .tc main_v69) = R148 m c := by
  dsimp only [W19, hostOps6]
  after_results_simp
  rw [at18_main_arg22 m ρ c]
  rfl

/-- After the layer's second region the node array holds the reference's nodes after the layer. -/
theorem nodes3 (hsrc : ∀ e : Fin 600000, (-50000 : Int) ≤ (R5 m c (ix1 e)).toInt ∧ (R5 m c (ix1 e)).toInt < 50000) : W20 (F := Ideal) m ρ c (Proc.devRef .tc main_v70) = R155 m c := by
  refine (W20_arr m ρ c 3).trans ?_
  refine (Cert.KernelIdeal.Region6.arr (V19 (F := Ideal) m ρ) c).trans ?_
  have e0 : V19 (F := Ideal) m ρ c (Pipeline.arrRef spec6 0) = R144 m c := mean3 m ρ c hsrc
  have e1 : V19 (F := Ideal) m ρ c (Pipeline.arrRef spec6 1) = R148 m c := scale3 m ρ c
  have e2 : V19 (F := Ideal) m ρ c (Pipeline.arrRef spec6 2) = m ((c : Thread nD τ).loc main_arg23) := in19_main_arg23 m ρ c
  rw [e0, e1, e2]
  exact (Cert.ReferenceIdeal.Stage.stage_v155 (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA22 m c) (rA23 m c) (rA26 m c)).symm

end Cert.Bridge
end
-- ==== Proof.Region7.lean ====
/-
  The last stage of the kernel program: the pooled features are multiplied by the classifier's weights, the bias row
  is added and the logistic function is applied; the one block is the whole array, which ends holding
  1 / (1 + e^(−(p·W + b))), entry by entry.
-/
import proofs.«142674_j19808389169323_1_alg».proof.Proof.Gen.KernelIdeal.Frame
import proofs.«142674_j19808389169323_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region7

open Cert.KernelIdeal Idealize.ShloMosaic Idealize.ShloMosaic.ValueIdx Idealize.ShloMosaic.TcCoe Idealize.SL.Sem
open Idealize.ShloMosaic.Pipeline (Dat)

/-! ## The block's arithmetic at an entry -/

/-- The left operand's row coordinate is the output entry's row. -/
theorem lhs_row (i : S2048x5.Idx) (u : dot_S2048x32_S32x5_S2048x5_1_0_0_1_n_n.contr.Idx) : (dot_S2048x32_S32x5_S2048x5_1_0_0_1_n_n.lhsIdx i u 0).val = (i 0).val := by
  unfold DotDims.lhsIdx
  rw [dif_neg (show ¬(0 : Fin S2048x32.rank) ∈ dot_S2048x32_S32x5_S2048x5_1_0_0_1_n_n.lhsBatch by decide), dif_pos (show (0 : Fin S2048x32.rank) ∈ dot_S2048x32_S32x5_S2048x5_1_0_0_1_n_n.lhsNonContracting by decide)]
  rfl

/-- The right operand's column coordinate is the output entry's column. -/
theorem rhs_col (i : S2048x5.Idx) (u : dot_S2048x32_S32x5_S2048x5_1_0_0_1_n_n.contr.Idx) : (dot_S2048x32_S32x5_S2048x5_1_0_0_1_n_n.rhsIdx i u 1).val = (i 1).val := by
  unfold DotDims.rhsIdx
  rw [dif_neg (show ¬(1 : Fin S32x5.rank) ∈ dot_S2048x32_S32x5_S2048x5_1_0_0_1_n_n.rhsBatch by decide), dif_pos (show (1 : Fin S32x5.rank) ∈ dot_S2048x32_S32x5_S2048x5_1_0_0_1_n_n.rhsNonContracting by decide)]
  rfl

/-- The left operand's index at output entry (p, q) and contraction position k is (p, k). -/
theorem lhs_idx (p : Fin 2048) (q : Fin 5) (k : Fin 32) :
    dot_S2048x32_S32x5_S2048x5_1_0_0_1_n_n.lhsIdx (ix2 p q) ((contrEquiv1 dot_S2048x32_S32x5_S2048x5_1_0_0_1_n_n 32 rfl rfl).symm k) = ix2 p k :=
  funext fun a => Fin.ext (by
    match a with
    | ⟨0, _⟩ => exact lhs_row _ _
    | ⟨1, _⟩ => exact (dot_S2048x32_S32x5_S2048x5_1_0_0_1_n_n.lhsIdx_val_of_single rfl _ _).trans (contrEquiv1_symm_val dot_S2048x32_S32x5_S2048x5_1_0_0_1_n_n 32 rfl rfl k))

/-- The right operand's index at output entry (p, q) and contraction position k is (k, q). -/
theorem rhs_idx (p : Fin 2048) (q : Fin 5) (k : Fin 32) :
    dot_S2048x32_S32x5_S2048x5_1_0_0_1_n_n.rhsIdx (ix2 p q) ((contrEquiv1 dot_S2048x32_S32x5_S2048x5_1_0_0_1_n_n 32 rfl rfl).symm k) = ix2 k q :=
  funext fun a => Fin.ext (by
    match a with
    | ⟨0, _⟩ => exact (dot_S2048x32_S32x5_S2048x5_1_0_0_1_n_n.rhsIdx_val_of_single rfl _ _).trans (contrEquiv1_symm_val dot_S2048x32_S32x5_S2048x5_1_0_0_1_n_n 32 rfl rfl k)
    | ⟨1, _⟩ => exact rhs_col _ _)

/-- The logistic function of a vector, read at an entry, is the logistic function of the entry. -/
theorem logistic_apply {s : Shape} {φ : FTy} (v : FVec Ideal s φ) (i : s.Idx) : logistic v i = Ideal.logistic (v i) := rfl

/-- Entry (p, q) of what the body stores: the logistic function of row p of the pooled features times column q of the
    weights, plus the bias at q. -/
theorem pay_apply (x : Vec Ideal S2048x32 .f32) (w : Vec Ideal S32x5 .f32) (b : Vec Ideal S5 .f32)
    (p : Fin 2048) (q : Fin 5) :
    Gen.k7_pay1 (F := Ideal) x w b (ix2 p q) = Ideal.logistic ((∑ k : Fin 32, x (ix2 p k) * w (ix2 k q)) + b (ix1 q)) := by
  unfold Gen.k7_pay1
  refine (logistic_apply _ _).trans (congrArg Ideal.logistic ?_)
  refine (addf_apply _ _ _).trans ?_
  refine congrArg₂ (· + ·) ?_ ?_
  · refine (Ideal.matmul_constant_zero_apply dot_S2048x32_S32x5_S2048x5_1_0_0_1_n_n none _ _ (ix2 p q)).trans ?_
    rw [← Equiv.sum_comp (contrEquiv1 dot_S2048x32_S32x5_S2048x5_1_0_0_1_n_n 32 rfl rfl).symm]
    refine Finset.sum_congr rfl fun k _ => ?_
    rw [lhs_idx p q k, rhs_idx p q k]
    rw [shapeCast_self]
    rfl
  · refine (broadcastTo_1b_ab_apply _ _ p q).trans ?_
    exact shapeCast_a_1a_apply b _ (0 : Fin 1) q

/-! ## The grid's index maps -/

theorem hz2 : (![0, 0] : Fin 2 → Nat) = fun _ => 0 := funext fun a => by fin_cases a <;> rfl
theorem hz1 : (![0] : Fin 1 → Nat) = fun _ => 0 := funext fun a => by fin_cases a <;> rfl

/-- The printed index maps at the grid's one point: every window sits at its one block. -/
theorem idx_facts : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0 :=
  (by decide +kernel : ∀ t : Fin grid7.N, _)

/-- An entry of the output array is in the block of point t iff each coordinate is in the block's range. -/
theorem mem_blk (t : Fin cfg7.N) (i : S2048x5.Idx) :
    i ∈ ((cfg7.win 3).blk t).view.set ↔ ∀ a : Fin 2, win7_3.index t a * S2048x5.size a ≤ (i a).val ∧ (i a).val < win7_3.index t a * S2048x5.size a + S2048x5.size a := by
  show i ∈ ((View.whole main_v83).slice (win7_3.rect t)).set ↔ _
  rw [View.set_slice_whole, Rect.mem_set_unit]
  exact Iff.rfl

/-- Every entry of the output array is in the one point's block. -/
theorem cover (i : S2048x5.Idx) : ∃ t : Fin cfg7.N, (cfg7.win 3).flush t = true ∧ i ∈ ((cfg7.win 3).blk t).view.set := by
  have hi0 : (i 0).val < 2048 := (i 0).isLt
  have hi1 : (i 1).val < 5 := (i 1).isLt
  obtain ⟨t, ht⟩ : ∃ t : Fin cfg7.N, t.val = 0 :=
    ⟨⟨0, by rw [show cfg7.N = 1 from Gen.N_7]; omega⟩, rfl⟩
  obtain ⟨-, -, -, -, -, e30, e31⟩ := idx_facts t
  refine ⟨t, Gen.flush7_3 t, ?_⟩
  rw [mem_blk]
  intro a
  match a with
  | ⟨0, _⟩ =>
    show win7_3.index t (0 : Fin 2) * 2048 ≤ (i 0).val ∧ (i 0).val < win7_3.index t (0 : Fin 2) * 2048 + 2048
    omega
  | ⟨1, _⟩ =>
    show win7_3.index t (1 : Fin 2) * 5 ≤ (i 1).val ∧ (i 1).val < win7_3.index t (1 : Fin 2) * 5 + 5
    omega

/-! ## What each point writes back -/

/-- Entry (p, q) of what the body stores, when the block's row p is row r of an array X and the weights and the bias
    are read at the column s: entry (r, s) of the classifier of X. -/
theorem pay_eq_spec (x : Vec Ideal S2048x32 .f32) (w : Vec Ideal S32x5 .f32) (b : Vec Ideal S5 .f32)
    (X : Cert.Spec.Mat 2048 32) (Wn : Cert.Spec.Mat 32 5) (B : Cert.Spec.Row 5)
    (p : Fin 2048) (q : Fin 5) (r : Fin 2048) (s : Fin 5)
    (hx : ∀ k : Fin 32, x (ix2 p k) = X (ix2 r k)) (hw : ∀ k : Fin 32, w (ix2 k q) = Wn (ix2 k s))
    (hb : b (ix1 q) = B (ix1 s)) :
    Gen.k7_pay1 (F := Ideal) x w b (ix2 p q) = Cert.Spec.classify X Wn B r s := by
  rw [pay_apply, hb]
  unfold Cert.Spec.classify Cert.Spec.affine
  exact congrArg (fun z => Ideal.logistic (z + B (ix1 s))) (Finset.sum_congr rfl fun k _ => by rw [hx k, hw k])

variable (V : (c : Dev nD) → (b : Ref sig .tc) → Buf (Elt Ideal) ((c : Thread nD τ).loc b))

/-- The output array as one function of the three input arrays as the stage finds them. -/
abbrev G (c : Dev nD) : S2048x5.Idx → EReal := fun j =>
  Cert.Spec.classify (V c (Pipeline.arrRef spec7 0)) (V c (Pipeline.arrRef spec7 1)) (V c (Pipeline.arrRef spec7 2)) (j 0) (j 1)

/-- Point t writes back block t of that function. -/
theorem flushed_eq (c : Dev nD) (t : Fin cfg7.N) :
    (Gen.dat7 (F := Ideal) V c).flushed 3 t = ((cfg7.win 3).blk t).view.read (Elt Ideal) (G V c) := by
  show (cfg7.win 3).cut (grid7.coords t) ((Gen.dat7 (F := Ideal) V c).after 3 t) = _
  rw [Gen.after7_3]
  unfold Gen.out7_3
  rw [View.canon_unit_zero hz2]
  simp only [View.ld_unit_zero (S := S2048x32) hz2, View.ld_unit_zero (S := S32x5) hz2, View.ld_unit_zero (S := S5) hz1]
  obtain ⟨e00, e01, e10, e11, e20, e30, e31⟩ := idx_facts t
  funext y
  obtain ⟨p, q, rfl⟩ : ∃ (p : Fin 2048) (q : Fin 5), y = ix2 p q := ⟨y 0, y 1, eq_ix2 y⟩
  show Gen.k7_pay1 (F := Ideal) (Gen.iblk7 V c 0 t) (Gen.iblk7 V c 1 t) (Gen.iblk7 V c 2 t) (ix2 p q)
      = Cert.Spec.classify (V c (Pipeline.arrRef spec7 0)) (V c (Pipeline.arrRef spec7 1)) (V c (Pipeline.arrRef spec7 2))
          ((((cfg7.win 3).blk t).view.emb (ix2 p q)) 0) ((((cfg7.win 3).blk t).view.emb (ix2 p q)) 1)
  refine pay_eq_spec _ _ _ _ _ _ p q _ _ (fun k => ?_) (fun k => ?_) ?_
  · show V c (Pipeline.arrRef spec7 0) (((cfg7.win 0).blk t).view.emb (ix2 p k))
        = V c (Pipeline.arrRef spec7 0) (ix2 ((((cfg7.win 3).blk t).view.emb (ix2 p q)) 0) k)
    refine congrArg _ (funext fun a => Fin.ext ?_)
    match a with
    | ⟨0, _⟩ =>
      show win7_0.index t (0 : Fin 2) * 2048 + 1 * p.val = win7_3.index t (0 : Fin 2) * 2048 + 1 * p.val
      omega
    | ⟨1, _⟩ =>
      show win7_0.index t (1 : Fin 2) * 32 + 1 * k.val = k.val
      omega
  · show V c (Pipeline.arrRef spec7 1) (((cfg7.win 1).blk t).view.emb (ix2 k q))
        = V c (Pipeline.arrRef spec7 1) (ix2 k ((((cfg7.win 3).blk t).view.emb (ix2 p q)) 1))
    refine congrArg _ (funext fun a => Fin.ext ?_)
    match a with
    | ⟨0, _⟩ =>
      show win7_1.index t (0 : Fin 2) * 32 + 1 * k.val = k.val
      omega
    | ⟨1, _⟩ =>
      show win7_1.index t (1 : Fin 2) * 5 + 1 * q.val = win7_3.index t (1 : Fin 2) * 5 + 1 * q.val
      omega
  · show V c (Pipeline.arrRef spec7 2) (((cfg7.win 2).blk t).view.emb (ix1 q))
        = V c (Pipeline.arrRef spec7 2) (ix1 ((((cfg7.win 3).blk t).view.emb (ix2 p q)) 1))
    refine congrArg _ (funext fun a => Fin.ext ?_)
    match a with
    | ⟨0, _⟩ =>
      show win7_2.index t (0 : Fin 1) * 5 + 1 * q.val = win7_3.index t (1 : Fin 2) * 5 + 1 * q.val
      omega

/-! ## The array after the stage -/

/-- After the one point has run, the output array is the classifier of the input arrays as the stage found them. -/
theorem arr (c : Dev nD) :
    (Gen.dat7 (F := Ideal) V c).arrAt 3 cfg7.N = fun j =>
      Cert.Spec.classify (V c (Pipeline.arrRef spec7 0)) (V c (Pipeline.arrRef spec7 1)) (V c (Pipeline.arrRef spec7 2)) (j 0) (j 1) :=
  (Gen.dat7 (F := Ideal) V c).arrAt_eq_of_cover 3 (G V c) (fun t _ => flushed_eq V c t) cover

end Cert.KernelIdeal.Region7

end
-- ==== Proof.Bridge4.lean ====
/-
  The end of the two programs, side by side: the pooling per graph and the result.

  Both programs sum the node rows per graph number, divide by the number of nodes of the graph (at least one), and
  apply the classifier: the product with the last weight matrix plus the bias row, through the logistic function. The
  graph numbers are used by both programs in the same way (a number that is not a graph number drops its node in both),
  so nothing is assumed of them.
-/
import proofs.«142674_j19808389169323_1_alg».proof.Proof.Gen.KernelIdeal.Frame
import proofs.«142674_j19808389169323_1_alg».proof.Proof.RefRead
import proofs.«142674_j19808389169323_1_alg».proof.Proof.KKeep
import proofs.«142674_j19808389169323_1_alg».proof.Proof.BridgeBase
import proofs.«142674_j19808389169323_1_alg».proof.Proof.Bridge3
import proofs.«142674_j19808389169323_1_alg».proof.Proof.Region7
import proofs.«142674_j19808389169323_1_alg».proof.Proof.RefStages
import proofs.«142674_j19808389169323_1_alg».proof.Proof.Spec
import Idealize.ShloMosaic.PureOps.Ideal
import Idealize.ShloMosaic.Lib.StableHlo.Run
import Idealize.ShloMosaic.Lib.ValueIdx

noncomputable section
namespace Cert.Bridge
open Cert.KernelIdeal Cert.KernelIdeal.Gen Cert.KernelIdeal.Keep
open Idealize.ShloMosaic Idealize.ShloMosaic.TcCoe Idealize.ShloMosaic.Tactic Idealize.ShloMosaic.StableHlo Idealize.ShloMosaic.ValueIdx
open Idealize.SL.Sem
open Cert.ReferenceIdeal.Read

variable (m : (ℓ : Loc nD τ sig) → Buf (Elt Ideal) ℓ) (ρ : Dev nD → PrngReg) (c : Dev nD)

/-- The means per graph are the reference's. -/
theorem pool (hsrc : ∀ e : Fin 600000, (-50000 : Int) ≤ (R5 m c (ix1 e)).toInt ∧ (R5 m c (ix1 e)).toInt < 50000) : W21 (F := Ideal) m ρ c (Proc.devRef .tc main_v82) = R167 m c := by
  dsimp only [W21, hostOps7]
  after_results_simp
  rw [nodes3 m ρ c hsrc, at20_main_arg27 m ρ c]
  rfl

/-- After the last region the result array holds the reference's result. -/
theorem result (hsrc : ∀ e : Fin 600000, (-50000 : Int) ≤ (R5 m c (ix1 e)).toInt ∧ (R5 m c (ix1 e)).toInt < 50000) : W22 (F := Ideal) m ρ c (Proc.devRef .tc main_v83) = R177 m c := by
  refine (W22_arr m ρ c 3).trans ?_
  refine (Cert.KernelIdeal.Region7.arr (V21 (F := Ideal) m ρ) c).trans ?_
  have e0 : V21 (F := Ideal) m ρ c (Pipeline.arrRef spec7 0) = R167 m c := pool m ρ c hsrc
  have e1 : V21 (F := Ideal) m ρ c (Pipeline.arrRef spec7 1) = m ((c : Thread nD τ).loc main_arg24) := in21_main_arg24 m ρ c
  have e2 : V21 (F := Ideal) m ρ c (Pipeline.arrRef spec7 2) = m ((c : Thread nD τ).loc main_arg25) := in21_main_arg25 m ρ c
  rw [e0, e1, e2]
  exact (Cert.ReferenceIdeal.Stage.stage_v177 (rA0 m c) (rA4 m c) (rA5 m c) (rA6 m c) (rA7 m c) (rA8 m c) (rA9 m c) (rA10 m c) (rA11 m c) (rA12 m c) (rA13 m c) (rA14 m c) (rA15 m c) (rA16 m c) (rA17 m c) (rA18 m c) (rA19 m c) (rA20 m c) (rA21 m c) (rA22 m c) (rA23 m c) (rA24 m c) (rA25 m c) (rA26 m c) (rA27 m c)).symm

end Cert.Bridge
end
-- ==== Proof.SourceRange.lean ====
/-
  The last conjunct of the precondition, read as a fact about the numbers: every entry of row 0 of the edge list,
  as a signed 32-bit integer, lies in [-50000, 50000).

  The precondition is an `and` of `all`s; the value 1 of the whole forces the value 1 of the outermost conjunct, an
  `all` over the 600000 entries of the row of "−50000 ≤ e" and "e < 50000", so both comparisons hold at every entry.
-/
import proofs.«142674_j19808389169323_1_alg».proof.Pre_finite_inputs
import Idealize.ShloMosaic.Lib.ReduceAll
import Idealize.ShloMosaic.Lib.ValueIdx
import Idealize.ShloMosaic.Lib.ValueLayout
import Idealize.ShloMosaic.Lib.Pipeline.Value

noncomputable section

namespace Cert.SourceRange

open Idealize.ShloMosaic Idealize.ShloMosaic.ValueIdx
open Cert.Pre_finite_inputs

/-- The scalar shape has one index. -/
instance subsingleton_scalar_idx : Subsingleton S_.Idx := ⟨fun a b => funext fun d => d.elim0⟩

/-- Row 0 of the [2, 600000] array, sliced out and flattened, read at e, is the array at (0, e). -/
theorem row0_apply {w : Nat} (x : IVec S2x600000 w) (h1 : S2x600000.Slices ![0, 0] S1x600000)
    (h2 : S1x600000.ShapeCasts S600000) (e : Fin 600000) :
    shapeCast S600000 (extractStridedSlice S1x600000 ![0, 0] x h1) h2 (ix1 e) = x (ix2 (0 : Fin 2) e) := by
  refine (shapeCast_1a_a_apply _ h2 e).trans ?_
  exact extractStridedSlice_apply ![0, 0] x h1 (ix2 (0 : Fin 1) e) (ix2 (0 : Fin 2) e) (fun a => by
    match a with
    | ⟨0, _⟩ => show (0 : Nat) = 0 + 0; rfl
    | ⟨1, _⟩ => show e.val = 0 + e.val; omega)

/-- The two bounds as signed integers. -/
theorem lo_toInt : (4294917296#32 : BitVec 32).toInt = -50000 := by decide
theorem hi_toInt : (50000#32 : BitVec 32).toInt = 50000 := by decide

variable [Facts] {F : FTy → Type} [FloatOps F]

/-- If the precondition holds (its one word is 1), every source-node number is in [-50000, 50000). -/
theorem source_range (a0 : FVec F S50000x32 .f32) (a1 : FVec F S600000x16 .f32) (a2 : FVec F S16x32 .f32) (a3 : FVec F S32 .f32) (a4 : FVec F S32x64 .f32) (a5 : FVec F S64 .f32) (a6 : FVec F S128x128 .f32) (a7 : FVec F S128 .f32) (a8 : FVec F S128x128 .f32) (a9 : FVec F S128 .f32) (a10 : FVec F S256x64 .f32) (a11 : FVec F S64 .f32) (a12 : FVec F S64x64 .f32) (a13 : FVec F S64 .f32) (a14 : FVec F S128x32 .f32) (a15 : FVec F S32 .f32) (a16 : FVec F S32x32 .f32) (a17 : FVec F S32 .f32) (a18 : FVec F S128 .f32) (a19 : FVec F S128 .f32) (a20 : FVec F S64 .f32) (a21 : FVec F S64 .f32) (a22 : FVec F S32 .f32) (a23 : FVec F S32 .f32) (a24 : FVec F S32x5 .f32) (a25 : FVec F S5 .f32) (a26 : IVec S2x600000 32) (a27 : IVec S50000 32)
    (h : fn (F := F) a0 a1 a2 a3 a4 a5 a6 a7 a8 a9 a10 a11 a12 a13 a14 a15 a16 a17 a18 a19 a20 a21 a22 a23 a24 a25 a26 a27 = fun _ => 1#1) :
    ∀ e : Fin 600000, (-50000 : Int) ≤ (a26 (ix2 (0 : Fin 2) e)).toInt ∧ (a26 (ix2 (0 : Fin 2) e)).toInt < 50000 := by
  intro e
  have h0 := congrFun h ix0
  dsimp only [fn, fn_part1, fn_part2, fn_part3, fn_part4, fn_part5, fn_part6, fn_part7, fn_part8] at h0
  have h1 := (IntOp.andi_eq_one.mp h0).2
  have h2 := Host.reduce_andi_all _ _ _ _ ix0 h1 (ix1 e)
  obtain ⟨hge, hlt⟩ := IntOp.andi_eq_one.mp h2
  have hge' := IntOp.cmpi_sge.mp hge
  have hlt' := IntOp.cmpi_slt.mp hlt
  rw [row0_apply] at hge' hlt'
  refine ⟨?_, ?_⟩
  · rw [← lo_toInt]; exact hge'
  · rw [← hi_toInt]; exact hlt'

end Cert.SourceRange

end
-- ==== Proof.lean ====
/-
  The kernel and its reference compute the same network, on the extended reals.

  The network: node features are embedded by a matrix product plus a bias; three times over, every edge sends a message
  computed from the node rows at its two ends (a two-layer perceptron of the target row joined with the difference of
  the rows), the messages are averaged per target node, and the node rows are scaled, shifted and rectified; the node
  rows are averaged per graph, and a last product plus bias goes through the logistic function.

  The kernel's program does the products and the pointwise layers in eight regions, block of rows by block of rows, and
  the gathers and the segment sums on the host between them; the reference is one host program. Read exactly, every
  region computes, entry by entry, the same function of its input arrays as the corresponding stretch of the reference:
  a sum of products is the same sum whether the rows come in blocks or all at once, and a product with a joined row
  splits into the two products with the two halves of the weight matrix. The one place where the two programs differ is
  the gather: the kernel's fills a row whose node number is out of range with a fill word where the reference's takes
  the nearest row. A target number out of range does not matter — that edge's message is added to no node, in either
  program. A source number out of range would matter, and the statement excludes it: every source number is a row
  number, counted from the end when negative. No other property of the inputs is used: the sums and products of
  extended reals are regrouped only by associativity and commutativity.

  The two kernel frames are the generated ones; the reference's is its run with the result dropped, and its run is
  the fold of its 223 operations cut into eight chunks, each stage a named function of the arguments. The idealization
  rewrote nothing, so its conjunct is trivial.
-/
import proofs.«142674_j19808389169323_1_alg».proof.Defs
import proofs.«142674_j19808389169323_1_alg».proof.Proof.Gen.Kernel
import proofs.«142674_j19808389169323_1_alg».proof.Proof.Gen.Kernel.Frame
import proofs.«142674_j19808389169323_1_alg».proof.Proof.Gen.KernelIdeal
import proofs.«142674_j19808389169323_1_alg».proof.Proof.Gen.KernelIdeal.Frame
import proofs.«142674_j19808389169323_1_alg».proof.Proof.Gen.ReferenceIdeal
import proofs.«142674_j19808389169323_1_alg».proof.Proof.RefRead
import proofs.«142674_j19808389169323_1_alg».proof.Proof.RefRun
import proofs.«142674_j19808389169323_1_alg».proof.Proof.Gen.Pre_finite_inputs
import proofs.«142674_j19808389169323_1_alg».proof.Proof.KernelRun
import proofs.«142674_j19808389169323_1_alg».proof.Proof.BridgeBase
import proofs.«142674_j19808389169323_1_alg».proof.Proof.Bridge4
import proofs.«142674_j19808389169323_1_alg».proof.Proof.RefIndex
import proofs.«142674_j19808389169323_1_alg».proof.Proof.SourceRange
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments alone. -/
theorem frame_kernel : Cert.frame_Kernel := fun m ρ _ => Cert.Kernel.Gen.frame m ρ

/-- The idealized kernel runs and leaves its arguments alone. -/
theorem frame_kernelIdeal : Cert.frame_KernelIdeal := fun m ρ _ => Cert.KernelIdeal.Gen.frame m ρ

/-- The idealized reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.HandRun.run m ρ)

/-- From memories that agree on the arguments, both programs run and end with the same result array. -/
theorem algebraic : Cert.algebraic_KernelIdeal_ReferenceIdeal := by
  intro m ρ m' ρ' hpre hagree
  refine ⟨fun c => Cert.KernelIdeal.Gen.W22 (F := Ideal) m ρ c (Proc.devRef .tc Cert.KernelIdeal.main_v83),
    Cert.KernelIdeal.ValueRun.run (F := Ideal) m ρ, ?_⟩
  refine (θ_run Cert.ReferenceIdeal.defs _ _).mono (fun _ h c => ⟨(h c).1.trans ?_, (h c).2⟩)
    (Cert.ReferenceIdeal.HandRun.run m' ρ')
  -- every source number is a row number: the precondition's last conjunct, read at the row of source numbers
  have hsrc : ∀ e : Fin 600000, (-50000 : Int) ≤ (Cert.Bridge.R5 m c (ix1 e)).toInt
      ∧ (Cert.Bridge.R5 m c (ix1 e)).toInt < 50000 := by
    intro e
    have hrow : Cert.Bridge.R5 m c (ix1 e) = Cert.Bridge.rA26 m c (ix2 (0 : Fin 2) e) :=
      Cert.ReferenceIdeal.Index.src_apply (Cert.Bridge.rA26 m c) e
    rw [hrow]
    exact Cert.SourceRange.source_range (F := Ideal) _ _ _ _ _ _ _ _ _ _ _ _ _ _ _ _ _ _ _ _ _ _ _ _ _ _ _ _ (hpre c) e
  -- the reference's result at its own arguments is its result at the kernel's, which is the kernel's result
  obtain ⟨g0, g1, g2, g3, g4, g5, g6, g7, g8, g9, g10, g11, g12, g13, g14, g15, g16, g17, g18, g19, g20, g21, g22, g23, g24, g25, g26, g27⟩ := hagree c
  rw [g0, g4, g5, g6, g7, g8, g9, g10, g11, g12, g13, g14, g15, g16, g17, g18, g19, g20, g21, g22, g23, g24, g25, g26, g27]
  exact (Cert.Bridge.result m ρ c hsrc).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
